-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v356) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x3x1080x1920 : Shape := ⟨4, ![4, 3, 1080, 1920]⟩
abbrev S3x33x33x33 : Shape := ⟨4, ![3, 33, 33, 33]⟩
abbrev S_ : Shape := ⟨0, ![]⟩

class Facts : Prop where
  bcast_S_S4x3x1080x1920 : S_.BroadcastsInDim S4x3x1080x1920 (![] : Fin 0 → Fin S4x3x1080x1920.rank)
  reducesTo_S4x3x1080x1920_S_d0_1_2_3 : S4x3x1080x1920.ReducesTo [0, 1, 2, 3] S_
  h_S_ : 0 < S_.numel
  bcast_S_S3x33x33x33 : S_.BroadcastsInDim S3x33x33x33 (![] : Fin 0 → Fin S3x33x33x33.rank)
  reducesTo_S3x33x33x33_S_d0_1_2_3 : S3x33x33x33.ReducesTo [0, 1, 2, 3] S_

variable [Facts]

def fn {F : FTy → Type} [FloatOps F] (main_arg0 : FVec F S4x3x1080x1920 .f32) (main_arg1 : FVec F S3x33x33x33 .f32) : IVec S_ 1 :=
  let main_v0 : FVec F S4x3x1080x1920 .f32 := Host.absf main_arg0
  let main_cst : FVec F S_ .f32 := constant S_ .f32 0x7F800000#32
  let main_v1 : FVec F S4x3x1080x1920 .f32 := broadcastInDim S4x3x1080x1920 ![] bcast_S_S4x3x1080x1920 main_cst
  let main_v2 : IVec S4x3x1080x1920 1 := cmpf .olt main_v0 main_v1
  let main_c : IVec S_ 1 := constantI S_ 1 1#1
  let main_v3 : IVec S_ 1 := (fun x v => Host.reduce IntOp.andi x v reducesTo_S4x3x1080x1920_S_d0_1_2_3 h_S_) main_v2 main_c
  let main_v4 : FVec F S3x33x33x33 .f32 := Host.absf main_arg1
  let main_cst_0 : FVec F S_ .f32 := constant S_ .f32 0x7F800000#32
  let main_v5 : FVec F S3x33x33x33 .f32 := broadcastInDim S3x33x33x33 ![] bcast_S_S3x33x33x33 main_cst_0
  let main_v6 : IVec S3x33x33x33 1 := cmpf .olt main_v4 main_v5
  let main_c_1 : IVec S_ 1 := constantI S_ 1 1#1
  let main_v7 : IVec S_ 1 := (fun x v => Host.reduce IntOp.andi x v reducesTo_S3x33x33x33_S_d0_1_2_3 h_S_) main_v6 main_c_1
  let main_v8 : IVec S_ 1 := andi main_v3 main_v7
  main_v8
-- ==== Kernel.lean ====
abbrev S4x3x1080x1920 : Shape := ⟨4, ![4, 3, 1080, 1920]⟩
abbrev S3x33x33x33 : Shape := ⟨4, ![3, 33, 33, 33]⟩
abbrev S3x4x1080x1920 : Shape := ⟨4, ![3, 4, 1080, 1920]⟩
abbrev S3x8294400 : Shape := ⟨2, ![3, 8294400]⟩
abbrev S99x1089 : Shape := ⟨2, ![99, 1089]⟩
abbrev S3x2048 : Shape := ⟨2, ![3, 2048]⟩
abbrev S1x2048 : Shape := ⟨2, ![1, 2048]⟩
abbrev S33x2048 : Shape := ⟨2, ![33, 2048]⟩
abbrev S33x1x2048 : Shape := ⟨3, ![33, 1, 2048]⟩
abbrev S1x33x2048 : Shape := ⟨3, ![1, 33, 2048]⟩
abbrev S33x33x2048 : Shape := ⟨3, ![33, 33, 2048]⟩
abbrev S1089x2048 : Shape := ⟨2, ![1089, 2048]⟩
abbrev S99x2048 : Shape := ⟨2, ![99, 2048]⟩
abbrev S3x33x2048 : Shape := ⟨3, ![3, 33, 2048]⟩

abbrev nBuf : Space → Nat
  | .hbm => 9
  | .vmem => 5
  | .smem => 0
  | _ => 0

abbrev bufTy : (tb : Table) → Fin (tcTables nBuf tb) → BufTy
  | .hbm, ⟨0, _⟩ => ⟨S4x3x1080x1920, .f32⟩
  | .hbm, ⟨1, _⟩ => ⟨S3x33x33x33, .f32⟩
  | .hbm, ⟨2, _⟩ => ⟨S3x4x1080x1920, .f32⟩
  | .hbm, ⟨3, _⟩ => ⟨S3x8294400, .f32⟩
  | .hbm, ⟨4, _⟩ => ⟨S99x1089, .f32⟩
  | .hbm, ⟨5, _⟩ => ⟨S99x1089, .bf16⟩
  | .hbm, ⟨6, _⟩ => ⟨S3x8294400, .f32⟩
  | .hbm, ⟨7, _⟩ => ⟨S3x4x1080x1920, .f32⟩
  | .hbm, ⟨8, _⟩ => ⟨S4x3x1080x1920, .f32⟩
  | .local _ .vmem, ⟨0, _⟩ => ⟨S3x2048, .f32⟩
  | .local _ .vmem, ⟨1, _⟩ => ⟨S3x2048, .f32⟩
  | .local _ .vmem, ⟨2, _⟩ => ⟨S99x1089, .bf16⟩
  | .local _ .vmem, ⟨3, _⟩ => ⟨S3x2048, .f32⟩
  | .local _ .vmem, ⟨4, _⟩ => ⟨S3x2048, .f32⟩
  | _, _ => ⟨S4x3x1080x1920, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4050], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S99x1089 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S4x3x1080x1920_S3x4x1080x1920_1_0_2_3 : S4x3x1080x1920.Transposes [1, 0, 2, 3] S3x4x1080x1920
  shapeCasts_S3x4x1080x1920_S3x8294400 : S3x4x1080x1920.ShapeCasts S3x8294400
  shapeCasts_S3x33x33x33_S99x1089 : S3x33x33x33.ShapeCasts S99x1089
  bitsLt_bf16_f32 : FTy.bits .bf16 < FTy.bits .f32
  inb_S3x2048_S3x2048_0_0 : ∀ a, (![0, 0] : Fin 2 → Nat) a + S3x2048.size a ≤ S3x2048.size a
  h_S3x2048 : 0 < S3x2048.numel
  shapeCasts_S3x2048_S3x2048 : S3x2048.ShapeCasts S3x2048
  slices_S3x2048_o0_0_S1x2048 : S3x2048.Slices ![0, 0] S1x2048
  slices_S3x2048_o1_0_S1x2048 : S3x2048.Slices ![1, 0] S1x2048
  slices_S3x2048_o2_0_S1x2048 : S3x2048.Slices ![2, 0] S1x2048
  iota_S33x2048_d0_w32 : S33x2048.Iotas .tc 32 [0]
  broadcasts_S1x2048_S33x2048 : S1x2048.Broadcasts S33x2048
  shapeCasts_S1x2048_S1x2048 : S1x2048.ShapeCasts S1x2048
  shapeCasts_S33x2048_S33x1x2048 : S33x2048.ShapeCasts S33x1x2048
  shapeCasts_S33x2048_S1x33x2048 : S33x2048.ShapeCasts S1x33x2048
  broadcasts_S33x1x2048_S33x33x2048 : S33x1x2048.Broadcasts S33x33x2048
  broadcasts_S1x33x2048_S33x33x2048 : S1x33x2048.Broadcasts S33x33x2048
  shapeCasts_S33x33x2048_S1089x2048 : S33x33x2048.ShapeCasts S1089x2048
  inb_S99x1089_S99x1089_0_0 : ∀ a, (![0, 0] : Fin 2 → Nat) a + S99x1089.size a ≤ S99x1089.size a
  h_S99x1089 : 0 < S99x1089.numel
  shapeCasts_S99x1089_S99x1089 : S99x1089.ShapeCasts S99x1089
  shapeCasts_S99x2048_S3x33x2048 : S99x2048.ShapeCasts S3x33x2048
  broadcasts_S1x33x2048_S3x33x2048 : S1x33x2048.Broadcasts S3x33x2048
  reduces_S3x33x2048_S3x2048 : S3x33x2048.Reduces [1] S3x2048
  shapeCasts_S3x8294400_S3x4x1080x1920 : S3x8294400.ShapeCasts S3x4x1080x1920
  transposes_S3x4x1080x1920_S4x3x1080x1920_1_0_2_3 : S3x4x1080x1920.Transposes [1, 0, 2, 3] S4x3x1080x1920
  dot_S99x1089_S1089x2048_S99x2048_1_0_0_1_n_n_wf : DotDims.WF S99x1089 S1089x2048 S99x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x2048.size a ≤ S3x8294400.size a
  hwx0_0 : ∀ i : grid0.Coords, EltTy.bits .f32 = 32 ∨ (Rect.block (s := S3x8294400) S3x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S99x1089.size a ≤ S99x1089.size a
  hwx0_1 : ∀ i : grid0.Coords, EltTy.bits .bf16 = 32 ∨ (Rect.block (s := S99x1089) S99x1089.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x2048.size a ≤ S3x8294400.size a
  hwx0_2 : ∀ i : grid0.Coords, EltTy.bits .f32 = 32 ∨ (Rect.block (s := S3x8294400) S3x2048.size (cc0_transform_2 i) (hinb0_2 i)).WholeWords (EltTy.packing .f32)

variable [Facts₀]

def dot_S99x1089_S1089x2048_S99x2048_1_0_0_1_n_n : DotDims S99x1089 S1089x2048 S99x2048 where
  lhsContracting := [1]
  rhsContracting := [0]
  lhsNonContracting := [0]
  rhsNonContracting := [1]
  lhsBatch := []
  rhsBatch := []
  wf := dot_S99x1089_S1089x2048_S99x2048_1_0_0_1_n_n_wf

abbrev win0_0 : Pipeline.Window sig grid0 :=
  Pipeline.Window.ofSpec (Memref.whole main_v1) S3x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S99x1089.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S3x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x3x1080x1920 : Shape := ⟨4, ![4, 3, 1080, 1920]⟩
abbrev S3x33x33x33 : Shape := ⟨4, ![3, 33, 33, 33]⟩
abbrev S_ : Shape := ⟨0, ![]⟩
abbrev S4x1x1080x1920 : Shape := ⟨4, ![4, 1, 1080, 1920]⟩
abbrev S4x1080x1920 : Shape := ⟨3, ![4, 1080, 1920]⟩
abbrev S4x1080x1920x1 : Shape := ⟨4, ![4, 1080, 1920, 1]⟩
abbrev S4x1080x1920x3 : Shape := ⟨4, ![4, 1080, 1920, 3]⟩
abbrev S3x4x1080x1920 : Shape := ⟨4, ![3, 4, 1080, 1920]⟩

abbrev nBuf : Space → Nat
  | .hbm => 543
  | .vmem => 0
  | .smem => 0
  | _ => 0

abbrev hbmTy0_0 (i : Nat) : BufTy := match i % 128 with
  | 0 => ⟨S4x3x1080x1920, .f32⟩
  | 1 => ⟨S3x33x33x33, .f32⟩
  | 2 => ⟨S_, .f32⟩
  | 3 => ⟨S_, .f32⟩
  | 4 => ⟨S_, .f32⟩
  | 5 => ⟨S4x3x1080x1920, .f32⟩
  | 6 => ⟨S4x3x1080x1920, .f32⟩
  | 7 => ⟨S_, .f32⟩
  | 8 => ⟨S4x3x1080x1920, .f32⟩
  | 9 => ⟨S4x3x1080x1920, .f32⟩
  | 10 => ⟨S_, .f32⟩
  | 11 => ⟨S4x3x1080x1920, .f32⟩
  | 12 => ⟨S4x3x1080x1920, .f32⟩
  | 13 => ⟨S4x3x1080x1920, .f32⟩
  | 14 => ⟨S4x3x1080x1920, .i32⟩
  | 15 => ⟨S_, .i32⟩
  | 16 => ⟨S_, .i32⟩
  | 17 => ⟨S_, .i32⟩
  | 18 => ⟨S4x3x1080x1920, .i32⟩
  | 19 => ⟨S4x3x1080x1920, .i32⟩
  | 20 => ⟨S_, .i32⟩
  | 21 => ⟨S4x3x1080x1920, .i32⟩
  | 22 => ⟨S4x3x1080x1920, .i32⟩
  | 23 => ⟨S4x3x1080x1920, .f32⟩
  | 24 => ⟨S4x3x1080x1920, .f32⟩
  | 25 => ⟨S4x1x1080x1920, .i32⟩
  | 26 => ⟨S4x1080x1920, .i32⟩
  | 27 => ⟨S4x1x1080x1920, .i32⟩
  | 28 => ⟨S4x1080x1920, .i32⟩
  | 29 => ⟨S4x1x1080x1920, .i32⟩
  | 30 => ⟨S4x1080x1920, .i32⟩
  | 31 => ⟨S4x1x1080x1920, .f32⟩
  | 32 => ⟨S4x1080x1920, .f32⟩
  | 33 => ⟨S4x1x1080x1920, .f32⟩
  | 34 => ⟨S4x1080x1920, .f32⟩
  | 35 => ⟨S4x1x1080x1920, .f32⟩
  | 36 => ⟨S4x1080x1920, .f32⟩
  | 37 => ⟨S_, .f32⟩
  | 38 => ⟨S4x3x1080x1920, .f32⟩
  | 39 => ⟨S_, .f32⟩
  | 40 => ⟨S4x1080x1920, .f32⟩
  | 41 => ⟨S4x1080x1920, .f32⟩
  | 42 => ⟨S_, .i32⟩
  | 43 => ⟨S_, .i32⟩
  | 44 => ⟨S_, .i1⟩
  | 45 => ⟨S4x1080x1920, .f32⟩
  | 46 => ⟨S_, .f32⟩
  | 47 => ⟨S4x1080x1920, .f32⟩
  | 48 => ⟨S4x1080x1920, .f32⟩
  | 49 => ⟨S_, .i32⟩
  | 50 => ⟨S_, .i32⟩
  | 51 => ⟨S_, .i1⟩
  | 52 => ⟨S4x1080x1920, .f32⟩
  | 53 => ⟨S4x1080x1920, .f32⟩
  | 54 => ⟨S_, .f32⟩
  | 55 => ⟨S4x1080x1920, .f32⟩
  | 56 => ⟨S4x1080x1920, .f32⟩
  | 57 => ⟨S_, .i32⟩
  | 58 => ⟨S_, .i32⟩
  | 59 => ⟨S_, .i1⟩
  | 60 => ⟨S4x1080x1920, .f32⟩
  | 61 => ⟨S4x1080x1920, .f32⟩
  | 62 => ⟨S_, .i32⟩
  | 63 => ⟨S4x1080x1920, .i32⟩
  | 64 => ⟨S4x1080x1920, .i32⟩
  | 65 => ⟨S_, .i32⟩
  | 66 => ⟨S4x1080x1920, .i32⟩
  | 67 => ⟨S4x1080x1920, .i32⟩
  | 68 => ⟨S_, .i32⟩
  | 69 => ⟨S4x1080x1920, .i32⟩
  | 70 => ⟨S4x1080x1920, .i32⟩
  | 71 => ⟨S_, .i32⟩
  | 72 => ⟨S4x1080x1920, .i32⟩
  | 73 => ⟨S4x1080x1920, .i1⟩
  | 74 => ⟨S_, .i32⟩
  | 75 => ⟨S4x1080x1920, .i32⟩
  | 76 => ⟨S4x1080x1920, .i32⟩
  | 77 => ⟨S4x1080x1920, .i32⟩
  | 78 => ⟨S_, .i32⟩
  | 79 => ⟨S4x1080x1920, .i32⟩
  | 80 => ⟨S4x1080x1920, .i1⟩
  | 81 => ⟨S_, .i32⟩
  | 82 => ⟨S4x1080x1920, .i32⟩
  | 83 => ⟨S4x1080x1920, .i32⟩
  | 84 => ⟨S4x1080x1920, .i32⟩
  | 85 => ⟨S_, .i32⟩
  | 86 => ⟨S4x1080x1920, .i32⟩
  | 87 => ⟨S4x1080x1920, .i1⟩
  | 88 => ⟨S_, .i32⟩
  | 89 => ⟨S4x1080x1920, .i32⟩
  | 90 => ⟨S4x1080x1920, .i32⟩
  | 91 => ⟨S4x1080x1920, .i32⟩
  | 92 => ⟨S4x1080x1920x1, .i32⟩
  | 93 => ⟨S4x1080x1920x1, .i32⟩
  | 94 => ⟨S4x1080x1920x1, .i32⟩
  | 95 => ⟨S4x1080x1920x3, .i32⟩
  | 96 => ⟨S3x4x1080x1920, .f32⟩
  | 97 => ⟨S4x1x1080x1920, .f32⟩
  | 98 => ⟨S4x3x1080x1920, .f32⟩
  | 99 => ⟨S4x3x1080x1920, .f32⟩
  | 100 => ⟨S4x3x1080x1920, .f32⟩
  | 101 => ⟨S4x3x1080x1920, .f32⟩
  | 102 => ⟨S_, .f32⟩
  | 103 => ⟨S4x1080x1920, .f32⟩
  | 104 => ⟨S4x1080x1920, .f32⟩
  | 105 => ⟨S_, .i32⟩
  | 106 => ⟨S_, .i32⟩
  | 107 => ⟨S_, .i1⟩
  | 108 => ⟨S4x1080x1920, .f32⟩
  | 109 => ⟨S_, .f32⟩
  | 110 => ⟨S4x1080x1920, .f32⟩
  | 111 => ⟨S4x1080x1920, .f32⟩
  | 112 => ⟨S_, .i32⟩
  | 113 => ⟨S_, .i32⟩
  | 114 => ⟨S_, .i1⟩
  | 115 => ⟨S4x1080x1920, .f32⟩
  | 116 => ⟨S4x1080x1920, .f32⟩
  | 117 => ⟨S_, .f32⟩
  | 118 => ⟨S4x1080x1920, .f32⟩
  | 119 => ⟨S4x1080x1920, .f32⟩
  | 120 => ⟨S_, .i32⟩
  | 121 => ⟨S_, .i32⟩
  | 122 => ⟨S_, .i1⟩
  | 123 => ⟨S4x1080x1920, .f32⟩
  | 124 => ⟨S4x1080x1920, .f32⟩
  | 125 => ⟨S_, .i32⟩
  | 126 => ⟨S4x1080x1920, .i32⟩
  | 127 => ⟨S4x1080x1920, .i32⟩
  | _ => ⟨S4x3x1080x1920, .f32⟩

abbrev hbmTy0_1 (i : Nat) : BufTy := match i % 128 with
  | 0 => ⟨S_, .i32⟩
  | 1 => ⟨S4x1080x1920, .i32⟩
  | 2 => ⟨S4x1080x1920, .i32⟩
  | 3 => ⟨S_, .i32⟩
  | 4 => ⟨S4x1080x1920, .i32⟩
  | 5 => ⟨S4x1080x1920, .i32⟩
  | 6 => ⟨S_, .i32⟩
  | 7 => ⟨S4x1080x1920, .i32⟩
  | 8 => ⟨S4x1080x1920, .i1⟩
  | 9 => ⟨S_, .i32⟩
  | 10 => ⟨S4x1080x1920, .i32⟩
  | 11 => ⟨S4x1080x1920, .i32⟩
  | 12 => ⟨S4x1080x1920, .i32⟩
  | 13 => ⟨S_, .i32⟩
  | 14 => ⟨S4x1080x1920, .i32⟩
  | 15 => ⟨S4x1080x1920, .i1⟩
  | 16 => ⟨S_, .i32⟩
  | 17 => ⟨S4x1080x1920, .i32⟩
  | 18 => ⟨S4x1080x1920, .i32⟩
  | 19 => ⟨S4x1080x1920, .i32⟩
  | 20 => ⟨S_, .i32⟩
  | 21 => ⟨S4x1080x1920, .i32⟩
  | 22 => ⟨S4x1080x1920, .i1⟩
  | 23 => ⟨S_, .i32⟩
  | 24 => ⟨S4x1080x1920, .i32⟩
  | 25 => ⟨S4x1080x1920, .i32⟩
  | 26 => ⟨S4x1080x1920, .i32⟩
  | 27 => ⟨S4x1080x1920x1, .i32⟩
  | 28 => ⟨S4x1080x1920x1, .i32⟩
  | 29 => ⟨S4x1080x1920x1, .i32⟩
  | 30 => ⟨S4x1080x1920x3, .i32⟩
  | 31 => ⟨S3x4x1080x1920, .f32⟩
  | 32 => ⟨S4x1x1080x1920, .f32⟩
  | 33 => ⟨S4x3x1080x1920, .f32⟩
  | 34 => ⟨S4x3x1080x1920, .f32⟩
  | 35 => ⟨S4x3x1080x1920, .f32⟩
  | 36 => ⟨S4x3x1080x1920, .f32⟩
  | 37 => ⟨S_, .f32⟩
  | 38 => ⟨S4x1080x1920, .f32⟩
  | 39 => ⟨S4x1080x1920, .f32⟩
  | 40 => ⟨S_, .i32⟩
  | 41 => ⟨S_, .i32⟩
  | 42 => ⟨S_, .i1⟩
  | 43 => ⟨S4x1080x1920, .f32⟩
  | 44 => ⟨S_, .f32⟩
  | 45 => ⟨S4x1080x1920, .f32⟩
  | 46 => ⟨S4x1080x1920, .f32⟩
  | 47 => ⟨S_, .i32⟩
  | 48 => ⟨S_, .i32⟩
  | 49 => ⟨S_, .i1⟩
  | 50 => ⟨S4x1080x1920, .f32⟩
  | 51 => ⟨S4x1080x1920, .f32⟩
  | 52 => ⟨S_, .f32⟩
  | 53 => ⟨S4x1080x1920, .f32⟩
  | 54 => ⟨S4x1080x1920, .f32⟩
  | 55 => ⟨S_, .i32⟩
  | 56 => ⟨S_, .i32⟩
  | 57 => ⟨S_, .i1⟩
  | 58 => ⟨S4x1080x1920, .f32⟩
  | 59 => ⟨S4x1080x1920, .f32⟩
  | 60 => ⟨S_, .i32⟩
  | 61 => ⟨S4x1080x1920, .i32⟩
  | 62 => ⟨S4x1080x1920, .i32⟩
  | 63 => ⟨S_, .i32⟩
  | 64 => ⟨S4x1080x1920, .i32⟩
  | 65 => ⟨S4x1080x1920, .i32⟩
  | 66 => ⟨S_, .i32⟩
  | 67 => ⟨S4x1080x1920, .i32⟩
  | 68 => ⟨S4x1080x1920, .i32⟩
  | 69 => ⟨S_, .i32⟩
  | 70 => ⟨S4x1080x1920, .i32⟩
  | 71 => ⟨S4x1080x1920, .i1⟩
  | 72 => ⟨S_, .i32⟩
  | 73 => ⟨S4x1080x1920, .i32⟩
  | 74 => ⟨S4x1080x1920, .i32⟩
  | 75 => ⟨S4x1080x1920, .i32⟩
  | 76 => ⟨S_, .i32⟩
  | 77 => ⟨S4x1080x1920, .i32⟩
  | 78 => ⟨S4x1080x1920, .i1⟩
  | 79 => ⟨S_, .i32⟩
  | 80 => ⟨S4x1080x1920, .i32⟩
  | 81 => ⟨S4x1080x1920, .i32⟩
  | 82 => ⟨S4x1080x1920, .i32⟩
  | 83 => ⟨S_, .i32⟩
  | 84 => ⟨S4x1080x1920, .i32⟩
  | 85 => ⟨S4x1080x1920, .i1⟩
  | 86 => ⟨S_, .i32⟩
  | 87 => ⟨S4x1080x1920, .i32⟩
  | 88 => ⟨S4x1080x1920, .i32⟩
  | 89 => ⟨S4x1080x1920, .i32⟩
  | 90 => ⟨S4x1080x1920x1, .i32⟩
  | 91 => ⟨S4x1080x1920x1, .i32⟩
  | 92 => ⟨S4x1080x1920x1, .i32⟩
  | 93 => ⟨S4x1080x1920x3, .i32⟩
  | 94 => ⟨S3x4x1080x1920, .f32⟩
  | 95 => ⟨S4x1x1080x1920, .f32⟩
  | 96 => ⟨S4x3x1080x1920, .f32⟩
  | 97 => ⟨S4x3x1080x1920, .f32⟩
  | 98 => ⟨S4x3x1080x1920, .f32⟩
  | 99 => ⟨S4x3x1080x1920, .f32⟩
  | 100 => ⟨S_, .f32⟩
  | 101 => ⟨S4x1080x1920, .f32⟩
  | 102 => ⟨S4x1080x1920, .f32⟩
  | 103 => ⟨S_, .i32⟩
  | 104 => ⟨S_, .i32⟩
  | 105 => ⟨S_, .i1⟩
  | 106 => ⟨S4x1080x1920, .f32⟩
  | 107 => ⟨S_, .f32⟩
  | 108 => ⟨S4x1080x1920, .f32⟩
  | 109 => ⟨S4x1080x1920, .f32⟩
  | 110 => ⟨S_, .i32⟩
  | 111 => ⟨S_, .i32⟩
  | 112 => ⟨S_, .i1⟩
  | 113 => ⟨S4x1080x1920, .f32⟩
  | 114 => ⟨S4x1080x1920, .f32⟩
  | 115 => ⟨S_, .f32⟩
  | 116 => ⟨S4x1080x1920, .f32⟩
  | 117 => ⟨S4x1080x1920, .f32⟩
  | 118 => ⟨S_, .i32⟩
  | 119 => ⟨S_, .i32⟩
  | 120 => ⟨S_, .i1⟩
  | 121 => ⟨S4x1080x1920, .f32⟩
  | 122 => ⟨S4x1080x1920, .f32⟩
  | 123 => ⟨S_, .i32⟩
  | 124 => ⟨S4x1080x1920, .i32⟩
  | 125 => ⟨S4x1080x1920, .i32⟩
  | 126 => ⟨S_, .i32⟩
  | 127 => ⟨S4x1080x1920, .i32⟩
  | _ => ⟨S4x3x1080x1920, .f32⟩

abbrev hbmTy0_2 (i : Nat) : BufTy := match i % 128 with
  | 0 => ⟨S4x1080x1920, .i32⟩
  | 1 => ⟨S_, .i32⟩
  | 2 => ⟨S4x1080x1920, .i32⟩
  | 3 => ⟨S4x1080x1920, .i32⟩
  | 4 => ⟨S_, .i32⟩
  | 5 => ⟨S4x1080x1920, .i32⟩
  | 6 => ⟨S4x1080x1920, .i1⟩
  | 7 => ⟨S_, .i32⟩
  | 8 => ⟨S4x1080x1920, .i32⟩
  | 9 => ⟨S4x1080x1920, .i32⟩
  | 10 => ⟨S4x1080x1920, .i32⟩
  | 11 => ⟨S_, .i32⟩
  | 12 => ⟨S4x1080x1920, .i32⟩
  | 13 => ⟨S4x1080x1920, .i1⟩
  | 14 => ⟨S_, .i32⟩
  | 15 => ⟨S4x1080x1920, .i32⟩
  | 16 => ⟨S4x1080x1920, .i32⟩
  | 17 => ⟨S4x1080x1920, .i32⟩
  | 18 => ⟨S_, .i32⟩
  | 19 => ⟨S4x1080x1920, .i32⟩
  | 20 => ⟨S4x1080x1920, .i1⟩
  | 21 => ⟨S_, .i32⟩
  | 22 => ⟨S4x1080x1920, .i32⟩
  | 23 => ⟨S4x1080x1920, .i32⟩
  | 24 => ⟨S4x1080x1920, .i32⟩
  | 25 => ⟨S4x1080x1920x1, .i32⟩
  | 26 => ⟨S4x1080x1920x1, .i32⟩
  | 27 => ⟨S4x1080x1920x1, .i32⟩
  | 28 => ⟨S4x1080x1920x3, .i32⟩
  | 29 => ⟨S3x4x1080x1920, .f32⟩
  | 30 => ⟨S4x1x1080x1920, .f32⟩
  | 31 => ⟨S4x3x1080x1920, .f32⟩
  | 32 => ⟨S4x3x1080x1920, .f32⟩
  | 33 => ⟨S4x3x1080x1920, .f32⟩
  | 34 => ⟨S4x3x1080x1920, .f32⟩
  | 35 => ⟨S_, .f32⟩
  | 36 => ⟨S4x1080x1920, .f32⟩
  | 37 => ⟨S4x1080x1920, .f32⟩
  | 38 => ⟨S_, .i32⟩
  | 39 => ⟨S_, .i32⟩
  | 40 => ⟨S_, .i1⟩
  | 41 => ⟨S4x1080x1920, .f32⟩
  | 42 => ⟨S_, .f32⟩
  | 43 => ⟨S4x1080x1920, .f32⟩
  | 44 => ⟨S4x1080x1920, .f32⟩
  | 45 => ⟨S_, .i32⟩
  | 46 => ⟨S_, .i32⟩
  | 47 => ⟨S_, .i1⟩
  | 48 => ⟨S4x1080x1920, .f32⟩
  | 49 => ⟨S4x1080x1920, .f32⟩
  | 50 => ⟨S_, .f32⟩
  | 51 => ⟨S4x1080x1920, .f32⟩
  | 52 => ⟨S4x1080x1920, .f32⟩
  | 53 => ⟨S_, .i32⟩
  | 54 => ⟨S_, .i32⟩
  | 55 => ⟨S_, .i1⟩
  | 56 => ⟨S4x1080x1920, .f32⟩
  | 57 => ⟨S4x1080x1920, .f32⟩
  | 58 => ⟨S_, .i32⟩
  | 59 => ⟨S4x1080x1920, .i32⟩
  | 60 => ⟨S4x1080x1920, .i32⟩
  | 61 => ⟨S_, .i32⟩
  | 62 => ⟨S4x1080x1920, .i32⟩
  | 63 => ⟨S4x1080x1920, .i32⟩
  | 64 => ⟨S_, .i32⟩
  | 65 => ⟨S4x1080x1920, .i32⟩
  | 66 => ⟨S4x1080x1920, .i32⟩
  | 67 => ⟨S_, .i32⟩
  | 68 => ⟨S4x1080x1920, .i32⟩
  | 69 => ⟨S4x1080x1920, .i1⟩
  | 70 => ⟨S_, .i32⟩
  | 71 => ⟨S4x1080x1920, .i32⟩
  | 72 => ⟨S4x1080x1920, .i32⟩
  | 73 => ⟨S4x1080x1920, .i32⟩
  | 74 => ⟨S_, .i32⟩
  | 75 => ⟨S4x1080x1920, .i32⟩
  | 76 => ⟨S4x1080x1920, .i1⟩
  | 77 => ⟨S_, .i32⟩
  | 78 => ⟨S4x1080x1920, .i32⟩
  | 79 => ⟨S4x1080x1920, .i32⟩
  | 80 => ⟨S4x1080x1920, .i32⟩
  | 81 => ⟨S_, .i32⟩
  | 82 => ⟨S4x1080x1920, .i32⟩
  | 83 => ⟨S4x1080x1920, .i1⟩
  | 84 => ⟨S_, .i32⟩
  | 85 => ⟨S4x1080x1920, .i32⟩
  | 86 => ⟨S4x1080x1920, .i32⟩
  | 87 => ⟨S4x1080x1920, .i32⟩
  | 88 => ⟨S4x1080x1920x1, .i32⟩
  | 89 => ⟨S4x1080x1920x1, .i32⟩
  | 90 => ⟨S4x1080x1920x1, .i32⟩
  | 91 => ⟨S4x1080x1920x3, .i32⟩
  | 92 => ⟨S3x4x1080x1920, .f32⟩
  | 93 => ⟨S4x1x1080x1920, .f32⟩
  | 94 => ⟨S4x3x1080x1920, .f32⟩
  | 95 => ⟨S4x3x1080x1920, .f32⟩
  | 96 => ⟨S4x3x1080x1920, .f32⟩
  | 97 => ⟨S4x3x1080x1920, .f32⟩
  | 98 => ⟨S_, .f32⟩
  | 99 => ⟨S4x1080x1920, .f32⟩
  | 100 => ⟨S4x1080x1920, .f32⟩
  | 101 => ⟨S_, .i32⟩
  | 102 => ⟨S_, .i32⟩
  | 103 => ⟨S_, .i1⟩
  | 104 => ⟨S4x1080x1920, .f32⟩
  | 105 => ⟨S_, .f32⟩
  | 106 => ⟨S4x1080x1920, .f32⟩
  | 107 => ⟨S4x1080x1920, .f32⟩
  | 108 => ⟨S_, .i32⟩
  | 109 => ⟨S_, .i32⟩
  | 110 => ⟨S_, .i1⟩
  | 111 => ⟨S4x1080x1920, .f32⟩
  | 112 => ⟨S4x1080x1920, .f32⟩
  | 113 => ⟨S_, .f32⟩
  | 114 => ⟨S4x1080x1920, .f32⟩
  | 115 => ⟨S4x1080x1920, .f32⟩
  | 116 => ⟨S_, .i32⟩
  | 117 => ⟨S_, .i32⟩
  | 118 => ⟨S_, .i1⟩
  | 119 => ⟨S4x1080x1920, .f32⟩
  | 120 => ⟨S4x1080x1920, .f32⟩
  | 121 => ⟨S_, .i32⟩
  | 122 => ⟨S4x1080x1920, .i32⟩
  | 123 => ⟨S4x1080x1920, .i32⟩
  | 124 => ⟨S_, .i32⟩
  | 125 => ⟨S4x1080x1920, .i32⟩
  | 126 => ⟨S4x1080x1920, .i32⟩
  | 127 => ⟨S_, .i32⟩
  | _ => ⟨S4x3x1080x1920, .f32⟩

abbrev hbmTy0_3 (i : Nat) : BufTy := match i % 128 with
  | 0 => ⟨S4x1080x1920, .i32⟩
  | 1 => ⟨S4x1080x1920, .i32⟩
  | 2 => ⟨S_, .i32⟩
  | 3 => ⟨S4x1080x1920, .i32⟩
  | 4 => ⟨S4x1080x1920, .i1⟩
  | 5 => ⟨S_, .i32⟩
  | 6 => ⟨S4x1080x1920, .i32⟩
  | 7 => ⟨S4x1080x1920, .i32⟩
  | 8 => ⟨S4x1080x1920, .i32⟩
  | 9 => ⟨S_, .i32⟩
  | 10 => ⟨S4x1080x1920, .i32⟩
  | 11 => ⟨S4x1080x1920, .i1⟩
  | 12 => ⟨S_, .i32⟩
  | 13 => ⟨S4x1080x1920, .i32⟩
  | 14 => ⟨S4x1080x1920, .i32⟩
  | 15 => ⟨S4x1080x1920, .i32⟩
  | 16 => ⟨S_, .i32⟩
  | 17 => ⟨S4x1080x1920, .i32⟩
  | 18 => ⟨S4x1080x1920, .i1⟩
  | 19 => ⟨S_, .i32⟩
  | 20 => ⟨S4x1080x1920, .i32⟩
  | 21 => ⟨S4x1080x1920, .i32⟩
  | 22 => ⟨S4x1080x1920, .i32⟩
  | 23 => ⟨S4x1080x1920x1, .i32⟩
  | 24 => ⟨S4x1080x1920x1, .i32⟩
  | 25 => ⟨S4x1080x1920x1, .i32⟩
  | 26 => ⟨S4x1080x1920x3, .i32⟩
  | 27 => ⟨S3x4x1080x1920, .f32⟩
  | 28 => ⟨S4x1x1080x1920, .f32⟩
  | 29 => ⟨S4x3x1080x1920, .f32⟩
  | 30 => ⟨S4x3x1080x1920, .f32⟩
  | 31 => ⟨S4x3x1080x1920, .f32⟩
  | 32 => ⟨S4x3x1080x1920, .f32⟩
  | 33 => ⟨S_, .f32⟩
  | 34 => ⟨S4x1080x1920, .f32⟩
  | 35 => ⟨S4x1080x1920, .f32⟩
  | 36 => ⟨S_, .i32⟩
  | 37 => ⟨S_, .i32⟩
  | 38 => ⟨S_, .i1⟩
  | 39 => ⟨S4x1080x1920, .f32⟩
  | 40 => ⟨S_, .f32⟩
  | 41 => ⟨S4x1080x1920, .f32⟩
  | 42 => ⟨S4x1080x1920, .f32⟩
  | 43 => ⟨S_, .i32⟩
  | 44 => ⟨S_, .i32⟩
  | 45 => ⟨S_, .i1⟩
  | 46 => ⟨S4x1080x1920, .f32⟩
  | 47 => ⟨S4x1080x1920, .f32⟩
  | 48 => ⟨S_, .f32⟩
  | 49 => ⟨S4x1080x1920, .f32⟩
  | 50 => ⟨S4x1080x1920, .f32⟩
  | 51 => ⟨S_, .i32⟩
  | 52 => ⟨S_, .i32⟩
  | 53 => ⟨S_, .i1⟩
  | 54 => ⟨S4x1080x1920, .f32⟩
  | 55 => ⟨S4x1080x1920, .f32⟩
  | 56 => ⟨S_, .i32⟩
  | 57 => ⟨S4x1080x1920, .i32⟩
  | 58 => ⟨S4x1080x1920, .i32⟩
  | 59 => ⟨S_, .i32⟩
  | 60 => ⟨S4x1080x1920, .i32⟩
  | 61 => ⟨S4x1080x1920, .i32⟩
  | 62 => ⟨S_, .i32⟩
  | 63 => ⟨S4x1080x1920, .i32⟩
  | 64 => ⟨S4x1080x1920, .i32⟩
  | 65 => ⟨S_, .i32⟩
  | 66 => ⟨S4x1080x1920, .i32⟩
  | 67 => ⟨S4x1080x1920, .i1⟩
  | 68 => ⟨S_, .i32⟩
  | 69 => ⟨S4x1080x1920, .i32⟩
  | 70 => ⟨S4x1080x1920, .i32⟩
  | 71 => ⟨S4x1080x1920, .i32⟩
  | 72 => ⟨S_, .i32⟩
  | 73 => ⟨S4x1080x1920, .i32⟩
  | 74 => ⟨S4x1080x1920, .i1⟩
  | 75 => ⟨S_, .i32⟩
  | 76 => ⟨S4x1080x1920, .i32⟩
  | 77 => ⟨S4x1080x1920, .i32⟩
  | 78 => ⟨S4x1080x1920, .i32⟩
  | 79 => ⟨S_, .i32⟩
  | 80 => ⟨S4x1080x1920, .i32⟩
  | 81 => ⟨S4x1080x1920, .i1⟩
  | 82 => ⟨S_, .i32⟩
  | 83 => ⟨S4x1080x1920, .i32⟩
  | 84 => ⟨S4x1080x1920, .i32⟩
  | 85 => ⟨S4x1080x1920, .i32⟩
  | 86 => ⟨S4x1080x1920x1, .i32⟩
  | 87 => ⟨S4x1080x1920x1, .i32⟩
  | 88 => ⟨S4x1080x1920x1, .i32⟩
  | 89 => ⟨S4x1080x1920x3, .i32⟩
  | 90 => ⟨S3x4x1080x1920, .f32⟩
  | 91 => ⟨S4x1x1080x1920, .f32⟩
  | 92 => ⟨S4x3x1080x1920, .f32⟩
  | 93 => ⟨S4x3x1080x1920, .f32⟩
  | 94 => ⟨S4x3x1080x1920, .f32⟩
  | 95 => ⟨S4x3x1080x1920, .f32⟩
  | 96 => ⟨S_, .f32⟩
  | 97 => ⟨S4x1080x1920, .f32⟩
  | 98 => ⟨S4x1080x1920, .f32⟩
  | 99 => ⟨S_, .i32⟩
  | 100 => ⟨S_, .i32⟩
  | 101 => ⟨S_, .i1⟩
  | 102 => ⟨S4x1080x1920, .f32⟩
  | 103 => ⟨S_, .f32⟩
  | 104 => ⟨S4x1080x1920, .f32⟩
  | 105 => ⟨S4x1080x1920, .f32⟩
  | 106 => ⟨S_, .i32⟩
  | 107 => ⟨S_, .i32⟩
  | 108 => ⟨S_, .i1⟩
  | 109 => ⟨S4x1080x1920, .f32⟩
  | 110 => ⟨S4x1080x1920, .f32⟩
  | 111 => ⟨S_, .f32⟩
  | 112 => ⟨S4x1080x1920, .f32⟩
  | 113 => ⟨S4x1080x1920, .f32⟩
  | 114 => ⟨S_, .i32⟩
  | 115 => ⟨S_, .i32⟩
  | 116 => ⟨S_, .i1⟩
  | 117 => ⟨S4x1080x1920, .f32⟩
  | 118 => ⟨S4x1080x1920, .f32⟩
  | 119 => ⟨S_, .i32⟩
  | 120 => ⟨S4x1080x1920, .i32⟩
  | 121 => ⟨S4x1080x1920, .i32⟩
  | 122 => ⟨S_, .i32⟩
  | 123 => ⟨S4x1080x1920, .i32⟩
  | 124 => ⟨S4x1080x1920, .i32⟩
  | 125 => ⟨S_, .i32⟩
  | 126 => ⟨S4x1080x1920, .i32⟩
  | 127 => ⟨S4x1080x1920, .i32⟩
  | _ => ⟨S4x3x1080x1920, .f32⟩

abbrev hbmTy0_4 (i : Nat) : BufTy := match i % 128 with
  | 0 => ⟨S_, .i32⟩
  | 1 => ⟨S4x1080x1920, .i32⟩
  | 2 => ⟨S4x1080x1920, .i1⟩
  | 3 => ⟨S_, .i32⟩
  | 4 => ⟨S4x1080x1920, .i32⟩
  | 5 => ⟨S4x1080x1920, .i32⟩
  | 6 => ⟨S4x1080x1920, .i32⟩
  | 7 => ⟨S_, .i32⟩
  | 8 => ⟨S4x1080x1920, .i32⟩
  | 9 => ⟨S4x1080x1920, .i1⟩
  | 10 => ⟨S_, .i32⟩
  | 11 => ⟨S4x1080x1920, .i32⟩
  | 12 => ⟨S4x1080x1920, .i32⟩
  | 13 => ⟨S4x1080x1920, .i32⟩
  | 14 => ⟨S_, .i32⟩
  | 15 => ⟨S4x1080x1920, .i32⟩
  | 16 => ⟨S4x1080x1920, .i1⟩
  | 17 => ⟨S_, .i32⟩
  | 18 => ⟨S4x1080x1920, .i32⟩
  | 19 => ⟨S4x1080x1920, .i32⟩
  | 20 => ⟨S4x1080x1920, .i32⟩
  | 21 => ⟨S4x1080x1920x1, .i32⟩
  | 22 => ⟨S4x1080x1920x1, .i32⟩
  | 23 => ⟨S4x1080x1920x1, .i32⟩
  | 24 => ⟨S4x1080x1920x3, .i32⟩
  | 25 => ⟨S3x4x1080x1920, .f32⟩
  | 26 => ⟨S4x1x1080x1920, .f32⟩
  | 27 => ⟨S4x3x1080x1920, .f32⟩
  | 28 => ⟨S4x3x1080x1920, .f32⟩
  | 29 => ⟨S4x3x1080x1920, .f32⟩
  | 30 => ⟨S4x3x1080x1920, .f32⟩
  | _ => ⟨S4x3x1080x1920, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4x3x1080x1920, .f32⟩

abbrev bufTy : (tb : Table) → Fin (tcTables nBuf tb) → BufTy
  | .hbm, ⟨i, _⟩ => hbmTy i
  | _, _ => ⟨S4x3x1080x1920, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_cst_1 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_c_2 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_call2_c : Ref sig .tc := ⟨.hbm, 43, rfl⟩
abbrev main_call2_v0 : Ref sig .tc := ⟨.hbm, 44, rfl⟩
abbrev main_v23 : Ref sig .tc := ⟨.hbm, 45, rfl⟩
abbrev main_cst_6 : Ref sig .tc := ⟨.hbm, 46, rfl⟩
abbrev main_v24 : Ref sig .tc := ⟨.hbm, 47, rfl⟩
abbrev main_v25 : Ref sig .tc := ⟨.hbm, 48, rfl⟩
abbrev main_c_7 : Ref sig .tc := ⟨.hbm, 49, rfl⟩
abbrev main_call3_c : Ref sig .tc := ⟨.hbm, 50, rfl⟩
abbrev main_call3_v0 : Ref sig .tc := ⟨.hbm, 51, rfl⟩
abbrev main_v26 : Ref sig .tc := ⟨.hbm, 52, rfl⟩
abbrev main_v27 : Ref sig .tc := ⟨.hbm, 53, rfl⟩
abbrev main_cst_8 : Ref sig .tc := ⟨.hbm, 54, rfl⟩
abbrev main_v28 : Ref sig .tc := ⟨.hbm, 55, rfl⟩
abbrev main_v29 : Ref sig .tc := ⟨.hbm, 56, rfl⟩
abbrev main_c_9 : Ref sig .tc := ⟨.hbm, 57, rfl⟩
abbrev main_call4_c : Ref sig .tc := ⟨.hbm, 58, rfl⟩
abbrev main_call4_v0 : Ref sig .tc := ⟨.hbm, 59, rfl⟩
abbrev main_v30 : Ref sig .tc := ⟨.hbm, 60, rfl⟩
abbrev main_v31 : Ref sig .tc := ⟨.hbm, 61, rfl⟩
abbrev main_c_10 : Ref sig .tc := ⟨.hbm, 62, rfl⟩
abbrev main_v32 : Ref sig .tc := ⟨.hbm, 63, rfl⟩
abbrev main_v33 : Ref sig .tc := ⟨.hbm, 64, rfl⟩
abbrev main_c_11 : Ref sig .tc := ⟨.hbm, 65, rfl⟩
abbrev main_v34 : Ref sig .tc := ⟨.hbm, 66, rfl⟩
abbrev main_v35 : Ref sig .tc := ⟨.hbm, 67, rfl⟩
abbrev main_c_12 : Ref sig .tc := ⟨.hbm, 68, rfl⟩
abbrev main_v36 : Ref sig .tc := ⟨.hbm, 69, rfl⟩
abbrev main_v37 : Ref sig .tc := ⟨.hbm, 70, rfl⟩
abbrev main_c_13 : Ref sig .tc := ⟨.hbm, 71, rfl⟩
abbrev main_v38 : Ref sig .tc := ⟨.hbm, 72, rfl⟩
abbrev main_v39 : Ref sig .tc := ⟨.hbm, 73, rfl⟩
abbrev main_c_14 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_c_15 : Ref sig .tc := ⟨.hbm, 78, rfl⟩
abbrev main_v43 : Ref sig .tc := ⟨.hbm, 79, rfl⟩
abbrev main_v44 : Ref sig .tc := ⟨.hbm, 80, rfl⟩
abbrev main_c_16 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_c_17 : Ref sig .tc := ⟨.hbm, 85, rfl⟩
abbrev main_v48 : Ref sig .tc := ⟨.hbm, 86, rfl⟩
abbrev main_v49 : Ref sig .tc := ⟨.hbm, 87, rfl⟩
abbrev main_c_18 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_cst_19 : Ref sig .tc := ⟨.hbm, 102, rfl⟩
abbrev main_v63 : Ref sig .tc := ⟨.hbm, 103, rfl⟩
abbrev main_v64 : Ref sig .tc := ⟨.hbm, 104, rfl⟩
abbrev main_c_20 : Ref sig .tc := ⟨.hbm, 105, rfl⟩
abbrev main_call5_c : Ref sig .tc := ⟨.hbm, 106, rfl⟩
abbrev main_call5_v0 : Ref sig .tc := ⟨.hbm, 107, rfl⟩
abbrev main_v65 : Ref sig .tc := ⟨.hbm, 108, rfl⟩
abbrev main_cst_21 : Ref sig .tc := ⟨.hbm, 109, rfl⟩
abbrev main_v66 : Ref sig .tc := ⟨.hbm, 110, rfl⟩
abbrev main_v67 : Ref sig .tc := ⟨.hbm, 111, rfl⟩
abbrev main_c_22 : Ref sig .tc := ⟨.hbm, 112, rfl⟩
abbrev main_call6_c : Ref sig .tc := ⟨.hbm, 113, rfl⟩
abbrev main_call6_v0 : Ref sig .tc := ⟨.hbm, 114, rfl⟩
abbrev main_v68 : Ref sig .tc := ⟨.hbm, 115, rfl⟩
abbrev main_v69 : Ref sig .tc := ⟨.hbm, 116, rfl⟩
abbrev main_cst_23 : Ref sig .tc := ⟨.hbm, 117, rfl⟩
abbrev main_v70 : Ref sig .tc := ⟨.hbm, 118, rfl⟩
abbrev main_v71 : Ref sig .tc := ⟨.hbm, 119, rfl⟩
abbrev main_c_24 : Ref sig .tc := ⟨.hbm, 120, rfl⟩
abbrev main_call7_c : Ref sig .tc := ⟨.hbm, 121, rfl⟩
abbrev main_call7_v0 : Ref sig .tc := ⟨.hbm, 122, rfl⟩
abbrev main_v72 : Ref sig .tc := ⟨.hbm, 123, rfl⟩
abbrev main_v73 : Ref sig .tc := ⟨.hbm, 124, rfl⟩
abbrev main_c_25 : Ref sig .tc := ⟨.hbm, 125, rfl⟩
abbrev main_v74 : Ref sig .tc := ⟨.hbm, 126, rfl⟩
abbrev main_v75 : Ref sig .tc := ⟨.hbm, 127, rfl⟩
abbrev main_c_26 : Ref sig .tc := ⟨.hbm, 128, rfl⟩
abbrev main_v76 : Ref sig .tc := ⟨.hbm, 129, rfl⟩
abbrev main_v77 : Ref sig .tc := ⟨.hbm, 130, rfl⟩
abbrev main_c_27 : Ref sig .tc := ⟨.hbm, 131, rfl⟩
abbrev main_v78 : Ref sig .tc := ⟨.hbm, 132, rfl⟩
abbrev main_v79 : Ref sig .tc := ⟨.hbm, 133, rfl⟩
abbrev main_c_28 : Ref sig .tc := ⟨.hbm, 134, rfl⟩
abbrev main_v80 : Ref sig .tc := ⟨.hbm, 135, rfl⟩
abbrev main_v81 : Ref sig .tc := ⟨.hbm, 136, rfl⟩
abbrev main_c_29 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_c_30 : Ref sig .tc := ⟨.hbm, 141, rfl⟩
abbrev main_v85 : Ref sig .tc := ⟨.hbm, 142, rfl⟩
abbrev main_v86 : Ref sig .tc := ⟨.hbm, 143, rfl⟩
abbrev main_c_31 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_c_32 : Ref sig .tc := ⟨.hbm, 148, rfl⟩
abbrev main_v90 : Ref sig .tc := ⟨.hbm, 149, rfl⟩
abbrev main_v91 : Ref sig .tc := ⟨.hbm, 150, rfl⟩
abbrev main_c_33 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_cst_34 : Ref sig .tc := ⟨.hbm, 165, rfl⟩
abbrev main_v105 : Ref sig .tc := ⟨.hbm, 166, rfl⟩
abbrev main_v106 : Ref sig .tc := ⟨.hbm, 167, rfl⟩
abbrev main_c_35 : Ref sig .tc := ⟨.hbm, 168, rfl⟩
abbrev main_call8_c : Ref sig .tc := ⟨.hbm, 169, rfl⟩
abbrev main_call8_v0 : Ref sig .tc := ⟨.hbm, 170, rfl⟩
abbrev main_v107 : Ref sig .tc := ⟨.hbm, 171, rfl⟩
abbrev main_cst_36 : Ref sig .tc := ⟨.hbm, 172, rfl⟩
abbrev main_v108 : Ref sig .tc := ⟨.hbm, 173, rfl⟩
abbrev main_v109 : Ref sig .tc := ⟨.hbm, 174, rfl⟩
abbrev main_c_37 : Ref sig .tc := ⟨.hbm, 175, rfl⟩
abbrev main_call9_c : Ref sig .tc := ⟨.hbm, 176, rfl⟩
abbrev main_call9_v0 : Ref sig .tc := ⟨.hbm, 177, rfl⟩
abbrev main_v110 : Ref sig .tc := ⟨.hbm, 178, rfl⟩
abbrev main_v111 : Ref sig .tc := ⟨.hbm, 179, rfl⟩
abbrev main_cst_38 : Ref sig .tc := ⟨.hbm, 180, rfl⟩
abbrev main_v112 : Ref sig .tc := ⟨.hbm, 181, rfl⟩
abbrev main_v113 : Ref sig .tc := ⟨.hbm, 182, rfl⟩
abbrev main_c_39 : Ref sig .tc := ⟨.hbm, 183, rfl⟩
abbrev main_call10_c : Ref sig .tc := ⟨.hbm, 184, rfl⟩
abbrev main_call10_v0 : Ref sig .tc := ⟨.hbm, 185, rfl⟩
abbrev main_v114 : Ref sig .tc := ⟨.hbm, 186, rfl⟩
abbrev main_v115 : Ref sig .tc := ⟨.hbm, 187, rfl⟩
abbrev main_c_40 : Ref sig .tc := ⟨.hbm, 188, rfl⟩
abbrev main_v116 : Ref sig .tc := ⟨.hbm, 189, rfl⟩
abbrev main_v117 : Ref sig .tc := ⟨.hbm, 190, rfl⟩
abbrev main_c_41 : Ref sig .tc := ⟨.hbm, 191, rfl⟩
abbrev main_v118 : Ref sig .tc := ⟨.hbm, 192, rfl⟩
abbrev main_v119 : Ref sig .tc := ⟨.hbm, 193, rfl⟩
abbrev main_c_42 : Ref sig .tc := ⟨.hbm, 194, rfl⟩
abbrev main_v120 : Ref sig .tc := ⟨.hbm, 195, rfl⟩
abbrev main_v121 : Ref sig .tc := ⟨.hbm, 196, rfl⟩
abbrev main_c_43 : Ref sig .tc := ⟨.hbm, 197, rfl⟩
abbrev main_v122 : Ref sig .tc := ⟨.hbm, 198, rfl⟩
abbrev main_v123 : Ref sig .tc := ⟨.hbm, 199, rfl⟩
abbrev main_c_44 : Ref sig .tc := ⟨.hbm, 200, rfl⟩
abbrev main_v124 : Ref sig .tc := ⟨.hbm, 201, rfl⟩
abbrev main_v125 : Ref sig .tc := ⟨.hbm, 202, rfl⟩
abbrev main_v126 : Ref sig .tc := ⟨.hbm, 203, rfl⟩
abbrev main_c_45 : Ref sig .tc := ⟨.hbm, 204, rfl⟩
abbrev main_v127 : Ref sig .tc := ⟨.hbm, 205, rfl⟩
abbrev main_v128 : Ref sig .tc := ⟨.hbm, 206, rfl⟩
abbrev main_c_46 : Ref sig .tc := ⟨.hbm, 207, rfl⟩
abbrev main_v129 : Ref sig .tc := ⟨.hbm, 208, rfl⟩
abbrev main_v130 : Ref sig .tc := ⟨.hbm, 209, rfl⟩
abbrev main_v131 : Ref sig .tc := ⟨.hbm, 210, rfl⟩
abbrev main_c_47 : Ref sig .tc := ⟨.hbm, 211, rfl⟩
abbrev main_v132 : Ref sig .tc := ⟨.hbm, 212, rfl⟩
abbrev main_v133 : Ref sig .tc := ⟨.hbm, 213, rfl⟩
abbrev main_c_48 : Ref sig .tc := ⟨.hbm, 214, rfl⟩
abbrev main_v134 : Ref sig .tc := ⟨.hbm, 215, rfl⟩
abbrev main_v135 : Ref sig .tc := ⟨.hbm, 216, rfl⟩
abbrev main_v136 : Ref sig .tc := ⟨.hbm, 217, rfl⟩
abbrev main_v137 : Ref sig .tc := ⟨.hbm, 218, rfl⟩
abbrev main_v138 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_v142 : Ref sig .tc := ⟨.hbm, 223, rfl⟩
abbrev main_v143 : Ref sig .tc := ⟨.hbm, 224, rfl⟩
abbrev main_v144 : Ref sig .tc := ⟨.hbm, 225, rfl⟩
abbrev main_v145 : Ref sig .tc := ⟨.hbm, 226, rfl⟩
abbrev main_v146 : Ref sig .tc := ⟨.hbm, 227, rfl⟩
abbrev main_cst_49 : Ref sig .tc := ⟨.hbm, 228, rfl⟩
abbrev main_v147 : Ref sig .tc := ⟨.hbm, 229, rfl⟩
abbrev main_v148 : Ref sig .tc := ⟨.hbm, 230, rfl⟩
abbrev main_c_50 : Ref sig .tc := ⟨.hbm, 231, rfl⟩
abbrev main_call11_c : Ref sig .tc := ⟨.hbm, 232, rfl⟩
abbrev main_call11_v0 : Ref sig .tc := ⟨.hbm, 233, rfl⟩
abbrev main_v149 : Ref sig .tc := ⟨.hbm, 234, rfl⟩
abbrev main_cst_51 : Ref sig .tc := ⟨.hbm, 235, rfl⟩
abbrev main_v150 : Ref sig .tc := ⟨.hbm, 236, rfl⟩
abbrev main_v151 : Ref sig .tc := ⟨.hbm, 237, rfl⟩
abbrev main_c_52 : Ref sig .tc := ⟨.hbm, 238, rfl⟩
abbrev main_call12_c : Ref sig .tc := ⟨.hbm, 239, rfl⟩
abbrev main_call12_v0 : Ref sig .tc := ⟨.hbm, 240, rfl⟩
abbrev main_v152 : Ref sig .tc := ⟨.hbm, 241, rfl⟩
abbrev main_v153 : Ref sig .tc := ⟨.hbm, 242, rfl⟩
abbrev main_cst_53 : Ref sig .tc := ⟨.hbm, 243, rfl⟩
abbrev main_v154 : Ref sig .tc := ⟨.hbm, 244, rfl⟩
abbrev main_v155 : Ref sig .tc := ⟨.hbm, 245, rfl⟩
abbrev main_c_54 : Ref sig .tc := ⟨.hbm, 246, rfl⟩
abbrev main_call13_c : Ref sig .tc := ⟨.hbm, 247, rfl⟩
abbrev main_call13_v0 : Ref sig .tc := ⟨.hbm, 248, rfl⟩
abbrev main_v156 : Ref sig .tc := ⟨.hbm, 249, rfl⟩
abbrev main_v157 : Ref sig .tc := ⟨.hbm, 250, rfl⟩
abbrev main_c_55 : Ref sig .tc := ⟨.hbm, 251, rfl⟩
abbrev main_v158 : Ref sig .tc := ⟨.hbm, 252, rfl⟩
abbrev main_v159 : Ref sig .tc := ⟨.hbm, 253, rfl⟩
abbrev main_c_56 : Ref sig .tc := ⟨.hbm, 254, rfl⟩
abbrev main_v160 : Ref sig .tc := ⟨.hbm, 255, rfl⟩
abbrev main_v161 : Ref sig .tc := ⟨.hbm, 256, rfl⟩
abbrev main_c_57 : Ref sig .tc := ⟨.hbm, 257, rfl⟩
abbrev main_v162 : Ref sig .tc := ⟨.hbm, 258, rfl⟩
abbrev main_v163 : Ref sig .tc := ⟨.hbm, 259, rfl⟩
abbrev main_c_58 : Ref sig .tc := ⟨.hbm, 260, rfl⟩
abbrev main_v164 : Ref sig .tc := ⟨.hbm, 261, rfl⟩
abbrev main_v165 : Ref sig .tc := ⟨.hbm, 262, rfl⟩
abbrev main_c_59 : Ref sig .tc := ⟨.hbm, 263, rfl⟩
abbrev main_v166 : Ref sig .tc := ⟨.hbm, 264, rfl⟩
abbrev main_v167 : Ref sig .tc := ⟨.hbm, 265, rfl⟩
abbrev main_v168 : Ref sig .tc := ⟨.hbm, 266, rfl⟩
abbrev main_c_60 : Ref sig .tc := ⟨.hbm, 267, rfl⟩
abbrev main_v169 : Ref sig .tc := ⟨.hbm, 268, rfl⟩
abbrev main_v170 : Ref sig .tc := ⟨.hbm, 269, rfl⟩
abbrev main_c_61 : Ref sig .tc := ⟨.hbm, 270, rfl⟩
abbrev main_v171 : Ref sig .tc := ⟨.hbm, 271, rfl⟩
abbrev main_v172 : Ref sig .tc := ⟨.hbm, 272, rfl⟩
abbrev main_v173 : Ref sig .tc := ⟨.hbm, 273, rfl⟩
abbrev main_c_62 : Ref sig .tc := ⟨.hbm, 274, rfl⟩
abbrev main_v174 : Ref sig .tc := ⟨.hbm, 275, rfl⟩
abbrev main_v175 : Ref sig .tc := ⟨.hbm, 276, rfl⟩
abbrev main_c_63 : Ref sig .tc := ⟨.hbm, 277, rfl⟩
abbrev main_v176 : Ref sig .tc := ⟨.hbm, 278, rfl⟩
abbrev main_v177 : Ref sig .tc := ⟨.hbm, 279, rfl⟩
abbrev main_v178 : Ref sig .tc := ⟨.hbm, 280, rfl⟩
abbrev main_v179 : Ref sig .tc := ⟨.hbm, 281, rfl⟩
abbrev main_v180 : Ref sig .tc := ⟨.hbm, 282, rfl⟩
abbrev main_v181 : Ref sig .tc := ⟨.hbm, 283, rfl⟩
abbrev main_v182 : Ref sig .tc := ⟨.hbm, 284, rfl⟩
abbrev main_v183 : Ref sig .tc := ⟨.hbm, 285, rfl⟩
abbrev main_v184 : Ref sig .tc := ⟨.hbm, 286, rfl⟩
abbrev main_v185 : Ref sig .tc := ⟨.hbm, 287, rfl⟩
abbrev main_v186 : Ref sig .tc := ⟨.hbm, 288, rfl⟩
abbrev main_v187 : Ref sig .tc := ⟨.hbm, 289, rfl⟩
abbrev main_v188 : Ref sig .tc := ⟨.hbm, 290, rfl⟩
abbrev main_cst_64 : Ref sig .tc := ⟨.hbm, 291, rfl⟩
abbrev main_v189 : Ref sig .tc := ⟨.hbm, 292, rfl⟩
abbrev main_v190 : Ref sig .tc := ⟨.hbm, 293, rfl⟩
abbrev main_c_65 : Ref sig .tc := ⟨.hbm, 294, rfl⟩
abbrev main_call14_c : Ref sig .tc := ⟨.hbm, 295, rfl⟩
abbrev main_call14_v0 : Ref sig .tc := ⟨.hbm, 296, rfl⟩
abbrev main_v191 : Ref sig .tc := ⟨.hbm, 297, rfl⟩
abbrev main_cst_66 : Ref sig .tc := ⟨.hbm, 298, rfl⟩
abbrev main_v192 : Ref sig .tc := ⟨.hbm, 299, rfl⟩
abbrev main_v193 : Ref sig .tc := ⟨.hbm, 300, rfl⟩
abbrev main_c_67 : Ref sig .tc := ⟨.hbm, 301, rfl⟩
abbrev main_call15_c : Ref sig .tc := ⟨.hbm, 302, rfl⟩
abbrev main_call15_v0 : Ref sig .tc := ⟨.hbm, 303, rfl⟩
abbrev main_v194 : Ref sig .tc := ⟨.hbm, 304, rfl⟩
abbrev main_v195 : Ref sig .tc := ⟨.hbm, 305, rfl⟩
abbrev main_cst_68 : Ref sig .tc := ⟨.hbm, 306, rfl⟩
abbrev main_v196 : Ref sig .tc := ⟨.hbm, 307, rfl⟩
abbrev main_v197 : Ref sig .tc := ⟨.hbm, 308, rfl⟩
abbrev main_c_69 : Ref sig .tc := ⟨.hbm, 309, rfl⟩
abbrev main_call16_c : Ref sig .tc := ⟨.hbm, 310, rfl⟩
abbrev main_call16_v0 : Ref sig .tc := ⟨.hbm, 311, rfl⟩
abbrev main_v198 : Ref sig .tc := ⟨.hbm, 312, rfl⟩
abbrev main_v199 : Ref sig .tc := ⟨.hbm, 313, rfl⟩
abbrev main_c_70 : Ref sig .tc := ⟨.hbm, 314, rfl⟩
abbrev main_v200 : Ref sig .tc := ⟨.hbm, 315, rfl⟩
abbrev main_v201 : Ref sig .tc := ⟨.hbm, 316, rfl⟩
abbrev main_c_71 : Ref sig .tc := ⟨.hbm, 317, rfl⟩
abbrev main_v202 : Ref sig .tc := ⟨.hbm, 318, rfl⟩
abbrev main_v203 : Ref sig .tc := ⟨.hbm, 319, rfl⟩
abbrev main_c_72 : Ref sig .tc := ⟨.hbm, 320, rfl⟩
abbrev main_v204 : Ref sig .tc := ⟨.hbm, 321, rfl⟩
abbrev main_v205 : Ref sig .tc := ⟨.hbm, 322, rfl⟩
abbrev main_c_73 : Ref sig .tc := ⟨.hbm, 323, rfl⟩
abbrev main_v206 : Ref sig .tc := ⟨.hbm, 324, rfl⟩
abbrev main_v207 : Ref sig .tc := ⟨.hbm, 325, rfl⟩
abbrev main_c_74 : Ref sig .tc := ⟨.hbm, 326, rfl⟩
abbrev main_v208 : Ref sig .tc := ⟨.hbm, 327, rfl⟩
abbrev main_v209 : Ref sig .tc := ⟨.hbm, 328, rfl⟩
abbrev main_v210 : Ref sig .tc := ⟨.hbm, 329, rfl⟩
abbrev main_c_75 : Ref sig .tc := ⟨.hbm, 330, rfl⟩
abbrev main_v211 : Ref sig .tc := ⟨.hbm, 331, rfl⟩
abbrev main_v212 : Ref sig .tc := ⟨.hbm, 332, rfl⟩
abbrev main_c_76 : Ref sig .tc := ⟨.hbm, 333, rfl⟩
abbrev main_v213 : Ref sig .tc := ⟨.hbm, 334, rfl⟩
abbrev main_v214 : Ref sig .tc := ⟨.hbm, 335, rfl⟩
abbrev main_v215 : Ref sig .tc := ⟨.hbm, 336, rfl⟩
abbrev main_c_77 : Ref sig .tc := ⟨.hbm, 337, rfl⟩
abbrev main_v216 : Ref sig .tc := ⟨.hbm, 338, rfl⟩
abbrev main_v217 : Ref sig .tc := ⟨.hbm, 339, rfl⟩
abbrev main_c_78 : Ref sig .tc := ⟨.hbm, 340, rfl⟩
abbrev main_v218 : Ref sig .tc := ⟨.hbm, 341, rfl⟩
abbrev main_v219 : Ref sig .tc := ⟨.hbm, 342, rfl⟩
abbrev main_v220 : Ref sig .tc := ⟨.hbm, 343, rfl⟩
abbrev main_v221 : Ref sig .tc := ⟨.hbm, 344, rfl⟩
abbrev main_v222 : Ref sig .tc := ⟨.hbm, 345, rfl⟩
abbrev main_v223 : Ref sig .tc := ⟨.hbm, 346, rfl⟩
abbrev main_v224 : Ref sig .tc := ⟨.hbm, 347, rfl⟩
abbrev main_v225 : Ref sig .tc := ⟨.hbm, 348, rfl⟩
abbrev main_v226 : Ref sig .tc := ⟨.hbm, 349, rfl⟩
abbrev main_v227 : Ref sig .tc := ⟨.hbm, 350, rfl⟩
abbrev main_v228 : Ref sig .tc := ⟨.hbm, 351, rfl⟩
abbrev main_v229 : Ref sig .tc := ⟨.hbm, 352, rfl⟩
abbrev main_v230 : Ref sig .tc := ⟨.hbm, 353, rfl⟩
abbrev main_cst_79 : Ref sig .tc := ⟨.hbm, 354, rfl⟩
abbrev main_v231 : Ref sig .tc := ⟨.hbm, 355, rfl⟩
abbrev main_v232 : Ref sig .tc := ⟨.hbm, 356, rfl⟩
abbrev main_c_80 : Ref sig .tc := ⟨.hbm, 357, rfl⟩
abbrev main_call17_c : Ref sig .tc := ⟨.hbm, 358, rfl⟩
abbrev main_call17_v0 : Ref sig .tc := ⟨.hbm, 359, rfl⟩
abbrev main_v233 : Ref sig .tc := ⟨.hbm, 360, rfl⟩
abbrev main_cst_81 : Ref sig .tc := ⟨.hbm, 361, rfl⟩
abbrev main_v234 : Ref sig .tc := ⟨.hbm, 362, rfl⟩
abbrev main_v235 : Ref sig .tc := ⟨.hbm, 363, rfl⟩
abbrev main_c_82 : Ref sig .tc := ⟨.hbm, 364, rfl⟩
abbrev main_call18_c : Ref sig .tc := ⟨.hbm, 365, rfl⟩
abbrev main_call18_v0 : Ref sig .tc := ⟨.hbm, 366, rfl⟩
abbrev main_v236 : Ref sig .tc := ⟨.hbm, 367, rfl⟩
abbrev main_v237 : Ref sig .tc := ⟨.hbm, 368, rfl⟩
abbrev main_cst_83 : Ref sig .tc := ⟨.hbm, 369, rfl⟩
abbrev main_v238 : Ref sig .tc := ⟨.hbm, 370, rfl⟩
abbrev main_v239 : Ref sig .tc := ⟨.hbm, 371, rfl⟩
abbrev main_c_84 : Ref sig .tc := ⟨.hbm, 372, rfl⟩
abbrev main_call19_c : Ref sig .tc := ⟨.hbm, 373, rfl⟩
abbrev main_call19_v0 : Ref sig .tc := ⟨.hbm, 374, rfl⟩
abbrev main_v240 : Ref sig .tc := ⟨.hbm, 375, rfl⟩
abbrev main_v241 : Ref sig .tc := ⟨.hbm, 376, rfl⟩
abbrev main_c_85 : Ref sig .tc := ⟨.hbm, 377, rfl⟩
abbrev main_v242 : Ref sig .tc := ⟨.hbm, 378, rfl⟩
abbrev main_v243 : Ref sig .tc := ⟨.hbm, 379, rfl⟩
abbrev main_c_86 : Ref sig .tc := ⟨.hbm, 380, rfl⟩
abbrev main_v244 : Ref sig .tc := ⟨.hbm, 381, rfl⟩
abbrev main_v245 : Ref sig .tc := ⟨.hbm, 382, rfl⟩
abbrev main_c_87 : Ref sig .tc := ⟨.hbm, 383, rfl⟩
abbrev main_v246 : Ref sig .tc := ⟨.hbm, 384, rfl⟩
abbrev main_v247 : Ref sig .tc := ⟨.hbm, 385, rfl⟩
abbrev main_c_88 : Ref sig .tc := ⟨.hbm, 386, rfl⟩
abbrev main_v248 : Ref sig .tc := ⟨.hbm, 387, rfl⟩
abbrev main_v249 : Ref sig .tc := ⟨.hbm, 388, rfl⟩
abbrev main_c_89 : Ref sig .tc := ⟨.hbm, 389, rfl⟩
abbrev main_v250 : Ref sig .tc := ⟨.hbm, 390, rfl⟩
abbrev main_v251 : Ref sig .tc := ⟨.hbm, 391, rfl⟩
abbrev main_v252 : Ref sig .tc := ⟨.hbm, 392, rfl⟩
abbrev main_c_90 : Ref sig .tc := ⟨.hbm, 393, rfl⟩
abbrev main_v253 : Ref sig .tc := ⟨.hbm, 394, rfl⟩
abbrev main_v254 : Ref sig .tc := ⟨.hbm, 395, rfl⟩
abbrev main_c_91 : Ref sig .tc := ⟨.hbm, 396, rfl⟩
abbrev main_v255 : Ref sig .tc := ⟨.hbm, 397, rfl⟩
abbrev main_v256 : Ref sig .tc := ⟨.hbm, 398, rfl⟩
abbrev main_v257 : Ref sig .tc := ⟨.hbm, 399, rfl⟩
abbrev main_c_92 : Ref sig .tc := ⟨.hbm, 400, rfl⟩
abbrev main_v258 : Ref sig .tc := ⟨.hbm, 401, rfl⟩
abbrev main_v259 : Ref sig .tc := ⟨.hbm, 402, rfl⟩
abbrev main_c_93 : Ref sig .tc := ⟨.hbm, 403, rfl⟩
abbrev main_v260 : Ref sig .tc := ⟨.hbm, 404, rfl⟩
abbrev main_v261 : Ref sig .tc := ⟨.hbm, 405, rfl⟩
abbrev main_v262 : Ref sig .tc := ⟨.hbm, 406, rfl⟩
abbrev main_v263 : Ref sig .tc := ⟨.hbm, 407, rfl⟩
abbrev main_v264 : Ref sig .tc := ⟨.hbm, 408, rfl⟩
abbrev main_v265 : Ref sig .tc := ⟨.hbm, 409, rfl⟩
abbrev main_v266 : Ref sig .tc := ⟨.hbm, 410, rfl⟩
abbrev main_v267 : Ref sig .tc := ⟨.hbm, 411, rfl⟩
abbrev main_v268 : Ref sig .tc := ⟨.hbm, 412, rfl⟩
abbrev main_v269 : Ref sig .tc := ⟨.hbm, 413, rfl⟩
abbrev main_v270 : Ref sig .tc := ⟨.hbm, 414, rfl⟩
abbrev main_v271 : Ref sig .tc := ⟨.hbm, 415, rfl⟩
abbrev main_v272 : Ref sig .tc := ⟨.hbm, 416, rfl⟩
abbrev main_cst_94 : Ref sig .tc := ⟨.hbm, 417, rfl⟩
abbrev main_v273 : Ref sig .tc := ⟨.hbm, 418, rfl⟩
abbrev main_v274 : Ref sig .tc := ⟨.hbm, 419, rfl⟩
abbrev main_c_95 : Ref sig .tc := ⟨.hbm, 420, rfl⟩
abbrev main_call20_c : Ref sig .tc := ⟨.hbm, 421, rfl⟩
abbrev main_call20_v0 : Ref sig .tc := ⟨.hbm, 422, rfl⟩
abbrev main_v275 : Ref sig .tc := ⟨.hbm, 423, rfl⟩
abbrev main_cst_96 : Ref sig .tc := ⟨.hbm, 424, rfl⟩
abbrev main_v276 : Ref sig .tc := ⟨.hbm, 425, rfl⟩
abbrev main_v277 : Ref sig .tc := ⟨.hbm, 426, rfl⟩
abbrev main_c_97 : Ref sig .tc := ⟨.hbm, 427, rfl⟩
abbrev main_call21_c : Ref sig .tc := ⟨.hbm, 428, rfl⟩
abbrev main_call21_v0 : Ref sig .tc := ⟨.hbm, 429, rfl⟩
abbrev main_v278 : Ref sig .tc := ⟨.hbm, 430, rfl⟩
abbrev main_v279 : Ref sig .tc := ⟨.hbm, 431, rfl⟩
abbrev main_cst_98 : Ref sig .tc := ⟨.hbm, 432, rfl⟩
abbrev main_v280 : Ref sig .tc := ⟨.hbm, 433, rfl⟩
abbrev main_v281 : Ref sig .tc := ⟨.hbm, 434, rfl⟩
abbrev main_c_99 : Ref sig .tc := ⟨.hbm, 435, rfl⟩
abbrev main_call22_c : Ref sig .tc := ⟨.hbm, 436, rfl⟩
abbrev main_call22_v0 : Ref sig .tc := ⟨.hbm, 437, rfl⟩
abbrev main_v282 : Ref sig .tc := ⟨.hbm, 438, rfl⟩
abbrev main_v283 : Ref sig .tc := ⟨.hbm, 439, rfl⟩
abbrev main_c_100 : Ref sig .tc := ⟨.hbm, 440, rfl⟩
abbrev main_v284 : Ref sig .tc := ⟨.hbm, 441, rfl⟩
abbrev main_v285 : Ref sig .tc := ⟨.hbm, 442, rfl⟩
abbrev main_c_101 : Ref sig .tc := ⟨.hbm, 443, rfl⟩
abbrev main_v286 : Ref sig .tc := ⟨.hbm, 444, rfl⟩
abbrev main_v287 : Ref sig .tc := ⟨.hbm, 445, rfl⟩
abbrev main_c_102 : Ref sig .tc := ⟨.hbm, 446, rfl⟩
abbrev main_v288 : Ref sig .tc := ⟨.hbm, 447, rfl⟩
abbrev main_v289 : Ref sig .tc := ⟨.hbm, 448, rfl⟩
abbrev main_c_103 : Ref sig .tc := ⟨.hbm, 449, rfl⟩
abbrev main_v290 : Ref sig .tc := ⟨.hbm, 450, rfl⟩
abbrev main_v291 : Ref sig .tc := ⟨.hbm, 451, rfl⟩
abbrev main_c_104 : Ref sig .tc := ⟨.hbm, 452, rfl⟩
abbrev main_v292 : Ref sig .tc := ⟨.hbm, 453, rfl⟩
abbrev main_v293 : Ref sig .tc := ⟨.hbm, 454, rfl⟩
abbrev main_v294 : Ref sig .tc := ⟨.hbm, 455, rfl⟩
abbrev main_c_105 : Ref sig .tc := ⟨.hbm, 456, rfl⟩
abbrev main_v295 : Ref sig .tc := ⟨.hbm, 457, rfl⟩
abbrev main_v296 : Ref sig .tc := ⟨.hbm, 458, rfl⟩
abbrev main_c_106 : Ref sig .tc := ⟨.hbm, 459, rfl⟩
abbrev main_v297 : Ref sig .tc := ⟨.hbm, 460, rfl⟩
abbrev main_v298 : Ref sig .tc := ⟨.hbm, 461, rfl⟩
abbrev main_v299 : Ref sig .tc := ⟨.hbm, 462, rfl⟩
abbrev main_c_107 : Ref sig .tc := ⟨.hbm, 463, rfl⟩
abbrev main_v300 : Ref sig .tc := ⟨.hbm, 464, rfl⟩
abbrev main_v301 : Ref sig .tc := ⟨.hbm, 465, rfl⟩
abbrev main_c_108 : Ref sig .tc := ⟨.hbm, 466, rfl⟩
abbrev main_v302 : Ref sig .tc := ⟨.hbm, 467, rfl⟩
abbrev main_v303 : Ref sig .tc := ⟨.hbm, 468, rfl⟩
abbrev main_v304 : Ref sig .tc := ⟨.hbm, 469, rfl⟩
abbrev main_v305 : Ref sig .tc := ⟨.hbm, 470, rfl⟩
abbrev main_v306 : Ref sig .tc := ⟨.hbm, 471, rfl⟩
abbrev main_v307 : Ref sig .tc := ⟨.hbm, 472, rfl⟩
abbrev main_v308 : Ref sig .tc := ⟨.hbm, 473, rfl⟩
abbrev main_v309 : Ref sig .tc := ⟨.hbm, 474, rfl⟩
abbrev main_v310 : Ref sig .tc := ⟨.hbm, 475, rfl⟩
abbrev main_v311 : Ref sig .tc := ⟨.hbm, 476, rfl⟩
abbrev main_v312 : Ref sig .tc := ⟨.hbm, 477, rfl⟩
abbrev main_v313 : Ref sig .tc := ⟨.hbm, 478, rfl⟩
abbrev main_v314 : Ref sig .tc := ⟨.hbm, 479, rfl⟩
abbrev main_cst_109 : Ref sig .tc := ⟨.hbm, 480, rfl⟩
abbrev main_v315 : Ref sig .tc := ⟨.hbm, 481, rfl⟩
abbrev main_v316 : Ref sig .tc := ⟨.hbm, 482, rfl⟩
abbrev main_c_110 : Ref sig .tc := ⟨.hbm, 483, rfl⟩
abbrev main_call23_c : Ref sig .tc := ⟨.hbm, 484, rfl⟩
abbrev main_call23_v0 : Ref sig .tc := ⟨.hbm, 485, rfl⟩
abbrev main_v317 : Ref sig .tc := ⟨.hbm, 486, rfl⟩
abbrev main_cst_111 : Ref sig .tc := ⟨.hbm, 487, rfl⟩
abbrev main_v318 : Ref sig .tc := ⟨.hbm, 488, rfl⟩
abbrev main_v319 : Ref sig .tc := ⟨.hbm, 489, rfl⟩
abbrev main_c_112 : Ref sig .tc := ⟨.hbm, 490, rfl⟩
abbrev main_call24_c : Ref sig .tc := ⟨.hbm, 491, rfl⟩
abbrev main_call24_v0 : Ref sig .tc := ⟨.hbm, 492, rfl⟩
abbrev main_v320 : Ref sig .tc := ⟨.hbm, 493, rfl⟩
abbrev main_v321 : Ref sig .tc := ⟨.hbm, 494, rfl⟩
abbrev main_cst_113 : Ref sig .tc := ⟨.hbm, 495, rfl⟩
abbrev main_v322 : Ref sig .tc := ⟨.hbm, 496, rfl⟩
abbrev main_v323 : Ref sig .tc := ⟨.hbm, 497, rfl⟩
abbrev main_c_114 : Ref sig .tc := ⟨.hbm, 498, rfl⟩
abbrev main_call25_c : Ref sig .tc := ⟨.hbm, 499, rfl⟩
abbrev main_call25_v0 : Ref sig .tc := ⟨.hbm, 500, rfl⟩
abbrev main_v324 : Ref sig .tc := ⟨.hbm, 501, rfl⟩
abbrev main_v325 : Ref sig .tc := ⟨.hbm, 502, rfl⟩
abbrev main_c_115 : Ref sig .tc := ⟨.hbm, 503, rfl⟩
abbrev main_v326 : Ref sig .tc := ⟨.hbm, 504, rfl⟩
abbrev main_v327 : Ref sig .tc := ⟨.hbm, 505, rfl⟩
abbrev main_c_116 : Ref sig .tc := ⟨.hbm, 506, rfl⟩
abbrev main_v328 : Ref sig .tc := ⟨.hbm, 507, rfl⟩
abbrev main_v329 : Ref sig .tc := ⟨.hbm, 508, rfl⟩
abbrev main_c_117 : Ref sig .tc := ⟨.hbm, 509, rfl⟩
abbrev main_v330 : Ref sig .tc := ⟨.hbm, 510, rfl⟩
abbrev main_v331 : Ref sig .tc := ⟨.hbm, 511, rfl⟩
abbrev main_c_118 : Ref sig .tc := ⟨.hbm, 512, rfl⟩
abbrev main_v332 : Ref sig .tc := ⟨.hbm, 513, rfl⟩
abbrev main_v333 : Ref sig .tc := ⟨.hbm, 514, rfl⟩
abbrev main_c_119 : Ref sig .tc := ⟨.hbm, 515, rfl⟩
abbrev main_v334 : Ref sig .tc := ⟨.hbm, 516, rfl⟩
abbrev main_v335 : Ref sig .tc := ⟨.hbm, 517, rfl⟩
abbrev main_v336 : Ref sig .tc := ⟨.hbm, 518, rfl⟩
abbrev main_c_120 : Ref sig .tc := ⟨.hbm, 519, rfl⟩
abbrev main_v337 : Ref sig .tc := ⟨.hbm, 520, rfl⟩
abbrev main_v338 : Ref sig .tc := ⟨.hbm, 521, rfl⟩
abbrev main_c_121 : Ref sig .tc := ⟨.hbm, 522, rfl⟩
abbrev main_v339 : Ref sig .tc := ⟨.hbm, 523, rfl⟩
abbrev main_v340 : Ref sig .tc := ⟨.hbm, 524, rfl⟩
abbrev main_v341 : Ref sig .tc := ⟨.hbm, 525, rfl⟩
abbrev main_c_122 : Ref sig .tc := ⟨.hbm, 526, rfl⟩
abbrev main_v342 : Ref sig .tc := ⟨.hbm, 527, rfl⟩
abbrev main_v343 : Ref sig .tc := ⟨.hbm, 528, rfl⟩
abbrev main_c_123 : Ref sig .tc := ⟨.hbm, 529, rfl⟩
abbrev main_v344 : Ref sig .tc := ⟨.hbm, 530, rfl⟩
abbrev main_v345 : Ref sig .tc := ⟨.hbm, 531, rfl⟩
abbrev main_v346 : Ref sig .tc := ⟨.hbm, 532, rfl⟩
abbrev main_v347 : Ref sig .tc := ⟨.hbm, 533, rfl⟩
abbrev main_v348 : Ref sig .tc := ⟨.hbm, 534, rfl⟩
abbrev main_v349 : Ref sig .tc := ⟨.hbm, 535, rfl⟩
abbrev main_v350 : Ref sig .tc := ⟨.hbm, 536, rfl⟩
abbrev main_v351 : Ref sig .tc := ⟨.hbm, 537, rfl⟩
abbrev main_v352 : Ref sig .tc := ⟨.hbm, 538, rfl⟩
abbrev main_v353 : Ref sig .tc := ⟨.hbm, 539, rfl⟩
abbrev main_v354 : Ref sig .tc := ⟨.hbm, 540, rfl⟩
abbrev main_v355 : Ref sig .tc := ⟨.hbm, 541, rfl⟩
abbrev main_v356 : Ref sig .tc := ⟨.hbm, 542, rfl⟩

abbrev nD : Nat := 1
abbrev τ : Topo := Topo.v7x

variable {F : FTy → Type} [FloatOps F]

class Facts₀ : Prop where
  bcast_S_S4x3x1080x1920 : S_.BroadcastsInDim S4x3x1080x1920 (![] : Fin 0 → Fin S4x3x1080x1920.rank)
  slices_S4x3x1080x1920_S4x1x1080x1920_0_0_0_0 : S4x3x1080x1920.Slices ![0, 0, 0, 0] S4x1x1080x1920
  shapeCasts_S4x1x1080x1920_S4x1080x1920 : S4x1x1080x1920.ShapeCasts S4x1080x1920
  slices_S4x3x1080x1920_S4x1x1080x1920_0_1_0_0 : S4x3x1080x1920.Slices ![0, 1, 0, 0] S4x1x1080x1920
  slices_S4x3x1080x1920_S4x1x1080x1920_0_2_0_0 : S4x3x1080x1920.Slices ![0, 2, 0, 0] S4x1x1080x1920
  bcast_S_S4x1080x1920 : S_.BroadcastsInDim S4x1080x1920 (![] : Fin 0 → Fin S4x1080x1920.rank)
  bcast_S4x1080x1920_S4x1080x1920x1_0_1_2 : S4x1080x1920.BroadcastsInDim S4x1080x1920x1 (![0, 1, 2] : Fin 3 → Fin S4x1080x1920x1.rank)
  concatenates_S4x1080x1920x1_S4x1080x1920x1_S4x1080x1920x1_S4x1080x1920x3_d3 : Shape.Concatenates [S4x1080x1920x1, S4x1080x1920x1, S4x1080x1920x1] S4x1080x1920x3 3
  bcast_S4x1080x1920_S4x1x1080x1920_0_2_3 : S4x1080x1920.BroadcastsInDim S4x1x1080x1920 (![0, 2, 3] : Fin 3 → Fin S4x1x1080x1920.rank)
  transposes_S3x4x1080x1920_S4x3x1080x1920_1_0_2_3 : S3x4x1080x1920.Transposes [1, 0, 2, 3] S4x3x1080x1920
  bcast_S4x1x1080x1920_S4x3x1080x1920_0_1_2_3 : S4x1x1080x1920.BroadcastsInDim S4x3x1080x1920 (![0, 1, 2, 3] : Fin 4 → Fin S4x3x1080x1920.rank)
  gather_S3x33x33x33_S4x1080x1920x3_S3x4x1080x1920_0_123_n_n_123_3_3111_wf : GatherDims.WF S3x33x33x33 S4x1080x1920x3 S3x4x1080x1920 [0] [1, 2, 3] [] [1, 2, 3] [] 3 ![3, 1, 1, 1]

variable [Facts₀]

def gather_S3x33x33x33_S4x1080x1920x3_S3x4x1080x1920_0_123_n_n_123_3_3111 : GatherDims S3x33x33x33 S4x1080x1920x3 S3x4x1080x1920 where
  offsetDims := [0]
  collapsedSliceDims := [1, 2, 3]
  operandBatchingDims := []
  startIndicesBatchingDims := []
  startIndexMap := [1, 2, 3]
  indexVectorDim := 3
  sliceSizes := ![3, 1, 1, 1]
  wf := gather_S3x33x33x33_S4x1080x1920x3_S3x4x1080x1920_0_123_n_n_123_3_3111_wf

class Facts : Prop extends Facts₀ where

variable [Facts]
-- ==== Proof.Spec.lean ====
/-
  The interpolation both programs compute, stated once, over the extended reals.

  A pixel has three channel values x_r, x_g, x_b.  Each is clamped to [0, 1] and scaled by 32 (`scaled`), the grid
  cell is its floor read as a 32-bit word and clamped to 0 .. 31 (`cell`), and `frac` is the position inside the
  cell.  Along one axis the two grid lines that bound the cell carry the weights 1 - frac and frac, every other line
  weight 0 (`hat`).  The result for output channel c is the table's entries L b g r weighted by the product of the
  three axes' weights.

  `viaOneHot` spells this as the full sum over the 33 x 33 x 33 grid lines (the (g, r) pair contracted first, then b);
  `viaCorners` as the eight corners of the cell, added in the order (dr, dg, db) = 000, 001, 010, ..., 111 onto 0,
  each table entry fetched at a start index that is wrapped when negative and then clamped into 0 .. 32.
-/
import Idealize.ShloMosaic.PureOps.Ideal
import Idealize.ShloMosaic.PureOps.Ideal.Laws
import Idealize.ShloMosaic.Lib.ValueIdx

noncomputable section

namespace Cert.Lut3

open Idealize.ShloMosaic Idealize.ShloMosaic.ValueIdx

/-- The pattern of 1.0. -/
abbrev one : EReal := Ideal.ofBits .f32 0x3F800000#32
/-- The pattern of 32.0. -/
abbrev c32 : EReal := Ideal.ofBits .f32 0x42000000#32

/-- A channel value clamped to [0, 1] and scaled to the grid. -/
def scaled (x : EReal) : EReal := min one (max 0 x) * c32

/-- The grid cell: the floor of the scaled value as a 32-bit word, clamped (signed) to 0 .. 31. -/
def cell (x : EReal) : BitVec 32 :=
  IntOp.minsi 31#32 (IntOp.maxsi 0#32 (Ideal.fptosi 32 (Ideal.liftRound Int.floor (scaled x))))

/-- The position inside the cell. -/
def frac (x : EReal) : EReal := scaled x - (((cell x).toInt : ℝ) : EReal)

/-- One axis's weight of grid line `k`: 1 - frac on the cell's lower line, frac on its upper line, 0 elsewhere. -/
def hat (x : EReal) (k : BitVec 32) : EReal :=
  if k = cell x then one - frac x else if k = cell x + 1#32 then frac x else 0

/-- The table's entries summed over all grid lines with the three axes' weights: the (g, r) pair first, then b. -/
def viaOneHot (xr xg xb : EReal) (L : Fin 33 → Fin 33 → Fin 33 → EReal) : EReal :=
  ∑ b : Fin 33, (∑ g : Fin 33, ∑ r : Fin 33,
      L b g r * (hat xg (BitVec.ofNat 32 g.val) * hat xr (BitVec.ofNat 32 r.val))) * hat xb (BitVec.ofNat 32 b.val)

/-- A corner's weight along one axis: `d = true` the upper line. -/
def wt (x : EReal) (d : Bool) : EReal := if d then frac x else one - frac x

/-- The corner's offset as a word. -/
def bit (d : Bool) : BitVec 32 := if d then 1#32 else 0#32

/-- A start index as the gather reads it: wrapped by 33 when negative, read signed, clamped into 0 .. 32. -/
def fetchIdx (v : BitVec 32) : Fin 33 :=
  ⟨min (if v.slt 0#32 then v + 33#32 else v).toInt.toNat 32, by omega⟩

/-- One corner's term: the product of the three axes' weights times the table entry at the corner. -/
def corner (xr xg xb : EReal) (L : Fin 33 → Fin 33 → Fin 33 → EReal) (dr dg db : Bool) : EReal :=
  ((wt xr dr * wt xg dg) * wt xb db)
    * L (fetchIdx (cell xb + bit db)) (fetchIdx (cell xg + bit dg)) (fetchIdx (cell xr + bit dr))

/-- The eight corners added onto 0, in the order 000, 001, 010, 011, 100, 101, 110, 111 of (dr, dg, db). -/
def viaCorners (xr xg xb : EReal) (L : Fin 33 → Fin 33 → Fin 33 → EReal) : EReal :=
  0 + corner xr xg xb L false false false + corner xr xg xb L false false true
    + corner xr xg xb L false true false + corner xr xg xb L false true true
    + corner xr xg xb L true false false + corner xr xg xb L true false true
    + corner xr xg xb L true true false + corner xr xg xb L true true true

/-- The image's shape [4, 3, 1080, 1920] and the table's [3, 33, 33, 33]. -/
abbrev SX : Shape := ⟨4, ![4, 3, 1080, 1920]⟩
abbrev SL : Shape := ⟨4, ![3, 33, 33, 33]⟩

/-- Row (c, b) of the table flattened to [99, 1089], and its column (g, r). -/
def lutRow (c : Fin 3) (b : Fin 33) : Fin 99 := ⟨c.val * 33 + b.val, by omega⟩
def lutCol (g r : Fin 33) : Fin 1089 := ⟨g.val * 33 + r.val, by omega⟩

/-- The whole result array from a per-pixel rule `pt`: entry (n, c, h, w) is `pt` of the pixel's three channel
    values (n, 0 .. 2, h, w) and channel c's table. -/
def resultOf (pt : EReal → EReal → EReal → (Fin 33 → Fin 33 → Fin 33 → EReal) → EReal)
    (x : SX.Idx → EReal) (lut : SL.Idx → EReal) : SX.Idx → EReal := fun i =>
  pt (x (ix4 (n0 := 4) (n1 := 3) (n2 := 1080) (n3 := 1920) ⟨(i 0).val, (i 0).isLt⟩ 0 ⟨(i 2).val, (i 2).isLt⟩ ⟨(i 3).val, (i 3).isLt⟩))
     (x (ix4 (n0 := 4) (n1 := 3) (n2 := 1080) (n3 := 1920) ⟨(i 0).val, (i 0).isLt⟩ 1 ⟨(i 2).val, (i 2).isLt⟩ ⟨(i 3).val, (i 3).isLt⟩))
     (x (ix4 (n0 := 4) (n1 := 3) (n2 := 1080) (n3 := 1920) ⟨(i 0).val, (i 0).isLt⟩ 2 ⟨(i 2).val, (i 2).isLt⟩ ⟨(i 3).val, (i 3).isLt⟩))
     (fun b g r => lut (ix4 (n0 := 3) (n1 := 33) (n2 := 33) (n3 := 33) ⟨(i 1).val, (i 1).isLt⟩ b g r))

/-- `resultOf` at an index written by coordinates. -/
theorem resultOf_ix4 (pt : EReal → EReal → EReal → (Fin 33 → Fin 33 → Fin 33 → EReal) → EReal)
    (x : SX.Idx → EReal) (lut : SL.Idx → EReal) (n : Fin 4) (c : Fin 3) (h : Fin 1080) (w : Fin 1920) :
    resultOf pt x lut (ix4 n c h w)
      = pt (x (ix4 n (0 : Fin 3) h w)) (x (ix4 n (1 : Fin 3) h w)) (x (ix4 n (2 : Fin 3) h w))
          (fun b g r => lut (ix4 c b g r)) := rfl

end Cert.Lut3

end
-- ==== Proof.TriSum.lean ====
import proofs.«140490_j86122684220303_2_alg».proof.Proof.Spec

/-! The law that joins the two programs, over the reals: a sum against one axis's weights keeps the two grid lines
    that bound the cell, so the weighted sum over all 33 x 33 x 33 lines is the sum over the cell's eight corners. -/

namespace Cert.Lut3

/-- One axis's weights over the 33 grid lines: `a` on line `j`, `b` on line `j + 1`, zero elsewhere. -/
def tent (j : ℕ) (a b : ℝ) (g : Fin 33) : ℝ := if g.val = j then a else if g.val = j + 1 then b else 0

/-- A sum against one axis's weights keeps the two lines of the cell. -/
theorem sum_tent (j : ℕ) (hj : j ≤ 31) (a b : ℝ) (φ : Fin 33 → ℝ) :
    ∑ g : Fin 33, φ g * tent j a b g = φ ⟨j, by omega⟩ * a + φ ⟨j + 1, by omega⟩ * b := by
  have h : ∀ g : Fin 33, φ g * tent j a b g
      = (if g = (⟨j, by omega⟩ : Fin 33) then φ g * a else 0) + (if g = (⟨j + 1, by omega⟩ : Fin 33) then φ g * b else 0) := by
    intro g
    unfold tent
    by_cases h1 : g.val = j
    · have e1 : g = (⟨j, by omega⟩ : Fin 33) := Fin.ext h1
      have e2 : ¬ g = (⟨j + 1, by omega⟩ : Fin 33) := fun h => by
        have := congrArg Fin.val h; simp only at this; omega
      rw [if_pos h1, if_pos e1, if_neg e2, add_zero]
    · have e1 : ¬ g = (⟨j, by omega⟩ : Fin 33) := fun h => h1 (congrArg Fin.val h)
      rw [if_neg h1, if_neg e1, zero_add]
      by_cases h2 : g.val = j + 1
      · have e2 : g = (⟨j + 1, by omega⟩ : Fin 33) := Fin.ext h2
        rw [if_pos h2, if_pos e2]
      · have e2 : ¬ g = (⟨j + 1, by omega⟩ : Fin 33) := fun h => h2 (congrArg Fin.val h)
        rw [if_neg h2, if_neg e2, mul_zero]
  simp_rw [h, Finset.sum_add_distrib, Finset.sum_ite_eq', Finset.mem_univ, if_true]

/-- The full weighted sum over the grid is the eight corners of the cell (over the reals). -/
theorem tri_sum (jr jg jb : ℕ) (hr : jr ≤ 31) (hg : jg ≤ 31) (hb : jb ≤ 31) (ar br ag bg ab bb : ℝ)
    (l : Fin 33 → Fin 33 → Fin 33 → ℝ) :
    ∑ b : Fin 33, (∑ g : Fin 33, ∑ r : Fin 33, l b g r * (tent jg ag bg g * tent jr ar br r)) * tent jb ab bb b
      = 0 + ((ar * ag) * ab) * l ⟨jb, by omega⟩ ⟨jg, by omega⟩ ⟨jr, by omega⟩
          + ((ar * ag) * bb) * l ⟨jb + 1, by omega⟩ ⟨jg, by omega⟩ ⟨jr, by omega⟩
          + ((ar * bg) * ab) * l ⟨jb, by omega⟩ ⟨jg + 1, by omega⟩ ⟨jr, by omega⟩
          + ((ar * bg) * bb) * l ⟨jb + 1, by omega⟩ ⟨jg + 1, by omega⟩ ⟨jr, by omega⟩
          + ((br * ag) * ab) * l ⟨jb, by omega⟩ ⟨jg, by omega⟩ ⟨jr + 1, by omega⟩
          + ((br * ag) * bb) * l ⟨jb + 1, by omega⟩ ⟨jg, by omega⟩ ⟨jr + 1, by omega⟩
          + ((br * bg) * ab) * l ⟨jb, by omega⟩ ⟨jg + 1, by omega⟩ ⟨jr + 1, by omega⟩
          + ((br * bg) * bb) * l ⟨jb + 1, by omega⟩ ⟨jg + 1, by omega⟩ ⟨jr + 1, by omega⟩ := by
  have e1 : ∀ b g : Fin 33, ∑ r : Fin 33, l b g r * (tent jg ag bg g * tent jr ar br r)
      = (l b g ⟨jr, by omega⟩ * tent jg ag bg g) * ar + (l b g ⟨jr + 1, by omega⟩ * tent jg ag bg g) * br := by
    intro b g
    rw [← sum_tent jr hr ar br (fun r => l b g r * tent jg ag bg g)]
    exact Finset.sum_congr rfl (fun r _ => by ring)
  have e2 : ∀ b : Fin 33, ∑ g : Fin 33, ((l b g ⟨jr, by omega⟩ * tent jg ag bg g) * ar + (l b g ⟨jr + 1, by omega⟩ * tent jg ag bg g) * br)
      = (l b ⟨jg, by omega⟩ ⟨jr, by omega⟩ * ar + l b ⟨jg, by omega⟩ ⟨jr + 1, by omega⟩ * br) * ag
        + (l b ⟨jg + 1, by omega⟩ ⟨jr, by omega⟩ * ar + l b ⟨jg + 1, by omega⟩ ⟨jr + 1, by omega⟩ * br) * bg := by
    intro b
    rw [← sum_tent jg hg ag bg (fun g => l b g ⟨jr, by omega⟩ * ar + l b g ⟨jr + 1, by omega⟩ * br)]
    exact Finset.sum_congr rfl (fun g _ => by ring)
  simp_rw [e1, e2]
  rw [sum_tent jb hb ab bb]
  ring

end Cert.Lut3
-- ==== Proof.CellFacts.lean ====
import proofs.«140490_j86122684220303_2_alg».proof.Proof.Spec
import proofs.«140490_j86122684220303_2_alg».proof.Proof.TriSum
open Idealize.ShloMosaic

namespace Cert.Lut3

theorem clamp_small (v : BitVec 32) : ∃ j : ℕ, j ≤ 31 ∧ IntOp.minsi 31#32 (IntOp.maxsi 0#32 v) = BitVec.ofNat 32 j := by
  unfold IntOp.minsi IntOp.maxsi
  by_cases h0 : v.slt 0#32 = true
  · refine ⟨0, by omega, ?_⟩
    rw [if_pos h0]
    rw [if_neg (by decide)]
  · rw [if_neg h0]
    by_cases h1 : (31#32 : BitVec 32).slt v = true
    · exact ⟨31, le_refl _, by rw [if_pos h1]⟩
    · rw [if_neg h1]
      refine ⟨v.toNat, ?_, ?_⟩
      · simp only [BitVec.slt, decide_eq_true_eq, BitVec.toInt_eq_toNat_cond] at h0 h1
        simp at h0 h1
        omega
      · apply BitVec.eq_of_toNat_eq
        rw [BitVec.toNat_ofNat]
        exact (Nat.mod_eq_of_lt v.isLt).symm

/-- The cell is one of the lines 0 .. 31. -/
theorem cell_small (x : EReal) : ∃ j : ℕ, j ≤ 31 ∧ cell x = BitVec.ofNat 32 j := clamp_small _

theorem one_eq : one = ((1 : ℝ) : EReal) := by
  simp [one, Ideal.ofBits, Ideal.ieee, -EReal.coe_mul]; norm_num
theorem c32_eq : c32 = ((32 : ℝ) : EReal) := by
  simp [c32, Ideal.ofBits, Ideal.ieee, -EReal.coe_mul]; norm_num

/-- The scaled value is a real number, whatever the channel value: the clamp brings it into [0, 1]. -/
theorem scaled_real (x : EReal) : ∃ s : ℝ, scaled x = (s : EReal) := by
  unfold scaled
  rw [one_eq, c32_eq]
  have h0 : (0 : EReal) ≤ min ((1 : ℝ) : EReal) (max 0 x) := le_min (by exact_mod_cast zero_le_one) (le_max_left _ _)
  have h1 : min ((1 : ℝ) : EReal) (max 0 x) ≤ ((1 : ℝ) : EReal) := min_le_left _ _
  have hb : min ((1 : ℝ) : EReal) (max 0 x) ≠ ⊥ := ne_of_gt (lt_of_lt_of_le EReal.bot_lt_zero h0)
  have ht : min ((1 : ℝ) : EReal) (max 0 x) ≠ ⊤ := ne_of_lt (lt_of_le_of_lt h1 (EReal.coe_lt_top 1))
  refine ⟨(min ((1 : ℝ) : EReal) (max 0 x)).toReal * 32, ?_⟩
  rw [EReal.coe_mul, EReal.coe_toReal ht hb]

/-- The position inside the cell is a real number. -/
theorem frac_real (x : EReal) : ∃ f : ℝ, frac x = (f : EReal) := by
  obtain ⟨s, hs⟩ := scaled_real x
  exact ⟨s - ((cell x).toInt : ℝ), by unfold frac; rw [hs, EReal.coe_sub]⟩

theorem ofNat_inj_small (a b : ℕ) (ha : a < 2 ^ 32) (hb : b < 2 ^ 32) : BitVec.ofNat 32 a = BitVec.ofNat 32 b ↔ a = b := by
  constructor
  · intro h
    have := congrArg BitVec.toNat h
    rw [BitVec.toNat_ofNat, BitVec.toNat_ofNat, Nat.mod_eq_of_lt ha, Nat.mod_eq_of_lt hb] at this
    exact this
  · rintro rfl; rfl

theorem ofNat_succ (j : ℕ) : BitVec.ofNat 32 j + 1#32 = BitVec.ofNat 32 (j + 1) := by
  apply BitVec.eq_of_toNat_eq
  simp [BitVec.toNat_add, BitVec.toNat_ofNat]

theorem fetch_small (n : ℕ) (hn : n ≤ 32) : fetchIdx (BitVec.ofNat 32 n) = ⟨n, by omega⟩ := by
  unfold fetchIdx
  have hslt : (BitVec.ofNat 32 n).slt 0#32 = false := by
    simp only [BitVec.slt, BitVec.toInt_eq_toNat_cond, BitVec.toNat_ofNat]
    have : n % 2 ^ 32 = n := Nat.mod_eq_of_lt (by omega)
    rw [this]
    simp
    omega
  apply Fin.ext
  simp only [hslt]
  simp only [Bool.false_eq_true, if_false, BitVec.toInt_eq_toNat_cond, BitVec.toNat_ofNat]
  have : n % 2 ^ 32 = n := Nat.mod_eq_of_lt (by omega)
  rw [this]
  have h2 : 2 * n < 2 ^ 32 := by omega
  rw [if_pos h2]
  simp
  omega

/-- One axis's weight of line `g` is the real tent weight. -/
theorem hat_coe (x : EReal) (j : ℕ) (hj : j ≤ 31) (hc : cell x = BitVec.ofNat 32 j) (f : ℝ) (hf : frac x = (f : EReal)) (g : Fin 33) :
    hat x (BitVec.ofNat 32 g.val) = ((tent j (1 - f) f g : ℝ) : EReal) := by
  unfold hat tent
  rw [hc, ofNat_succ, hf, one_eq]
  have hg : g.val < 2 ^ 32 := by omega
  have i1 := ofNat_inj_small g.val j hg (by omega)
  have i2 := ofNat_inj_small g.val (j + 1) hg (by omega)
  by_cases h1 : g.val = j
  · rw [if_pos (i1.mpr h1), if_pos h1, EReal.coe_sub]
  · rw [if_neg (fun h => h1 (i1.mp h)), if_neg h1]
    by_cases h2 : g.val = j + 1
    · rw [if_pos (i2.mpr h2), if_pos h2]
    · rw [if_neg (fun h => h2 (i2.mp h)), if_neg h2, EReal.coe_zero]

/-- A corner's weight along one axis is the real weight. -/
theorem wt_coe (x : EReal) (f : ℝ) (hf : frac x = (f : EReal)) (d : Bool) :
    wt x d = (((if d then f else 1 - f) : ℝ) : EReal) := by
  unfold wt
  cases d
  · simp only [Bool.false_eq_true, if_false]; rw [hf, one_eq, EReal.coe_sub]
  · simp only [if_true]; exact hf

/-- The start index at a corner is the cell's line or the next one. -/
theorem fetch_cell (x : EReal) (j : ℕ) (hj : j ≤ 31) (hc : cell x = BitVec.ofNat 32 j) (d : Bool) :
    fetchIdx (cell x + bit d) = ⟨j + (if d then 1 else 0), by split <;> omega⟩ := by
  unfold bit
  cases d
  · simp only [Bool.false_eq_true, if_false, Nat.add_zero]
    rw [hc, BitVec.add_zero]
    exact fetch_small j (by omega)
  · simp only [if_true]
    rw [hc, ofNat_succ]
    exact fetch_small (j + 1) (by omega)

end Cert.Lut3
-- ==== Proof.Algebra.lean ====
import proofs.«140490_j86122684220303_2_alg».proof.Proof.Spec
import proofs.«140490_j86122684220303_2_alg».proof.Proof.TriSum
import proofs.«140490_j86122684220303_2_alg».proof.Proof.CellFacts
open Idealize.ShloMosaic

/-! On a table of real entries the sum over all grid lines and the sum over the cell's eight corners are one
    number.  The weights are real (the clamp makes the scaled value real), each axis's weights vanish off the two
    lines that bound the cell, and the start index at a corner is one of those two lines, neither wrapped nor
    clamped; the rest is the identity over the reals. The table's entries must be real: with an infinite entry off the
    cell the full sum has a product 0 * infinity and sums of both infinities, which the corner form never forms. -/

namespace Cert.Lut3

/-- The coercion of a finite real sum. -/
theorem coe_finset_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem viaOneHot_eq_viaCorners (xr xg xb : EReal) (L : Fin 33 → Fin 33 → Fin 33 → EReal)
    (hL : ∀ b g r, ∃ l : ℝ, L b g r = (l : EReal)) : viaOneHot xr xg xb L = viaCorners xr xg xb L := by
  choose l hl using hL
  obtain ⟨jr, hjr, hcr⟩ := cell_small xr
  obtain ⟨jg, hjg, hcg⟩ := cell_small xg
  obtain ⟨jb, hjb, hcb⟩ := cell_small xb
  obtain ⟨fr, hfr⟩ := frac_real xr
  obtain ⟨fg, hfg⟩ := frac_real xg
  obtain ⟨fb, hfb⟩ := frac_real xb
  have hone : viaOneHot xr xg xb L
      = ((∑ b : Fin 33, (∑ g : Fin 33, ∑ r : Fin 33, l b g r * (tent jg (1 - fg) fg g * tent jr (1 - fr) fr r))
            * tent jb (1 - fb) fb b : ℝ) : EReal) := by
    unfold viaOneHot
    simp only [hl, hat_coe xr jr hjr hcr fr hfr, hat_coe xg jg hjg hcg fg hfg, hat_coe xb jb hjb hcb fb hfb,
      coe_finset_sum, EReal.coe_mul]
  rw [hone, tri_sum jr jg jb hjr hjg hjb]
  unfold viaCorners corner
  simp only [hl, wt_coe xr fr hfr, wt_coe xg fg hfg, wt_coe xb fb hfb, fetch_cell xr jr hjr hcr, fetch_cell xg jg hjg hcg,
    fetch_cell xb jb hjb hcb, Bool.false_eq_true, if_false, if_true, Nat.add_zero, EReal.coe_add, EReal.coe_mul, EReal.coe_zero]

end Cert.Lut3
-- ==== Proof.Finite.lean ====
import proofs.«140490_j86122684220303_2_alg».proof.Pre_finite_inputs
import Idealize.ShloMosaic.Lib.ReduceAll
import Idealize.ShloMosaic.Lib.ValueIdx
import Idealize.ShloMosaic.Lib.Pipeline.Value
import Idealize.ShloMosaic.PureOps.Ideal
open Idealize.ShloMosaic

/-! The precondition read at one entry of the table: the printed predicate is the conjunction of two "all entries have
    absolute value below +infinity"; an entry whose absolute value max(x, -x) is below +infinity is neither infinity,
    so it is a real number. -/

namespace Cert.Lut3

instance : Subsingleton Cert.Pre_finite_inputs.S_.Idx := ⟨fun _ _ => funext fun d => d.elim0⟩

theorem inf_pattern : Ideal.ofBits .f32 0x7F800000#32 = (⊤ : EReal) := by
  simp [Ideal.ofBits, Ideal.ieee]

/-- An extended real whose absolute value is below +infinity is a real. -/
theorem real_of_abs_lt_top (x : EReal) (h : max x (-x) < ⊤) : ∃ r : ℝ, x = (r : EReal) := by
  have h1 : x < ⊤ := lt_of_le_of_lt (le_max_left _ _) h
  have h2 : -x < ⊤ := lt_of_le_of_lt (le_max_right _ _) h
  have hb : x ≠ ⊥ := by
    rintro rfl
    simp at h2
  exact ⟨x.toReal, (EReal.coe_toReal (ne_of_lt h1) hb).symm⟩

/-- Under the precondition every entry of the table is a real number. -/
theorem table_real [Cert.Pre_finite_inputs.Facts] (x : FVec Ideal Cert.Pre_finite_inputs.S4x3x1080x1920 .f32)
    (lut : FVec Ideal Cert.Pre_finite_inputs.S3x33x33x33 .f32)
    (h : Cert.Pre_finite_inputs.fn (F := Ideal) x lut = fun _ => 1#1) (i : Cert.Pre_finite_inputs.S3x33x33x33.Idx) :
    ∃ r : ℝ, lut i = (r : EReal) := by
  have h0 := congrFun h ValueIdx.ix0
  dsimp only [Cert.Pre_finite_inputs.fn] at h0
  have h1 := (IntOp.andi_eq_one.1 h0).2
  have h2 := Host.reduce_andi_all _ _ _ _ _ h1 i
  apply real_of_abs_lt_top
  have h3 : Ideal.cmp .olt (max (lut i) (-(lut i))) (Ideal.ofBits .f32 0x7F800000#32) = 1#1 := h2
  rw [inf_pattern] at h3
  simp only [Ideal.cmp] at h3
  by_contra hc
  rw [decide_eq_false hc] at h3
  exact absurd h3 (by decide)

end Cert.Lut3
-- ==== Proof.KBodyCell.lean ====
/-
  The pointwise part of the one-hot program, read at an index.

  Each channel value is clamped to [0, 1] and scaled by 32; its floor, clamped to 0 .. 31, is the grid cell and the
  remainder the position inside it.  Read at pixel p of channel c these are the specification's `scaled`, `cell`
  and `frac` of the channel value; the rows cut out for the three channels read the same values; and the two nested
  selects against the row counter of a [33, 2048] array are the specification's `hat` of the grid line.
-/
import proofs.«140490_j86122684220303_2_alg».proof.Proof.Gen.KernelIdeal.Skeleton
import proofs.«140490_j86122684220303_2_alg».proof.Proof.Spec
import Idealize.ShloMosaic.Lib.Pipeline.Value

noncomputable section

open Cert.KernelIdeal Cert.KernelIdeal.Gen Idealize.ShloMosaic Idealize.ShloMosaic.ValueIdx
namespace Cert.Lut3.KBody

/-- A row vector [1, 2048] broadcast down 33 rows reads the row. -/
theorem bc33_at {α : Type} (v : S1x2048.Idx → α) (h : S1x2048.Broadcasts S33x2048) (k : Fin 33) (p : Fin 2048) :
    broadcastTo S33x2048 v h (ix2 k p) = v (ix2 (0 : Fin 1) p) :=
  broadcastTo_apply v h (ix2 k p) (ix2 (0 : Fin 1) p) (fun a => by
    match a with
    | ⟨0, _⟩ => rfl
    | ⟨1, _⟩ => rfl)

/-- The row counter of a [33, 2048] array. -/
theorem iota33_at (h : S33x2048.Iotas .tc 32 [0]) (k : Fin 33) (p : Fin 2048) :
    iota .tc S33x2048 32 [0] h (ix2 k p) = BitVec.ofNat 32 k.val :=
  iota_single_apply .tc S33x2048 32 0 h (ix2 k p)

/-- Row r of a [3, 2048] array cut out as a [1, 2048] array. -/
theorem row0_at {α : Type} (v : S3x2048.Idx → α) (h : S3x2048.Slices ![0, 0] S1x2048) (z : Fin 1) (p : Fin 2048) :
    extractStridedSlice S1x2048 ![0, 0] v h (ix2 z p) = v (ix2 (0 : Fin 3) p) :=
  extractStridedSlice_apply ![0, 0] v h (ix2 z p) (ix2 (0 : Fin 3) p) (fun a => by
    match a with
    | ⟨0, _⟩ => show (0 : ℕ) = 0 + z.val; omega
    | ⟨1, _⟩ => show p.val = 0 + p.val; omega)
theorem row1_at {α : Type} (v : S3x2048.Idx → α) (h : S3x2048.Slices ![1, 0] S1x2048) (z : Fin 1) (p : Fin 2048) :
    extractStridedSlice S1x2048 ![1, 0] v h (ix2 z p) = v (ix2 (1 : Fin 3) p) :=
  extractStridedSlice_apply ![1, 0] v h (ix2 z p) (ix2 (1 : Fin 3) p) (fun a => by
    match a with
    | ⟨0, _⟩ => show (1 : ℕ) = 1 + z.val; omega
    | ⟨1, _⟩ => show p.val = 0 + p.val; omega)
theorem row2_at {α : Type} (v : S3x2048.Idx → α) (h : S3x2048.Slices ![2, 0] S1x2048) (z : Fin 1) (p : Fin 2048) :
    extractStridedSlice S1x2048 ![2, 0] v h (ix2 z p) = v (ix2 (2 : Fin 3) p) :=
  extractStridedSlice_apply ![2, 0] v h (ix2 z p) (ix2 (2 : Fin 3) p) (fun a => by
    match a with
    | ⟨0, _⟩ => show (2 : ℕ) = 2 + z.val; omega
    | ⟨1, _⟩ => show p.val = 0 + p.val; omega)

/-- Two nested selects on equality tests are the two-way case distinction. -/
theorem cmpi_eq_one (a b : BitVec 32) : (IntOp.cmpi .eq a b = (1 : BitVec 1)) ↔ a = b := by
  unfold IntOp.cmpi
  by_cases h : a = b
  · subst h; simp
  · have hb : (a == b) = false := beq_eq_false_iff_ne.mpr h
    simp [hb, h]

theorem select_hat {α : Type} (a b b' : BitVec 32) (u w z : α) :
    Scalar.select (IntOp.cmpi .eq a b) u (Scalar.select (IntOp.cmpi .eq a b') w z)
      = if a = b then u else if a = b' then w else z := by
  unfold Scalar.select
  simp only [cmpi_eq_one]

theorem pay2_at (x0 : Vec Ideal S3x2048 .f32) (c : Fin 3) (p : Fin 2048) :
    k0_pay2 (F := Ideal) x0 (ix2 c p) = Cert.Lut3.scaled (x0 (ix2 c p)) := by
  unfold k0_pay2
  simp only [shapeCast_self]
  show min Cert.Lut3.one (max (Ideal.ofBits .f32 0x00000000#32) (x0 (ix2 c p))) * Cert.Lut3.c32 = _
  rw [Ideal.ofBits_zero_f32]; rfl

theorem pay3_at (x0 : Vec Ideal S3x2048 .f32) (c : Fin 3) (p : Fin 2048) :
    k0_pay3 (F := Ideal) x0 (ix2 c p) = Cert.Lut3.cell (x0 (ix2 c p)) := by
  unfold k0_pay3
  show IntOp.minsi 31#32 (IntOp.maxsi 0#32 (Ideal.fptosi 32 (Ideal.liftRound Int.floor (k0_pay2 (F := Ideal) x0 (ix2 c p))))) = _
  rw [pay2_at]; rfl

theorem pay4_at (x0 : Vec Ideal S3x2048 .f32) (c : Fin 3) (p : Fin 2048) :
    k0_pay4 (F := Ideal) x0 (ix2 c p) = Cert.Lut3.frac (x0 (ix2 c p)) := by
  unfold k0_pay4
  show k0_pay2 (F := Ideal) x0 (ix2 c p) - (((k0_pay3 (F := Ideal) x0 (ix2 c p)).toInt : ℝ) : EReal) = _
  rw [pay2_at, pay3_at]; rfl

theorem cmpi_apply {s : Shape} {w : Nat} (q : CmpIPredicate) (x y : IVec s w) (i : s.Idx) :
    cmpi q x y i = IntOp.cmpi q (x i) (y i) := rfl
theorem addi_apply {s : Shape} {w : Nat} (x y : IVec s w) (i : s.Idx) : addi x y i = x i + y i := rfl

theorem pay5_at (x0 : Vec Ideal S3x2048 .f32) (z : Fin 1) (p : Fin 2048) :
    k0_pay5 (F := Ideal) x0 (ix2 z p) = Cert.Lut3.cell (x0 (ix2 (1 : Fin 3) p)) := by
  unfold k0_pay5
  exact (row1_at _ _ z p).trans (pay3_at x0 1 p)
theorem pay6_at (x0 : Vec Ideal S3x2048 .f32) (z : Fin 1) (p : Fin 2048) :
    k0_pay6 (F := Ideal) x0 (ix2 z p) = Cert.Lut3.cell (x0 (ix2 (2 : Fin 3) p)) := by
  unfold k0_pay6
  exact (row2_at _ _ z p).trans (pay3_at x0 2 p)
theorem pay7_at (x0 : Vec Ideal S3x2048 .f32) (z : Fin 1) (p : Fin 2048) :
    k0_pay7 (F := Ideal) x0 (ix2 z p) = Cert.Lut3.frac (x0 (ix2 (1 : Fin 3) p)) := by
  unfold k0_pay7
  exact (row1_at _ _ z p).trans (pay4_at x0 1 p)
theorem pay8_at (x0 : Vec Ideal S3x2048 .f32) (z : Fin 1) (p : Fin 2048) :
    k0_pay8 (F := Ideal) x0 (ix2 z p) = Cert.Lut3.frac (x0 (ix2 (2 : Fin 3) p)) := by
  unfold k0_pay8
  exact (row2_at _ _ z p).trans (pay4_at x0 2 p)

theorem pay9_at (x0 : Vec Ideal S3x2048 .f32) (k : Fin 33) (p : Fin 2048) :
    k0_pay9 (F := Ideal) x0 (ix2 k p) = Cert.Lut3.hat (x0 (ix2 (0 : Fin 3) p)) (BitVec.ofNat 32 k.val) := by
  unfold k0_pay9
  simp only [shapeCast_self, select_apply, cmpi_apply, addi_apply, subf_apply, broadcast_apply, bc33_at, iota33_at, row0_at,
    pay3_at, pay4_at, select_hat]
  rw [iota33_at iota_S33x2048_d0_w32 k p]
  show (if _ then Cert.Lut3.one - _ else if _ then _ else Ideal.ofBits .f32 0x00000000#32) = _
  rw [Ideal.ofBits_zero_f32]; rfl

theorem pay10_at (x0 : Vec Ideal S3x2048 .f32) (k : Fin 33) (p : Fin 2048) :
    k0_pay10 (F := Ideal) x0 (ix2 k p)
      = IntOp.cmpi .eq (BitVec.ofNat 32 k.val) (Cert.Lut3.cell (x0 (ix2 (1 : Fin 3) p))) := by
  unfold k0_pay10
  simp only [cmpi_apply, bc33_at, pay5_at]
  rw [iota33_at iota_S33x2048_d0_w32 k p]

theorem pay11_at (x0 : Vec Ideal S3x2048 .f32) (k : Fin 33) (p : Fin 2048) :
    k0_pay11 (F := Ideal) x0 (ix2 k p)
      = IntOp.cmpi .eq (BitVec.ofNat 32 k.val) (Cert.Lut3.cell (x0 (ix2 (1 : Fin 3) p)) + 1#32) := by
  unfold k0_pay11
  simp only [cmpi_apply, addi_apply, broadcast_apply, bc33_at, pay5_at]
  rw [iota33_at iota_S33x2048_d0_w32 k p]

theorem pay12_at (x0 : Vec Ideal S3x2048 .f32) (z : Fin 1) (p : Fin 2048) :
    k0_pay12 (F := Ideal) x0 (ix2 z p) = Cert.Lut3.one - Cert.Lut3.frac (x0 (ix2 (1 : Fin 3) p)) := by
  unfold k0_pay12
  simp only [subf_apply, broadcast_apply, pay7_at]
  rfl

end Cert.Lut3.KBody
end
-- ==== Proof.KBodyLayout.lean ====
/-
  The layout operations of the one-hot program, each read at an index written by coordinates.

  The sum over the 33 grid lines of the b axis; the four changes of view ([33, 2048] as [33, 1, 2048] and as
  [1, 33, 2048], [33, 33, 2048] as [1089, 2048] with row 33 g + r, [99, 2048] as [3, 33, 2048] with row 33 c + b);
  the three broadcasts along a unit axis; and the sum over the 1089 rows as the double sum over (g, r).
-/
import proofs.«140490_j86122684220303_2_alg».proof.Proof.Gen.KernelIdeal.Skeleton
import proofs.«140490_j86122684220303_2_alg».proof.Proof.Spec
import Idealize.ShloMosaic.Lib.Pipeline.Value
import Idealize.ShloMosaic.PureOps.Ideal.Laws

noncomputable section

open Cert.KernelIdeal Cert.KernelIdeal.Gen Idealize.ShloMosaic Idealize.ShloMosaic.ValueIdx
namespace Cert.Lut3.KBody

/-- The sum over the middle axis of a [3, 33, 2048] array, read at (c, p). -/
theorem reduce_at (w : FVec Ideal S3x33x2048 .f32) (h : S3x33x2048.Reduces [1] S3x2048) (hφ : FKind.Formats .f32)
    (hacc : (0x00000000#32 : BitVec 32) = FKind.add.neutral .f32 hφ) (c : Fin 3) (p : Fin 2048) :
    multiReduction (F := Ideal) .add [1] S3x2048 w 0x00000000#32 h hφ hacc (ix2 c p) = ∑ b : Fin 33, w (ix3 c b p) := by
  refine (Ideal.multiReduction_add_single w 0x00000000#32 h hφ hacc (ix2 c p)).trans ?_
  refine Finset.sum_congr rfl fun b _ => congrArg w ?_
  funext a
  match a with
  | ⟨0, _⟩ => rfl
  | ⟨1, _⟩ => rfl
  | ⟨2, _⟩ => rfl

/-- [99, 2048] viewed as [3, 33, 2048]: entry (c, b, p) is row 33 c + b. -/
theorem cast99_at {α : Type} (v : S99x2048.Idx → α) (h : S99x2048.ShapeCasts S3x33x2048) (c : Fin 3) (b : Fin 33) (p : Fin 2048) :
    shapeCast S3x33x2048 v h (ix3 c b p) = v (ix2 (Cert.Lut3.lutRow c b) p) :=
  shapeCast_apply v h (ix3 c b p) (ix2 (Cert.Lut3.lutRow c b) p) (by
    rw [Shape.rowMajor_val_two, Shape.rowMajor_val_three]
    show (c.val * 33 + b.val) * 2048 + p.val = (c.val * 33 + b.val) * 2048 + p.val
    rfl)

/-- [33, 33, 2048] viewed as [1089, 2048]: row 33 g + r is entry (g, r, p). -/
theorem cast1089_at {α : Type} (v : S33x33x2048.Idx → α) (h : S33x33x2048.ShapeCasts S1089x2048) (g r : Fin 33) (p : Fin 2048) :
    shapeCast S1089x2048 v h (ix2 (Cert.Lut3.lutCol g r) p) = v (ix3 g r p) :=
  shapeCast_apply v h (ix2 (Cert.Lut3.lutCol g r) p) (ix3 g r p) (by
    rw [Shape.rowMajor_val_two, Shape.rowMajor_val_three]
    show (g.val * 33 + r.val) * 2048 + p.val = (g.val * 33 + r.val) * 2048 + p.val
    rfl)

/-- [33, 2048] viewed as [33, 1, 2048]. -/
theorem castCol_at {α : Type} (v : S33x2048.Idx → α) (h : S33x2048.ShapeCasts S33x1x2048) (g : Fin 33) (z : Fin 1) (p : Fin 2048) :
    shapeCast S33x1x2048 v h (ix3 g z p) = v (ix2 g p) :=
  shapeCast_apply v h (ix3 g z p) (ix2 g p) (by
    rw [Shape.rowMajor_val_two, Shape.rowMajor_val_three]
    show g.val * 2048 + p.val = (g.val * 1 + z.val) * 2048 + p.val
    have := z.isLt; omega)

/-- [33, 2048] viewed as [1, 33, 2048]. -/
theorem castRow_at {α : Type} (v : S33x2048.Idx → α) (h : S33x2048.ShapeCasts S1x33x2048) (z : Fin 1) (r : Fin 33) (p : Fin 2048) :
    shapeCast S1x33x2048 v h (ix3 z r p) = v (ix2 r p) :=
  shapeCast_apply v h (ix3 z r p) (ix2 r p) (by
    rw [Shape.rowMajor_val_two, Shape.rowMajor_val_three]
    show r.val * 2048 + p.val = (z.val * 33 + r.val) * 2048 + p.val
    have := z.isLt; omega)

/-- [33, 1, 2048] broadcast along the middle axis. -/
theorem bcCol_at {α : Type} (v : S33x1x2048.Idx → α) (h : S33x1x2048.Broadcasts S33x33x2048) (g r : Fin 33) (p : Fin 2048) :
    broadcastTo S33x33x2048 v h (ix3 g r p) = v (ix3 g (0 : Fin 1) p) :=
  broadcastTo_apply v h (ix3 g r p) (ix3 g (0 : Fin 1) p) (fun a => by
    match a with
    | ⟨0, _⟩ => rfl
    | ⟨1, _⟩ => rfl
    | ⟨2, _⟩ => rfl)

/-- [1, 33, 2048] broadcast along the leading axis to 33 copies. -/
theorem bcRow_at {α : Type} (v : S1x33x2048.Idx → α) (h : S1x33x2048.Broadcasts S33x33x2048) (g r : Fin 33) (p : Fin 2048) :
    broadcastTo S33x33x2048 v h (ix3 g r p) = v (ix3 (0 : Fin 1) r p) :=
  broadcastTo_apply v h (ix3 g r p) (ix3 (0 : Fin 1) r p) (fun a => by
    match a with
    | ⟨0, _⟩ => rfl
    | ⟨1, _⟩ => rfl
    | ⟨2, _⟩ => rfl)

/-- [1, 33, 2048] broadcast along the leading axis to 3 copies. -/
theorem bcRow3_at {α : Type} (v : S1x33x2048.Idx → α) (h : S1x33x2048.Broadcasts S3x33x2048) (c : Fin 3) (b : Fin 33) (p : Fin 2048) :
    broadcastTo S3x33x2048 v h (ix3 c b p) = v (ix3 (0 : Fin 1) b p) :=
  broadcastTo_apply v h (ix3 c b p) (ix3 (0 : Fin 1) b p) (fun a => by
    match a with
    | ⟨0, _⟩ => rfl
    | ⟨1, _⟩ => rfl
    | ⟨2, _⟩ => rfl)

/-- The pairs (g, r) of grid lines and the 1089 columns k = 33 g + r. -/
def grEquiv : Fin 33 × Fin 33 ≃ Fin 1089 where
  toFun x := Cert.Lut3.lutCol x.1 x.2
  invFun k := (⟨k.val / 33, by have := k.isLt; omega⟩, ⟨k.val % 33, Nat.mod_lt _ (by decide)⟩)
  left_inv x := by
    obtain ⟨g, r⟩ := x
    refine Prod.ext (Fin.ext ?_) (Fin.ext ?_)
    · show (g.val * 33 + r.val) / 33 = g.val
      have := r.isLt; omega
    · show (g.val * 33 + r.val) % 33 = r.val
      have := r.isLt; omega
  right_inv k := by
    refine Fin.ext ?_
    show k.val / 33 * 33 + k.val % 33 = k.val
    omega

/-- A sum over the 1089 columns is the double sum over the pairs of grid lines. -/
theorem sum1089 {M : Type*} [AddCommMonoid M] (f : Fin 1089 → M) :
    ∑ k : Fin 1089, f k = ∑ g : Fin 33, ∑ r : Fin 33, f (Cert.Lut3.lutCol g r) := by
  rw [← Equiv.sum_comp grEquiv f, Fintype.sum_prod_type]
  rfl

end Cert.Lut3.KBody
end
-- ==== Proof.KBodyMatmul.lean ====
/-
  The product of the [99, 1089] table by the [1089, 2048] weights into the zero accumulator, read at (row, p):
  over the extended reals it is the plain sum over the 1089 contracted positions of the products of the entries.
-/
import proofs.«140490_j86122684220303_2_alg».proof.Proof.Gen.KernelIdeal.Skeleton
import proofs.«140490_j86122684220303_2_alg».proof.Proof.Spec
import Idealize.ShloMosaic.Lib.Pipeline.Value
import Idealize.ShloMosaic.PureOps.Ideal.Laws

noncomputable section

open Cert.KernelIdeal Cert.KernelIdeal.Gen Idealize.ShloMosaic Idealize.ShloMosaic.ValueIdx
namespace Cert.Lut3.KBody

/-- The dimension numbers of the [99, 1089] by [1089, 2048] product. -/
abbrev DD : DotDims S99x1089 S1089x2048 S99x2048 := dot_S99x1089_S1089x2048_S99x2048_1_0_0_1_n_n

theorem lhs_0 (i : S99x2048.Idx) (q : DD.contr.Idx) : (DD.lhsIdx i q 0).val = (i 0).val := by
  unfold DotDims.lhsIdx
  rw [dif_neg (show ¬(0 : Fin S99x1089.rank) ∈ DD.lhsBatch by decide), dif_pos (show (0 : Fin S99x1089.rank) ∈ DD.lhsNonContracting by decide)]
  rfl
theorem lhs_1 (i : S99x2048.Idx) (q : DD.contr.Idx) : (DD.lhsIdx i q 1).val = (q ⟨0, by decide⟩).val :=
  DD.lhsIdx_val_of_single rfl i q
theorem rhs_0 (i : S99x2048.Idx) (q : DD.contr.Idx) : (DD.rhsIdx i q 0).val = (q ⟨0, by decide⟩).val :=
  DD.rhsIdx_val_of_single rfl i q
theorem rhs_1 (i : S99x2048.Idx) (q : DD.contr.Idx) : (DD.rhsIdx i q 1).val = (i 1).val := by
  unfold DotDims.rhsIdx
  rw [dif_neg (show ¬(1 : Fin S1089x2048.rank) ∈ DD.rhsBatch by decide), dif_pos (show (1 : Fin S1089x2048.rank) ∈ DD.rhsNonContracting by decide)]
  rfl

/-- The product into the zero accumulator, read at (row, p): the sum over the 1089 columns. -/
theorem matmul_at (A : FVec Ideal S99x1089 .bf16) (B : FVec Ideal S1089x2048 .bf16) (row : Fin 99) (p : Fin 2048) :
    matmul (F := Ideal) dot_S99x1089_S1089x2048_S99x2048_1_0_0_1_n_n none A B (constant (F := Ideal) S99x2048 .f32 0x00000000#32) (ix2 row p)
      = ∑ k : Fin 1089, A (ix2 row k) * B (ix2 k p) := by
  show FloatOps.matmul DD none A B _ (ix2 row p) = _
  rw [Ideal.matmul_constant_zero_apply, ← Equiv.sum_comp (contrEquiv1 DD 1089 rfl rfl).symm]
  refine Finset.sum_congr rfl fun k _ => ?_
  have hk := contrEquiv1_symm_val DD 1089 rfl rfl k
  have el : DD.lhsIdx (ix2 row p) ((contrEquiv1 DD 1089 rfl rfl).symm k) = ix2 row k := funext fun a => Fin.ext (by
    match a with
    | ⟨0, _⟩ => exact lhs_0 _ _
    | ⟨1, _⟩ => exact (lhs_1 _ _).trans hk)
  have er : DD.rhsIdx (ix2 row p) ((contrEquiv1 DD 1089 rfl rfl).symm k) = ix2 k p := funext fun a => Fin.ext (by
    match a with
    | ⟨0, _⟩ => exact (rhs_0 _ _).trans hk
    | ⟨1, _⟩ => exact rhs_1 _ _)
  rw [el, er]

end Cert.Lut3.KBody
end
-- ==== Proof.KBody.lean ====
/-
  What the one-hot program leaves in its output block, read at an index.

  The block's one store covers it, so the block is the stored value; the loads read the two input blocks whole.
  At channel c and pixel p the stored value is the sum over the 33 lines b of (row 33 c + b of the table contracted
  over its 1089 columns against the products of the g and r weights) times the b weight; the 1089 columns are the
  pairs (g, r) with column 33 g + r, and the weights are the specification's `hat`: this is `viaOneHot`.
-/
import proofs.«140490_j86122684220303_2_alg».proof.Proof.Gen.KernelIdeal.Frame
import proofs.«140490_j86122684220303_2_alg».proof.Proof.Spec
import Idealize.ShloMosaic.Lib.Pipeline.Value
import proofs.«140490_j86122684220303_2_alg».proof.Proof.KBodyCell
import proofs.«140490_j86122684220303_2_alg».proof.Proof.KBodyLayout
import proofs.«140490_j86122684220303_2_alg».proof.Proof.KBodyMatmul

noncomputable section

open Cert.KernelIdeal Cert.KernelIdeal.Gen Idealize.ShloMosaic Idealize.ShloMosaic.ValueIdx
namespace Cert.Lut3.KBody

/-- The stored value at (c, p), over any operands: the sum over the b lines of the table row 33 c + b contracted
    against the products of the g and r weights, times the b weight. -/
theorem pay1_at (v18 : IVec S1x2048 32) (v20 v21 : FVec Ideal S1x2048 .f32) (v22 : IVec S33x2048 32) (v37 : FVec Ideal S33x2048 .f32)
    (v39 v43 : IVec S33x2048 1) (v45 : FVec Ideal S1x2048 .f32) (cst_7 : Ideal .f32) (v76 : Vec Ideal S99x1089 .bf16) (c : Fin 3) (p : Fin 2048) :
    k0_pay1 (F := Ideal) v18 v20 v21 v22 v37 v39 v43 v45 cst_7 v76 (ix2 c p)
      = ∑ b : Fin 33, (∑ g : Fin 33, ∑ r : Fin 33, v76 (ix2 (Cert.Lut3.lutRow c b) (Cert.Lut3.lutCol g r))
            * (Scalar.select (v39 (ix2 g p)) (v45 (ix2 (0 : Fin 1) p)) (Scalar.select (v43 (ix2 g p)) (v20 (ix2 (0 : Fin 1) p)) cst_7)
                * v37 (ix2 r p)))
          * (if v22 (ix2 b p) = v18 (ix2 (0 : Fin 1) p) then Ideal.ofBits .f32 0x3F800000#32 - v21 (ix2 (0 : Fin 1) p)
             else if v22 (ix2 b p) = v18 (ix2 (0 : Fin 1) p) + 1#32 then v21 (ix2 (0 : Fin 1) p) else Ideal.ofBits .f32 0x00000000#32) := by
  unfold k0_pay1
  simp only [shapeCast_self]
  refine (reduce_at _ _ _ _ c p).trans ?_
  conv_lhs =>
    arg 2
    ext b
    rw [mulf_apply, cast99_at, matmul_at, sum1089]
  simp only [cast1089_at, mulf_apply, bcCol_at, bcRow_at, castCol_at, castRow_at, truncf_apply, bcRow3_at, select_apply,
    cmpi_apply, addi_apply, subf_apply, broadcast_apply, bc33_at, select_hat, Ideal.ofBits_def]

/-- The zero offsets of the whole-block rectangle. -/
theorem hz : (![0, 0] : Fin 2 → Nat) = fun _ => 0 := by
  funext a
  match a with
  | ⟨0, _⟩ => rfl
  | ⟨1, _⟩ => rfl

/-- The output block at (c, p) is the one-hot sum of the specification at the pixel's three channel values and channel
    c's table rows. -/
theorem out_at [Cert.KernelIdeal.Facts] (x0 : Vec Ideal S3x2048 .f32) (x1 : Vec Ideal S99x1089 .bf16) (c : Fin 3) (p : Fin 2048) :
    out0_2 (F := Ideal) x0 x1 (ix2 c p)
      = Cert.Lut3.viaOneHot (x0 (ix2 (0 : Fin 3) p)) (x0 (ix2 (1 : Fin 3) p)) (x0 (ix2 (2 : Fin 3) p))
          (fun b g r => x1 (ix2 (Cert.Lut3.lutRow c b) (Cert.Lut3.lutCol g r))) := by
  unfold out0_2
  rw [View.canon_unit_zero hz]
  simp only [View.ld_unit_zero (S := S3x2048) hz, View.ld_unit_zero (S := S99x1089) hz]
  rw [pay1_at]
  simp only [pay6_at, pay7_at, pay8_at, pay9_at, pay10_at, pay11_at, pay12_at, select_hat, Ideal.ofBits_def, Ideal.ofBits_zero_f32]
  conv_lhs =>
    arg 2
    ext b
    rw [iota33_at iota_S33x2048_d0_w32 b p]
  rfl
end Cert.Lut3.KBody
end
-- ==== Proof.KArrayHost.lean ====
/-
  The host operations before the pipelined region, read at an index.

  The image [4, 3, 1080, 1920] is transposed to channel-major [3, 4, 1080, 1920] and flattened to [3, P],
  P = 4 * 1080 * 1920 = 8294400: row k, column (n * 1080 + h) * 1920 + w of the flattened array is the image's
  entry (n, k, h, w).  The table [3, 33, 33, 33] is flattened to [99, 1089] and converted to the narrower float
  format, which over the extended reals changes nothing: row c * 33 + b, column g * 33 + r is the table's entry
  (c, b, g, r).  Also here: where each window's block sits at a grid point, decided once over the 4050 points.
-/
import proofs.«140490_j86122684220303_2_alg».proof.Proof.Gen.KernelIdeal.Frame
import proofs.«140490_j86122684220303_2_alg».proof.Proof.Spec
import Idealize.ShloMosaic.Lib.Pipeline.Value

noncomputable section

namespace Cert.Lut3.KArray

open Cert.KernelIdeal Cert.KernelIdeal.Gen Idealize.ShloMosaic Idealize.ShloMosaic.ValueIdx Idealize.SL.Sem

variable (m : (ℓ : Loc nD τ sig) → Buf (Elt Ideal) ℓ)

/-- The [3, P] array the region finds: the image transposed to channel-major, then flattened. -/
theorem found_image (c : Dev nD) :
    (V m c main_v1 : S3x8294400.Idx → EReal)
      = shapeCast S3x8294400 (transpose S3x4x1080x1920 [1, 0, 2, 3] (m ((c.tc : Thread nD τ).loc main_arg0))
          transposes_S4x3x1080x1920_S3x4x1080x1920_1_0_2_3) shapeCasts_S3x4x1080x1920_S3x8294400 := by
  show StableHlo.after hostOps0 (fun b => m (c, b)) (Proc.devRef .tc main_v1) = _
  after_results
  rfl

/-- The [99, 1089] array the region finds: the table flattened, then converted to the narrower format. -/
theorem found_table (c : Dev nD) :
    (V m c main_v3 : S99x1089.Idx → EReal)
      = (truncf .bf16 (shapeCast S99x1089 (m ((c.tc : Thread nD τ).loc main_arg1)) shapeCasts_S3x33x33x33_S99x1089 : FVec Ideal S99x1089 .f32)
          bitsLt_bf16_f32 : FVec Ideal S99x1089 .bf16) := by
  show StableHlo.after hostOps0 (fun b => m (c, b)) (Proc.devRef .tc main_v3) = _
  after_results
  rfl

/-- The flattened image at row k, column (n * 1080 + h) * 1920 + w is the image at (n, k, h, w): the two row-major
    positions agree, and the transpose exchanges the first two coordinates. -/
theorem read_image (X : S4x3x1080x1920.Idx → EReal) (n : Fin 4) (k : Fin 3) (h : Fin 1080) (w : Fin 1920) (P : Fin 8294400)
    (hP : P.val = (n.val * 1080 + h.val) * 1920 + w.val) :
    shapeCast S3x8294400 (transpose S3x4x1080x1920 [1, 0, 2, 3] X transposes_S4x3x1080x1920_S3x4x1080x1920_1_0_2_3)
        shapeCasts_S3x4x1080x1920_S3x8294400 (ix2 k P) = X (ix4 n k h w) := by
  refine (shapeCast_apply _ _ (ix2 k P) (ix4 k n h w) ?_).trans ?_
  · rw [Shape.rowMajor_val_four, Shape.rowMajor_val_two]
    show ((k.val * 4 + n.val) * 1080 + h.val) * 1920 + w.val = k.val * 8294400 + P.val
    omega
  · refine transpose_apply _ X _ (ix4 k n h w) (ix4 n k h w) fun b => ?_
    match b with
    | ⟨0, _⟩ => rfl
    | ⟨1, _⟩ => rfl
    | ⟨2, _⟩ => rfl
    | ⟨3, _⟩ => rfl

/-- The flattened table at row c * 33 + b, column g * 33 + r is the table at (c, b, g, r); the format conversion is
    the identity on the extended reals. -/
theorem read_table (L : S3x33x33x33.Idx → EReal) (c : Fin 3) (b g r : Fin 33) :
    (truncf .bf16 (shapeCast S99x1089 L shapeCasts_S3x33x33x33_S99x1089 : FVec Ideal S99x1089 .f32)
          bitsLt_bf16_f32 : FVec Ideal S99x1089 .bf16) (ix2 (Cert.Lut3.lutRow c b) (Cert.Lut3.lutCol g r)) = L (ix4 c b g r) := by
  rw [truncf_apply]
  refine shapeCast_apply _ _ _ (ix4 c b g r) ?_
  rw [Shape.rowMajor_val_four, Shape.rowMajor_val_two]
  show ((c.val * 33 + b.val) * 33 + g.val) * 33 + r.val = (c.val * 33 + b.val) * 1089 + (g.val * 33 + r.val)
  omega

/-- The index maps, decided over the grid: at point t the image's and the result's blocks are columns
    2048 t .. 2048 t + 2047 of all three rows; the table's block is the whole table at every point. -/
theorem idx_facts : ∀ t : Fin cfg0.N, win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = t.val :=
  (by decide +kernel : ∀ t : Fin grid0.N, _)

end Cert.Lut3.KArray

end
-- ==== Proof.KArrayBlocks.lean ====
/-
  One grid point's result block as a piece of one whole-array function.

  `G V1 V3` is the [3, P] array whose entry (c, P) interpolates the three channel values in column P of `V1` in rows
  c * 33 .. c * 33 + 32 of the flattened table `V3`.  At grid point t the image block is columns 2048 t .. 2048 t + 2047
  of `V1` and the table block is all of `V3`, so what the point writes back, entry (c, p), is entry (c, 2048 t + p)
  of `G`: the block written at t is block t of `G`.
-/
import proofs.«140490_j86122684220303_2_alg».proof.Proof.KArrayHost

noncomputable section

namespace Cert.Lut3.KArray

open Cert.KernelIdeal Cert.KernelIdeal.Gen Idealize.ShloMosaic Idealize.ShloMosaic.ValueIdx Idealize.SL.Sem

/-- The body's result block at an index (c, p): the interpolation of the three channel values in column p of the
    image block, in channel c's rows of the table block. -/
def BodyAt [Cert.KernelIdeal.Facts] : Prop := ∀ (x0 : Vec Ideal S3x2048 .f32) (x1 : Vec Ideal S99x1089 .bf16) (c : Fin 3) (p : Fin 2048),
    out0_2 (F := Ideal) x0 x1 (ix2 c p)
      = Cert.Lut3.viaOneHot (x0 (ix2 (0 : Fin 3) p)) (x0 (ix2 (1 : Fin 3) p)) (x0 (ix2 (2 : Fin 3) p))
          (fun b g r => x1 (ix2 (Cert.Lut3.lutRow c b) (Cert.Lut3.lutCol g r)))

/-- The [3, P] result: entry (c, P) interpolates column P's three channel values in channel c's rows of the
    flattened table. -/
def G (V1 : S3x8294400.Idx → EReal) (V3 : S99x1089.Idx → EReal) : S3x8294400.Idx → EReal := fun i =>
  Cert.Lut3.viaOneHot (V1 (ix2 (n0 := 3) (n1 := 8294400) 0 ⟨(i 1).val, (i 1).isLt⟩)) (V1 (ix2 (n0 := 3) (n1 := 8294400) 1 ⟨(i 1).val, (i 1).isLt⟩))
      (V1 (ix2 (n0 := 3) (n1 := 8294400) 2 ⟨(i 1).val, (i 1).isLt⟩))
    (fun b g r => V3 (ix2 (Cert.Lut3.lutRow ⟨(i 0).val, (i 0).isLt⟩ b) (Cert.Lut3.lutCol g r)))

/-- `G` at an index written by coordinates. -/
theorem G_ix2 (V1 : S3x8294400.Idx → EReal) (V3 : S99x1089.Idx → EReal) (c : Fin 3) (P : Fin 8294400) :
    G V1 V3 (ix2 c P) = Cert.Lut3.viaOneHot (V1 (ix2 (0 : Fin 3) P)) (V1 (ix2 (1 : Fin 3) P)) (V1 (ix2 (2 : Fin 3) P))
      (fun b g r => V3 (ix2 (Cert.Lut3.lutRow c b) (Cert.Lut3.lutCol g r))) := rfl

/-- A result block over an image block that is columns 2048 T .. 2048 T + 2047 of `V1` and a table block that is
    `V3`: its entry j is `G`'s entry on the same row, 2048 T columns further. -/
theorem block_at [Cert.KernelIdeal.Facts] (hbody : BodyAt) (x0 : Vec Ideal S3x2048 .f32) (x1 : Vec Ideal S99x1089 .bf16)
    (V1 : S3x8294400.Idx → EReal) (V3 : S99x1089.Idx → EReal) (T : Nat)
    (h0 : ∀ (k : Fin 3) (p : Fin 2048) (P : Fin 8294400), P.val = T * 2048 + p.val → x0 (ix2 k p) = V1 (ix2 k P))
    (h1 : x1 = V3) (j : S3x2048.Idx) (i : S3x8294400.Idx) (hi0 : (i 0).val = (j 0).val) (hi1 : (i 1).val = T * 2048 + (j 1).val) :
    out0_2 (F := Ideal) x0 x1 j = G V1 V3 i := by
  obtain ⟨c, p, rfl⟩ : ∃ (c : Fin 3) (p : Fin 2048), j = ix2 c p := ⟨j 0, j 1, eq_ix2 j⟩
  obtain ⟨c', P, rfl⟩ : ∃ (c' : Fin 3) (P : Fin 8294400), i = ix2 c' P := ⟨i 0, i 1, eq_ix2 i⟩
  obtain rfl : c' = c := Fin.ext hi0
  rw [hbody x0 x1 c' p, G_ix2, h0 0 p P hi1, h0 1 p P hi1, h0 2 p P hi1, h1]

variable (m : (ℓ : Loc nD τ sig) → Buf (Elt Ideal) ℓ)

/-- The image block at point t, entry (k, p), is entry (k, 2048 t + p) of the [3, P] array the region finds. -/
theorem iblk0_apply (c : Dev nD) (t : Fin cfg0.N) (k : Fin 3) (p : Fin 2048) (P : Fin 8294400) (hP : P.val = t.val * 2048 + p.val) :
    (iblk m c 0 t : Vec Ideal S3x2048 .f32) (ix2 k p) = (V m c main_v1 : S3x8294400.Idx → EReal) (ix2 k P) := by
  obtain ⟨e00, e01, -⟩ := idx_facts t
  unfold iblk
  rw [View.read_apply]
  show V m c main_v1 _ = V m c main_v1 _
  congr 1
  funext a; apply Fin.ext
  match a with
  | ⟨0, _⟩ => show win0_0.index t (0 : Fin 2) * 3 + 1 * k.val = k.val; omega
  | ⟨1, _⟩ => show win0_0.index t (1 : Fin 2) * 2048 + 1 * p.val = P.val; omega

/-- The table block at every point is the whole [99, 1089] array the region finds. -/
theorem iblk1_eq (c : Dev nD) (t : Fin cfg0.N) :
    (iblk m c 1 t : Vec Ideal S99x1089 .bf16) = (V m c main_v3 : S99x1089.Idx → EReal) := by
  obtain ⟨-, -, e10, e11, -⟩ := idx_facts t
  funext y
  unfold iblk
  rw [View.read_apply]
  show V m c main_v3 _ = V m c main_v3 _
  congr 1
  funext a; apply Fin.ext
  match a with
  | ⟨0, _⟩ => show win0_1.index t (0 : Fin 2) * 99 + 1 * (y 0).val = (y 0).val; omega
  | ⟨1, _⟩ => show win0_1.index t (1 : Fin 2) * 1089 + 1 * (y 1).val = (y 1).val; omega

/-- What point t writes back is block t of `G` of the two arrays the region finds. -/
theorem flushed_eq [Cert.KernelIdeal.Facts] (hbody : BodyAt) (c : Dev nD) (t : Fin cfg0.N) :
    (dats m 0 c).flushed 2 t = ((cfg0.win 2).blk t).view.read (Elt Ideal) (G (V m c main_v1) (V m c main_v3)) := by
  show (cfg0.win 2).cut (grid0.coords t) ((dats m 0 c).after 2 t) = _
  rw [after0_2]
  obtain ⟨-, -, -, -, e20, e21⟩ := idx_facts t
  funext j
  show out0_2 (iblk m c 0 t) (iblk m c 1 t) ((cfg0.win 2).xinj (grid0.coords t) j) = G (V m c main_v1) (V m c main_v3) (((cfg0.win 2).blk t).view.emb j)
  refine block_at hbody (iblk m c 0 t) (iblk m c 1 t) (V m c main_v1) (V m c main_v3) t.val (iblk0_apply m c t) (iblk1_eq m c t) _ _ ?_ ?_
  · show win0_2.index t (0 : Fin 2) * 3 + 1 * (j (0 : Fin 2)).val = (j (0 : Fin 2)).val; omega
  · show win0_2.index t (1 : Fin 2) * 2048 + 1 * (j (1 : Fin 2)).val = t.val * 2048 + (j (1 : Fin 2)).val; omega

end Cert.Lut3.KArray

end
-- ==== Proof.KArray.lean ====
/-
  The kernel's whole result array.

  The pipelined region runs the body at 4050 grid points; point t writes columns 2048 t .. 2048 t + 2047 of the [3, P]
  result, P = 8294400, and those blocks tile it: column P lies in the block of point P / 2048.  Every block is a block
  of one function `G` of the two arrays the region finds, so the [3, P] array ends holding `G`.  The host operations
  after the region reshape it to [3, 4, 1080, 1920] and transpose it to [4, 3, 1080, 1920]: the result's entry
  (n, c, h, w) is entry (c, (n * 1080 + h) * 1920 + w) of `G`, which interpolates the image's three channel values at
  (n, ., h, w) in channel c's table — the specification's `resultOf viaOneHot`.
-/
import proofs.«140490_j86122684220303_2_alg».proof.Proof.KArrayBlocks

noncomputable section

namespace Cert.Lut3.KArray

open Cert.KernelIdeal Cert.KernelIdeal.Gen Idealize.ShloMosaic Idealize.ShloMosaic.ValueIdx Idealize.SL.Sem

variable (m : (ℓ : Loc nD τ sig) → Buf (Elt Ideal) ℓ) (ρ : Dev nD → PrngReg)

/-- An index of the [3, P] array is in point t's block iff each coordinate is in the block's range on its axis. -/
theorem mem_blk (t : Fin cfg0.N) (i : S3x8294400.Idx) :
    i ∈ ((cfg0.win 2).blk t).view.set ↔ ∀ a : Fin 2, win0_2.index t a * S3x2048.size a ≤ (i a).val ∧ (i a).val < win0_2.index t a * S3x2048.size a + S3x2048.size a := by
  show i ∈ ((View.whole main_v4).slice (win0_2.rect t)).set ↔ _
  rw [View.set_slice_whole, Rect.mem_set_unit]
  exact Iff.rfl

/-- The blocks cover the array: column P is in the block of point P / 2048, and every point writes its block back. -/
theorem cover (i : S3x8294400.Idx) : ∃ t : Fin cfg0.N, (cfg0.win 2).flush t = true ∧ i ∈ ((cfg0.win 2).blk t).view.set := by
  have hN : cfg0.N = 4050 := N_0
  have hi0 : (i 0).val < 3 := (i 0).isLt
  have hi1 : (i 1).val < 8294400 := (i 1).isLt
  have ht : (i 1).val / 2048 < cfg0.N := by rw [hN]; omega
  refine ⟨⟨(i 1).val / 2048, ht⟩, flush0_2 _, ?_⟩
  rw [mem_blk]
  obtain ⟨-, -, -, -, e20, e21⟩ := idx_facts ⟨(i 1).val / 2048, ht⟩
  intro a
  match a with
  | ⟨0, _⟩ =>
    show win0_2.index ⟨(i 1).val / 2048, ht⟩ (0 : Fin 2) * 3 ≤ (i 0).val ∧ (i 0).val < win0_2.index ⟨(i 1).val / 2048, ht⟩ (0 : Fin 2) * 3 + 3
    rw [e20]; omega
  | ⟨1, _⟩ =>
    show win0_2.index ⟨(i 1).val / 2048, ht⟩ (1 : Fin 2) * 2048 ≤ (i 1).val ∧ (i 1).val < win0_2.index ⟨(i 1).val / 2048, ht⟩ (1 : Fin 2) * 2048 + 2048
    rw [e21]
    show (i 1).val / 2048 * 2048 ≤ (i 1).val ∧ (i 1).val < (i 1).val / 2048 * 2048 + 2048
    omega

/-- After the region the [3, P] array holds `G` of the two arrays the region found. -/
theorem final [Cert.KernelIdeal.Facts] (hbody : BodyAt) (c : Dev nD) : (dats m 0 c).arrAt 2 cfg0.N = G (V m c main_v1) (V m c main_v3) :=
  (dats m 0 c).arrAt_eq_of_cover 2 (G (V m c main_v1) (V m c main_v3)) (fun t _ => flushed_eq m hbody c t) cover

/-- The program's result after the host operations that follow the region: the region's [3, P] array reshaped to
    [3, 4, 1080, 1920], then transposed to [4, 3, 1080, 1920]. -/
theorem tail_eq (c : Dev nD) :
    (Pipeline.afterTail₀ cfgs (dats m) 0 (V0 m) [hostOps1] c main_v6 : S4x3x1080x1920.Idx → EReal)
      = transpose S4x3x1080x1920 [1, 0, 2, 3] (shapeCast S3x4x1080x1920 ((dats m 0 c).arrAt 2 cfg0.N : S3x8294400.Idx → EReal) shapeCasts_S3x8294400_S3x4x1080x1920)
          transposes_S3x4x1080x1920_S4x3x1080x1920_1_0_2_3 := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.devRef .tc main_v4)
      = (dats m 0 c).arrAt 2 cfg0.N := Pipeline.withArrays_arr spec0 launch0.win.arr_inj c _ _ 2
  rw [e]
  rfl

/-- The program's result is the specification's array: entry (n, c, h, w) reads the transposed, reshaped [3, P] array at
    (c, (n * 1080 + h) * 1920 + w), where `G` interpolates the image's channel values at (n, ., h, w) in channel c's
    table. -/
theorem result_eq [Cert.KernelIdeal.Facts] (hbody : BodyAt) (c : Dev nD) :
    (Pipeline.afterTail₀ cfgs (dats m) 0 (V0 m) [hostOps1] c main_v6 : S4x3x1080x1920.Idx → EReal)
      = Cert.Lut3.resultOf Cert.Lut3.viaOneHot (m ((c.tc : Thread nD τ).loc main_arg0)) (m ((c.tc : Thread nD τ).loc main_arg1)) := by
  rw [tail_eq, final m hbody c, found_image, found_table]
  funext i
  obtain ⟨n, k, h, w, rfl⟩ : ∃ (n : Fin 4) (k : Fin 3) (h : Fin 1080) (w : Fin 1920), i = ix4 n k h w :=
    ⟨i 0, i 1, i 2, i 3, eq_ix4 i⟩
  rw [Cert.Lut3.resultOf_ix4]
  have hP : (n.val * 1080 + h.val) * 1920 + w.val < 8294400 := by
    have := n.isLt; have := h.isLt; have := w.isLt; omega
  refine (transpose_apply _ _ _ (ix4 n k h w) (ix4 k n h w) fun b => ?_).trans ?_
  · match b with
    | ⟨0, _⟩ => rfl
    | ⟨1, _⟩ => rfl
    | ⟨2, _⟩ => rfl
    | ⟨3, _⟩ => rfl
  refine (shapeCast_apply _ _ (ix4 k n h w) (ix2 k (⟨(n.val * 1080 + h.val) * 1920 + w.val, hP⟩ : Fin 8294400)) ?_).trans ?_
  · rw [Shape.rowMajor_val_two, Shape.rowMajor_val_four]
    show k.val * 8294400 + ((n.val * 1080 + h.val) * 1920 + w.val) = ((k.val * 4 + n.val) * 1080 + h.val) * 1920 + w.val
    omega
  rw [G_ix2, read_image _ n 0 h w _ rfl, read_image _ n 1 h w _ rfl, read_image _ n 2 h w _ rfl]
  congr 1
  funext b g r
  exact read_table _ k b g r

/-- The kernel's program runs, its result array ends at the specification's `resultOf viaOneHot` of its two argument
    arrays, and the argument arrays end unchanged. -/
theorem run_value [Cert.KernelIdeal.Facts] (hbody : BodyAt) (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v6)
          = Cert.Lut3.resultOf Cert.Lut3.viaOneHot (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
      ⟨((h c).2 main_v6 (Pipeline.mem_restRefs_of main_v6 (by decide) (by decide))).trans (result_eq m hbody c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

/-- info: 'Cert.Lut3.KArray.run_value' depends on axioms: [propext, Classical.choice, Quot.sound] -/
#guard_msgs in #print axioms run_value

end Cert.Lut3.KArray

end
-- ==== Proof.RefPart0.lean ====
/-
  Window 0 of the eight-corner program as a list of its operations (a called function's operations stand in its
  call's place), with the three facts the run needs of it: the window is the list run in order, every operation
  touches TensorCore buffers only, and every operation determines its results.
-/
import proofs.«140490_j86122684220303_2_alg».proof.ReferenceIdeal
import Idealize.ShloMosaic.Lib.StableHlo.Run

noncomputable section

namespace Cert.Lut3.RefOps

open Cert.ReferenceIdeal Idealize.ShloMosaic Idealize.ShloMosaic.TcCoe Idealize.SL.Sem Idealize.ShloMosaic.StableHlo
open Cert.ReferenceIdeal.Facts₀

variable {F : FTy → Type} [FloatOps F] [Cert.ReferenceIdeal.Facts]

/-- Window 0's operations, in order. -/
abbrev part0 : List (HloOp τ sig (Elt F)) :=
  [ nullary main_cst (constant S_ .f32 0x00000000#32),
    nullary main_cst_0 (constant S_ .f32 0x3F800000#32),
    TRef.unary (TRef.of (T := ⟨S_, .f32⟩) main_cst) (TRef.of (T := ⟨S_, .f32⟩) main_call0_v0) id,
    TRef.unary (TRef.of (T := ⟨S_, .f32⟩) main_call0_v0) (TRef.of (T := ⟨S4x3x1080x1920, .f32⟩) main_call0_v1) (broadcastInDim S4x3x1080x1920 ![] bcast_S_S4x3x1080x1920),
    TRef.binary (TRef.of (T := ⟨S4x3x1080x1920, .f32⟩) main_call0_v1) (TRef.of (T := ⟨S4x3x1080x1920, .f32⟩) main_arg0) (TRef.of (T := ⟨S4x3x1080x1920, .f32⟩) main_call0_v2) maximumf,
    TRef.unary (TRef.of (T := ⟨S_, .f32⟩) main_cst_0) (TRef.of (T := ⟨S_, .f32⟩) main_call0_v3) id,
    TRef.unary (TRef.of (T := ⟨S_, .f32⟩) main_call0_v3) (TRef.of (T := ⟨S4x3x1080x1920, .f32⟩) main_call0_v4) (broadcastInDim S4x3x1080x1920 ![] bcast_S_S4x3x1080x1920),
    TRef.binary (TRef.of (T := ⟨S4x3x1080x1920, .f32⟩) main_call0_v4) (TRef.of (T := ⟨S4x3x1080x1920, .f32⟩) main_call0_v2) (TRef.of (T := ⟨S4x3x1080x1920, .f32⟩) main_v0) minimumf,
    nullary main_cst_1 (constant S_ .f32 0x42000000#32),
    unary main_cst_1 main_v1 (broadcastInDim S4x3x1080x1920 ![] bcast_S_S4x3x1080x1920 : (⟨S_, .f32⟩ : BufTy).Contents (Elt F) → (⟨S4x3x1080x1920, .f32⟩ : BufTy).Contents (Elt F)),
    binary main_v0 main_v1 main_v2 (mulf : (⟨S4x3x1080x1920, .f32⟩ : BufTy).Contents (Elt F) → (⟨S4x3x1080x1920, .f32⟩ : BufTy).Contents (Elt F) → (⟨S4x3x1080x1920, .f32⟩ : BufTy).Contents (Elt F)),
    unary main_v2 main_v3 (Host.floor : (⟨S4x3x1080x1920, .f32⟩ : BufTy).Contents (Elt F) → (⟨S4x3x1080x1920, .f32⟩ : BufTy).Contents (Elt F)),
    unary main_v3 main_v4 (fptosi 32 : (⟨S4x3x1080x1920, .f32⟩ : BufTy).Contents (Elt F) → (⟨S4x3x1080x1920, .i32⟩ : BufTy).Contents (Elt F)),
    nullary main_c (constantI S_ 32 0#32),
    nullary main_c_2 (constantI S_ 32 31#32),
    TRef.unary (TRef.of (T := ⟨S_, .i32⟩) main_c) (TRef.of (T := ⟨S_, .i32⟩) main_call1_v0) id,
    TRef.unary (TRef.of (T := ⟨S_, .i32⟩) main_call1_v0) (TRef.of (T := ⟨S4x3x1080x1920, .i32⟩) main_call1_v1) (broadcastInDim S4x3x1080x1920 ![] bcast_S_S4x3x1080x1920),
    TRef.binary (TRef.of (T := ⟨S4x3x1080x1920, .i32⟩) main_call1_v1) (TRef.of (T := ⟨S4x3x1080x1920, .i32⟩) main_v4) (TRef.of (T := ⟨S4x3x1080x1920, .i32⟩) main_call1_v2) maxsi,
    TRef.unary (TRef.of (T := ⟨S_, .i32⟩) main_c_2) (TRef.of (T := ⟨S_, .i32⟩) main_call1_v3) id,
    TRef.unary (TRef.of (T := ⟨S_, .i32⟩) main_call1_v3) (TRef.of (T := ⟨S4x3x1080x1920, .i32⟩) main_call1_v4) (broadcastInDim S4x3x1080x1920 ![] bcast_S_S4x3x1080x1920),
    TRef.binary (TRef.of (T := ⟨S4x3x1080x1920, .i32⟩) main_call1_v4) (TRef.of (T := ⟨S4x3x1080x1920, .i32⟩) main_call1_v2) (TRef.of (T := ⟨S4x3x1080x1920, .i32⟩) main_v5) minsi,
    unary main_v5 main_v6 (sitofp .f32 : (⟨S4x3x1080x1920, .i32⟩ : BufTy).Contents (Elt F) → (⟨S4x3x1080x1920, .f32⟩ : BufTy).Contents (Elt F)),
    binary main_v2 main_v6 main_v7 (subf : (⟨S4x3x1080x1920, .f32⟩ : BufTy).Contents (Elt F) → (⟨S4x3x1080x1920, .f32⟩ : BufTy).Contents (Elt F) → (⟨S4x3x1080x1920, .f32⟩ : BufTy).Contents (Elt F)),
    unary main_v5 main_v8 ((extractStridedSlice S4x1x1080x1920 ![0, 0, 0, 0] · slices_S4x3x1080x1920_S4x1x1080x1920_0_0_0_0) : (⟨S4x3x1080x1920, .i32⟩ : BufTy).Contents (Elt F) → (⟨S4x1x1080x1920, .i32⟩ : BufTy).Contents (Elt F)),
    reshape main_v8 main_v9 rfl shapeCasts_S4x1x1080x1920_S4x1080x1920,
    unary main_v5 main_v10 ((extractStridedSlice S4x1x1080x1920 ![0, 1, 0, 0] · slices_S4x3x1080x1920_S4x1x1080x1920_0_1_0_0) : (⟨S4x3x1080x1920, .i32⟩ : BufTy).Contents (Elt F) → (⟨S4x1x1080x1920, .i32⟩ : BufTy).Contents (Elt F)),
    reshape main_v10 main_v11 rfl shapeCasts_S4x1x1080x1920_S4x1080x1920,
    unary main_v5 main_v12 ((extractStridedSlice S4x1x1080x1920 ![0, 2, 0, 0] · slices_S4x3x1080x1920_S4x1x1080x1920_0_2_0_0) : (⟨S4x3x1080x1920, .i32⟩ : BufTy).Contents (Elt F) → (⟨S4x1x1080x1920, .i32⟩ : BufTy).Contents (Elt F)),
    reshape main_v12 main_v13 rfl shapeCasts_S4x1x1080x1920_S4x1080x1920,
    unary main_v7 main_v14 ((extractStridedSlice S4x1x1080x1920 ![0, 0, 0, 0] · slices_S4x3x1080x1920_S4x1x1080x1920_0_0_0_0) : (⟨S4x3x1080x1920, .f32⟩ : BufTy).Contents (Elt F) → (⟨S4x1x1080x1920, .f32⟩ : BufTy).Contents (Elt F)),
    reshape main_v14 main_v15 rfl shapeCasts_S4x1x1080x1920_S4x1080x1920,
    unary main_v7 main_v16 ((extractStridedSlice S4x1x1080x1920 ![0, 1, 0, 0] · slices_S4x3x1080x1920_S4x1x1080x1920_0_1_0_0) : (⟨S4x3x1080x1920, .f32⟩ : BufTy).Contents (Elt F) → (⟨S4x1x1080x1920, .f32⟩ : BufTy).Contents (Elt F)),
    reshape main_v16 main_v17 rfl shapeCasts_S4x1x1080x1920_S4x1080x1920,
    unary main_v7 main_v18 ((extractStridedSlice S4x1x1080x1920 ![0, 2, 0, 0] · slices_S4x3x1080x1920_S4x1x1080x1920_0_2_0_0) : (⟨S4x3x1080x1920, .f32⟩ : BufTy).Contents (Elt F) → (⟨S4x1x1080x1920, .f32⟩ : BufTy).Contents (Elt F)),
    reshape main_v18 main_v19 rfl shapeCasts_S4x1x1080x1920_S4x1080x1920,
    nullary main_cst_3 (constant S_ .f32 0x00000000#32),
    unary main_cst_3 main_v20 (broadcastInDim S4x3x1080x1920 ![] bcast_S_S4x3x1080x1920 : (⟨S_, .f32⟩ : BufTy).Contents (Elt F) → (⟨S4x3x1080x1920, .f32⟩ : BufTy).Contents (Elt F)),
    nullary main_cst_4 (constant S_ .f32 0x3F800000#32),
    unary main_cst_4 main_v21 (broadcastInDim S4x1080x1920 ![] bcast_S_S4x1080x1920 : (⟨S_, .f32⟩ : BufTy).Contents (Elt F) → (⟨S4x1080x1920, .f32⟩ : BufTy).Contents (Elt F)),
    binary main_v21 main_v15 main_v22 (subf : (⟨S4x1080x1920, .f32⟩ : BufTy).Contents (Elt F) → (⟨S4x1080x1920, .f32⟩ : BufTy).Contents (Elt F) → (⟨S4x1080x1920, .f32⟩ : BufTy).Contents (Elt F)),
    nullary main_c_5 (constantI S_ 32 0#32),
    TRef.nullary (TRef.of (T := ⟨S_, .i32⟩) main_call2_c) (constantI S_ 32 0#32),
    TRef.binary (TRef.of (T := ⟨S_, .i32⟩) main_c_5) (TRef.of (T := ⟨S_, .i32⟩) main_call2_c) (TRef.of (T := ⟨S_, .i1⟩) main_call2_v0) (cmpi .ne),
    TRef.ternary (TRef.of (T := ⟨S_, .i1⟩) main_call2_v0) (TRef.of (T := ⟨S4x1080x1920, .f32⟩) main_v15) (TRef.of (T := ⟨S4x1080x1920, .f32⟩) main_v22) (TRef.of (T := ⟨S4x1080x1920, .f32⟩) main_v23) (fun p a b => select (broadcastInDim S4x1080x1920 ![] bcast_S_S4x1080x1920 p) a b),
    nullary main_cst_6 (constant S_ .f32 0x3F800000#32),
    unary main_cst_6 main_v24 (broadcastInDim S4x1080x1920 ![] bcast_S_S4x1080x1920 : (⟨S_, .f32⟩ : BufTy).Contents (Elt F) → (⟨S4x1080x1920, .f32⟩ : BufTy).Contents (Elt F)),
    binary main_v24 main_v17 main_v25 (subf : (⟨S4x1080x1920, .f32⟩ : BufTy).Contents (Elt F) → (⟨S4x1080x1920, .f32⟩ : BufTy).Contents (Elt F) → (⟨S4x1080x1920, .f32⟩ : BufTy).Contents (Elt F)),
    nullary main_c_7 (constantI S_ 32 0#32),
    TRef.nullary (TRef.of (T := ⟨S_, .i32⟩) main_call3_c) (constantI S_ 32 0#32),
    TRef.binary (TRef.of (T := ⟨S_, .i32⟩) main_c_7) (TRef.of (T := ⟨S_, .i32⟩) main_call3_c) (TRef.of (T := ⟨S_, .i1⟩) main_call3_v0) (cmpi .ne),
    TRef.ternary (TRef.of (T := ⟨S_, .i1⟩) main_call3_v0) (TRef.of (T := ⟨S4x1080x1920, .f32⟩) main_v17) (TRef.of (T := ⟨S4x1080x1920, .f32⟩) main_v25) (TRef.of (T := ⟨S4x1080x1920, .f32⟩) main_v26) (fun p a b => select (broadcastInDim S4x1080x1920 ![] bcast_S_S4x1080x1920 p) a b),
    binary main_v23 main_v26 main_v27 (mulf : (⟨S4x1080x1920, .f32⟩ : BufTy).Contents (Elt F) → (⟨S4x1080x1920, .f32⟩ : BufTy).Contents (Elt F) → (⟨S4x1080x1920, .f32⟩ : BufTy).Contents (Elt F)),
    nullary main_cst_8 (constant S_ .f32 0x3F800000#32),
    unary main_cst_8 main_v28 (broadcastInDim S4x1080x1920 ![] bcast_S_S4x1080x1920 : (⟨S_, .f32⟩ : BufTy).Contents (Elt F) → (⟨S4x1080x1920, .f32⟩ : BufTy).Contents (Elt F)),
    binary main_v28 main_v19 main_v29 (subf : (⟨S4x1080x1920, .f32⟩ : BufTy).Contents (Elt F) → (⟨S4x1080x1920, .f32⟩ : BufTy).Contents (Elt F) → (⟨S4x1080x1920, .f32⟩ : BufTy).Contents (Elt F)),
    nullary main_c_9 (constantI S_ 32 0#32),
    TRef.nullary (TRef.of (T := ⟨S_, .i32⟩) main_call4_c) (constantI S_ 32 0#32),
    TRef.binary (TRef.of (T := ⟨S_, .i32⟩) main_c_9) (TRef.of (T := ⟨S_, .i32⟩) main_call4_c) (TRef.of (T := ⟨S_, .i1⟩) main_call4_v0) (cmpi .ne),
    TRef.ternary (TRef.of (T := ⟨S_, .i1⟩) main_call4_v0) (TRef.of (T := ⟨S4x1080x1920, .f32⟩) main_v19) (TRef.of (T := ⟨S4x1080x1920, .f32⟩) main_v29) (TRef.of (T := ⟨S4x1080x1920, .f32⟩) main_v30) (fun p a b => select (broadcastInDim S4x1080x1920 ![] bcast_S_S4x1080x1920 p) a b),
    binary main_v27 main_v30 main_v31 (mulf : (⟨S4x1080x1920, .f32⟩ : BufTy).Contents (Elt F) → (⟨S4x1080x1920, .f32⟩ : BufTy).Contents (Elt F) → (⟨S4x1080x1920, .f32⟩ : BufTy).Contents (Elt F)),
    nullary main_c_10 (constantI S_ 32 0#32),
    unary main_c_10 main_v32 (broadcastInDim S4x1080x1920 ![] bcast_S_S4x1080x1920 : (⟨S_, .i32⟩ : BufTy).Contents (Elt F) → (⟨S4x1080x1920, .i32⟩ : BufTy).Contents (Elt F)),
    binary main_v13 main_v32 main_v33 (addi : (⟨S4x1080x1920, .i32⟩ : BufTy).Contents (Elt F) → (⟨S4x1080x1920, .i32⟩ : BufTy).Contents (Elt F) → (⟨S4x1080x1920, .i32⟩ : BufTy).Contents (Elt F)),
    nullary main_c_11 (constantI S_ 32 0#32),
    unary main_c_11 main_v34 (broadcastInDim S4x1080x1920 ![] bcast_S_S4x1080x1920 : (⟨S_, .i32⟩ : BufTy).Contents (Elt F) → (⟨S4x1080x1920, .i32⟩ : BufTy).Contents (Elt F)),
    binary main_v11 main_v34 main_v35 (addi : (⟨S4x1080x1920, .i32⟩ : BufTy).Contents (Elt F) → (⟨S4x1080x1920, .i32⟩ : BufTy).Contents (Elt F) → (⟨S4x1080x1920, .i32⟩ : BufTy).Contents (Elt F)),
    nullary main_c_12 (constantI S_ 32 0#32),
    unary main_c_12 main_v36 (broadcastInDim S4x1080x1920 ![] bcast_S_S4x1080x1920 : (⟨S_, .i32⟩ : BufTy).Contents (Elt F) → (⟨S4x1080x1920, .i32⟩ : BufTy).Contents (Elt F)),
    binary main_v9 main_v36 main_v37 (addi : (⟨S4x1080x1920, .i32⟩ : BufTy).Contents (Elt F) → (⟨S4x1080x1920, .i32⟩ : BufTy).Contents (Elt F) → (⟨S4x1080x1920, .i32⟩ : BufTy).Contents (Elt F)),
    nullary main_c_13 (constantI S_ 32 0#32),
    unary main_c_13 main_v38 (broadcastInDim S4x1080x1920 ![] bcast_S_S4x1080x1920 : (⟨S_, .i32⟩ : BufTy).Contents (Elt F) → (⟨S4x1080x1920, .i32⟩ : BufTy).Contents (Elt F)),
    binary main_v33 main_v38 main_v39 (cmpi .slt : (⟨S4x1080x1920, .i32⟩ : BufTy).Contents (Elt F) → (⟨S4x1080x1920, .i32⟩ : BufTy).Contents (Elt F) → (⟨S4x1080x1920, .i1⟩ : BufTy).Contents (Elt F)),
    nullary main_c_14 (constantI S_ 32 33#32),
    unary main_c_14 main_v40 (broadcastInDim S4x1080x1920 ![] bcast_S_S4x1080x1920 : (⟨S_, .i32⟩ : BufTy).Contents (Elt F) → (⟨S4x1080x1920, .i32⟩ : BufTy).Contents (Elt F)),
    binary main_v33 main_v40 main_v41 (addi : (⟨S4x1080x1920, .i32⟩ : BufTy).Contents (Elt F) → (⟨S4x1080x1920, .i32⟩ : BufTy).Contents (Elt F) → (⟨S4x1080x1920, .i32⟩ : BufTy).Contents (Elt F)),
    ternary main_v39 main_v41 main_v33 main_v42 (select : (⟨S4x1080x1920, .i1⟩ : BufTy).Contents (Elt F) → (⟨S4x1080x1920, .i32⟩ : BufTy).Contents (Elt F) → (⟨S4x1080x1920, .i32⟩ : BufTy).Contents (Elt F) → (⟨S4x1080x1920, .i32⟩ : BufTy).Contents (Elt F)) ]

set_option maxRecDepth 8192 in
set_option maxHeartbeats 4000000 in
theorem part0_eq (d : Dev nD) : main_part0 (F := F) d = seq part0 := rfl

theorem part0_sub : (part0 : List (HloOp τ sig (Elt F))).Forall fun op => op.bufs ⊆ tcRefs τ sig :=
  ⟨nullary_bufs_sub .., nullary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., nullary_bufs_sub .., unary_bufs_sub .., binary_bufs_sub .., nullary_bufs_sub .., nullary_bufs_sub .., binary_bufs_sub .., ternary_bufs_sub .., nullary_bufs_sub .., unary_bufs_sub .., binary_bufs_sub .., nullary_bufs_sub .., nullary_bufs_sub .., binary_bufs_sub .., ternary_bufs_sub .., binary_bufs_sub .., nullary_bufs_sub .., unary_bufs_sub .., binary_bufs_sub .., nullary_bufs_sub .., nullary_bufs_sub .., binary_bufs_sub .., ternary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub ..⟩

theorem part0_fresh : ∀ op ∈ (part0 : List (HloOp τ sig (Elt F))), op.fresh = ∅ :=
  List.forall_iff_forall_mem.1 (show (part0 : List (HloOp τ sig (Elt F))).Forall (fun op => op.fresh = ∅) from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

end Cert.Lut3.RefOps

end
-- ==== Proof.RefPart1.lean ====
/-
  Window 1 of the eight-corner program as a list of its operations (a called function's operations stand in its
  call's place), with the three facts the run needs of it: the window is the list run in order, every operation
  touches TensorCore buffers only, and every operation determines its results.
-/
import proofs.«140490_j86122684220303_2_alg».proof.ReferenceIdeal
import Idealize.ShloMosaic.Lib.StableHlo.Run

noncomputable section

namespace Cert.Lut3.RefOps

open Cert.ReferenceIdeal Idealize.ShloMosaic Idealize.ShloMosaic.TcCoe Idealize.SL.Sem Idealize.ShloMosaic.StableHlo
open Cert.ReferenceIdeal.Facts₀

variable {F : FTy → Type} [FloatOps F] [Cert.ReferenceIdeal.Facts]

/-- Window 1's operations, in order. -/
abbrev part1 : List (HloOp τ sig (Elt F)) :=
  [ nullary main_c_15 (constantI S_ 32 0#32),
    unary main_c_15 main_v43 (broadcastInDim S4x1080x1920 ![] bcast_S_S4x1080x1920 : (⟨S_, .i32⟩ : BufTy).Contents (Elt F) → (⟨S4x1080x1920, .i32⟩ : BufTy).Contents (Elt F)),
    binary main_v35 main_v43 main_v44 (cmpi .slt : (⟨S4x1080x1920, .i32⟩ : BufTy).Contents (Elt F) → (⟨S4x1080x1920, .i32⟩ : BufTy).Contents (Elt F) → (⟨S4x1080x1920, .i1⟩ : BufTy).Contents (Elt F)),
    nullary main_c_16 (constantI S_ 32 33#32),
    unary main_c_16 main_v45 (broadcastInDim S4x1080x1920 ![] bcast_S_S4x1080x1920 : (⟨S_, .i32⟩ : BufTy).Contents (Elt F) → (⟨S4x1080x1920, .i32⟩ : BufTy).Contents (Elt F)),
    binary main_v35 main_v45 main_v46 (addi : (⟨S4x1080x1920, .i32⟩ : BufTy).Contents (Elt F) → (⟨S4x1080x1920, .i32⟩ : BufTy).Contents (Elt F) → (⟨S4x1080x1920, .i32⟩ : BufTy).Contents (Elt F)),
    ternary main_v44 main_v46 main_v35 main_v47 (select : (⟨S4x1080x1920, .i1⟩ : BufTy).Contents (Elt F) → (⟨S4x1080x1920, .i32⟩ : BufTy).Contents (Elt F) → (⟨S4x1080x1920, .i32⟩ : BufTy).Contents (Elt F) → (⟨S4x1080x1920, .i32⟩ : BufTy).Contents (Elt F)),
    nullary main_c_17 (constantI S_ 32 0#32),
    unary main_c_17 main_v48 (broadcastInDim S4x1080x1920 ![] bcast_S_S4x1080x1920 : (⟨S_, .i32⟩ : BufTy).Contents (Elt F) → (⟨S4x1080x1920, .i32⟩ : BufTy).Contents (Elt F)),
    binary main_v37 main_v48 main_v49 (cmpi .slt : (⟨S4x1080x1920, .i32⟩ : BufTy).Contents (Elt F) → (⟨S4x1080x1920, .i32⟩ : BufTy).Contents (Elt F) → (⟨S4x1080x1920, .i1⟩ : BufTy).Contents (Elt F)),
    nullary main_c_18 (constantI S_ 32 33#32),
    unary main_c_18 main_v50 (broadcastInDim S4x1080x1920 ![] bcast_S_S4x1080x1920 : (⟨S_, .i32⟩ : BufTy).Contents (Elt F) → (⟨S4x1080x1920, .i32⟩ : BufTy).Contents (Elt F)),
    binary main_v37 main_v50 main_v51 (addi : (⟨S4x1080x1920, .i32⟩ : BufTy).Contents (Elt F) → (⟨S4x1080x1920, .i32⟩ : BufTy).Contents (Elt F) → (⟨S4x1080x1920, .i32⟩ : BufTy).Contents (Elt F)),
    ternary main_v49 main_v51 main_v37 main_v52 (select : (⟨S4x1080x1920, .i1⟩ : BufTy).Contents (Elt F) → (⟨S4x1080x1920, .i32⟩ : BufTy).Contents (Elt F) → (⟨S4x1080x1920, .i32⟩ : BufTy).Contents (Elt F) → (⟨S4x1080x1920, .i32⟩ : BufTy).Contents (Elt F)),
    unary main_v42 main_v53 (broadcastInDim S4x1080x1920x1 ![0, 1, 2] bcast_S4x1080x1920_S4x1080x1920x1_0_1_2 : (⟨S4x1080x1920, .i32⟩ : BufTy).Contents (Elt F) → (⟨S4x1080x1920x1, .i32⟩ : BufTy).Contents (Elt F)),
    unary main_v47 main_v54 (broadcastInDim S4x1080x1920x1 ![0, 1, 2] bcast_S4x1080x1920_S4x1080x1920x1_0_1_2 : (⟨S4x1080x1920, .i32⟩ : BufTy).Contents (Elt F) → (⟨S4x1080x1920x1, .i32⟩ : BufTy).Contents (Elt F)),
    unary main_v52 main_v55 (broadcastInDim S4x1080x1920x1 ![0, 1, 2] bcast_S4x1080x1920_S4x1080x1920x1_0_1_2 : (⟨S4x1080x1920, .i32⟩ : BufTy).Contents (Elt F) → (⟨S4x1080x1920x1, .i32⟩ : BufTy).Contents (Elt F)),
    nary ![main_v53, main_v54, main_v55] main_v56 (fun u => concatenate S4x1080x1920x3 3 [⟨S4x1080x1920x1, u 0⟩, ⟨S4x1080x1920x1, u 1⟩, ⟨S4x1080x1920x1, u 2⟩] concatenates_S4x1080x1920x1_S4x1080x1920x1_S4x1080x1920x1_S4x1080x1920x3_d3),
    binary main_arg1 main_v56 main_v57 ((fun x i => Host.gather gather_S3x33x33x33_S4x1080x1920x3_S3x4x1080x1920_0_123_n_n_123_3_3111 x i) : (⟨S3x33x33x33, .f32⟩ : BufTy).Contents (Elt F) → (⟨S4x1080x1920x3, .i32⟩ : BufTy).Contents (Elt F) → (⟨S3x4x1080x1920, .f32⟩ : BufTy).Contents (Elt F)),
    unary main_v31 main_v58 (broadcastInDim S4x1x1080x1920 ![0, 2, 3] bcast_S4x1080x1920_S4x1x1080x1920_0_2_3 : (⟨S4x1080x1920, .f32⟩ : BufTy).Contents (Elt F) → (⟨S4x1x1080x1920, .f32⟩ : BufTy).Contents (Elt F)),
    unary main_v57 main_v59 ((transpose S4x3x1080x1920 [1, 0, 2, 3] · transposes_S3x4x1080x1920_S4x3x1080x1920_1_0_2_3) : (⟨S3x4x1080x1920, .f32⟩ : BufTy).Contents (Elt F) → (⟨S4x3x1080x1920, .f32⟩ : BufTy).Contents (Elt F)),
    unary main_v58 main_v60 (broadcastInDim S4x3x1080x1920 ![0, 1, 2, 3] bcast_S4x1x1080x1920_S4x3x1080x1920_0_1_2_3 : (⟨S4x1x1080x1920, .f32⟩ : BufTy).Contents (Elt F) → (⟨S4x3x1080x1920, .f32⟩ : BufTy).Contents (Elt F)),
    binary main_v60 main_v59 main_v61 (mulf : (⟨S4x3x1080x1920, .f32⟩ : BufTy).Contents (Elt F) → (⟨S4x3x1080x1920, .f32⟩ : BufTy).Contents (Elt F) → (⟨S4x3x1080x1920, .f32⟩ : BufTy).Contents (Elt F)),
    binary main_v20 main_v61 main_v62 (addf : (⟨S4x3x1080x1920, .f32⟩ : BufTy).Contents (Elt F) → (⟨S4x3x1080x1920, .f32⟩ : BufTy).Contents (Elt F) → (⟨S4x3x1080x1920, .f32⟩ : BufTy).Contents (Elt F)),
    nullary main_cst_19 (constant S_ .f32 0x3F800000#32),
    unary main_cst_19 main_v63 (broadcastInDim S4x1080x1920 ![] bcast_S_S4x1080x1920 : (⟨S_, .f32⟩ : BufTy).Contents (Elt F) → (⟨S4x1080x1920, .f32⟩ : BufTy).Contents (Elt F)),
    binary main_v63 main_v15 main_v64 (subf : (⟨S4x1080x1920, .f32⟩ : BufTy).Contents (Elt F) → (⟨S4x1080x1920, .f32⟩ : BufTy).Contents (Elt F) → (⟨S4x1080x1920, .f32⟩ : BufTy).Contents (Elt F)),
    nullary main_c_20 (constantI S_ 32 0#32),
    TRef.nullary (TRef.of (T := ⟨S_, .i32⟩) main_call5_c) (constantI S_ 32 0#32),
    TRef.binary (TRef.of (T := ⟨S_, .i32⟩) main_c_20) (TRef.of (T := ⟨S_, .i32⟩) main_call5_c) (TRef.of (T := ⟨S_, .i1⟩) main_call5_v0) (cmpi .ne),
    TRef.ternary (TRef.of (T := ⟨S_, .i1⟩) main_call5_v0) (TRef.of (T := ⟨S4x1080x1920, .f32⟩) main_v15) (TRef.of (T := ⟨S4x1080x1920, .f32⟩) main_v64) (TRef.of (T := ⟨S4x1080x1920, .f32⟩) main_v65) (fun p a b => select (broadcastInDim S4x1080x1920 ![] bcast_S_S4x1080x1920 p) a b),
    nullary main_cst_21 (constant S_ .f32 0x3F800000#32),
    unary main_cst_21 main_v66 (broadcastInDim S4x1080x1920 ![] bcast_S_S4x1080x1920 : (⟨S_, .f32⟩ : BufTy).Contents (Elt F) → (⟨S4x1080x1920, .f32⟩ : BufTy).Contents (Elt F)),
    binary main_v66 main_v17 main_v67 (subf : (⟨S4x1080x1920, .f32⟩ : BufTy).Contents (Elt F) → (⟨S4x1080x1920, .f32⟩ : BufTy).Contents (Elt F) → (⟨S4x1080x1920, .f32⟩ : BufTy).Contents (Elt F)),
    nullary main_c_22 (constantI S_ 32 0#32),
    TRef.nullary (TRef.of (T := ⟨S_, .i32⟩) main_call6_c) (constantI S_ 32 0#32),
    TRef.binary (TRef.of (T := ⟨S_, .i32⟩) main_c_22) (TRef.of (T := ⟨S_, .i32⟩) main_call6_c) (TRef.of (T := ⟨S_, .i1⟩) main_call6_v0) (cmpi .ne),
    TRef.ternary (TRef.of (T := ⟨S_, .i1⟩) main_call6_v0) (TRef.of (T := ⟨S4x1080x1920, .f32⟩) main_v17) (TRef.of (T := ⟨S4x1080x1920, .f32⟩) main_v67) (TRef.of (T := ⟨S4x1080x1920, .f32⟩) main_v68) (fun p a b => select (broadcastInDim S4x1080x1920 ![] bcast_S_S4x1080x1920 p) a b),
    binary main_v65 main_v68 main_v69 (mulf : (⟨S4x1080x1920, .f32⟩ : BufTy).Contents (Elt F) → (⟨S4x1080x1920, .f32⟩ : BufTy).Contents (Elt F) → (⟨S4x1080x1920, .f32⟩ : BufTy).Contents (Elt F)),
    nullary main_cst_23 (constant S_ .f32 0x3F800000#32),
    unary main_cst_23 main_v70 (broadcastInDim S4x1080x1920 ![] bcast_S_S4x1080x1920 : (⟨S_, .f32⟩ : BufTy).Contents (Elt F) → (⟨S4x1080x1920, .f32⟩ : BufTy).Contents (Elt F)),
    binary main_v70 main_v19 main_v71 (subf : (⟨S4x1080x1920, .f32⟩ : BufTy).Contents (Elt F) → (⟨S4x1080x1920, .f32⟩ : BufTy).Contents (Elt F) → (⟨S4x1080x1920, .f32⟩ : BufTy).Contents (Elt F)),
    nullary main_c_24 (constantI S_ 32 1#32),
    TRef.nullary (TRef.of (T := ⟨S_, .i32⟩) main_call7_c) (constantI S_ 32 0#32),
    TRef.binary (TRef.of (T := ⟨S_, .i32⟩) main_c_24) (TRef.of (T := ⟨S_, .i32⟩) main_call7_c) (TRef.of (T := ⟨S_, .i1⟩) main_call7_v0) (cmpi .ne),
    TRef.ternary (TRef.of (T := ⟨S_, .i1⟩) main_call7_v0) (TRef.of (T := ⟨S4x1080x1920, .f32⟩) main_v19) (TRef.of (T := ⟨S4x1080x1920, .f32⟩) main_v71) (TRef.of (T := ⟨S4x1080x1920, .f32⟩) main_v72) (fun p a b => select (broadcastInDim S4x1080x1920 ![] bcast_S_S4x1080x1920 p) a b),
    binary main_v69 main_v72 main_v73 (mulf : (⟨S4x1080x1920, .f32⟩ : BufTy).Contents (Elt F) → (⟨S4x1080x1920, .f32⟩ : BufTy).Contents (Elt F) → (⟨S4x1080x1920, .f32⟩ : BufTy).Contents (Elt F)),
    nullary main_c_25 (constantI S_ 32 1#32),
    unary main_c_25 main_v74 (broadcastInDim S4x1080x1920 ![] bcast_S_S4x1080x1920 : (⟨S_, .i32⟩ : BufTy).Contents (Elt F) → (⟨S4x1080x1920, .i32⟩ : BufTy).Contents (Elt F)),
    binary main_v13 main_v74 main_v75 (addi : (⟨S4x1080x1920, .i32⟩ : BufTy).Contents (Elt F) → (⟨S4x1080x1920, .i32⟩ : BufTy).Contents (Elt F) → (⟨S4x1080x1920, .i32⟩ : BufTy).Contents (Elt F)),
    nullary main_c_26 (constantI S_ 32 0#32),
    unary main_c_26 main_v76 (broadcastInDim S4x1080x1920 ![] bcast_S_S4x1080x1920 : (⟨S_, .i32⟩ : BufTy).Contents (Elt F) → (⟨S4x1080x1920, .i32⟩ : BufTy).Contents (Elt F)),
    binary main_v11 main_v76 main_v77 (addi : (⟨S4x1080x1920, .i32⟩ : BufTy).Contents (Elt F) → (⟨S4x1080x1920, .i32⟩ : BufTy).Contents (Elt F) → (⟨S4x1080x1920, .i32⟩ : BufTy).Contents (Elt F)),
    nullary main_c_27 (constantI S_ 32 0#32),
    unary main_c_27 main_v78 (broadcastInDim S4x1080x1920 ![] bcast_S_S4x1080x1920 : (⟨S_, .i32⟩ : BufTy).Contents (Elt F) → (⟨S4x1080x1920, .i32⟩ : BufTy).Contents (Elt F)),
    binary main_v9 main_v78 main_v79 (addi : (⟨S4x1080x1920, .i32⟩ : BufTy).Contents (Elt F) → (⟨S4x1080x1920, .i32⟩ : BufTy).Contents (Elt F) → (⟨S4x1080x1920, .i32⟩ : BufTy).Contents (Elt F)),
    nullary main_c_28 (constantI S_ 32 0#32),
    unary main_c_28 main_v80 (broadcastInDim S4x1080x1920 ![] bcast_S_S4x1080x1920 : (⟨S_, .i32⟩ : BufTy).Contents (Elt F) → (⟨S4x1080x1920, .i32⟩ : BufTy).Contents (Elt F)),
    binary main_v75 main_v80 main_v81 (cmpi .slt : (⟨S4x1080x1920, .i32⟩ : BufTy).Contents (Elt F) → (⟨S4x1080x1920, .i32⟩ : BufTy).Contents (Elt F) → (⟨S4x1080x1920, .i1⟩ : BufTy).Contents (Elt F)),
    nullary main_c_29 (constantI S_ 32 33#32),
    unary main_c_29 main_v82 (broadcastInDim S4x1080x1920 ![] bcast_S_S4x1080x1920 : (⟨S_, .i32⟩ : BufTy).Contents (Elt F) → (⟨S4x1080x1920, .i32⟩ : BufTy).Contents (Elt F)),
    binary main_v75 main_v82 main_v83 (addi : (⟨S4x1080x1920, .i32⟩ : BufTy).Contents (Elt F) → (⟨S4x1080x1920, .i32⟩ : BufTy).Contents (Elt F) → (⟨S4x1080x1920, .i32⟩ : BufTy).Contents (Elt F)),
    ternary main_v81 main_v83 main_v75 main_v84 (select : (⟨S4x1080x1920, .i1⟩ : BufTy).Contents (Elt F) → (⟨S4x1080x1920, .i32⟩ : BufTy).Contents (Elt F) → (⟨S4x1080x1920, .i32⟩ : BufTy).Contents (Elt F) → (⟨S4x1080x1920, .i32⟩ : BufTy).Contents (Elt F)),
    nullary main_c_30 (constantI S_ 32 0#32),
    unary main_c_30 main_v85 (broadcastInDim S4x1080x1920 ![] bcast_S_S4x1080x1920 : (⟨S_, .i32⟩ : BufTy).Contents (Elt F) → (⟨S4x1080x1920, .i32⟩ : BufTy).Contents (Elt F)),
    binary main_v77 main_v85 main_v86 (cmpi .slt : (⟨S4x1080x1920, .i32⟩ : BufTy).Contents (Elt F) → (⟨S4x1080x1920, .i32⟩ : BufTy).Contents (Elt F) → (⟨S4x1080x1920, .i1⟩ : BufTy).Contents (Elt F)) ]

set_option maxRecDepth 8192 in
set_option maxHeartbeats 4000000 in
theorem part1_eq (d : Dev nD) : main_part1 (F := F) d = seq part1 := rfl

theorem part1_sub : (part1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., unary_bufs_sub .., unary_bufs_sub .., unary_bufs_sub .., binary_bufs_sub .., binary_bufs_sub .., nullary_bufs_sub .., unary_bufs_sub .., binary_bufs_sub .., nullary_bufs_sub .., nullary_bufs_sub .., binary_bufs_sub .., ternary_bufs_sub .., nullary_bufs_sub .., unary_bufs_sub .., binary_bufs_sub .., nullary_bufs_sub .., nullary_bufs_sub .., binary_bufs_sub .., ternary_bufs_sub .., binary_bufs_sub .., nullary_bufs_sub .., unary_bufs_sub .., binary_bufs_sub .., nullary_bufs_sub .., nullary_bufs_sub .., binary_bufs_sub .., ternary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub ..⟩

theorem part1_fresh : ∀ op ∈ (part1 : List (HloOp τ sig (Elt F))), op.fresh = ∅ :=
  List.forall_iff_forall_mem.1 (show (part1 : List (HloOp τ sig (Elt F))).Forall (fun op => op.fresh = ∅) from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

end Cert.Lut3.RefOps

end
-- ==== Proof.RefPart2.lean ====
/-
  Window 2 of the eight-corner program as a list of its operations (a called function's operations stand in its
  call's place), with the three facts the run needs of it: the window is the list run in order, every operation
  touches TensorCore buffers only, and every operation determines its results.
-/
import proofs.«140490_j86122684220303_2_alg».proof.ReferenceIdeal
import Idealize.ShloMosaic.Lib.StableHlo.Run

noncomputable section

namespace Cert.Lut3.RefOps

open Cert.ReferenceIdeal Idealize.ShloMosaic Idealize.ShloMosaic.TcCoe Idealize.SL.Sem Idealize.ShloMosaic.StableHlo
open Cert.ReferenceIdeal.Facts₀

variable {F : FTy → Type} [FloatOps F] [Cert.ReferenceIdeal.Facts]

/-- Window 2's operations, in order. -/
abbrev part2 : List (HloOp τ sig (Elt F)) :=
  [ nullary main_c_31 (constantI S_ 32 33#32),
    unary main_c_31 main_v87 (broadcastInDim S4x1080x1920 ![] bcast_S_S4x1080x1920 : (⟨S_, .i32⟩ : BufTy).Contents (Elt F) → (⟨S4x1080x1920, .i32⟩ : BufTy).Contents (Elt F)),
    binary main_v77 main_v87 main_v88 (addi : (⟨S4x1080x1920, .i32⟩ : BufTy).Contents (Elt F) → (⟨S4x1080x1920, .i32⟩ : BufTy).Contents (Elt F) → (⟨S4x1080x1920, .i32⟩ : BufTy).Contents (Elt F)),
    ternary main_v86 main_v88 main_v77 main_v89 (select : (⟨S4x1080x1920, .i1⟩ : BufTy).Contents (Elt F) → (⟨S4x1080x1920, .i32⟩ : BufTy).Contents (Elt F) → (⟨S4x1080x1920, .i32⟩ : BufTy).Contents (Elt F) → (⟨S4x1080x1920, .i32⟩ : BufTy).Contents (Elt F)),
    nullary main_c_32 (constantI S_ 32 0#32),
    unary main_c_32 main_v90 (broadcastInDim S4x1080x1920 ![] bcast_S_S4x1080x1920 : (⟨S_, .i32⟩ : BufTy).Contents (Elt F) → (⟨S4x1080x1920, .i32⟩ : BufTy).Contents (Elt F)),
    binary main_v79 main_v90 main_v91 (cmpi .slt : (⟨S4x1080x1920, .i32⟩ : BufTy).Contents (Elt F) → (⟨S4x1080x1920, .i32⟩ : BufTy).Contents (Elt F) → (⟨S4x1080x1920, .i1⟩ : BufTy).Contents (Elt F)),
    nullary main_c_33 (constantI S_ 32 33#32),
    unary main_c_33 main_v92 (broadcastInDim S4x1080x1920 ![] bcast_S_S4x1080x1920 : (⟨S_, .i32⟩ : BufTy).Contents (Elt F) → (⟨S4x1080x1920, .i32⟩ : BufTy).Contents (Elt F)),
    binary main_v79 main_v92 main_v93 (addi : (⟨S4x1080x1920, .i32⟩ : BufTy).Contents (Elt F) → (⟨S4x1080x1920, .i32⟩ : BufTy).Contents (Elt F) → (⟨S4x1080x1920, .i32⟩ : BufTy).Contents (Elt F)),
    ternary main_v91 main_v93 main_v79 main_v94 (select : (⟨S4x1080x1920, .i1⟩ : BufTy).Contents (Elt F) → (⟨S4x1080x1920, .i32⟩ : BufTy).Contents (Elt F) → (⟨S4x1080x1920, .i32⟩ : BufTy).Contents (Elt F) → (⟨S4x1080x1920, .i32⟩ : BufTy).Contents (Elt F)),
    unary main_v84 main_v95 (broadcastInDim S4x1080x1920x1 ![0, 1, 2] bcast_S4x1080x1920_S4x1080x1920x1_0_1_2 : (⟨S4x1080x1920, .i32⟩ : BufTy).Contents (Elt F) → (⟨S4x1080x1920x1, .i32⟩ : BufTy).Contents (Elt F)),
    unary main_v89 main_v96 (broadcastInDim S4x1080x1920x1 ![0, 1, 2] bcast_S4x1080x1920_S4x1080x1920x1_0_1_2 : (⟨S4x1080x1920, .i32⟩ : BufTy).Contents (Elt F) → (⟨S4x1080x1920x1, .i32⟩ : BufTy).Contents (Elt F)),
    unary main_v94 main_v97 (broadcastInDim S4x1080x1920x1 ![0, 1, 2] bcast_S4x1080x1920_S4x1080x1920x1_0_1_2 : (⟨S4x1080x1920, .i32⟩ : BufTy).Contents (Elt F) → (⟨S4x1080x1920x1, .i32⟩ : BufTy).Contents (Elt F)),
    nary ![main_v95, main_v96, main_v97] main_v98 (fun u => concatenate S4x1080x1920x3 3 [⟨S4x1080x1920x1, u 0⟩, ⟨S4x1080x1920x1, u 1⟩, ⟨S4x1080x1920x1, u 2⟩] concatenates_S4x1080x1920x1_S4x1080x1920x1_S4x1080x1920x1_S4x1080x1920x3_d3),
    binary main_arg1 main_v98 main_v99 ((fun x i => Host.gather gather_S3x33x33x33_S4x1080x1920x3_S3x4x1080x1920_0_123_n_n_123_3_3111 x i) : (⟨S3x33x33x33, .f32⟩ : BufTy).Contents (Elt F) → (⟨S4x1080x1920x3, .i32⟩ : BufTy).Contents (Elt F) → (⟨S3x4x1080x1920, .f32⟩ : BufTy).Contents (Elt F)),
    unary main_v73 main_v100 (broadcastInDim S4x1x1080x1920 ![0, 2, 3] bcast_S4x1080x1920_S4x1x1080x1920_0_2_3 : (⟨S4x1080x1920, .f32⟩ : BufTy).Contents (Elt F) → (⟨S4x1x1080x1920, .f32⟩ : BufTy).Contents (Elt F)),
    unary main_v99 main_v101 ((transpose S4x3x1080x1920 [1, 0, 2, 3] · transposes_S3x4x1080x1920_S4x3x1080x1920_1_0_2_3) : (⟨S3x4x1080x1920, .f32⟩ : BufTy).Contents (Elt F) → (⟨S4x3x1080x1920, .f32⟩ : BufTy).Contents (Elt F)),
    unary main_v100 main_v102 (broadcastInDim S4x3x1080x1920 ![0, 1, 2, 3] bcast_S4x1x1080x1920_S4x3x1080x1920_0_1_2_3 : (⟨S4x1x1080x1920, .f32⟩ : BufTy).Contents (Elt F) → (⟨S4x3x1080x1920, .f32⟩ : BufTy).Contents (Elt F)),
    binary main_v102 main_v101 main_v103 (mulf : (⟨S4x3x1080x1920, .f32⟩ : BufTy).Contents (Elt F) → (⟨S4x3x1080x1920, .f32⟩ : BufTy).Contents (Elt F) → (⟨S4x3x1080x1920, .f32⟩ : BufTy).Contents (Elt F)),
    binary main_v62 main_v103 main_v104 (addf : (⟨S4x3x1080x1920, .f32⟩ : BufTy).Contents (Elt F) → (⟨S4x3x1080x1920, .f32⟩ : BufTy).Contents (Elt F) → (⟨S4x3x1080x1920, .f32⟩ : BufTy).Contents (Elt F)),
    nullary main_cst_34 (constant S_ .f32 0x3F800000#32),
    unary main_cst_34 main_v105 (broadcastInDim S4x1080x1920 ![] bcast_S_S4x1080x1920 : (⟨S_, .f32⟩ : BufTy).Contents (Elt F) → (⟨S4x1080x1920, .f32⟩ : BufTy).Contents (Elt F)),
    binary main_v105 main_v15 main_v106 (subf : (⟨S4x1080x1920, .f32⟩ : BufTy).Contents (Elt F) → (⟨S4x1080x1920, .f32⟩ : BufTy).Contents (Elt F) → (⟨S4x1080x1920, .f32⟩ : BufTy).Contents (Elt F)),
    nullary main_c_35 (constantI S_ 32 0#32),
    TRef.nullary (TRef.of (T := ⟨S_, .i32⟩) main_call8_c) (constantI S_ 32 0#32),
    TRef.binary (TRef.of (T := ⟨S_, .i32⟩) main_c_35) (TRef.of (T := ⟨S_, .i32⟩) main_call8_c) (TRef.of (T := ⟨S_, .i1⟩) main_call8_v0) (cmpi .ne),
    TRef.ternary (TRef.of (T := ⟨S_, .i1⟩) main_call8_v0) (TRef.of (T := ⟨S4x1080x1920, .f32⟩) main_v15) (TRef.of (T := ⟨S4x1080x1920, .f32⟩) main_v106) (TRef.of (T := ⟨S4x1080x1920, .f32⟩) main_v107) (fun p a b => select (broadcastInDim S4x1080x1920 ![] bcast_S_S4x1080x1920 p) a b),
    nullary main_cst_36 (constant S_ .f32 0x3F800000#32),
    unary main_cst_36 main_v108 (broadcastInDim S4x1080x1920 ![] bcast_S_S4x1080x1920 : (⟨S_, .f32⟩ : BufTy).Contents (Elt F) → (⟨S4x1080x1920, .f32⟩ : BufTy).Contents (Elt F)),
    binary main_v108 main_v17 main_v109 (subf : (⟨S4x1080x1920, .f32⟩ : BufTy).Contents (Elt F) → (⟨S4x1080x1920, .f32⟩ : BufTy).Contents (Elt F) → (⟨S4x1080x1920, .f32⟩ : BufTy).Contents (Elt F)),
    nullary main_c_37 (constantI S_ 32 1#32),
    TRef.nullary (TRef.of (T := ⟨S_, .i32⟩) main_call9_c) (constantI S_ 32 0#32),
    TRef.binary (TRef.of (T := ⟨S_, .i32⟩) main_c_37) (TRef.of (T := ⟨S_, .i32⟩) main_call9_c) (TRef.of (T := ⟨S_, .i1⟩) main_call9_v0) (cmpi .ne),
    TRef.ternary (TRef.of (T := ⟨S_, .i1⟩) main_call9_v0) (TRef.of (T := ⟨S4x1080x1920, .f32⟩) main_v17) (TRef.of (T := ⟨S4x1080x1920, .f32⟩) main_v109) (TRef.of (T := ⟨S4x1080x1920, .f32⟩) main_v110) (fun p a b => select (broadcastInDim S4x1080x1920 ![] bcast_S_S4x1080x1920 p) a b),
    binary main_v107 main_v110 main_v111 (mulf : (⟨S4x1080x1920, .f32⟩ : BufTy).Contents (Elt F) → (⟨S4x1080x1920, .f32⟩ : BufTy).Contents (Elt F) → (⟨S4x1080x1920, .f32⟩ : BufTy).Contents (Elt F)),
    nullary main_cst_38 (constant S_ .f32 0x3F800000#32),
    unary main_cst_38 main_v112 (broadcastInDim S4x1080x1920 ![] bcast_S_S4x1080x1920 : (⟨S_, .f32⟩ : BufTy).Contents (Elt F) → (⟨S4x1080x1920, .f32⟩ : BufTy).Contents (Elt F)),
    binary main_v112 main_v19 main_v113 (subf : (⟨S4x1080x1920, .f32⟩ : BufTy).Contents (Elt F) → (⟨S4x1080x1920, .f32⟩ : BufTy).Contents (Elt F) → (⟨S4x1080x1920, .f32⟩ : BufTy).Contents (Elt F)),
    nullary main_c_39 (constantI S_ 32 0#32),
    TRef.nullary (TRef.of (T := ⟨S_, .i32⟩) main_call10_c) (constantI S_ 32 0#32),
    TRef.binary (TRef.of (T := ⟨S_, .i32⟩) main_c_39) (TRef.of (T := ⟨S_, .i32⟩) main_call10_c) (TRef.of (T := ⟨S_, .i1⟩) main_call10_v0) (cmpi .ne),
    TRef.ternary (TRef.of (T := ⟨S_, .i1⟩) main_call10_v0) (TRef.of (T := ⟨S4x1080x1920, .f32⟩) main_v19) (TRef.of (T := ⟨S4x1080x1920, .f32⟩) main_v113) (TRef.of (T := ⟨S4x1080x1920, .f32⟩) main_v114) (fun p a b => select (broadcastInDim S4x1080x1920 ![] bcast_S_S4x1080x1920 p) a b),
    binary main_v111 main_v114 main_v115 (mulf : (⟨S4x1080x1920, .f32⟩ : BufTy).Contents (Elt F) → (⟨S4x1080x1920, .f32⟩ : BufTy).Contents (Elt F) → (⟨S4x1080x1920, .f32⟩ : BufTy).Contents (Elt F)),
    nullary main_c_40 (constantI S_ 32 0#32),
    unary main_c_40 main_v116 (broadcastInDim S4x1080x1920 ![] bcast_S_S4x1080x1920 : (⟨S_, .i32⟩ : BufTy).Contents (Elt F) → (⟨S4x1080x1920, .i32⟩ : BufTy).Contents (Elt F)),
    binary main_v13 main_v116 main_v117 (addi : (⟨S4x1080x1920, .i32⟩ : BufTy).Contents (Elt F) → (⟨S4x1080x1920, .i32⟩ : BufTy).Contents (Elt F) → (⟨S4x1080x1920, .i32⟩ : BufTy).Contents (Elt F)),
    nullary main_c_41 (constantI S_ 32 1#32),
    unary main_c_41 main_v118 (broadcastInDim S4x1080x1920 ![] bcast_S_S4x1080x1920 : (⟨S_, .i32⟩ : BufTy).Contents (Elt F) → (⟨S4x1080x1920, .i32⟩ : BufTy).Contents (Elt F)),
    binary main_v11 main_v118 main_v119 (addi : (⟨S4x1080x1920, .i32⟩ : BufTy).Contents (Elt F) → (⟨S4x1080x1920, .i32⟩ : BufTy).Contents (Elt F) → (⟨S4x1080x1920, .i32⟩ : BufTy).Contents (Elt F)),
    nullary main_c_42 (constantI S_ 32 0#32),
    unary main_c_42 main_v120 (broadcastInDim S4x1080x1920 ![] bcast_S_S4x1080x1920 : (⟨S_, .i32⟩ : BufTy).Contents (Elt F) → (⟨S4x1080x1920, .i32⟩ : BufTy).Contents (Elt F)),
    binary main_v9 main_v120 main_v121 (addi : (⟨S4x1080x1920, .i32⟩ : BufTy).Contents (Elt F) → (⟨S4x1080x1920, .i32⟩ : BufTy).Contents (Elt F) → (⟨S4x1080x1920, .i32⟩ : BufTy).Contents (Elt F)),
    nullary main_c_43 (constantI S_ 32 0#32),
    unary main_c_43 main_v122 (broadcastInDim S4x1080x1920 ![] bcast_S_S4x1080x1920 : (⟨S_, .i32⟩ : BufTy).Contents (Elt F) → (⟨S4x1080x1920, .i32⟩ : BufTy).Contents (Elt F)),
    binary main_v117 main_v122 main_v123 (cmpi .slt : (⟨S4x1080x1920, .i32⟩ : BufTy).Contents (Elt F) → (⟨S4x1080x1920, .i32⟩ : BufTy).Contents (Elt F) → (⟨S4x1080x1920, .i1⟩ : BufTy).Contents (Elt F)),
    nullary main_c_44 (constantI S_ 32 33#32),
    unary main_c_44 main_v124 (broadcastInDim S4x1080x1920 ![] bcast_S_S4x1080x1920 : (⟨S_, .i32⟩ : BufTy).Contents (Elt F) → (⟨S4x1080x1920, .i32⟩ : BufTy).Contents (Elt F)),
    binary main_v117 main_v124 main_v125 (addi : (⟨S4x1080x1920, .i32⟩ : BufTy).Contents (Elt F) → (⟨S4x1080x1920, .i32⟩ : BufTy).Contents (Elt F) → (⟨S4x1080x1920, .i32⟩ : BufTy).Contents (Elt F)),
    ternary main_v123 main_v125 main_v117 main_v126 (select : (⟨S4x1080x1920, .i1⟩ : BufTy).Contents (Elt F) → (⟨S4x1080x1920, .i32⟩ : BufTy).Contents (Elt F) → (⟨S4x1080x1920, .i32⟩ : BufTy).Contents (Elt F) → (⟨S4x1080x1920, .i32⟩ : BufTy).Contents (Elt F)),
    nullary main_c_45 (constantI S_ 32 0#32),
    unary main_c_45 main_v127 (broadcastInDim S4x1080x1920 ![] bcast_S_S4x1080x1920 : (⟨S_, .i32⟩ : BufTy).Contents (Elt F) → (⟨S4x1080x1920, .i32⟩ : BufTy).Contents (Elt F)),
    binary main_v119 main_v127 main_v128 (cmpi .slt : (⟨S4x1080x1920, .i32⟩ : BufTy).Contents (Elt F) → (⟨S4x1080x1920, .i32⟩ : BufTy).Contents (Elt F) → (⟨S4x1080x1920, .i1⟩ : BufTy).Contents (Elt F)),
    nullary main_c_46 (constantI S_ 32 33#32),
    unary main_c_46 main_v129 (broadcastInDim S4x1080x1920 ![] bcast_S_S4x1080x1920 : (⟨S_, .i32⟩ : BufTy).Contents (Elt F) → (⟨S4x1080x1920, .i32⟩ : BufTy).Contents (Elt F)),
    binary main_v119 main_v129 main_v130 (addi : (⟨S4x1080x1920, .i32⟩ : BufTy).Contents (Elt F) → (⟨S4x1080x1920, .i32⟩ : BufTy).Contents (Elt F) → (⟨S4x1080x1920, .i32⟩ : BufTy).Contents (Elt F)) ]

set_option maxRecDepth 8192 in
set_option maxHeartbeats 4000000 in
theorem part2_eq (d : Dev nD) : main_part2 (F := F) d = seq part2 := rfl

theorem part2_sub : (part2 : List (HloOp τ sig (Elt F))).Forall fun op => op.bufs ⊆ tcRefs τ sig :=
  ⟨nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., unary_bufs_sub .., unary_bufs_sub .., unary_bufs_sub .., binary_bufs_sub .., binary_bufs_sub .., nullary_bufs_sub .., unary_bufs_sub .., binary_bufs_sub .., nullary_bufs_sub .., nullary_bufs_sub .., binary_bufs_sub .., ternary_bufs_sub .., nullary_bufs_sub .., unary_bufs_sub .., binary_bufs_sub .., nullary_bufs_sub .., nullary_bufs_sub .., binary_bufs_sub .., ternary_bufs_sub .., binary_bufs_sub .., nullary_bufs_sub .., unary_bufs_sub .., binary_bufs_sub .., nullary_bufs_sub .., nullary_bufs_sub .., binary_bufs_sub .., ternary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub ..⟩

theorem part2_fresh : ∀ op ∈ (part2 : List (HloOp τ sig (Elt F))), op.fresh = ∅ :=
  List.forall_iff_forall_mem.1 (show (part2 : List (HloOp τ sig (Elt F))).Forall (fun op => op.fresh = ∅) from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

end Cert.Lut3.RefOps

end
-- ==== Proof.RefPart3.lean ====
/-
  Window 3 of the eight-corner program as a list of its operations (a called function's operations stand in its
  call's place), with the three facts the run needs of it: the window is the list run in order, every operation
  touches TensorCore buffers only, and every operation determines its results.
-/
import proofs.«140490_j86122684220303_2_alg».proof.ReferenceIdeal
import Idealize.ShloMosaic.Lib.StableHlo.Run

noncomputable section

namespace Cert.Lut3.RefOps

open Cert.ReferenceIdeal Idealize.ShloMosaic Idealize.ShloMosaic.TcCoe Idealize.SL.Sem Idealize.ShloMosaic.StableHlo
open Cert.ReferenceIdeal.Facts₀

variable {F : FTy → Type} [FloatOps F] [Cert.ReferenceIdeal.Facts]

/-- Window 3's operations, in order. -/
abbrev part3 : List (HloOp τ sig (Elt F)) :=
  [ ternary main_v128 main_v130 main_v119 main_v131 (select : (⟨S4x1080x1920, .i1⟩ : BufTy).Contents (Elt F) → (⟨S4x1080x1920, .i32⟩ : BufTy).Contents (Elt F) → (⟨S4x1080x1920, .i32⟩ : BufTy).Contents (Elt F) → (⟨S4x1080x1920, .i32⟩ : BufTy).Contents (Elt F)),
    nullary main_c_47 (constantI S_ 32 0#32),
    unary main_c_47 main_v132 (broadcastInDim S4x1080x1920 ![] bcast_S_S4x1080x1920 : (⟨S_, .i32⟩ : BufTy).Contents (Elt F) → (⟨S4x1080x1920, .i32⟩ : BufTy).Contents (Elt F)),
    binary main_v121 main_v132 main_v133 (cmpi .slt : (⟨S4x1080x1920, .i32⟩ : BufTy).Contents (Elt F) → (⟨S4x1080x1920, .i32⟩ : BufTy).Contents (Elt F) → (⟨S4x1080x1920, .i1⟩ : BufTy).Contents (Elt F)),
    nullary main_c_48 (constantI S_ 32 33#32),
    unary main_c_48 main_v134 (broadcastInDim S4x1080x1920 ![] bcast_S_S4x1080x1920 : (⟨S_, .i32⟩ : BufTy).Contents (Elt F) → (⟨S4x1080x1920, .i32⟩ : BufTy).Contents (Elt F)),
    binary main_v121 main_v134 main_v135 (addi : (⟨S4x1080x1920, .i32⟩ : BufTy).Contents (Elt F) → (⟨S4x1080x1920, .i32⟩ : BufTy).Contents (Elt F) → (⟨S4x1080x1920, .i32⟩ : BufTy).Contents (Elt F)),
    ternary main_v133 main_v135 main_v121 main_v136 (select : (⟨S4x1080x1920, .i1⟩ : BufTy).Contents (Elt F) → (⟨S4x1080x1920, .i32⟩ : BufTy).Contents (Elt F) → (⟨S4x1080x1920, .i32⟩ : BufTy).Contents (Elt F) → (⟨S4x1080x1920, .i32⟩ : BufTy).Contents (Elt F)),
    unary main_v126 main_v137 (broadcastInDim S4x1080x1920x1 ![0, 1, 2] bcast_S4x1080x1920_S4x1080x1920x1_0_1_2 : (⟨S4x1080x1920, .i32⟩ : BufTy).Contents (Elt F) → (⟨S4x1080x1920x1, .i32⟩ : BufTy).Contents (Elt F)),
    unary main_v131 main_v138 (broadcastInDim S4x1080x1920x1 ![0, 1, 2] bcast_S4x1080x1920_S4x1080x1920x1_0_1_2 : (⟨S4x1080x1920, .i32⟩ : BufTy).Contents (Elt F) → (⟨S4x1080x1920x1, .i32⟩ : BufTy).Contents (Elt F)),
    unary main_v136 main_v139 (broadcastInDim S4x1080x1920x1 ![0, 1, 2] bcast_S4x1080x1920_S4x1080x1920x1_0_1_2 : (⟨S4x1080x1920, .i32⟩ : BufTy).Contents (Elt F) → (⟨S4x1080x1920x1, .i32⟩ : BufTy).Contents (Elt F)),
    nary ![main_v137, main_v138, main_v139] main_v140 (fun u => concatenate S4x1080x1920x3 3 [⟨S4x1080x1920x1, u 0⟩, ⟨S4x1080x1920x1, u 1⟩, ⟨S4x1080x1920x1, u 2⟩] concatenates_S4x1080x1920x1_S4x1080x1920x1_S4x1080x1920x1_S4x1080x1920x3_d3),
    binary main_arg1 main_v140 main_v141 ((fun x i => Host.gather gather_S3x33x33x33_S4x1080x1920x3_S3x4x1080x1920_0_123_n_n_123_3_3111 x i) : (⟨S3x33x33x33, .f32⟩ : BufTy).Contents (Elt F) → (⟨S4x1080x1920x3, .i32⟩ : BufTy).Contents (Elt F) → (⟨S3x4x1080x1920, .f32⟩ : BufTy).Contents (Elt F)),
    unary main_v115 main_v142 (broadcastInDim S4x1x1080x1920 ![0, 2, 3] bcast_S4x1080x1920_S4x1x1080x1920_0_2_3 : (⟨S4x1080x1920, .f32⟩ : BufTy).Contents (Elt F) → (⟨S4x1x1080x1920, .f32⟩ : BufTy).Contents (Elt F)),
    unary main_v141 main_v143 ((transpose S4x3x1080x1920 [1, 0, 2, 3] · transposes_S3x4x1080x1920_S4x3x1080x1920_1_0_2_3) : (⟨S3x4x1080x1920, .f32⟩ : BufTy).Contents (Elt F) → (⟨S4x3x1080x1920, .f32⟩ : BufTy).Contents (Elt F)),
    unary main_v142 main_v144 (broadcastInDim S4x3x1080x1920 ![0, 1, 2, 3] bcast_S4x1x1080x1920_S4x3x1080x1920_0_1_2_3 : (⟨S4x1x1080x1920, .f32⟩ : BufTy).Contents (Elt F) → (⟨S4x3x1080x1920, .f32⟩ : BufTy).Contents (Elt F)),
    binary main_v144 main_v143 main_v145 (mulf : (⟨S4x3x1080x1920, .f32⟩ : BufTy).Contents (Elt F) → (⟨S4x3x1080x1920, .f32⟩ : BufTy).Contents (Elt F) → (⟨S4x3x1080x1920, .f32⟩ : BufTy).Contents (Elt F)),
    binary main_v104 main_v145 main_v146 (addf : (⟨S4x3x1080x1920, .f32⟩ : BufTy).Contents (Elt F) → (⟨S4x3x1080x1920, .f32⟩ : BufTy).Contents (Elt F) → (⟨S4x3x1080x1920, .f32⟩ : BufTy).Contents (Elt F)),
    nullary main_cst_49 (constant S_ .f32 0x3F800000#32),
    unary main_cst_49 main_v147 (broadcastInDim S4x1080x1920 ![] bcast_S_S4x1080x1920 : (⟨S_, .f32⟩ : BufTy).Contents (Elt F) → (⟨S4x1080x1920, .f32⟩ : BufTy).Contents (Elt F)),
    binary main_v147 main_v15 main_v148 (subf : (⟨S4x1080x1920, .f32⟩ : BufTy).Contents (Elt F) → (⟨S4x1080x1920, .f32⟩ : BufTy).Contents (Elt F) → (⟨S4x1080x1920, .f32⟩ : BufTy).Contents (Elt F)),
    nullary main_c_50 (constantI S_ 32 0#32),
    TRef.nullary (TRef.of (T := ⟨S_, .i32⟩) main_call11_c) (constantI S_ 32 0#32),
    TRef.binary (TRef.of (T := ⟨S_, .i32⟩) main_c_50) (TRef.of (T := ⟨S_, .i32⟩) main_call11_c) (TRef.of (T := ⟨S_, .i1⟩) main_call11_v0) (cmpi .ne),
    TRef.ternary (TRef.of (T := ⟨S_, .i1⟩) main_call11_v0) (TRef.of (T := ⟨S4x1080x1920, .f32⟩) main_v15) (TRef.of (T := ⟨S4x1080x1920, .f32⟩) main_v148) (TRef.of (T := ⟨S4x1080x1920, .f32⟩) main_v149) (fun p a b => select (broadcastInDim S4x1080x1920 ![] bcast_S_S4x1080x1920 p) a b),
    nullary main_cst_51 (constant S_ .f32 0x3F800000#32),
    unary main_cst_51 main_v150 (broadcastInDim S4x1080x1920 ![] bcast_S_S4x1080x1920 : (⟨S_, .f32⟩ : BufTy).Contents (Elt F) → (⟨S4x1080x1920, .f32⟩ : BufTy).Contents (Elt F)),
    binary main_v150 main_v17 main_v151 (subf : (⟨S4x1080x1920, .f32⟩ : BufTy).Contents (Elt F) → (⟨S4x1080x1920, .f32⟩ : BufTy).Contents (Elt F) → (⟨S4x1080x1920, .f32⟩ : BufTy).Contents (Elt F)),
    nullary main_c_52 (constantI S_ 32 1#32),
    TRef.nullary (TRef.of (T := ⟨S_, .i32⟩) main_call12_c) (constantI S_ 32 0#32),
    TRef.binary (TRef.of (T := ⟨S_, .i32⟩) main_c_52) (TRef.of (T := ⟨S_, .i32⟩) main_call12_c) (TRef.of (T := ⟨S_, .i1⟩) main_call12_v0) (cmpi .ne),
    TRef.ternary (TRef.of (T := ⟨S_, .i1⟩) main_call12_v0) (TRef.of (T := ⟨S4x1080x1920, .f32⟩) main_v17) (TRef.of (T := ⟨S4x1080x1920, .f32⟩) main_v151) (TRef.of (T := ⟨S4x1080x1920, .f32⟩) main_v152) (fun p a b => select (broadcastInDim S4x1080x1920 ![] bcast_S_S4x1080x1920 p) a b),
    binary main_v149 main_v152 main_v153 (mulf : (⟨S4x1080x1920, .f32⟩ : BufTy).Contents (Elt F) → (⟨S4x1080x1920, .f32⟩ : BufTy).Contents (Elt F) → (⟨S4x1080x1920, .f32⟩ : BufTy).Contents (Elt F)),
    nullary main_cst_53 (constant S_ .f32 0x3F800000#32),
    unary main_cst_53 main_v154 (broadcastInDim S4x1080x1920 ![] bcast_S_S4x1080x1920 : (⟨S_, .f32⟩ : BufTy).Contents (Elt F) → (⟨S4x1080x1920, .f32⟩ : BufTy).Contents (Elt F)),
    binary main_v154 main_v19 main_v155 (subf : (⟨S4x1080x1920, .f32⟩ : BufTy).Contents (Elt F) → (⟨S4x1080x1920, .f32⟩ : BufTy).Contents (Elt F) → (⟨S4x1080x1920, .f32⟩ : BufTy).Contents (Elt F)),
    nullary main_c_54 (constantI S_ 32 1#32),
    TRef.nullary (TRef.of (T := ⟨S_, .i32⟩) main_call13_c) (constantI S_ 32 0#32),
    TRef.binary (TRef.of (T := ⟨S_, .i32⟩) main_c_54) (TRef.of (T := ⟨S_, .i32⟩) main_call13_c) (TRef.of (T := ⟨S_, .i1⟩) main_call13_v0) (cmpi .ne),
    TRef.ternary (TRef.of (T := ⟨S_, .i1⟩) main_call13_v0) (TRef.of (T := ⟨S4x1080x1920, .f32⟩) main_v19) (TRef.of (T := ⟨S4x1080x1920, .f32⟩) main_v155) (TRef.of (T := ⟨S4x1080x1920, .f32⟩) main_v156) (fun p a b => select (broadcastInDim S4x1080x1920 ![] bcast_S_S4x1080x1920 p) a b),
    binary main_v153 main_v156 main_v157 (mulf : (⟨S4x1080x1920, .f32⟩ : BufTy).Contents (Elt F) → (⟨S4x1080x1920, .f32⟩ : BufTy).Contents (Elt F) → (⟨S4x1080x1920, .f32⟩ : BufTy).Contents (Elt F)),
    nullary main_c_55 (constantI S_ 32 1#32),
    unary main_c_55 main_v158 (broadcastInDim S4x1080x1920 ![] bcast_S_S4x1080x1920 : (⟨S_, .i32⟩ : BufTy).Contents (Elt F) → (⟨S4x1080x1920, .i32⟩ : BufTy).Contents (Elt F)),
    binary main_v13 main_v158 main_v159 (addi : (⟨S4x1080x1920, .i32⟩ : BufTy).Contents (Elt F) → (⟨S4x1080x1920, .i32⟩ : BufTy).Contents (Elt F) → (⟨S4x1080x1920, .i32⟩ : BufTy).Contents (Elt F)),
    nullary main_c_56 (constantI S_ 32 1#32),
    unary main_c_56 main_v160 (broadcastInDim S4x1080x1920 ![] bcast_S_S4x1080x1920 : (⟨S_, .i32⟩ : BufTy).Contents (Elt F) → (⟨S4x1080x1920, .i32⟩ : BufTy).Contents (Elt F)),
    binary main_v11 main_v160 main_v161 (addi : (⟨S4x1080x1920, .i32⟩ : BufTy).Contents (Elt F) → (⟨S4x1080x1920, .i32⟩ : BufTy).Contents (Elt F) → (⟨S4x1080x1920, .i32⟩ : BufTy).Contents (Elt F)),
    nullary main_c_57 (constantI S_ 32 0#32),
    unary main_c_57 main_v162 (broadcastInDim S4x1080x1920 ![] bcast_S_S4x1080x1920 : (⟨S_, .i32⟩ : BufTy).Contents (Elt F) → (⟨S4x1080x1920, .i32⟩ : BufTy).Contents (Elt F)),
    binary main_v9 main_v162 main_v163 (addi : (⟨S4x1080x1920, .i32⟩ : BufTy).Contents (Elt F) → (⟨S4x1080x1920, .i32⟩ : BufTy).Contents (Elt F) → (⟨S4x1080x1920, .i32⟩ : BufTy).Contents (Elt F)),
    nullary main_c_58 (constantI S_ 32 0#32),
    unary main_c_58 main_v164 (broadcastInDim S4x1080x1920 ![] bcast_S_S4x1080x1920 : (⟨S_, .i32⟩ : BufTy).Contents (Elt F) → (⟨S4x1080x1920, .i32⟩ : BufTy).Contents (Elt F)),
    binary main_v159 main_v164 main_v165 (cmpi .slt : (⟨S4x1080x1920, .i32⟩ : BufTy).Contents (Elt F) → (⟨S4x1080x1920, .i32⟩ : BufTy).Contents (Elt F) → (⟨S4x1080x1920, .i1⟩ : BufTy).Contents (Elt F)),
    nullary main_c_59 (constantI S_ 32 33#32),
    unary main_c_59 main_v166 (broadcastInDim S4x1080x1920 ![] bcast_S_S4x1080x1920 : (⟨S_, .i32⟩ : BufTy).Contents (Elt F) → (⟨S4x1080x1920, .i32⟩ : BufTy).Contents (Elt F)),
    binary main_v159 main_v166 main_v167 (addi : (⟨S4x1080x1920, .i32⟩ : BufTy).Contents (Elt F) → (⟨S4x1080x1920, .i32⟩ : BufTy).Contents (Elt F) → (⟨S4x1080x1920, .i32⟩ : BufTy).Contents (Elt F)),
    ternary main_v165 main_v167 main_v159 main_v168 (select : (⟨S4x1080x1920, .i1⟩ : BufTy).Contents (Elt F) → (⟨S4x1080x1920, .i32⟩ : BufTy).Contents (Elt F) → (⟨S4x1080x1920, .i32⟩ : BufTy).Contents (Elt F) → (⟨S4x1080x1920, .i32⟩ : BufTy).Contents (Elt F)),
    nullary main_c_60 (constantI S_ 32 0#32),
    unary main_c_60 main_v169 (broadcastInDim S4x1080x1920 ![] bcast_S_S4x1080x1920 : (⟨S_, .i32⟩ : BufTy).Contents (Elt F) → (⟨S4x1080x1920, .i32⟩ : BufTy).Contents (Elt F)),
    binary main_v161 main_v169 main_v170 (cmpi .slt : (⟨S4x1080x1920, .i32⟩ : BufTy).Contents (Elt F) → (⟨S4x1080x1920, .i32⟩ : BufTy).Contents (Elt F) → (⟨S4x1080x1920, .i1⟩ : BufTy).Contents (Elt F)),
    nullary main_c_61 (constantI S_ 32 33#32),
    unary main_c_61 main_v171 (broadcastInDim S4x1080x1920 ![] bcast_S_S4x1080x1920 : (⟨S_, .i32⟩ : BufTy).Contents (Elt F) → (⟨S4x1080x1920, .i32⟩ : BufTy).Contents (Elt F)),
    binary main_v161 main_v171 main_v172 (addi : (⟨S4x1080x1920, .i32⟩ : BufTy).Contents (Elt F) → (⟨S4x1080x1920, .i32⟩ : BufTy).Contents (Elt F) → (⟨S4x1080x1920, .i32⟩ : BufTy).Contents (Elt F)),
    ternary main_v170 main_v172 main_v161 main_v173 (select : (⟨S4x1080x1920, .i1⟩ : BufTy).Contents (Elt F) → (⟨S4x1080x1920, .i32⟩ : BufTy).Contents (Elt F) → (⟨S4x1080x1920, .i32⟩ : BufTy).Contents (Elt F) → (⟨S4x1080x1920, .i32⟩ : BufTy).Contents (Elt F)),
    nullary main_c_62 (constantI S_ 32 0#32),
    unary main_c_62 main_v174 (broadcastInDim S4x1080x1920 ![] bcast_S_S4x1080x1920 : (⟨S_, .i32⟩ : BufTy).Contents (Elt F) → (⟨S4x1080x1920, .i32⟩ : BufTy).Contents (Elt F)) ]

set_option maxRecDepth 8192 in
set_option maxHeartbeats 4000000 in
theorem part3_eq (d : Dev nD) : main_part3 (F := F) d = seq part3 := rfl

theorem part3_sub : (part3 : List (HloOp τ sig (Elt F))).Forall fun op => op.bufs ⊆ tcRefs τ sig :=
  ⟨ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., unary_bufs_sub .., unary_bufs_sub .., unary_bufs_sub .., binary_bufs_sub .., binary_bufs_sub .., nullary_bufs_sub .., unary_bufs_sub .., binary_bufs_sub .., nullary_bufs_sub .., nullary_bufs_sub .., binary_bufs_sub .., ternary_bufs_sub .., nullary_bufs_sub .., unary_bufs_sub .., binary_bufs_sub .., nullary_bufs_sub .., nullary_bufs_sub .., binary_bufs_sub .., ternary_bufs_sub .., binary_bufs_sub .., nullary_bufs_sub .., unary_bufs_sub .., binary_bufs_sub .., nullary_bufs_sub .., nullary_bufs_sub .., binary_bufs_sub .., ternary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub ..⟩

theorem part3_fresh : ∀ op ∈ (part3 : List (HloOp τ sig (Elt F))), op.fresh = ∅ :=
  List.forall_iff_forall_mem.1 (show (part3 : List (HloOp τ sig (Elt F))).Forall (fun op => op.fresh = ∅) from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

end Cert.Lut3.RefOps

end
-- ==== Proof.RefPart4.lean ====
/-
  Window 4 of the eight-corner program as a list of its operations (a called function's operations stand in its
  call's place), with the three facts the run needs of it: the window is the list run in order, every operation
  touches TensorCore buffers only, and every operation determines its results.
-/
import proofs.«140490_j86122684220303_2_alg».proof.ReferenceIdeal
import Idealize.ShloMosaic.Lib.StableHlo.Run

noncomputable section

namespace Cert.Lut3.RefOps

open Cert.ReferenceIdeal Idealize.ShloMosaic Idealize.ShloMosaic.TcCoe Idealize.SL.Sem Idealize.ShloMosaic.StableHlo
open Cert.ReferenceIdeal.Facts₀

variable {F : FTy → Type} [FloatOps F] [Cert.ReferenceIdeal.Facts]

/-- Window 4's operations, in order. -/
abbrev part4 : List (HloOp τ sig (Elt F)) :=
  [ binary main_v163 main_v174 main_v175 (cmpi .slt : (⟨S4x1080x1920, .i32⟩ : BufTy).Contents (Elt F) → (⟨S4x1080x1920, .i32⟩ : BufTy).Contents (Elt F) → (⟨S4x1080x1920, .i1⟩ : BufTy).Contents (Elt F)),
    nullary main_c_63 (constantI S_ 32 33#32),
    unary main_c_63 main_v176 (broadcastInDim S4x1080x1920 ![] bcast_S_S4x1080x1920 : (⟨S_, .i32⟩ : BufTy).Contents (Elt F) → (⟨S4x1080x1920, .i32⟩ : BufTy).Contents (Elt F)),
    binary main_v163 main_v176 main_v177 (addi : (⟨S4x1080x1920, .i32⟩ : BufTy).Contents (Elt F) → (⟨S4x1080x1920, .i32⟩ : BufTy).Contents (Elt F) → (⟨S4x1080x1920, .i32⟩ : BufTy).Contents (Elt F)),
    ternary main_v175 main_v177 main_v163 main_v178 (select : (⟨S4x1080x1920, .i1⟩ : BufTy).Contents (Elt F) → (⟨S4x1080x1920, .i32⟩ : BufTy).Contents (Elt F) → (⟨S4x1080x1920, .i32⟩ : BufTy).Contents (Elt F) → (⟨S4x1080x1920, .i32⟩ : BufTy).Contents (Elt F)),
    unary main_v168 main_v179 (broadcastInDim S4x1080x1920x1 ![0, 1, 2] bcast_S4x1080x1920_S4x1080x1920x1_0_1_2 : (⟨S4x1080x1920, .i32⟩ : BufTy).Contents (Elt F) → (⟨S4x1080x1920x1, .i32⟩ : BufTy).Contents (Elt F)),
    unary main_v173 main_v180 (broadcastInDim S4x1080x1920x1 ![0, 1, 2] bcast_S4x1080x1920_S4x1080x1920x1_0_1_2 : (⟨S4x1080x1920, .i32⟩ : BufTy).Contents (Elt F) → (⟨S4x1080x1920x1, .i32⟩ : BufTy).Contents (Elt F)),
    unary main_v178 main_v181 (broadcastInDim S4x1080x1920x1 ![0, 1, 2] bcast_S4x1080x1920_S4x1080x1920x1_0_1_2 : (⟨S4x1080x1920, .i32⟩ : BufTy).Contents (Elt F) → (⟨S4x1080x1920x1, .i32⟩ : BufTy).Contents (Elt F)),
    nary ![main_v179, main_v180, main_v181] main_v182 (fun u => concatenate S4x1080x1920x3 3 [⟨S4x1080x1920x1, u 0⟩, ⟨S4x1080x1920x1, u 1⟩, ⟨S4x1080x1920x1, u 2⟩] concatenates_S4x1080x1920x1_S4x1080x1920x1_S4x1080x1920x1_S4x1080x1920x3_d3),
    binary main_arg1 main_v182 main_v183 ((fun x i => Host.gather gather_S3x33x33x33_S4x1080x1920x3_S3x4x1080x1920_0_123_n_n_123_3_3111 x i) : (⟨S3x33x33x33, .f32⟩ : BufTy).Contents (Elt F) → (⟨S4x1080x1920x3, .i32⟩ : BufTy).Contents (Elt F) → (⟨S3x4x1080x1920, .f32⟩ : BufTy).Contents (Elt F)),
    unary main_v157 main_v184 (broadcastInDim S4x1x1080x1920 ![0, 2, 3] bcast_S4x1080x1920_S4x1x1080x1920_0_2_3 : (⟨S4x1080x1920, .f32⟩ : BufTy).Contents (Elt F) → (⟨S4x1x1080x1920, .f32⟩ : BufTy).Contents (Elt F)),
    unary main_v183 main_v185 ((transpose S4x3x1080x1920 [1, 0, 2, 3] · transposes_S3x4x1080x1920_S4x3x1080x1920_1_0_2_3) : (⟨S3x4x1080x1920, .f32⟩ : BufTy).Contents (Elt F) → (⟨S4x3x1080x1920, .f32⟩ : BufTy).Contents (Elt F)),
    unary main_v184 main_v186 (broadcastInDim S4x3x1080x1920 ![0, 1, 2, 3] bcast_S4x1x1080x1920_S4x3x1080x1920_0_1_2_3 : (⟨S4x1x1080x1920, .f32⟩ : BufTy).Contents (Elt F) → (⟨S4x3x1080x1920, .f32⟩ : BufTy).Contents (Elt F)),
    binary main_v186 main_v185 main_v187 (mulf : (⟨S4x3x1080x1920, .f32⟩ : BufTy).Contents (Elt F) → (⟨S4x3x1080x1920, .f32⟩ : BufTy).Contents (Elt F) → (⟨S4x3x1080x1920, .f32⟩ : BufTy).Contents (Elt F)),
    binary main_v146 main_v187 main_v188 (addf : (⟨S4x3x1080x1920, .f32⟩ : BufTy).Contents (Elt F) → (⟨S4x3x1080x1920, .f32⟩ : BufTy).Contents (Elt F) → (⟨S4x3x1080x1920, .f32⟩ : BufTy).Contents (Elt F)),
    nullary main_cst_64 (constant S_ .f32 0x3F800000#32),
    unary main_cst_64 main_v189 (broadcastInDim S4x1080x1920 ![] bcast_S_S4x1080x1920 : (⟨S_, .f32⟩ : BufTy).Contents (Elt F) → (⟨S4x1080x1920, .f32⟩ : BufTy).Contents (Elt F)),
    binary main_v189 main_v15 main_v190 (subf : (⟨S4x1080x1920, .f32⟩ : BufTy).Contents (Elt F) → (⟨S4x1080x1920, .f32⟩ : BufTy).Contents (Elt F) → (⟨S4x1080x1920, .f32⟩ : BufTy).Contents (Elt F)),
    nullary main_c_65 (constantI S_ 32 1#32),
    TRef.nullary (TRef.of (T := ⟨S_, .i32⟩) main_call14_c) (constantI S_ 32 0#32),
    TRef.binary (TRef.of (T := ⟨S_, .i32⟩) main_c_65) (TRef.of (T := ⟨S_, .i32⟩) main_call14_c) (TRef.of (T := ⟨S_, .i1⟩) main_call14_v0) (cmpi .ne),
    TRef.ternary (TRef.of (T := ⟨S_, .i1⟩) main_call14_v0) (TRef.of (T := ⟨S4x1080x1920, .f32⟩) main_v15) (TRef.of (T := ⟨S4x1080x1920, .f32⟩) main_v190) (TRef.of (T := ⟨S4x1080x1920, .f32⟩) main_v191) (fun p a b => select (broadcastInDim S4x1080x1920 ![] bcast_S_S4x1080x1920 p) a b),
    nullary main_cst_66 (constant S_ .f32 0x3F800000#32),
    unary main_cst_66 main_v192 (broadcastInDim S4x1080x1920 ![] bcast_S_S4x1080x1920 : (⟨S_, .f32⟩ : BufTy).Contents (Elt F) → (⟨S4x1080x1920, .f32⟩ : BufTy).Contents (Elt F)),
    binary main_v192 main_v17 main_v193 (subf : (⟨S4x1080x1920, .f32⟩ : BufTy).Contents (Elt F) → (⟨S4x1080x1920, .f32⟩ : BufTy).Contents (Elt F) → (⟨S4x1080x1920, .f32⟩ : BufTy).Contents (Elt F)),
    nullary main_c_67 (constantI S_ 32 0#32),
    TRef.nullary (TRef.of (T := ⟨S_, .i32⟩) main_call15_c) (constantI S_ 32 0#32),
    TRef.binary (TRef.of (T := ⟨S_, .i32⟩) main_c_67) (TRef.of (T := ⟨S_, .i32⟩) main_call15_c) (TRef.of (T := ⟨S_, .i1⟩) main_call15_v0) (cmpi .ne),
    TRef.ternary (TRef.of (T := ⟨S_, .i1⟩) main_call15_v0) (TRef.of (T := ⟨S4x1080x1920, .f32⟩) main_v17) (TRef.of (T := ⟨S4x1080x1920, .f32⟩) main_v193) (TRef.of (T := ⟨S4x1080x1920, .f32⟩) main_v194) (fun p a b => select (broadcastInDim S4x1080x1920 ![] bcast_S_S4x1080x1920 p) a b),
    binary main_v191 main_v194 main_v195 (mulf : (⟨S4x1080x1920, .f32⟩ : BufTy).Contents (Elt F) → (⟨S4x1080x1920, .f32⟩ : BufTy).Contents (Elt F) → (⟨S4x1080x1920, .f32⟩ : BufTy).Contents (Elt F)),
    nullary main_cst_68 (constant S_ .f32 0x3F800000#32),
    unary main_cst_68 main_v196 (broadcastInDim S4x1080x1920 ![] bcast_S_S4x1080x1920 : (⟨S_, .f32⟩ : BufTy).Contents (Elt F) → (⟨S4x1080x1920, .f32⟩ : BufTy).Contents (Elt F)),
    binary main_v196 main_v19 main_v197 (subf : (⟨S4x1080x1920, .f32⟩ : BufTy).Contents (Elt F) → (⟨S4x1080x1920, .f32⟩ : BufTy).Contents (Elt F) → (⟨S4x1080x1920, .f32⟩ : BufTy).Contents (Elt F)),
    nullary main_c_69 (constantI S_ 32 0#32),
    TRef.nullary (TRef.of (T := ⟨S_, .i32⟩) main_call16_c) (constantI S_ 32 0#32),
    TRef.binary (TRef.of (T := ⟨S_, .i32⟩) main_c_69) (TRef.of (T := ⟨S_, .i32⟩) main_call16_c) (TRef.of (T := ⟨S_, .i1⟩) main_call16_v0) (cmpi .ne),
    TRef.ternary (TRef.of (T := ⟨S_, .i1⟩) main_call16_v0) (TRef.of (T := ⟨S4x1080x1920, .f32⟩) main_v19) (TRef.of (T := ⟨S4x1080x1920, .f32⟩) main_v197) (TRef.of (T := ⟨S4x1080x1920, .f32⟩) main_v198) (fun p a b => select (broadcastInDim S4x1080x1920 ![] bcast_S_S4x1080x1920 p) a b),
    binary main_v195 main_v198 main_v199 (mulf : (⟨S4x1080x1920, .f32⟩ : BufTy).Contents (Elt F) → (⟨S4x1080x1920, .f32⟩ : BufTy).Contents (Elt F) → (⟨S4x1080x1920, .f32⟩ : BufTy).Contents (Elt F)),
    nullary main_c_70 (constantI S_ 32 0#32),
    unary main_c_70 main_v200 (broadcastInDim S4x1080x1920 ![] bcast_S_S4x1080x1920 : (⟨S_, .i32⟩ : BufTy).Contents (Elt F) → (⟨S4x1080x1920, .i32⟩ : BufTy).Contents (Elt F)),
    binary main_v13 main_v200 main_v201 (addi : (⟨S4x1080x1920, .i32⟩ : BufTy).Contents (Elt F) → (⟨S4x1080x1920, .i32⟩ : BufTy).Contents (Elt F) → (⟨S4x1080x1920, .i32⟩ : BufTy).Contents (Elt F)),
    nullary main_c_71 (constantI S_ 32 0#32),
    unary main_c_71 main_v202 (broadcastInDim S4x1080x1920 ![] bcast_S_S4x1080x1920 : (⟨S_, .i32⟩ : BufTy).Contents (Elt F) → (⟨S4x1080x1920, .i32⟩ : BufTy).Contents (Elt F)),
    binary main_v11 main_v202 main_v203 (addi : (⟨S4x1080x1920, .i32⟩ : BufTy).Contents (Elt F) → (⟨S4x1080x1920, .i32⟩ : BufTy).Contents (Elt F) → (⟨S4x1080x1920, .i32⟩ : BufTy).Contents (Elt F)),
    nullary main_c_72 (constantI S_ 32 1#32),
    unary main_c_72 main_v204 (broadcastInDim S4x1080x1920 ![] bcast_S_S4x1080x1920 : (⟨S_, .i32⟩ : BufTy).Contents (Elt F) → (⟨S4x1080x1920, .i32⟩ : BufTy).Contents (Elt F)),
    binary main_v9 main_v204 main_v205 (addi : (⟨S4x1080x1920, .i32⟩ : BufTy).Contents (Elt F) → (⟨S4x1080x1920, .i32⟩ : BufTy).Contents (Elt F) → (⟨S4x1080x1920, .i32⟩ : BufTy).Contents (Elt F)),
    nullary main_c_73 (constantI S_ 32 0#32),
    unary main_c_73 main_v206 (broadcastInDim S4x1080x1920 ![] bcast_S_S4x1080x1920 : (⟨S_, .i32⟩ : BufTy).Contents (Elt F) → (⟨S4x1080x1920, .i32⟩ : BufTy).Contents (Elt F)),
    binary main_v201 main_v206 main_v207 (cmpi .slt : (⟨S4x1080x1920, .i32⟩ : BufTy).Contents (Elt F) → (⟨S4x1080x1920, .i32⟩ : BufTy).Contents (Elt F) → (⟨S4x1080x1920, .i1⟩ : BufTy).Contents (Elt F)),
    nullary main_c_74 (constantI S_ 32 33#32),
    unary main_c_74 main_v208 (broadcastInDim S4x1080x1920 ![] bcast_S_S4x1080x1920 : (⟨S_, .i32⟩ : BufTy).Contents (Elt F) → (⟨S4x1080x1920, .i32⟩ : BufTy).Contents (Elt F)),
    binary main_v201 main_v208 main_v209 (addi : (⟨S4x1080x1920, .i32⟩ : BufTy).Contents (Elt F) → (⟨S4x1080x1920, .i32⟩ : BufTy).Contents (Elt F) → (⟨S4x1080x1920, .i32⟩ : BufTy).Contents (Elt F)),
    ternary main_v207 main_v209 main_v201 main_v210 (select : (⟨S4x1080x1920, .i1⟩ : BufTy).Contents (Elt F) → (⟨S4x1080x1920, .i32⟩ : BufTy).Contents (Elt F) → (⟨S4x1080x1920, .i32⟩ : BufTy).Contents (Elt F) → (⟨S4x1080x1920, .i32⟩ : BufTy).Contents (Elt F)),
    nullary main_c_75 (constantI S_ 32 0#32),
    unary main_c_75 main_v211 (broadcastInDim S4x1080x1920 ![] bcast_S_S4x1080x1920 : (⟨S_, .i32⟩ : BufTy).Contents (Elt F) → (⟨S4x1080x1920, .i32⟩ : BufTy).Contents (Elt F)),
    binary main_v203 main_v211 main_v212 (cmpi .slt : (⟨S4x1080x1920, .i32⟩ : BufTy).Contents (Elt F) → (⟨S4x1080x1920, .i32⟩ : BufTy).Contents (Elt F) → (⟨S4x1080x1920, .i1⟩ : BufTy).Contents (Elt F)),
    nullary main_c_76 (constantI S_ 32 33#32),
    unary main_c_76 main_v213 (broadcastInDim S4x1080x1920 ![] bcast_S_S4x1080x1920 : (⟨S_, .i32⟩ : BufTy).Contents (Elt F) → (⟨S4x1080x1920, .i32⟩ : BufTy).Contents (Elt F)),
    binary main_v203 main_v213 main_v214 (addi : (⟨S4x1080x1920, .i32⟩ : BufTy).Contents (Elt F) → (⟨S4x1080x1920, .i32⟩ : BufTy).Contents (Elt F) → (⟨S4x1080x1920, .i32⟩ : BufTy).Contents (Elt F)),
    ternary main_v212 main_v214 main_v203 main_v215 (select : (⟨S4x1080x1920, .i1⟩ : BufTy).Contents (Elt F) → (⟨S4x1080x1920, .i32⟩ : BufTy).Contents (Elt F) → (⟨S4x1080x1920, .i32⟩ : BufTy).Contents (Elt F) → (⟨S4x1080x1920, .i32⟩ : BufTy).Contents (Elt F)),
    nullary main_c_77 (constantI S_ 32 0#32),
    unary main_c_77 main_v216 (broadcastInDim S4x1080x1920 ![] bcast_S_S4x1080x1920 : (⟨S_, .i32⟩ : BufTy).Contents (Elt F) → (⟨S4x1080x1920, .i32⟩ : BufTy).Contents (Elt F)),
    binary main_v205 main_v216 main_v217 (cmpi .slt : (⟨S4x1080x1920, .i32⟩ : BufTy).Contents (Elt F) → (⟨S4x1080x1920, .i32⟩ : BufTy).Contents (Elt F) → (⟨S4x1080x1920, .i1⟩ : BufTy).Contents (Elt F)),
    nullary main_c_78 (constantI S_ 32 33#32),
    unary main_c_78 main_v218 (broadcastInDim S4x1080x1920 ![] bcast_S_S4x1080x1920 : (⟨S_, .i32⟩ : BufTy).Contents (Elt F) → (⟨S4x1080x1920, .i32⟩ : BufTy).Contents (Elt F)) ]

set_option maxRecDepth 8192 in
set_option maxHeartbeats 4000000 in
theorem part4_eq (d : Dev nD) : main_part4 (F := F) d = seq part4 := rfl

theorem part4_sub : (part4 : List (HloOp τ sig (Elt F))).Forall fun op => op.bufs ⊆ tcRefs τ sig :=
  ⟨binary_bufs_sub .., nullary_bufs_sub .., unary_bufs_sub .., binary_bufs_sub .., ternary_bufs_sub .., unary_bufs_sub .., unary_bufs_sub .., unary_bufs_sub .., nary_bufs_sub .., binary_bufs_sub .., unary_bufs_sub .., unary_bufs_sub .., unary_bufs_sub .., binary_bufs_sub .., binary_bufs_sub .., nullary_bufs_sub .., unary_bufs_sub .., binary_bufs_sub .., nullary_bufs_sub .., nullary_bufs_sub .., binary_bufs_sub .., ternary_bufs_sub .., nullary_bufs_sub .., unary_bufs_sub .., binary_bufs_sub .., nullary_bufs_sub .., nullary_bufs_sub .., binary_bufs_sub .., ternary_bufs_sub .., binary_bufs_sub .., nullary_bufs_sub .., unary_bufs_sub .., binary_bufs_sub .., nullary_bufs_sub .., nullary_bufs_sub .., binary_bufs_sub .., ternary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub ..⟩

theorem part4_fresh : ∀ op ∈ (part4 : List (HloOp τ sig (Elt F))), op.fresh = ∅ :=
  List.forall_iff_forall_mem.1 (show (part4 : List (HloOp τ sig (Elt F))).Forall (fun op => op.fresh = ∅) from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

end Cert.Lut3.RefOps

end
-- ==== Proof.RefPart5.lean ====
/-
  Window 5 of the eight-corner program as a list of its operations (a called function's operations stand in its
  call's place), with the three facts the run needs of it: the window is the list run in order, every operation
  touches TensorCore buffers only, and every operation determines its results.
-/
import proofs.«140490_j86122684220303_2_alg».proof.ReferenceIdeal
import Idealize.ShloMosaic.Lib.StableHlo.Run

noncomputable section

namespace Cert.Lut3.RefOps

open Cert.ReferenceIdeal Idealize.ShloMosaic Idealize.ShloMosaic.TcCoe Idealize.SL.Sem Idealize.ShloMosaic.StableHlo
open Cert.ReferenceIdeal.Facts₀

variable {F : FTy → Type} [FloatOps F] [Cert.ReferenceIdeal.Facts]

/-- Window 5's operations, in order. -/
abbrev part5 : List (HloOp τ sig (Elt F)) :=
  [ binary main_v205 main_v218 main_v219 (addi : (⟨S4x1080x1920, .i32⟩ : BufTy).Contents (Elt F) → (⟨S4x1080x1920, .i32⟩ : BufTy).Contents (Elt F) → (⟨S4x1080x1920, .i32⟩ : BufTy).Contents (Elt F)),
    ternary main_v217 main_v219 main_v205 main_v220 (select : (⟨S4x1080x1920, .i1⟩ : BufTy).Contents (Elt F) → (⟨S4x1080x1920, .i32⟩ : BufTy).Contents (Elt F) → (⟨S4x1080x1920, .i32⟩ : BufTy).Contents (Elt F) → (⟨S4x1080x1920, .i32⟩ : BufTy).Contents (Elt F)),
    unary main_v210 main_v221 (broadcastInDim S4x1080x1920x1 ![0, 1, 2] bcast_S4x1080x1920_S4x1080x1920x1_0_1_2 : (⟨S4x1080x1920, .i32⟩ : BufTy).Contents (Elt F) → (⟨S4x1080x1920x1, .i32⟩ : BufTy).Contents (Elt F)),
    unary main_v215 main_v222 (broadcastInDim S4x1080x1920x1 ![0, 1, 2] bcast_S4x1080x1920_S4x1080x1920x1_0_1_2 : (⟨S4x1080x1920, .i32⟩ : BufTy).Contents (Elt F) → (⟨S4x1080x1920x1, .i32⟩ : BufTy).Contents (Elt F)),
    unary main_v220 main_v223 (broadcastInDim S4x1080x1920x1 ![0, 1, 2] bcast_S4x1080x1920_S4x1080x1920x1_0_1_2 : (⟨S4x1080x1920, .i32⟩ : BufTy).Contents (Elt F) → (⟨S4x1080x1920x1, .i32⟩ : BufTy).Contents (Elt F)),
    nary ![main_v221, main_v222, main_v223] main_v224 (fun u => concatenate S4x1080x1920x3 3 [⟨S4x1080x1920x1, u 0⟩, ⟨S4x1080x1920x1, u 1⟩, ⟨S4x1080x1920x1, u 2⟩] concatenates_S4x1080x1920x1_S4x1080x1920x1_S4x1080x1920x1_S4x1080x1920x3_d3),
    binary main_arg1 main_v224 main_v225 ((fun x i => Host.gather gather_S3x33x33x33_S4x1080x1920x3_S3x4x1080x1920_0_123_n_n_123_3_3111 x i) : (⟨S3x33x33x33, .f32⟩ : BufTy).Contents (Elt F) → (⟨S4x1080x1920x3, .i32⟩ : BufTy).Contents (Elt F) → (⟨S3x4x1080x1920, .f32⟩ : BufTy).Contents (Elt F)),
    unary main_v199 main_v226 (broadcastInDim S4x1x1080x1920 ![0, 2, 3] bcast_S4x1080x1920_S4x1x1080x1920_0_2_3 : (⟨S4x1080x1920, .f32⟩ : BufTy).Contents (Elt F) → (⟨S4x1x1080x1920, .f32⟩ : BufTy).Contents (Elt F)),
    unary main_v225 main_v227 ((transpose S4x3x1080x1920 [1, 0, 2, 3] · transposes_S3x4x1080x1920_S4x3x1080x1920_1_0_2_3) : (⟨S3x4x1080x1920, .f32⟩ : BufTy).Contents (Elt F) → (⟨S4x3x1080x1920, .f32⟩ : BufTy).Contents (Elt F)),
    unary main_v226 main_v228 (broadcastInDim S4x3x1080x1920 ![0, 1, 2, 3] bcast_S4x1x1080x1920_S4x3x1080x1920_0_1_2_3 : (⟨S4x1x1080x1920, .f32⟩ : BufTy).Contents (Elt F) → (⟨S4x3x1080x1920, .f32⟩ : BufTy).Contents (Elt F)),
    binary main_v228 main_v227 main_v229 (mulf : (⟨S4x3x1080x1920, .f32⟩ : BufTy).Contents (Elt F) → (⟨S4x3x1080x1920, .f32⟩ : BufTy).Contents (Elt F) → (⟨S4x3x1080x1920, .f32⟩ : BufTy).Contents (Elt F)),
    binary main_v188 main_v229 main_v230 (addf : (⟨S4x3x1080x1920, .f32⟩ : BufTy).Contents (Elt F) → (⟨S4x3x1080x1920, .f32⟩ : BufTy).Contents (Elt F) → (⟨S4x3x1080x1920, .f32⟩ : BufTy).Contents (Elt F)),
    nullary main_cst_79 (constant S_ .f32 0x3F800000#32),
    unary main_cst_79 main_v231 (broadcastInDim S4x1080x1920 ![] bcast_S_S4x1080x1920 : (⟨S_, .f32⟩ : BufTy).Contents (Elt F) → (⟨S4x1080x1920, .f32⟩ : BufTy).Contents (Elt F)),
    binary main_v231 main_v15 main_v232 (subf : (⟨S4x1080x1920, .f32⟩ : BufTy).Contents (Elt F) → (⟨S4x1080x1920, .f32⟩ : BufTy).Contents (Elt F) → (⟨S4x1080x1920, .f32⟩ : BufTy).Contents (Elt F)),
    nullary main_c_80 (constantI S_ 32 1#32),
    TRef.nullary (TRef.of (T := ⟨S_, .i32⟩) main_call17_c) (constantI S_ 32 0#32),
    TRef.binary (TRef.of (T := ⟨S_, .i32⟩) main_c_80) (TRef.of (T := ⟨S_, .i32⟩) main_call17_c) (TRef.of (T := ⟨S_, .i1⟩) main_call17_v0) (cmpi .ne),
    TRef.ternary (TRef.of (T := ⟨S_, .i1⟩) main_call17_v0) (TRef.of (T := ⟨S4x1080x1920, .f32⟩) main_v15) (TRef.of (T := ⟨S4x1080x1920, .f32⟩) main_v232) (TRef.of (T := ⟨S4x1080x1920, .f32⟩) main_v233) (fun p a b => select (broadcastInDim S4x1080x1920 ![] bcast_S_S4x1080x1920 p) a b),
    nullary main_cst_81 (constant S_ .f32 0x3F800000#32),
    unary main_cst_81 main_v234 (broadcastInDim S4x1080x1920 ![] bcast_S_S4x1080x1920 : (⟨S_, .f32⟩ : BufTy).Contents (Elt F) → (⟨S4x1080x1920, .f32⟩ : BufTy).Contents (Elt F)),
    binary main_v234 main_v17 main_v235 (subf : (⟨S4x1080x1920, .f32⟩ : BufTy).Contents (Elt F) → (⟨S4x1080x1920, .f32⟩ : BufTy).Contents (Elt F) → (⟨S4x1080x1920, .f32⟩ : BufTy).Contents (Elt F)),
    nullary main_c_82 (constantI S_ 32 0#32),
    TRef.nullary (TRef.of (T := ⟨S_, .i32⟩) main_call18_c) (constantI S_ 32 0#32),
    TRef.binary (TRef.of (T := ⟨S_, .i32⟩) main_c_82) (TRef.of (T := ⟨S_, .i32⟩) main_call18_c) (TRef.of (T := ⟨S_, .i1⟩) main_call18_v0) (cmpi .ne),
    TRef.ternary (TRef.of (T := ⟨S_, .i1⟩) main_call18_v0) (TRef.of (T := ⟨S4x1080x1920, .f32⟩) main_v17) (TRef.of (T := ⟨S4x1080x1920, .f32⟩) main_v235) (TRef.of (T := ⟨S4x1080x1920, .f32⟩) main_v236) (fun p a b => select (broadcastInDim S4x1080x1920 ![] bcast_S_S4x1080x1920 p) a b),
    binary main_v233 main_v236 main_v237 (mulf : (⟨S4x1080x1920, .f32⟩ : BufTy).Contents (Elt F) → (⟨S4x1080x1920, .f32⟩ : BufTy).Contents (Elt F) → (⟨S4x1080x1920, .f32⟩ : BufTy).Contents (Elt F)),
    nullary main_cst_83 (constant S_ .f32 0x3F800000#32),
    unary main_cst_83 main_v238 (broadcastInDim S4x1080x1920 ![] bcast_S_S4x1080x1920 : (⟨S_, .f32⟩ : BufTy).Contents (Elt F) → (⟨S4x1080x1920, .f32⟩ : BufTy).Contents (Elt F)),
    binary main_v238 main_v19 main_v239 (subf : (⟨S4x1080x1920, .f32⟩ : BufTy).Contents (Elt F) → (⟨S4x1080x1920, .f32⟩ : BufTy).Contents (Elt F) → (⟨S4x1080x1920, .f32⟩ : BufTy).Contents (Elt F)),
    nullary main_c_84 (constantI S_ 32 1#32),
    TRef.nullary (TRef.of (T := ⟨S_, .i32⟩) main_call19_c) (constantI S_ 32 0#32),
    TRef.binary (TRef.of (T := ⟨S_, .i32⟩) main_c_84) (TRef.of (T := ⟨S_, .i32⟩) main_call19_c) (TRef.of (T := ⟨S_, .i1⟩) main_call19_v0) (cmpi .ne),
    TRef.ternary (TRef.of (T := ⟨S_, .i1⟩) main_call19_v0) (TRef.of (T := ⟨S4x1080x1920, .f32⟩) main_v19) (TRef.of (T := ⟨S4x1080x1920, .f32⟩) main_v239) (TRef.of (T := ⟨S4x1080x1920, .f32⟩) main_v240) (fun p a b => select (broadcastInDim S4x1080x1920 ![] bcast_S_S4x1080x1920 p) a b),
    binary main_v237 main_v240 main_v241 (mulf : (⟨S4x1080x1920, .f32⟩ : BufTy).Contents (Elt F) → (⟨S4x1080x1920, .f32⟩ : BufTy).Contents (Elt F) → (⟨S4x1080x1920, .f32⟩ : BufTy).Contents (Elt F)),
    nullary main_c_85 (constantI S_ 32 1#32),
    unary main_c_85 main_v242 (broadcastInDim S4x1080x1920 ![] bcast_S_S4x1080x1920 : (⟨S_, .i32⟩ : BufTy).Contents (Elt F) → (⟨S4x1080x1920, .i32⟩ : BufTy).Contents (Elt F)),
    binary main_v13 main_v242 main_v243 (addi : (⟨S4x1080x1920, .i32⟩ : BufTy).Contents (Elt F) → (⟨S4x1080x1920, .i32⟩ : BufTy).Contents (Elt F) → (⟨S4x1080x1920, .i32⟩ : BufTy).Contents (Elt F)),
    nullary main_c_86 (constantI S_ 32 0#32),
    unary main_c_86 main_v244 (broadcastInDim S4x1080x1920 ![] bcast_S_S4x1080x1920 : (⟨S_, .i32⟩ : BufTy).Contents (Elt F) → (⟨S4x1080x1920, .i32⟩ : BufTy).Contents (Elt F)),
    binary main_v11 main_v244 main_v245 (addi : (⟨S4x1080x1920, .i32⟩ : BufTy).Contents (Elt F) → (⟨S4x1080x1920, .i32⟩ : BufTy).Contents (Elt F) → (⟨S4x1080x1920, .i32⟩ : BufTy).Contents (Elt F)),
    nullary main_c_87 (constantI S_ 32 1#32),
    unary main_c_87 main_v246 (broadcastInDim S4x1080x1920 ![] bcast_S_S4x1080x1920 : (⟨S_, .i32⟩ : BufTy).Contents (Elt F) → (⟨S4x1080x1920, .i32⟩ : BufTy).Contents (Elt F)),
    binary main_v9 main_v246 main_v247 (addi : (⟨S4x1080x1920, .i32⟩ : BufTy).Contents (Elt F) → (⟨S4x1080x1920, .i32⟩ : BufTy).Contents (Elt F) → (⟨S4x1080x1920, .i32⟩ : BufTy).Contents (Elt F)),
    nullary main_c_88 (constantI S_ 32 0#32),
    unary main_c_88 main_v248 (broadcastInDim S4x1080x1920 ![] bcast_S_S4x1080x1920 : (⟨S_, .i32⟩ : BufTy).Contents (Elt F) → (⟨S4x1080x1920, .i32⟩ : BufTy).Contents (Elt F)),
    binary main_v243 main_v248 main_v249 (cmpi .slt : (⟨S4x1080x1920, .i32⟩ : BufTy).Contents (Elt F) → (⟨S4x1080x1920, .i32⟩ : BufTy).Contents (Elt F) → (⟨S4x1080x1920, .i1⟩ : BufTy).Contents (Elt F)),
    nullary main_c_89 (constantI S_ 32 33#32),
    unary main_c_89 main_v250 (broadcastInDim S4x1080x1920 ![] bcast_S_S4x1080x1920 : (⟨S_, .i32⟩ : BufTy).Contents (Elt F) → (⟨S4x1080x1920, .i32⟩ : BufTy).Contents (Elt F)),
    binary main_v243 main_v250 main_v251 (addi : (⟨S4x1080x1920, .i32⟩ : BufTy).Contents (Elt F) → (⟨S4x1080x1920, .i32⟩ : BufTy).Contents (Elt F) → (⟨S4x1080x1920, .i32⟩ : BufTy).Contents (Elt F)),
    ternary main_v249 main_v251 main_v243 main_v252 (select : (⟨S4x1080x1920, .i1⟩ : BufTy).Contents (Elt F) → (⟨S4x1080x1920, .i32⟩ : BufTy).Contents (Elt F) → (⟨S4x1080x1920, .i32⟩ : BufTy).Contents (Elt F) → (⟨S4x1080x1920, .i32⟩ : BufTy).Contents (Elt F)),
    nullary main_c_90 (constantI S_ 32 0#32),
    unary main_c_90 main_v253 (broadcastInDim S4x1080x1920 ![] bcast_S_S4x1080x1920 : (⟨S_, .i32⟩ : BufTy).Contents (Elt F) → (⟨S4x1080x1920, .i32⟩ : BufTy).Contents (Elt F)),
    binary main_v245 main_v253 main_v254 (cmpi .slt : (⟨S4x1080x1920, .i32⟩ : BufTy).Contents (Elt F) → (⟨S4x1080x1920, .i32⟩ : BufTy).Contents (Elt F) → (⟨S4x1080x1920, .i1⟩ : BufTy).Contents (Elt F)),
    nullary main_c_91 (constantI S_ 32 33#32),
    unary main_c_91 main_v255 (broadcastInDim S4x1080x1920 ![] bcast_S_S4x1080x1920 : (⟨S_, .i32⟩ : BufTy).Contents (Elt F) → (⟨S4x1080x1920, .i32⟩ : BufTy).Contents (Elt F)),
    binary main_v245 main_v255 main_v256 (addi : (⟨S4x1080x1920, .i32⟩ : BufTy).Contents (Elt F) → (⟨S4x1080x1920, .i32⟩ : BufTy).Contents (Elt F) → (⟨S4x1080x1920, .i32⟩ : BufTy).Contents (Elt F)),
    ternary main_v254 main_v256 main_v245 main_v257 (select : (⟨S4x1080x1920, .i1⟩ : BufTy).Contents (Elt F) → (⟨S4x1080x1920, .i32⟩ : BufTy).Contents (Elt F) → (⟨S4x1080x1920, .i32⟩ : BufTy).Contents (Elt F) → (⟨S4x1080x1920, .i32⟩ : BufTy).Contents (Elt F)),
    nullary main_c_92 (constantI S_ 32 0#32),
    unary main_c_92 main_v258 (broadcastInDim S4x1080x1920 ![] bcast_S_S4x1080x1920 : (⟨S_, .i32⟩ : BufTy).Contents (Elt F) → (⟨S4x1080x1920, .i32⟩ : BufTy).Contents (Elt F)),
    binary main_v247 main_v258 main_v259 (cmpi .slt : (⟨S4x1080x1920, .i32⟩ : BufTy).Contents (Elt F) → (⟨S4x1080x1920, .i32⟩ : BufTy).Contents (Elt F) → (⟨S4x1080x1920, .i1⟩ : BufTy).Contents (Elt F)),
    nullary main_c_93 (constantI S_ 32 33#32),
    unary main_c_93 main_v260 (broadcastInDim S4x1080x1920 ![] bcast_S_S4x1080x1920 : (⟨S_, .i32⟩ : BufTy).Contents (Elt F) → (⟨S4x1080x1920, .i32⟩ : BufTy).Contents (Elt F)),
    binary main_v247 main_v260 main_v261 (addi : (⟨S4x1080x1920, .i32⟩ : BufTy).Contents (Elt F) → (⟨S4x1080x1920, .i32⟩ : BufTy).Contents (Elt F) → (⟨S4x1080x1920, .i32⟩ : BufTy).Contents (Elt F)),
    ternary main_v259 main_v261 main_v247 main_v262 (select : (⟨S4x1080x1920, .i1⟩ : BufTy).Contents (Elt F) → (⟨S4x1080x1920, .i32⟩ : BufTy).Contents (Elt F) → (⟨S4x1080x1920, .i32⟩ : BufTy).Contents (Elt F) → (⟨S4x1080x1920, .i32⟩ : BufTy).Contents (Elt F)),
    unary main_v252 main_v263 (broadcastInDim S4x1080x1920x1 ![0, 1, 2] bcast_S4x1080x1920_S4x1080x1920x1_0_1_2 : (⟨S4x1080x1920, .i32⟩ : BufTy).Contents (Elt F) → (⟨S4x1080x1920x1, .i32⟩ : BufTy).Contents (Elt F)) ]

set_option maxRecDepth 8192 in
set_option maxHeartbeats 4000000 in
theorem part5_eq (d : Dev nD) : main_part5 (F := F) d = seq part5 := rfl

theorem part5_sub : (part5 : List (HloOp τ sig (Elt F))).Forall fun op => op.bufs ⊆ tcRefs τ sig :=
  ⟨binary_bufs_sub .., ternary_bufs_sub .., unary_bufs_sub .., unary_bufs_sub .., unary_bufs_sub .., nary_bufs_sub .., binary_bufs_sub .., unary_bufs_sub .., unary_bufs_sub .., unary_bufs_sub .., binary_bufs_sub .., binary_bufs_sub .., nullary_bufs_sub .., unary_bufs_sub .., binary_bufs_sub .., nullary_bufs_sub .., nullary_bufs_sub .., binary_bufs_sub .., ternary_bufs_sub .., nullary_bufs_sub .., unary_bufs_sub .., binary_bufs_sub .., nullary_bufs_sub .., nullary_bufs_sub .., binary_bufs_sub .., ternary_bufs_sub .., binary_bufs_sub .., nullary_bufs_sub .., unary_bufs_sub .., binary_bufs_sub .., nullary_bufs_sub .., nullary_bufs_sub .., binary_bufs_sub .., ternary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub ..⟩

theorem part5_fresh : ∀ op ∈ (part5 : List (HloOp τ sig (Elt F))), op.fresh = ∅ :=
  List.forall_iff_forall_mem.1 (show (part5 : List (HloOp τ sig (Elt F))).Forall (fun op => op.fresh = ∅) from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

end Cert.Lut3.RefOps

end
-- ==== Proof.RefPart6.lean ====
/-
  Window 6 of the eight-corner program as a list of its operations (a called function's operations stand in its
  call's place), with the three facts the run needs of it: the window is the list run in order, every operation
  touches TensorCore buffers only, and every operation determines its results.
-/
import proofs.«140490_j86122684220303_2_alg».proof.ReferenceIdeal
import Idealize.ShloMosaic.Lib.StableHlo.Run

noncomputable section

namespace Cert.Lut3.RefOps

open Cert.ReferenceIdeal Idealize.ShloMosaic Idealize.ShloMosaic.TcCoe Idealize.SL.Sem Idealize.ShloMosaic.StableHlo
open Cert.ReferenceIdeal.Facts₀

variable {F : FTy → Type} [FloatOps F] [Cert.ReferenceIdeal.Facts]

/-- Window 6's operations, in order. -/
abbrev part6 : List (HloOp τ sig (Elt F)) :=
  [ unary main_v257 main_v264 (broadcastInDim S4x1080x1920x1 ![0, 1, 2] bcast_S4x1080x1920_S4x1080x1920x1_0_1_2 : (⟨S4x1080x1920, .i32⟩ : BufTy).Contents (Elt F) → (⟨S4x1080x1920x1, .i32⟩ : BufTy).Contents (Elt F)),
    unary main_v262 main_v265 (broadcastInDim S4x1080x1920x1 ![0, 1, 2] bcast_S4x1080x1920_S4x1080x1920x1_0_1_2 : (⟨S4x1080x1920, .i32⟩ : BufTy).Contents (Elt F) → (⟨S4x1080x1920x1, .i32⟩ : BufTy).Contents (Elt F)),
    nary ![main_v263, main_v264, main_v265] main_v266 (fun u => concatenate S4x1080x1920x3 3 [⟨S4x1080x1920x1, u 0⟩, ⟨S4x1080x1920x1, u 1⟩, ⟨S4x1080x1920x1, u 2⟩] concatenates_S4x1080x1920x1_S4x1080x1920x1_S4x1080x1920x1_S4x1080x1920x3_d3),
    binary main_arg1 main_v266 main_v267 ((fun x i => Host.gather gather_S3x33x33x33_S4x1080x1920x3_S3x4x1080x1920_0_123_n_n_123_3_3111 x i) : (⟨S3x33x33x33, .f32⟩ : BufTy).Contents (Elt F) → (⟨S4x1080x1920x3, .i32⟩ : BufTy).Contents (Elt F) → (⟨S3x4x1080x1920, .f32⟩ : BufTy).Contents (Elt F)),
    unary main_v241 main_v268 (broadcastInDim S4x1x1080x1920 ![0, 2, 3] bcast_S4x1080x1920_S4x1x1080x1920_0_2_3 : (⟨S4x1080x1920, .f32⟩ : BufTy).Contents (Elt F) → (⟨S4x1x1080x1920, .f32⟩ : BufTy).Contents (Elt F)),
    unary main_v267 main_v269 ((transpose S4x3x1080x1920 [1, 0, 2, 3] · transposes_S3x4x1080x1920_S4x3x1080x1920_1_0_2_3) : (⟨S3x4x1080x1920, .f32⟩ : BufTy).Contents (Elt F) → (⟨S4x3x1080x1920, .f32⟩ : BufTy).Contents (Elt F)),
    unary main_v268 main_v270 (broadcastInDim S4x3x1080x1920 ![0, 1, 2, 3] bcast_S4x1x1080x1920_S4x3x1080x1920_0_1_2_3 : (⟨S4x1x1080x1920, .f32⟩ : BufTy).Contents (Elt F) → (⟨S4x3x1080x1920, .f32⟩ : BufTy).Contents (Elt F)),
    binary main_v270 main_v269 main_v271 (mulf : (⟨S4x3x1080x1920, .f32⟩ : BufTy).Contents (Elt F) → (⟨S4x3x1080x1920, .f32⟩ : BufTy).Contents (Elt F) → (⟨S4x3x1080x1920, .f32⟩ : BufTy).Contents (Elt F)),
    binary main_v230 main_v271 main_v272 (addf : (⟨S4x3x1080x1920, .f32⟩ : BufTy).Contents (Elt F) → (⟨S4x3x1080x1920, .f32⟩ : BufTy).Contents (Elt F) → (⟨S4x3x1080x1920, .f32⟩ : BufTy).Contents (Elt F)),
    nullary main_cst_94 (constant S_ .f32 0x3F800000#32),
    unary main_cst_94 main_v273 (broadcastInDim S4x1080x1920 ![] bcast_S_S4x1080x1920 : (⟨S_, .f32⟩ : BufTy).Contents (Elt F) → (⟨S4x1080x1920, .f32⟩ : BufTy).Contents (Elt F)),
    binary main_v273 main_v15 main_v274 (subf : (⟨S4x1080x1920, .f32⟩ : BufTy).Contents (Elt F) → (⟨S4x1080x1920, .f32⟩ : BufTy).Contents (Elt F) → (⟨S4x1080x1920, .f32⟩ : BufTy).Contents (Elt F)),
    nullary main_c_95 (constantI S_ 32 1#32),
    TRef.nullary (TRef.of (T := ⟨S_, .i32⟩) main_call20_c) (constantI S_ 32 0#32),
    TRef.binary (TRef.of (T := ⟨S_, .i32⟩) main_c_95) (TRef.of (T := ⟨S_, .i32⟩) main_call20_c) (TRef.of (T := ⟨S_, .i1⟩) main_call20_v0) (cmpi .ne),
    TRef.ternary (TRef.of (T := ⟨S_, .i1⟩) main_call20_v0) (TRef.of (T := ⟨S4x1080x1920, .f32⟩) main_v15) (TRef.of (T := ⟨S4x1080x1920, .f32⟩) main_v274) (TRef.of (T := ⟨S4x1080x1920, .f32⟩) main_v275) (fun p a b => select (broadcastInDim S4x1080x1920 ![] bcast_S_S4x1080x1920 p) a b),
    nullary main_cst_96 (constant S_ .f32 0x3F800000#32),
    unary main_cst_96 main_v276 (broadcastInDim S4x1080x1920 ![] bcast_S_S4x1080x1920 : (⟨S_, .f32⟩ : BufTy).Contents (Elt F) → (⟨S4x1080x1920, .f32⟩ : BufTy).Contents (Elt F)),
    binary main_v276 main_v17 main_v277 (subf : (⟨S4x1080x1920, .f32⟩ : BufTy).Contents (Elt F) → (⟨S4x1080x1920, .f32⟩ : BufTy).Contents (Elt F) → (⟨S4x1080x1920, .f32⟩ : BufTy).Contents (Elt F)),
    nullary main_c_97 (constantI S_ 32 1#32),
    TRef.nullary (TRef.of (T := ⟨S_, .i32⟩) main_call21_c) (constantI S_ 32 0#32),
    TRef.binary (TRef.of (T := ⟨S_, .i32⟩) main_c_97) (TRef.of (T := ⟨S_, .i32⟩) main_call21_c) (TRef.of (T := ⟨S_, .i1⟩) main_call21_v0) (cmpi .ne),
    TRef.ternary (TRef.of (T := ⟨S_, .i1⟩) main_call21_v0) (TRef.of (T := ⟨S4x1080x1920, .f32⟩) main_v17) (TRef.of (T := ⟨S4x1080x1920, .f32⟩) main_v277) (TRef.of (T := ⟨S4x1080x1920, .f32⟩) main_v278) (fun p a b => select (broadcastInDim S4x1080x1920 ![] bcast_S_S4x1080x1920 p) a b),
    binary main_v275 main_v278 main_v279 (mulf : (⟨S4x1080x1920, .f32⟩ : BufTy).Contents (Elt F) → (⟨S4x1080x1920, .f32⟩ : BufTy).Contents (Elt F) → (⟨S4x1080x1920, .f32⟩ : BufTy).Contents (Elt F)),
    nullary main_cst_98 (constant S_ .f32 0x3F800000#32),
    unary main_cst_98 main_v280 (broadcastInDim S4x1080x1920 ![] bcast_S_S4x1080x1920 : (⟨S_, .f32⟩ : BufTy).Contents (Elt F) → (⟨S4x1080x1920, .f32⟩ : BufTy).Contents (Elt F)),
    binary main_v280 main_v19 main_v281 (subf : (⟨S4x1080x1920, .f32⟩ : BufTy).Contents (Elt F) → (⟨S4x1080x1920, .f32⟩ : BufTy).Contents (Elt F) → (⟨S4x1080x1920, .f32⟩ : BufTy).Contents (Elt F)),
    nullary main_c_99 (constantI S_ 32 0#32),
    TRef.nullary (TRef.of (T := ⟨S_, .i32⟩) main_call22_c) (constantI S_ 32 0#32),
    TRef.binary (TRef.of (T := ⟨S_, .i32⟩) main_c_99) (TRef.of (T := ⟨S_, .i32⟩) main_call22_c) (TRef.of (T := ⟨S_, .i1⟩) main_call22_v0) (cmpi .ne),
    TRef.ternary (TRef.of (T := ⟨S_, .i1⟩) main_call22_v0) (TRef.of (T := ⟨S4x1080x1920, .f32⟩) main_v19) (TRef.of (T := ⟨S4x1080x1920, .f32⟩) main_v281) (TRef.of (T := ⟨S4x1080x1920, .f32⟩) main_v282) (fun p a b => select (broadcastInDim S4x1080x1920 ![] bcast_S_S4x1080x1920 p) a b),
    binary main_v279 main_v282 main_v283 (mulf : (⟨S4x1080x1920, .f32⟩ : BufTy).Contents (Elt F) → (⟨S4x1080x1920, .f32⟩ : BufTy).Contents (Elt F) → (⟨S4x1080x1920, .f32⟩ : BufTy).Contents (Elt F)),
    nullary main_c_100 (constantI S_ 32 0#32),
    unary main_c_100 main_v284 (broadcastInDim S4x1080x1920 ![] bcast_S_S4x1080x1920 : (⟨S_, .i32⟩ : BufTy).Contents (Elt F) → (⟨S4x1080x1920, .i32⟩ : BufTy).Contents (Elt F)),
    binary main_v13 main_v284 main_v285 (addi : (⟨S4x1080x1920, .i32⟩ : BufTy).Contents (Elt F) → (⟨S4x1080x1920, .i32⟩ : BufTy).Contents (Elt F) → (⟨S4x1080x1920, .i32⟩ : BufTy).Contents (Elt F)),
    nullary main_c_101 (constantI S_ 32 1#32),
    unary main_c_101 main_v286 (broadcastInDim S4x1080x1920 ![] bcast_S_S4x1080x1920 : (⟨S_, .i32⟩ : BufTy).Contents (Elt F) → (⟨S4x1080x1920, .i32⟩ : BufTy).Contents (Elt F)),
    binary main_v11 main_v286 main_v287 (addi : (⟨S4x1080x1920, .i32⟩ : BufTy).Contents (Elt F) → (⟨S4x1080x1920, .i32⟩ : BufTy).Contents (Elt F) → (⟨S4x1080x1920, .i32⟩ : BufTy).Contents (Elt F)),
    nullary main_c_102 (constantI S_ 32 1#32),
    unary main_c_102 main_v288 (broadcastInDim S4x1080x1920 ![] bcast_S_S4x1080x1920 : (⟨S_, .i32⟩ : BufTy).Contents (Elt F) → (⟨S4x1080x1920, .i32⟩ : BufTy).Contents (Elt F)),
    binary main_v9 main_v288 main_v289 (addi : (⟨S4x1080x1920, .i32⟩ : BufTy).Contents (Elt F) → (⟨S4x1080x1920, .i32⟩ : BufTy).Contents (Elt F) → (⟨S4x1080x1920, .i32⟩ : BufTy).Contents (Elt F)),
    nullary main_c_103 (constantI S_ 32 0#32),
    unary main_c_103 main_v290 (broadcastInDim S4x1080x1920 ![] bcast_S_S4x1080x1920 : (⟨S_, .i32⟩ : BufTy).Contents (Elt F) → (⟨S4x1080x1920, .i32⟩ : BufTy).Contents (Elt F)),
    binary main_v285 main_v290 main_v291 (cmpi .slt : (⟨S4x1080x1920, .i32⟩ : BufTy).Contents (Elt F) → (⟨S4x1080x1920, .i32⟩ : BufTy).Contents (Elt F) → (⟨S4x1080x1920, .i1⟩ : BufTy).Contents (Elt F)),
    nullary main_c_104 (constantI S_ 32 33#32),
    unary main_c_104 main_v292 (broadcastInDim S4x1080x1920 ![] bcast_S_S4x1080x1920 : (⟨S_, .i32⟩ : BufTy).Contents (Elt F) → (⟨S4x1080x1920, .i32⟩ : BufTy).Contents (Elt F)),
    binary main_v285 main_v292 main_v293 (addi : (⟨S4x1080x1920, .i32⟩ : BufTy).Contents (Elt F) → (⟨S4x1080x1920, .i32⟩ : BufTy).Contents (Elt F) → (⟨S4x1080x1920, .i32⟩ : BufTy).Contents (Elt F)),
    ternary main_v291 main_v293 main_v285 main_v294 (select : (⟨S4x1080x1920, .i1⟩ : BufTy).Contents (Elt F) → (⟨S4x1080x1920, .i32⟩ : BufTy).Contents (Elt F) → (⟨S4x1080x1920, .i32⟩ : BufTy).Contents (Elt F) → (⟨S4x1080x1920, .i32⟩ : BufTy).Contents (Elt F)),
    nullary main_c_105 (constantI S_ 32 0#32),
    unary main_c_105 main_v295 (broadcastInDim S4x1080x1920 ![] bcast_S_S4x1080x1920 : (⟨S_, .i32⟩ : BufTy).Contents (Elt F) → (⟨S4x1080x1920, .i32⟩ : BufTy).Contents (Elt F)),
    binary main_v287 main_v295 main_v296 (cmpi .slt : (⟨S4x1080x1920, .i32⟩ : BufTy).Contents (Elt F) → (⟨S4x1080x1920, .i32⟩ : BufTy).Contents (Elt F) → (⟨S4x1080x1920, .i1⟩ : BufTy).Contents (Elt F)),
    nullary main_c_106 (constantI S_ 32 33#32),
    unary main_c_106 main_v297 (broadcastInDim S4x1080x1920 ![] bcast_S_S4x1080x1920 : (⟨S_, .i32⟩ : BufTy).Contents (Elt F) → (⟨S4x1080x1920, .i32⟩ : BufTy).Contents (Elt F)),
    binary main_v287 main_v297 main_v298 (addi : (⟨S4x1080x1920, .i32⟩ : BufTy).Contents (Elt F) → (⟨S4x1080x1920, .i32⟩ : BufTy).Contents (Elt F) → (⟨S4x1080x1920, .i32⟩ : BufTy).Contents (Elt F)),
    ternary main_v296 main_v298 main_v287 main_v299 (select : (⟨S4x1080x1920, .i1⟩ : BufTy).Contents (Elt F) → (⟨S4x1080x1920, .i32⟩ : BufTy).Contents (Elt F) → (⟨S4x1080x1920, .i32⟩ : BufTy).Contents (Elt F) → (⟨S4x1080x1920, .i32⟩ : BufTy).Contents (Elt F)),
    nullary main_c_107 (constantI S_ 32 0#32),
    unary main_c_107 main_v300 (broadcastInDim S4x1080x1920 ![] bcast_S_S4x1080x1920 : (⟨S_, .i32⟩ : BufTy).Contents (Elt F) → (⟨S4x1080x1920, .i32⟩ : BufTy).Contents (Elt F)),
    binary main_v289 main_v300 main_v301 (cmpi .slt : (⟨S4x1080x1920, .i32⟩ : BufTy).Contents (Elt F) → (⟨S4x1080x1920, .i32⟩ : BufTy).Contents (Elt F) → (⟨S4x1080x1920, .i1⟩ : BufTy).Contents (Elt F)),
    nullary main_c_108 (constantI S_ 32 33#32),
    unary main_c_108 main_v302 (broadcastInDim S4x1080x1920 ![] bcast_S_S4x1080x1920 : (⟨S_, .i32⟩ : BufTy).Contents (Elt F) → (⟨S4x1080x1920, .i32⟩ : BufTy).Contents (Elt F)),
    binary main_v289 main_v302 main_v303 (addi : (⟨S4x1080x1920, .i32⟩ : BufTy).Contents (Elt F) → (⟨S4x1080x1920, .i32⟩ : BufTy).Contents (Elt F) → (⟨S4x1080x1920, .i32⟩ : BufTy).Contents (Elt F)),
    ternary main_v301 main_v303 main_v289 main_v304 (select : (⟨S4x1080x1920, .i1⟩ : BufTy).Contents (Elt F) → (⟨S4x1080x1920, .i32⟩ : BufTy).Contents (Elt F) → (⟨S4x1080x1920, .i32⟩ : BufTy).Contents (Elt F) → (⟨S4x1080x1920, .i32⟩ : BufTy).Contents (Elt F)),
    unary main_v294 main_v305 (broadcastInDim S4x1080x1920x1 ![0, 1, 2] bcast_S4x1080x1920_S4x1080x1920x1_0_1_2 : (⟨S4x1080x1920, .i32⟩ : BufTy).Contents (Elt F) → (⟨S4x1080x1920x1, .i32⟩ : BufTy).Contents (Elt F)),
    unary main_v299 main_v306 (broadcastInDim S4x1080x1920x1 ![0, 1, 2] bcast_S4x1080x1920_S4x1080x1920x1_0_1_2 : (⟨S4x1080x1920, .i32⟩ : BufTy).Contents (Elt F) → (⟨S4x1080x1920x1, .i32⟩ : BufTy).Contents (Elt F)),
    unary main_v304 main_v307 (broadcastInDim S4x1080x1920x1 ![0, 1, 2] bcast_S4x1080x1920_S4x1080x1920x1_0_1_2 : (⟨S4x1080x1920, .i32⟩ : BufTy).Contents (Elt F) → (⟨S4x1080x1920x1, .i32⟩ : BufTy).Contents (Elt F)),
    nary ![main_v305, main_v306, main_v307] main_v308 (fun u => concatenate S4x1080x1920x3 3 [⟨S4x1080x1920x1, u 0⟩, ⟨S4x1080x1920x1, u 1⟩, ⟨S4x1080x1920x1, u 2⟩] concatenates_S4x1080x1920x1_S4x1080x1920x1_S4x1080x1920x1_S4x1080x1920x3_d3) ]

set_option maxRecDepth 8192 in
set_option maxHeartbeats 4000000 in
theorem part6_eq (d : Dev nD) : main_part6 (F := F) d = seq part6 := rfl

theorem part6_sub : (part6 : List (HloOp τ sig (Elt F))).Forall fun op => op.bufs ⊆ tcRefs τ sig :=
  ⟨unary_bufs_sub .., unary_bufs_sub .., nary_bufs_sub .., binary_bufs_sub .., unary_bufs_sub .., unary_bufs_sub .., unary_bufs_sub .., binary_bufs_sub .., binary_bufs_sub .., nullary_bufs_sub .., unary_bufs_sub .., binary_bufs_sub .., nullary_bufs_sub .., nullary_bufs_sub .., binary_bufs_sub .., ternary_bufs_sub .., nullary_bufs_sub .., unary_bufs_sub .., binary_bufs_sub .., nullary_bufs_sub .., nullary_bufs_sub .., binary_bufs_sub .., ternary_bufs_sub .., binary_bufs_sub .., nullary_bufs_sub .., unary_bufs_sub .., binary_bufs_sub .., nullary_bufs_sub .., nullary_bufs_sub .., binary_bufs_sub .., ternary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub ..⟩

theorem part6_fresh : ∀ op ∈ (part6 : List (HloOp τ sig (Elt F))), op.fresh = ∅ :=
  List.forall_iff_forall_mem.1 (show (part6 : List (HloOp τ sig (Elt F))).Forall (fun op => op.fresh = ∅) from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

end Cert.Lut3.RefOps

end
-- ==== Proof.RefPart7.lean ====
/-
  Window 7 of the eight-corner program as a list of its operations (a called function's operations stand in its
  call's place), with the three facts the run needs of it: the window is the list run in order, every operation
  touches TensorCore buffers only, and every operation determines its results.
-/
import proofs.«140490_j86122684220303_2_alg».proof.ReferenceIdeal
import Idealize.ShloMosaic.Lib.StableHlo.Run

noncomputable section

namespace Cert.Lut3.RefOps

open Cert.ReferenceIdeal Idealize.ShloMosaic Idealize.ShloMosaic.TcCoe Idealize.SL.Sem Idealize.ShloMosaic.StableHlo
open Cert.ReferenceIdeal.Facts₀

variable {F : FTy → Type} [FloatOps F] [Cert.ReferenceIdeal.Facts]

/-- Window 7's operations, in order. -/
abbrev part7 : List (HloOp τ sig (Elt F)) :=
  [ binary main_arg1 main_v308 main_v309 ((fun x i => Host.gather gather_S3x33x33x33_S4x1080x1920x3_S3x4x1080x1920_0_123_n_n_123_3_3111 x i) : (⟨S3x33x33x33, .f32⟩ : BufTy).Contents (Elt F) → (⟨S4x1080x1920x3, .i32⟩ : BufTy).Contents (Elt F) → (⟨S3x4x1080x1920, .f32⟩ : BufTy).Contents (Elt F)),
    unary main_v283 main_v310 (broadcastInDim S4x1x1080x1920 ![0, 2, 3] bcast_S4x1080x1920_S4x1x1080x1920_0_2_3 : (⟨S4x1080x1920, .f32⟩ : BufTy).Contents (Elt F) → (⟨S4x1x1080x1920, .f32⟩ : BufTy).Contents (Elt F)),
    unary main_v309 main_v311 ((transpose S4x3x1080x1920 [1, 0, 2, 3] · transposes_S3x4x1080x1920_S4x3x1080x1920_1_0_2_3) : (⟨S3x4x1080x1920, .f32⟩ : BufTy).Contents (Elt F) → (⟨S4x3x1080x1920, .f32⟩ : BufTy).Contents (Elt F)),
    unary main_v310 main_v312 (broadcastInDim S4x3x1080x1920 ![0, 1, 2, 3] bcast_S4x1x1080x1920_S4x3x1080x1920_0_1_2_3 : (⟨S4x1x1080x1920, .f32⟩ : BufTy).Contents (Elt F) → (⟨S4x3x1080x1920, .f32⟩ : BufTy).Contents (Elt F)),
    binary main_v312 main_v311 main_v313 (mulf : (⟨S4x3x1080x1920, .f32⟩ : BufTy).Contents (Elt F) → (⟨S4x3x1080x1920, .f32⟩ : BufTy).Contents (Elt F) → (⟨S4x3x1080x1920, .f32⟩ : BufTy).Contents (Elt F)),
    binary main_v272 main_v313 main_v314 (addf : (⟨S4x3x1080x1920, .f32⟩ : BufTy).Contents (Elt F) → (⟨S4x3x1080x1920, .f32⟩ : BufTy).Contents (Elt F) → (⟨S4x3x1080x1920, .f32⟩ : BufTy).Contents (Elt F)),
    nullary main_cst_109 (constant S_ .f32 0x3F800000#32),
    unary main_cst_109 main_v315 (broadcastInDim S4x1080x1920 ![] bcast_S_S4x1080x1920 : (⟨S_, .f32⟩ : BufTy).Contents (Elt F) → (⟨S4x1080x1920, .f32⟩ : BufTy).Contents (Elt F)),
    binary main_v315 main_v15 main_v316 (subf : (⟨S4x1080x1920, .f32⟩ : BufTy).Contents (Elt F) → (⟨S4x1080x1920, .f32⟩ : BufTy).Contents (Elt F) → (⟨S4x1080x1920, .f32⟩ : BufTy).Contents (Elt F)),
    nullary main_c_110 (constantI S_ 32 1#32),
    TRef.nullary (TRef.of (T := ⟨S_, .i32⟩) main_call23_c) (constantI S_ 32 0#32),
    TRef.binary (TRef.of (T := ⟨S_, .i32⟩) main_c_110) (TRef.of (T := ⟨S_, .i32⟩) main_call23_c) (TRef.of (T := ⟨S_, .i1⟩) main_call23_v0) (cmpi .ne),
    TRef.ternary (TRef.of (T := ⟨S_, .i1⟩) main_call23_v0) (TRef.of (T := ⟨S4x1080x1920, .f32⟩) main_v15) (TRef.of (T := ⟨S4x1080x1920, .f32⟩) main_v316) (TRef.of (T := ⟨S4x1080x1920, .f32⟩) main_v317) (fun p a b => select (broadcastInDim S4x1080x1920 ![] bcast_S_S4x1080x1920 p) a b),
    nullary main_cst_111 (constant S_ .f32 0x3F800000#32),
    unary main_cst_111 main_v318 (broadcastInDim S4x1080x1920 ![] bcast_S_S4x1080x1920 : (⟨S_, .f32⟩ : BufTy).Contents (Elt F) → (⟨S4x1080x1920, .f32⟩ : BufTy).Contents (Elt F)),
    binary main_v318 main_v17 main_v319 (subf : (⟨S4x1080x1920, .f32⟩ : BufTy).Contents (Elt F) → (⟨S4x1080x1920, .f32⟩ : BufTy).Contents (Elt F) → (⟨S4x1080x1920, .f32⟩ : BufTy).Contents (Elt F)),
    nullary main_c_112 (constantI S_ 32 1#32),
    TRef.nullary (TRef.of (T := ⟨S_, .i32⟩) main_call24_c) (constantI S_ 32 0#32),
    TRef.binary (TRef.of (T := ⟨S_, .i32⟩) main_c_112) (TRef.of (T := ⟨S_, .i32⟩) main_call24_c) (TRef.of (T := ⟨S_, .i1⟩) main_call24_v0) (cmpi .ne),
    TRef.ternary (TRef.of (T := ⟨S_, .i1⟩) main_call24_v0) (TRef.of (T := ⟨S4x1080x1920, .f32⟩) main_v17) (TRef.of (T := ⟨S4x1080x1920, .f32⟩) main_v319) (TRef.of (T := ⟨S4x1080x1920, .f32⟩) main_v320) (fun p a b => select (broadcastInDim S4x1080x1920 ![] bcast_S_S4x1080x1920 p) a b),
    binary main_v317 main_v320 main_v321 (mulf : (⟨S4x1080x1920, .f32⟩ : BufTy).Contents (Elt F) → (⟨S4x1080x1920, .f32⟩ : BufTy).Contents (Elt F) → (⟨S4x1080x1920, .f32⟩ : BufTy).Contents (Elt F)),
    nullary main_cst_113 (constant S_ .f32 0x3F800000#32),
    unary main_cst_113 main_v322 (broadcastInDim S4x1080x1920 ![] bcast_S_S4x1080x1920 : (⟨S_, .f32⟩ : BufTy).Contents (Elt F) → (⟨S4x1080x1920, .f32⟩ : BufTy).Contents (Elt F)),
    binary main_v322 main_v19 main_v323 (subf : (⟨S4x1080x1920, .f32⟩ : BufTy).Contents (Elt F) → (⟨S4x1080x1920, .f32⟩ : BufTy).Contents (Elt F) → (⟨S4x1080x1920, .f32⟩ : BufTy).Contents (Elt F)),
    nullary main_c_114 (constantI S_ 32 1#32),
    TRef.nullary (TRef.of (T := ⟨S_, .i32⟩) main_call25_c) (constantI S_ 32 0#32),
    TRef.binary (TRef.of (T := ⟨S_, .i32⟩) main_c_114) (TRef.of (T := ⟨S_, .i32⟩) main_call25_c) (TRef.of (T := ⟨S_, .i1⟩) main_call25_v0) (cmpi .ne),
    TRef.ternary (TRef.of (T := ⟨S_, .i1⟩) main_call25_v0) (TRef.of (T := ⟨S4x1080x1920, .f32⟩) main_v19) (TRef.of (T := ⟨S4x1080x1920, .f32⟩) main_v323) (TRef.of (T := ⟨S4x1080x1920, .f32⟩) main_v324) (fun p a b => select (broadcastInDim S4x1080x1920 ![] bcast_S_S4x1080x1920 p) a b),
    binary main_v321 main_v324 main_v325 (mulf : (⟨S4x1080x1920, .f32⟩ : BufTy).Contents (Elt F) → (⟨S4x1080x1920, .f32⟩ : BufTy).Contents (Elt F) → (⟨S4x1080x1920, .f32⟩ : BufTy).Contents (Elt F)),
    nullary main_c_115 (constantI S_ 32 1#32),
    unary main_c_115 main_v326 (broadcastInDim S4x1080x1920 ![] bcast_S_S4x1080x1920 : (⟨S_, .i32⟩ : BufTy).Contents (Elt F) → (⟨S4x1080x1920, .i32⟩ : BufTy).Contents (Elt F)),
    binary main_v13 main_v326 main_v327 (addi : (⟨S4x1080x1920, .i32⟩ : BufTy).Contents (Elt F) → (⟨S4x1080x1920, .i32⟩ : BufTy).Contents (Elt F) → (⟨S4x1080x1920, .i32⟩ : BufTy).Contents (Elt F)),
    nullary main_c_116 (constantI S_ 32 1#32),
    unary main_c_116 main_v328 (broadcastInDim S4x1080x1920 ![] bcast_S_S4x1080x1920 : (⟨S_, .i32⟩ : BufTy).Contents (Elt F) → (⟨S4x1080x1920, .i32⟩ : BufTy).Contents (Elt F)),
    binary main_v11 main_v328 main_v329 (addi : (⟨S4x1080x1920, .i32⟩ : BufTy).Contents (Elt F) → (⟨S4x1080x1920, .i32⟩ : BufTy).Contents (Elt F) → (⟨S4x1080x1920, .i32⟩ : BufTy).Contents (Elt F)),
    nullary main_c_117 (constantI S_ 32 1#32),
    unary main_c_117 main_v330 (broadcastInDim S4x1080x1920 ![] bcast_S_S4x1080x1920 : (⟨S_, .i32⟩ : BufTy).Contents (Elt F) → (⟨S4x1080x1920, .i32⟩ : BufTy).Contents (Elt F)),
    binary main_v9 main_v330 main_v331 (addi : (⟨S4x1080x1920, .i32⟩ : BufTy).Contents (Elt F) → (⟨S4x1080x1920, .i32⟩ : BufTy).Contents (Elt F) → (⟨S4x1080x1920, .i32⟩ : BufTy).Contents (Elt F)),
    nullary main_c_118 (constantI S_ 32 0#32),
    unary main_c_118 main_v332 (broadcastInDim S4x1080x1920 ![] bcast_S_S4x1080x1920 : (⟨S_, .i32⟩ : BufTy).Contents (Elt F) → (⟨S4x1080x1920, .i32⟩ : BufTy).Contents (Elt F)),
    binary main_v327 main_v332 main_v333 (cmpi .slt : (⟨S4x1080x1920, .i32⟩ : BufTy).Contents (Elt F) → (⟨S4x1080x1920, .i32⟩ : BufTy).Contents (Elt F) → (⟨S4x1080x1920, .i1⟩ : BufTy).Contents (Elt F)),
    nullary main_c_119 (constantI S_ 32 33#32),
    unary main_c_119 main_v334 (broadcastInDim S4x1080x1920 ![] bcast_S_S4x1080x1920 : (⟨S_, .i32⟩ : BufTy).Contents (Elt F) → (⟨S4x1080x1920, .i32⟩ : BufTy).Contents (Elt F)),
    binary main_v327 main_v334 main_v335 (addi : (⟨S4x1080x1920, .i32⟩ : BufTy).Contents (Elt F) → (⟨S4x1080x1920, .i32⟩ : BufTy).Contents (Elt F) → (⟨S4x1080x1920, .i32⟩ : BufTy).Contents (Elt F)),
    ternary main_v333 main_v335 main_v327 main_v336 (select : (⟨S4x1080x1920, .i1⟩ : BufTy).Contents (Elt F) → (⟨S4x1080x1920, .i32⟩ : BufTy).Contents (Elt F) → (⟨S4x1080x1920, .i32⟩ : BufTy).Contents (Elt F) → (⟨S4x1080x1920, .i32⟩ : BufTy).Contents (Elt F)),
    nullary main_c_120 (constantI S_ 32 0#32),
    unary main_c_120 main_v337 (broadcastInDim S4x1080x1920 ![] bcast_S_S4x1080x1920 : (⟨S_, .i32⟩ : BufTy).Contents (Elt F) → (⟨S4x1080x1920, .i32⟩ : BufTy).Contents (Elt F)),
    binary main_v329 main_v337 main_v338 (cmpi .slt : (⟨S4x1080x1920, .i32⟩ : BufTy).Contents (Elt F) → (⟨S4x1080x1920, .i32⟩ : BufTy).Contents (Elt F) → (⟨S4x1080x1920, .i1⟩ : BufTy).Contents (Elt F)),
    nullary main_c_121 (constantI S_ 32 33#32),
    unary main_c_121 main_v339 (broadcastInDim S4x1080x1920 ![] bcast_S_S4x1080x1920 : (⟨S_, .i32⟩ : BufTy).Contents (Elt F) → (⟨S4x1080x1920, .i32⟩ : BufTy).Contents (Elt F)),
    binary main_v329 main_v339 main_v340 (addi : (⟨S4x1080x1920, .i32⟩ : BufTy).Contents (Elt F) → (⟨S4x1080x1920, .i32⟩ : BufTy).Contents (Elt F) → (⟨S4x1080x1920, .i32⟩ : BufTy).Contents (Elt F)),
    ternary main_v338 main_v340 main_v329 main_v341 (select : (⟨S4x1080x1920, .i1⟩ : BufTy).Contents (Elt F) → (⟨S4x1080x1920, .i32⟩ : BufTy).Contents (Elt F) → (⟨S4x1080x1920, .i32⟩ : BufTy).Contents (Elt F) → (⟨S4x1080x1920, .i32⟩ : BufTy).Contents (Elt F)),
    nullary main_c_122 (constantI S_ 32 0#32),
    unary main_c_122 main_v342 (broadcastInDim S4x1080x1920 ![] bcast_S_S4x1080x1920 : (⟨S_, .i32⟩ : BufTy).Contents (Elt F) → (⟨S4x1080x1920, .i32⟩ : BufTy).Contents (Elt F)),
    binary main_v331 main_v342 main_v343 (cmpi .slt : (⟨S4x1080x1920, .i32⟩ : BufTy).Contents (Elt F) → (⟨S4x1080x1920, .i32⟩ : BufTy).Contents (Elt F) → (⟨S4x1080x1920, .i1⟩ : BufTy).Contents (Elt F)),
    nullary main_c_123 (constantI S_ 32 33#32),
    unary main_c_123 main_v344 (broadcastInDim S4x1080x1920 ![] bcast_S_S4x1080x1920 : (⟨S_, .i32⟩ : BufTy).Contents (Elt F) → (⟨S4x1080x1920, .i32⟩ : BufTy).Contents (Elt F)),
    binary main_v331 main_v344 main_v345 (addi : (⟨S4x1080x1920, .i32⟩ : BufTy).Contents (Elt F) → (⟨S4x1080x1920, .i32⟩ : BufTy).Contents (Elt F) → (⟨S4x1080x1920, .i32⟩ : BufTy).Contents (Elt F)),
    ternary main_v343 main_v345 main_v331 main_v346 (select : (⟨S4x1080x1920, .i1⟩ : BufTy).Contents (Elt F) → (⟨S4x1080x1920, .i32⟩ : BufTy).Contents (Elt F) → (⟨S4x1080x1920, .i32⟩ : BufTy).Contents (Elt F) → (⟨S4x1080x1920, .i32⟩ : BufTy).Contents (Elt F)),
    unary main_v336 main_v347 (broadcastInDim S4x1080x1920x1 ![0, 1, 2] bcast_S4x1080x1920_S4x1080x1920x1_0_1_2 : (⟨S4x1080x1920, .i32⟩ : BufTy).Contents (Elt F) → (⟨S4x1080x1920x1, .i32⟩ : BufTy).Contents (Elt F)),
    unary main_v341 main_v348 (broadcastInDim S4x1080x1920x1 ![0, 1, 2] bcast_S4x1080x1920_S4x1080x1920x1_0_1_2 : (⟨S4x1080x1920, .i32⟩ : BufTy).Contents (Elt F) → (⟨S4x1080x1920x1, .i32⟩ : BufTy).Contents (Elt F)),
    unary main_v346 main_v349 (broadcastInDim S4x1080x1920x1 ![0, 1, 2] bcast_S4x1080x1920_S4x1080x1920x1_0_1_2 : (⟨S4x1080x1920, .i32⟩ : BufTy).Contents (Elt F) → (⟨S4x1080x1920x1, .i32⟩ : BufTy).Contents (Elt F)),
    nary ![main_v347, main_v348, main_v349] main_v350 (fun u => concatenate S4x1080x1920x3 3 [⟨S4x1080x1920x1, u 0⟩, ⟨S4x1080x1920x1, u 1⟩, ⟨S4x1080x1920x1, u 2⟩] concatenates_S4x1080x1920x1_S4x1080x1920x1_S4x1080x1920x1_S4x1080x1920x3_d3),
    binary main_arg1 main_v350 main_v351 ((fun x i => Host.gather gather_S3x33x33x33_S4x1080x1920x3_S3x4x1080x1920_0_123_n_n_123_3_3111 x i) : (⟨S3x33x33x33, .f32⟩ : BufTy).Contents (Elt F) → (⟨S4x1080x1920x3, .i32⟩ : BufTy).Contents (Elt F) → (⟨S3x4x1080x1920, .f32⟩ : BufTy).Contents (Elt F)),
    unary main_v325 main_v352 (broadcastInDim S4x1x1080x1920 ![0, 2, 3] bcast_S4x1080x1920_S4x1x1080x1920_0_2_3 : (⟨S4x1080x1920, .f32⟩ : BufTy).Contents (Elt F) → (⟨S4x1x1080x1920, .f32⟩ : BufTy).Contents (Elt F)),
    unary main_v351 main_v353 ((transpose S4x3x1080x1920 [1, 0, 2, 3] · transposes_S3x4x1080x1920_S4x3x1080x1920_1_0_2_3) : (⟨S3x4x1080x1920, .f32⟩ : BufTy).Contents (Elt F) → (⟨S4x3x1080x1920, .f32⟩ : BufTy).Contents (Elt F)) ]

set_option maxRecDepth 8192 in
set_option maxHeartbeats 4000000 in
theorem part7_eq (d : Dev nD) : main_part7 (F := F) d = seq part7 := rfl

theorem part7_sub : (part7 : List (HloOp τ sig (Elt F))).Forall fun op => op.bufs ⊆ tcRefs τ sig :=
  ⟨binary_bufs_sub .., unary_bufs_sub .., unary_bufs_sub .., unary_bufs_sub .., binary_bufs_sub .., binary_bufs_sub .., nullary_bufs_sub .., unary_bufs_sub .., binary_bufs_sub .., nullary_bufs_sub .., nullary_bufs_sub .., binary_bufs_sub .., ternary_bufs_sub .., nullary_bufs_sub .., unary_bufs_sub .., binary_bufs_sub .., nullary_bufs_sub .., nullary_bufs_sub .., binary_bufs_sub .., ternary_bufs_sub .., binary_bufs_sub .., nullary_bufs_sub .., unary_bufs_sub .., binary_bufs_sub .., nullary_bufs_sub .., nullary_bufs_sub .., binary_bufs_sub .., ternary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., unary_bufs_sub .., unary_bufs_sub ..⟩

theorem part7_fresh : ∀ op ∈ (part7 : List (HloOp τ sig (Elt F))), op.fresh = ∅ :=
  List.forall_iff_forall_mem.1 (show (part7 : List (HloOp τ sig (Elt F))).Forall (fun op => op.fresh = ∅) from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

end Cert.Lut3.RefOps

end
-- ==== Proof.RefPart8.lean ====
/-
  Window 8 of the eight-corner program as a list of its operations (a called function's operations stand in its
  call's place), with the three facts the run needs of it: the window is the list run in order, every operation
  touches TensorCore buffers only, and every operation determines its results.
-/
import proofs.«140490_j86122684220303_2_alg».proof.ReferenceIdeal
import Idealize.ShloMosaic.Lib.StableHlo.Run

noncomputable section

namespace Cert.Lut3.RefOps

open Cert.ReferenceIdeal Idealize.ShloMosaic Idealize.ShloMosaic.TcCoe Idealize.SL.Sem Idealize.ShloMosaic.StableHlo
open Cert.ReferenceIdeal.Facts₀

variable {F : FTy → Type} [FloatOps F] [Cert.ReferenceIdeal.Facts]

/-- Window 8's operations, in order. -/
abbrev part8 : List (HloOp τ sig (Elt F)) :=
  [ unary main_v352 main_v354 (broadcastInDim S4x3x1080x1920 ![0, 1, 2, 3] bcast_S4x1x1080x1920_S4x3x1080x1920_0_1_2_3 : (⟨S4x1x1080x1920, .f32⟩ : BufTy).Contents (Elt F) → (⟨S4x3x1080x1920, .f32⟩ : BufTy).Contents (Elt F)),
    binary main_v354 main_v353 main_v355 (mulf : (⟨S4x3x1080x1920, .f32⟩ : BufTy).Contents (Elt F) → (⟨S4x3x1080x1920, .f32⟩ : BufTy).Contents (Elt F) → (⟨S4x3x1080x1920, .f32⟩ : BufTy).Contents (Elt F)),
    binary main_v314 main_v355 main_v356 (addf : (⟨S4x3x1080x1920, .f32⟩ : BufTy).Contents (Elt F) → (⟨S4x3x1080x1920, .f32⟩ : BufTy).Contents (Elt F) → (⟨S4x3x1080x1920, .f32⟩ : BufTy).Contents (Elt F)) ]

set_option maxRecDepth 8192 in
set_option maxHeartbeats 4000000 in
theorem part8_eq (d : Dev nD) : main_part8 (F := F) d = seq part8 := rfl

theorem part8_sub : (part8 : List (HloOp τ sig (Elt F))).Forall fun op => op.bufs ⊆ tcRefs τ sig :=
  ⟨unary_bufs_sub .., binary_bufs_sub .., binary_bufs_sub ..⟩

theorem part8_fresh : ∀ op ∈ (part8 : List (HloOp τ sig (Elt F))), op.fresh = ∅ :=
  List.forall_iff_forall_mem.1 (show (part8 : List (HloOp τ sig (Elt F))).Forall (fun op => op.fresh = ∅) from
    ⟨rfl, rfl, rfl⟩)

end Cert.Lut3.RefOps

end
-- ==== Proof.RefOps.lean ====
/-
  The eight-corner program as ONE list of operations: its nine windows' lists in order.  The program is that list run in
  order, every operation touches TensorCore buffers only, and every operation determines its results.
-/
import proofs.«140490_j86122684220303_2_alg».proof.Proof.RefPart0
import proofs.«140490_j86122684220303_2_alg».proof.Proof.RefPart1
import proofs.«140490_j86122684220303_2_alg».proof.Proof.RefPart2
import proofs.«140490_j86122684220303_2_alg».proof.Proof.RefPart3
import proofs.«140490_j86122684220303_2_alg».proof.Proof.RefPart4
import proofs.«140490_j86122684220303_2_alg».proof.Proof.RefPart5
import proofs.«140490_j86122684220303_2_alg».proof.Proof.RefPart6
import proofs.«140490_j86122684220303_2_alg».proof.Proof.RefPart7
import proofs.«140490_j86122684220303_2_alg».proof.Proof.RefPart8

noncomputable section

namespace Cert.Lut3.RefOps

open Cert.ReferenceIdeal Idealize.ShloMosaic Idealize.ShloMosaic.TcCoe Idealize.SL.Sem Idealize.ShloMosaic.StableHlo
open Cert.ReferenceIdeal.Facts₀

variable {F : FTy → Type} [FloatOps F] [Cert.ReferenceIdeal.Facts]

/-- All the operations: the nine windows in order. -/
abbrev ops : List (HloOp τ sig (Elt F)) :=
  part0 ++ (part1 ++ (part2 ++ (part3 ++ (part4 ++ (part5 ++ (part6 ++ (part7 ++ (part8))))))))

/-- The program is its windows run in order, each the run of its list. -/
theorem main_eq (d : Dev nD) : main (F := F) d = seq ops := by
  simp only [ops, seq_append, ← part0_eq d, ← part1_eq d, ← part2_eq d, ← part3_eq d, ← part4_eq d, ← part5_eq d, ← part6_eq d, ← part7_eq d, ← part8_eq d]
  rfl

theorem forall_append' {α : Type} {p : α → Prop} {l₁ l₂ : List α} (h₁ : l₁.Forall p) (h₂ : l₂.Forall p) : (l₁ ++ l₂).Forall p :=
  List.forall_iff_forall_mem.2 fun x hx => (List.mem_append.1 hx).elim (List.forall_iff_forall_mem.1 h₁ x) (List.forall_iff_forall_mem.1 h₂ x)

theorem mem_append_elim {α : Type} {p : α → Prop} {l₁ l₂ : List α} (h₁ : ∀ x ∈ l₁, p x) (h₂ : ∀ x ∈ l₂, p x) : ∀ x ∈ l₁ ++ l₂, p x :=
  fun x hx => (List.mem_append.1 hx).elim (h₁ x) (h₂ x)

/-- Every operation touches TensorCore buffers only. -/
theorem ops_sub : (ops : List (HloOp τ sig (Elt F))).Forall fun op => op.bufs ⊆ tcRefs τ sig :=
  forall_append' part0_sub (forall_append' part1_sub (forall_append' part2_sub (forall_append' part3_sub (forall_append' part4_sub (forall_append' part5_sub (forall_append' part6_sub (forall_append' part7_sub (part8_sub))))))))

/-- Every operation determines its results. -/
theorem ops_fresh : ∀ op ∈ (ops : List (HloOp τ sig (Elt F))), op.fresh = ∅ :=
  mem_append_elim part0_fresh (mem_append_elim part1_fresh (mem_append_elim part2_fresh (mem_append_elim part3_fresh (mem_append_elim part4_fresh (mem_append_elim part5_fresh (mem_append_elim part6_fresh (mem_append_elim part7_fresh (part8_fresh))))))))

end Cert.Lut3.RefOps

end
-- ==== Proof.RefScoped.lean ====
/-
  The eight-corner program's signature scopes no buffer and no semaphore: every buffer is an array of the program's own,
  alive from launch to the end.
-/
import proofs.«140490_j86122684220303_2_alg».proof.ReferenceIdeal
import Idealize.ShloMosaic.Lib.StableHlo.Run

namespace Cert.Lut3.RefScoped

open Cert.ReferenceIdeal Idealize.ShloMosaic Idealize.SL.Sem

theorem scopedRefs_eq : (Finset.univ.filter fun b : Ref sig .tc => b.isScoped) = ∅ := by decide
theorem scopedSems_eq : (Finset.univ.filter fun sm : SemLoc sig => sm.isScoped .tc) = ∅ := by decide

end Cert.Lut3.RefScoped
-- ==== Proof.RefTerm.lean ====
/-
  The eight-corner program's result as one term in which every shared array appears once.

  From the image x [4, 3, 1080, 1920]: `sc x` is x clamped to [0, 1] and multiplied by 32, `cellv x` the floor of
  that as a 32-bit word clamped to 0 .. 31, `fracv x` the difference of the two.  `chan k` cuts channel k out of an
  array [4, 3, 1080, 1920] and drops the unit axis, so `chanI k x` and `chanF k x` are channel k's cells and
  fractions, arrays [4, 1080, 1920].

  One corner (dr, dg, db) of the cell adds to the running total `acc` the product of
    - the weight  (where(dr, f_r, 1 - f_r) * where(dg, f_g, 1 - f_g)) * where(db, f_b, 1 - f_b),  an array
      [4, 1080, 1920] broadcast to [4, 1, 1080, 1920] and then over the three output channels, and
    - the table gathered at the start indices (cell_b + db, cell_g + dg, cell_r + dr), each first wrapped by 33 when
      negative, concatenated along a new last axis to [4, 1080, 1920, 3]; the gather returns [3, 4, 1080, 1920], which is
      transposed to [4, 3, 1080, 1920].
  `refTerm x lut` is the eight corners added in the order (dr, dg, db) = 000, 001, 010, 011, 100, 101, 110, 111 onto the
  zero array.
-/
import proofs.«140490_j86122684220303_2_alg».proof.ReferenceIdeal
import Idealize.ShloMosaic.PureOps.Ideal

noncomputable section

namespace Cert.Lut3.RefTerm

open Cert.ReferenceIdeal Idealize.ShloMosaic
open Cert.ReferenceIdeal.Facts₀

variable [Cert.ReferenceIdeal.Facts]

/-- The image clamped to [0, 1] and scaled by 32. -/
def sc (x : FVec Ideal S4x3x1080x1920 .f32) : FVec Ideal S4x3x1080x1920 .f32 :=
  mulf (minimumf (broadcastInDim S4x3x1080x1920 ![] bcast_S_S4x3x1080x1920 (constant S_ .f32 0x3F800000#32))
          (maximumf (broadcastInDim S4x3x1080x1920 ![] bcast_S_S4x3x1080x1920 (constant S_ .f32 0x00000000#32)) x))
    (broadcastInDim S4x3x1080x1920 ![] bcast_S_S4x3x1080x1920 (constant S_ .f32 0x42000000#32))

/-- The grid cell of every entry: the floor of the scaled value as a word, clamped to 0 .. 31. -/
def cellv (x : FVec Ideal S4x3x1080x1920 .f32) : IVec S4x3x1080x1920 32 :=
  minsi (broadcastInDim S4x3x1080x1920 ![] bcast_S_S4x3x1080x1920 (constantI S_ 32 31#32))
    (maxsi (broadcastInDim S4x3x1080x1920 ![] bcast_S_S4x3x1080x1920 (constantI S_ 32 0#32))
      (fptosi 32 (Host.floor (sc x))))

/-- The position inside the cell. -/
def fracv (x : FVec Ideal S4x3x1080x1920 .f32) : FVec Ideal S4x3x1080x1920 .f32 :=
  subf (sc x) (sitofp .f32 (cellv x))

/-- Channel k of an array [4, 3, 1080, 1920], as an array [4, 1080, 1920]. -/
def chan {α : Type} (k : Fin 3) (v : S4x3x1080x1920.Idx → α) : S4x1080x1920.Idx → α :=
  match k with
  | 0 => shapeCast S4x1080x1920 (extractStridedSlice S4x1x1080x1920 ![0, 0, 0, 0] v slices_S4x3x1080x1920_S4x1x1080x1920_0_0_0_0)
           shapeCasts_S4x1x1080x1920_S4x1080x1920
  | 1 => shapeCast S4x1080x1920 (extractStridedSlice S4x1x1080x1920 ![0, 1, 0, 0] v slices_S4x3x1080x1920_S4x1x1080x1920_0_1_0_0)
           shapeCasts_S4x1x1080x1920_S4x1080x1920
  | 2 => shapeCast S4x1080x1920 (extractStridedSlice S4x1x1080x1920 ![0, 2, 0, 0] v slices_S4x3x1080x1920_S4x1x1080x1920_0_2_0_0)
           shapeCasts_S4x1x1080x1920_S4x1080x1920

theorem chan_zero {α : Type} (v : S4x3x1080x1920.Idx → α) :
    chan 0 v = shapeCast S4x1080x1920 (extractStridedSlice S4x1x1080x1920 ![0, 0, 0, 0] v slices_S4x3x1080x1920_S4x1x1080x1920_0_0_0_0)
      shapeCasts_S4x1x1080x1920_S4x1080x1920 := rfl
theorem chan_one {α : Type} (v : S4x3x1080x1920.Idx → α) :
    chan 1 v = shapeCast S4x1080x1920 (extractStridedSlice S4x1x1080x1920 ![0, 1, 0, 0] v slices_S4x3x1080x1920_S4x1x1080x1920_0_1_0_0)
      shapeCasts_S4x1x1080x1920_S4x1080x1920 := rfl
theorem chan_two {α : Type} (v : S4x3x1080x1920.Idx → α) :
    chan 2 v = shapeCast S4x1080x1920 (extractStridedSlice S4x1x1080x1920 ![0, 2, 0, 0] v slices_S4x3x1080x1920_S4x1x1080x1920_0_2_0_0)
      shapeCasts_S4x1x1080x1920_S4x1080x1920 := rfl

/-- Channel k's cells. -/
def chanI (k : Fin 3) (x : FVec Ideal S4x3x1080x1920 .f32) : IVec S4x1080x1920 32 := chan k (cellv x)
/-- Channel k's fractions. -/
def chanF (k : Fin 3) (x : FVec Ideal S4x3x1080x1920 .f32) : FVec Ideal S4x1080x1920 .f32 := chan k (fracv x)

/-- One axis's weight at a corner: the fraction when the corner's offset `d` is not 0, one minus the fraction when it is. -/
def whereW (d : BitVec 32) (f : FVec Ideal S4x1080x1920 .f32) : FVec Ideal S4x1080x1920 .f32 :=
  select (broadcastInDim S4x1080x1920 ![] bcast_S_S4x1080x1920 (cmpi .ne (constantI S_ 32 d) (constantI S_ 32 0#32))) f
    (subf (broadcastInDim S4x1080x1920 ![] bcast_S_S4x1080x1920 (constant S_ .f32 0x3F800000#32)) f)

/-- A start index wrapped by 33 when negative. -/
def wrapI (v : IVec S4x1080x1920 32) : IVec S4x1080x1920 32 :=
  select (cmpi .slt v (broadcastInDim S4x1080x1920 ![] bcast_S_S4x1080x1920 (constantI S_ 32 0#32)))
    (addi v (broadcastInDim S4x1080x1920 ![] bcast_S_S4x1080x1920 (constantI S_ 32 33#32))) v

/-- One axis's start index at a corner: the cell plus the corner's offset, wrapped. -/
def startI (d : BitVec 32) (i : IVec S4x1080x1920 32) : IVec S4x1080x1920 32 :=
  wrapI (addi i (broadcastInDim S4x1080x1920 ![] bcast_S_S4x1080x1920 (constantI S_ 32 d)))

/-- Three start-index arrays [4, 1080, 1920] side by side along a new last axis: [4, 1080, 1920, 3]. -/
def stackI (j0 j1 j2 : IVec S4x1080x1920 32) : IVec S4x1080x1920x3 32 :=
  concatenate S4x1080x1920x3 3
    [⟨S4x1080x1920x1, broadcastInDim S4x1080x1920x1 ![0, 1, 2] bcast_S4x1080x1920_S4x1080x1920x1_0_1_2 j0⟩,
     ⟨S4x1080x1920x1, broadcastInDim S4x1080x1920x1 ![0, 1, 2] bcast_S4x1080x1920_S4x1080x1920x1_0_1_2 j1⟩,
     ⟨S4x1080x1920x1, broadcastInDim S4x1080x1920x1 ![0, 1, 2] bcast_S4x1080x1920_S4x1080x1920x1_0_1_2 j2⟩]
    concatenates_S4x1080x1920x1_S4x1080x1920x1_S4x1080x1920x1_S4x1080x1920x3_d3

/-- The corner's weight: the three axes' weights multiplied, r and g first. -/
def weightV (dr dg db : BitVec 32) (f15 f17 f19 : FVec Ideal S4x1080x1920 .f32) : FVec Ideal S4x1080x1920 .f32 :=
  mulf (mulf (whereW dr f15) (whereW dg f17)) (whereW db f19)

/-- The table's entries at the corner, as an array [4, 3, 1080, 1920]: gathered at (b, g, r), then transposed. -/
def fetchV (dr dg db : BitVec 32) (i9 i11 i13 : IVec S4x1080x1920 32) (lut : FVec Ideal S3x33x33x33 .f32) :
    FVec Ideal S4x3x1080x1920 .f32 :=
  transpose S4x3x1080x1920 [1, 0, 2, 3]
    (Host.gather gather_S3x33x33x33_S4x1080x1920x3_S3x4x1080x1920_0_123_n_n_123_3_3111 lut
      (stackI (startI db i13) (startI dg i11) (startI dr i9)))
    transposes_S3x4x1080x1920_S4x3x1080x1920_1_0_2_3

/-- One corner added onto the running total: total + weight * table entry. -/
def cornerStep (dr dg db : BitVec 32) (i9 i11 i13 : IVec S4x1080x1920 32) (f15 f17 f19 : FVec Ideal S4x1080x1920 .f32)
    (lut : FVec Ideal S3x33x33x33 .f32) (acc : FVec Ideal S4x3x1080x1920 .f32) : FVec Ideal S4x3x1080x1920 .f32 :=
  addf acc
    (mulf
      (broadcastInDim S4x3x1080x1920 ![0, 1, 2, 3] bcast_S4x1x1080x1920_S4x3x1080x1920_0_1_2_3
        (broadcastInDim S4x1x1080x1920 ![0, 2, 3] bcast_S4x1080x1920_S4x1x1080x1920_0_2_3 (weightV dr dg db f15 f17 f19)))
      (fetchV dr dg db i9 i11 i13 lut))

/-- The zero array the corners are added onto. -/
def zeroV : FVec Ideal S4x3x1080x1920 .f32 :=
  broadcastInDim S4x3x1080x1920 ![] bcast_S_S4x3x1080x1920 (constant S_ .f32 0x00000000#32)

/-- One corner at the image's own cells and fractions (channels 0, 1, 2 = r, g, b). -/
def stepAt (x : FVec Ideal S4x3x1080x1920 .f32) (lut : FVec Ideal S3x33x33x33 .f32) (dr dg db : BitVec 32)
    (acc : FVec Ideal S4x3x1080x1920 .f32) : FVec Ideal S4x3x1080x1920 .f32 :=
  cornerStep dr dg db (chanI 0 x) (chanI 1 x) (chanI 2 x) (chanF 0 x) (chanF 1 x) (chanF 2 x) lut acc

/-- The eight corners, in the order (dr, dg, db) = 000, 001, 010, 011, 100, 101, 110, 111, onto the zero array. -/
def refTerm (x : FVec Ideal S4x3x1080x1920 .f32) (lut : FVec Ideal S3x33x33x33 .f32) : FVec Ideal S4x3x1080x1920 .f32 :=
  stepAt x lut 1#32 1#32 1#32 (stepAt x lut 1#32 1#32 0#32 (stepAt x lut 1#32 0#32 1#32 (stepAt x lut 1#32 0#32 0#32
    (stepAt x lut 0#32 1#32 1#32 (stepAt x lut 0#32 1#32 0#32 (stepAt x lut 0#32 0#32 1#32 (stepAt x lut 0#32 0#32 0#32
      zeroV)))))))

end Cert.Lut3.RefTerm

end
-- ==== Proof.LibNary3.lean ====
/-
  An operation over a literal family of three operand buffers (a concatenation of three arrays): what its result buffer
  holds afterwards, with each operand's contents read at its own buffer, so that the operands' own results can be
  rewritten in turn.  The same statement as the library's for four operands.
-/
import Idealize.ShloMosaic.Lib.StableHlo.Run

noncomputable section

namespace Idealize.ShloMosaic.StableHlo

variable {τ : Topo} {sig : RefSig} {Val : EltTy → Type} {x a b y : Ref sig .tc}

theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- The results of a straight line by one rewriting pass, with the three-operand form among the rules. -/
macro "after_results_simp3" : tactic =>
  `(tactic| (simp (disch := decide) only [after_cons, after_nil,
      nullary_result', unary_result', binary_result', ternary_result', reshape_result', nary3_result',
      nullary_result_ne', unary_result_ne', binary_result_ne', ternary_result_ne', reshape_result_ne', nary_result_ne']))

end Idealize.ShloMosaic.StableHlo

end
-- ==== Proof.RefBase.lean ====
/-
  The eight-corner program's operations up to the zero array the corners are added onto, and what they compute from any
  contents W of the buffers: the six per-channel arrays are channel k's cells and fractions of the image as W holds it,
  the total's first buffer is the zero array, and the image and the table are not written.
-/
import proofs.«140490_j86122684220303_2_alg».proof.Proof.RefTerm
import proofs.«140490_j86122684220303_2_alg».proof.Proof.LibNary3

noncomputable section

namespace Cert.Lut3.RefOps

open Cert.ReferenceIdeal Idealize.ShloMosaic Idealize.ShloMosaic.TcCoe Idealize.SL.Sem Idealize.ShloMosaic.StableHlo
open Cert.ReferenceIdeal.Facts₀

variable {F : FTy → Type} [FloatOps F] [Cert.ReferenceIdeal.Facts]

/-- The operations, in order. -/
def opsBase : List (HloOp τ sig (Elt F)) :=
  [ nullary main_cst (constant S_ .f32 0x00000000#32),
    nullary main_cst_0 (constant S_ .f32 0x3F800000#32),
    TRef.unary (TRef.of (T := ⟨S_, .f32⟩) main_cst) (TRef.of (T := ⟨S_, .f32⟩) main_call0_v0) id,
    TRef.unary (TRef.of (T := ⟨S_, .f32⟩) main_call0_v0) (TRef.of (T := ⟨S4x3x1080x1920, .f32⟩) main_call0_v1) (broadcastInDim S4x3x1080x1920 ![] bcast_S_S4x3x1080x1920),
    TRef.binary (TRef.of (T := ⟨S4x3x1080x1920, .f32⟩) main_call0_v1) (TRef.of (T := ⟨S4x3x1080x1920, .f32⟩) main_arg0) (TRef.of (T := ⟨S4x3x1080x1920, .f32⟩) main_call0_v2) maximumf,
    TRef.unary (TRef.of (T := ⟨S_, .f32⟩) main_cst_0) (TRef.of (T := ⟨S_, .f32⟩) main_call0_v3) id,
    TRef.unary (TRef.of (T := ⟨S_, .f32⟩) main_call0_v3) (TRef.of (T := ⟨S4x3x1080x1920, .f32⟩) main_call0_v4) (broadcastInDim S4x3x1080x1920 ![] bcast_S_S4x3x1080x1920),
    TRef.binary (TRef.of (T := ⟨S4x3x1080x1920, .f32⟩) main_call0_v4) (TRef.of (T := ⟨S4x3x1080x1920, .f32⟩) main_call0_v2) (TRef.of (T := ⟨S4x3x1080x1920, .f32⟩) main_v0) minimumf,
    nullary main_cst_1 (constant S_ .f32 0x42000000#32),
    unary main_cst_1 main_v1 (broadcastInDim S4x3x1080x1920 ![] bcast_S_S4x3x1080x1920 : (⟨S_, .f32⟩ : BufTy).Contents (Elt F) → (⟨S4x3x1080x1920, .f32⟩ : BufTy).Contents (Elt F)),
    binary main_v0 main_v1 main_v2 (mulf : (⟨S4x3x1080x1920, .f32⟩ : BufTy).Contents (Elt F) → (⟨S4x3x1080x1920, .f32⟩ : BufTy).Contents (Elt F) → (⟨S4x3x1080x1920, .f32⟩ : BufTy).Contents (Elt F)),
    unary main_v2 main_v3 (Host.floor : (⟨S4x3x1080x1920, .f32⟩ : BufTy).Contents (Elt F) → (⟨S4x3x1080x1920, .f32⟩ : BufTy).Contents (Elt F)),
    unary main_v3 main_v4 (fptosi 32 : (⟨S4x3x1080x1920, .f32⟩ : BufTy).Contents (Elt F) → (⟨S4x3x1080x1920, .i32⟩ : BufTy).Contents (Elt F)),
    nullary main_c (constantI S_ 32 0#32),
    nullary main_c_2 (constantI S_ 32 31#32),
    TRef.unary (TRef.of (T := ⟨S_, .i32⟩) main_c) (TRef.of (T := ⟨S_, .i32⟩) main_call1_v0) id,
    TRef.unary (TRef.of (T := ⟨S_, .i32⟩) main_call1_v0) (TRef.of (T := ⟨S4x3x1080x1920, .i32⟩) main_call1_v1) (broadcastInDim S4x3x1080x1920 ![] bcast_S_S4x3x1080x1920),
    TRef.binary (TRef.of (T := ⟨S4x3x1080x1920, .i32⟩) main_call1_v1) (TRef.of (T := ⟨S4x3x1080x1920, .i32⟩) main_v4) (TRef.of (T := ⟨S4x3x1080x1920, .i32⟩) main_call1_v2) maxsi,
    TRef.unary (TRef.of (T := ⟨S_, .i32⟩) main_c_2) (TRef.of (T := ⟨S_, .i32⟩) main_call1_v3) id,
    TRef.unary (TRef.of (T := ⟨S_, .i32⟩) main_call1_v3) (TRef.of (T := ⟨S4x3x1080x1920, .i32⟩) main_call1_v4) (broadcastInDim S4x3x1080x1920 ![] bcast_S_S4x3x1080x1920),
    TRef.binary (TRef.of (T := ⟨S4x3x1080x1920, .i32⟩) main_call1_v4) (TRef.of (T := ⟨S4x3x1080x1920, .i32⟩) main_call1_v2) (TRef.of (T := ⟨S4x3x1080x1920, .i32⟩) main_v5) minsi,
    unary main_v5 main_v6 (sitofp .f32 : (⟨S4x3x1080x1920, .i32⟩ : BufTy).Contents (Elt F) → (⟨S4x3x1080x1920, .f32⟩ : BufTy).Contents (Elt F)),
    binary main_v2 main_v6 main_v7 (subf : (⟨S4x3x1080x1920, .f32⟩ : BufTy).Contents (Elt F) → (⟨S4x3x1080x1920, .f32⟩ : BufTy).Contents (Elt F) → (⟨S4x3x1080x1920, .f32⟩ : BufTy).Contents (Elt F)),
    unary main_v5 main_v8 ((extractStridedSlice S4x1x1080x1920 ![0, 0, 0, 0] · slices_S4x3x1080x1920_S4x1x1080x1920_0_0_0_0) : (⟨S4x3x1080x1920, .i32⟩ : BufTy).Contents (Elt F) → (⟨S4x1x1080x1920, .i32⟩ : BufTy).Contents (Elt F)),
    reshape main_v8 main_v9 rfl shapeCasts_S4x1x1080x1920_S4x1080x1920,
    unary main_v5 main_v10 ((extractStridedSlice S4x1x1080x1920 ![0, 1, 0, 0] · slices_S4x3x1080x1920_S4x1x1080x1920_0_1_0_0) : (⟨S4x3x1080x1920, .i32⟩ : BufTy).Contents (Elt F) → (⟨S4x1x1080x1920, .i32⟩ : BufTy).Contents (Elt F)),
    reshape main_v10 main_v11 rfl shapeCasts_S4x1x1080x1920_S4x1080x1920,
    unary main_v5 main_v12 ((extractStridedSlice S4x1x1080x1920 ![0, 2, 0, 0] · slices_S4x3x1080x1920_S4x1x1080x1920_0_2_0_0) : (⟨S4x3x1080x1920, .i32⟩ : BufTy).Contents (Elt F) → (⟨S4x1x1080x1920, .i32⟩ : BufTy).Contents (Elt F)),
    reshape main_v12 main_v13 rfl shapeCasts_S4x1x1080x1920_S4x1080x1920,
    unary main_v7 main_v14 ((extractStridedSlice S4x1x1080x1920 ![0, 0, 0, 0] · slices_S4x3x1080x1920_S4x1x1080x1920_0_0_0_0) : (⟨S4x3x1080x1920, .f32⟩ : BufTy).Contents (Elt F) → (⟨S4x1x1080x1920, .f32⟩ : BufTy).Contents (Elt F)),
    reshape main_v14 main_v15 rfl shapeCasts_S4x1x1080x1920_S4x1080x1920,
    unary main_v7 main_v16 ((extractStridedSlice S4x1x1080x1920 ![0, 1, 0, 0] · slices_S4x3x1080x1920_S4x1x1080x1920_0_1_0_0) : (⟨S4x3x1080x1920, .f32⟩ : BufTy).Contents (Elt F) → (⟨S4x1x1080x1920, .f32⟩ : BufTy).Contents (Elt F)),
    reshape main_v16 main_v17 rfl shapeCasts_S4x1x1080x1920_S4x1080x1920,
    unary main_v7 main_v18 ((extractStridedSlice S4x1x1080x1920 ![0, 2, 0, 0] · slices_S4x3x1080x1920_S4x1x1080x1920_0_2_0_0) : (⟨S4x3x1080x1920, .f32⟩ : BufTy).Contents (Elt F) → (⟨S4x1x1080x1920, .f32⟩ : BufTy).Contents (Elt F)),
    reshape main_v18 main_v19 rfl shapeCasts_S4x1x1080x1920_S4x1080x1920,
    nullary main_cst_3 (constant S_ .f32 0x00000000#32),
    unary main_cst_3 main_v20 (broadcastInDim S4x3x1080x1920 ![] bcast_S_S4x3x1080x1920 : (⟨S_, .f32⟩ : BufTy).Contents (Elt F) → (⟨S4x3x1080x1920, .f32⟩ : BufTy).Contents (Elt F)) ]

set_option maxHeartbeats 4000000 in
/-- What the buffers the corners read hold after these operations. -/
theorem base_out (W : Valuation τ sig (Elt Ideal)) :
    after (opsBase (F := Ideal)) W (Proc.devRef .tc main_v9) = RefTerm.chanI 0 (W (Proc.devRef .tc main_arg0))
    ∧ after (opsBase (F := Ideal)) W (Proc.devRef .tc main_v11) = RefTerm.chanI 1 (W (Proc.devRef .tc main_arg0))
    ∧ after (opsBase (F := Ideal)) W (Proc.devRef .tc main_v13) = RefTerm.chanI 2 (W (Proc.devRef .tc main_arg0))
    ∧ after (opsBase (F := Ideal)) W (Proc.devRef .tc main_v15) = RefTerm.chanF 0 (W (Proc.devRef .tc main_arg0))
    ∧ after (opsBase (F := Ideal)) W (Proc.devRef .tc main_v17) = RefTerm.chanF 1 (W (Proc.devRef .tc main_arg0))
    ∧ after (opsBase (F := Ideal)) W (Proc.devRef .tc main_v19) = RefTerm.chanF 2 (W (Proc.devRef .tc main_arg0))
    ∧ after (opsBase (F := Ideal)) W (Proc.devRef .tc main_v20) = RefTerm.zeroV
    ∧ after (opsBase (F := Ideal)) W (Proc.devRef .tc main_arg0) = W (Proc.devRef .tc main_arg0)
    ∧ after (opsBase (F := Ideal)) W (Proc.devRef .tc main_arg1) = W (Proc.devRef .tc main_arg1) := by
  unfold opsBase
  refine ⟨?_, ?_, ?_, ?_, ?_, ?_, ?_, ?_, ?_⟩ <;> (after_results_simp3 <;> rfl)

end Cert.Lut3.RefOps

end
-- ==== Proof.RefC1.lean ====
/-
  Corner (dr, dg, db) = (0, 0, 0) of the eight-corner program: its operations in order, and what they compute from any
  contents W of the buffers.  The running total's buffer ends at `cornerStep 0 0 0` of the six per-channel arrays, the
  table and the previous total as W holds them; the per-channel arrays, the image and the table are not written.
-/
import proofs.«140490_j86122684220303_2_alg».proof.Proof.RefTerm
import proofs.«140490_j86122684220303_2_alg».proof.Proof.LibNary3

noncomputable section

namespace Cert.Lut3.RefOps

open Cert.ReferenceIdeal Idealize.ShloMosaic Idealize.ShloMosaic.TcCoe Idealize.SL.Sem Idealize.ShloMosaic.StableHlo
open Cert.ReferenceIdeal.Facts₀

variable {F : FTy → Type} [FloatOps F] [Cert.ReferenceIdeal.Facts]

/-- The corner's operations, in order. -/
def opsC1 : List (HloOp τ sig (Elt F)) :=
  [ nullary main_cst_4 (constant S_ .f32 0x3F800000#32),
    unary main_cst_4 main_v21 (broadcastInDim S4x1080x1920 ![] bcast_S_S4x1080x1920 : (⟨S_, .f32⟩ : BufTy).Contents (Elt F) → (⟨S4x1080x1920, .f32⟩ : BufTy).Contents (Elt F)),
    binary main_v21 main_v15 main_v22 (subf : (⟨S4x1080x1920, .f32⟩ : BufTy).Contents (Elt F) → (⟨S4x1080x1920, .f32⟩ : BufTy).Contents (Elt F) → (⟨S4x1080x1920, .f32⟩ : BufTy).Contents (Elt F)),
    nullary main_c_5 (constantI S_ 32 0#32),
    TRef.nullary (TRef.of (T := ⟨S_, .i32⟩) main_call2_c) (constantI S_ 32 0#32),
    TRef.binary (TRef.of (T := ⟨S_, .i32⟩) main_c_5) (TRef.of (T := ⟨S_, .i32⟩) main_call2_c) (TRef.of (T := ⟨S_, .i1⟩) main_call2_v0) (cmpi .ne),
    TRef.ternary (TRef.of (T := ⟨S_, .i1⟩) main_call2_v0) (TRef.of (T := ⟨S4x1080x1920, .f32⟩) main_v15) (TRef.of (T := ⟨S4x1080x1920, .f32⟩) main_v22) (TRef.of (T := ⟨S4x1080x1920, .f32⟩) main_v23) (fun p a b => select (broadcastInDim S4x1080x1920 ![] bcast_S_S4x1080x1920 p) a b),
    nullary main_cst_6 (constant S_ .f32 0x3F800000#32),
    unary main_cst_6 main_v24 (broadcastInDim S4x1080x1920 ![] bcast_S_S4x1080x1920 : (⟨S_, .f32⟩ : BufTy).Contents (Elt F) → (⟨S4x1080x1920, .f32⟩ : BufTy).Contents (Elt F)),
    binary main_v24 main_v17 main_v25 (subf : (⟨S4x1080x1920, .f32⟩ : BufTy).Contents (Elt F) → (⟨S4x1080x1920, .f32⟩ : BufTy).Contents (Elt F) → (⟨S4x1080x1920, .f32⟩ : BufTy).Contents (Elt F)),
    nullary main_c_7 (constantI S_ 32 0#32),
    TRef.nullary (TRef.of (T := ⟨S_, .i32⟩) main_call3_c) (constantI S_ 32 0#32),
    TRef.binary (TRef.of (T := ⟨S_, .i32⟩) main_c_7) (TRef.of (T := ⟨S_, .i32⟩) main_call3_c) (TRef.of (T := ⟨S_, .i1⟩) main_call3_v0) (cmpi .ne),
    TRef.ternary (TRef.of (T := ⟨S_, .i1⟩) main_call3_v0) (TRef.of (T := ⟨S4x1080x1920, .f32⟩) main_v17) (TRef.of (T := ⟨S4x1080x1920, .f32⟩) main_v25) (TRef.of (T := ⟨S4x1080x1920, .f32⟩) main_v26) (fun p a b => select (broadcastInDim S4x1080x1920 ![] bcast_S_S4x1080x1920 p) a b),
    binary main_v23 main_v26 main_v27 (mulf : (⟨S4x1080x1920, .f32⟩ : BufTy).Contents (Elt F) → (⟨S4x1080x1920, .f32⟩ : BufTy).Contents (Elt F) → (⟨S4x1080x1920, .f32⟩ : BufTy).Contents (Elt F)),
    nullary main_cst_8 (constant S_ .f32 0x3F800000#32),
    unary main_cst_8 main_v28 (broadcastInDim S4x1080x1920 ![] bcast_S_S4x1080x1920 : (⟨S_, .f32⟩ : BufTy).Contents (Elt F) → (⟨S4x1080x1920, .f32⟩ : BufTy).Contents (Elt F)),
    binary main_v28 main_v19 main_v29 (subf : (⟨S4x1080x1920, .f32⟩ : BufTy).Contents (Elt F) → (⟨S4x1080x1920, .f32⟩ : BufTy).Contents (Elt F) → (⟨S4x1080x1920, .f32⟩ : BufTy).Contents (Elt F)),
    nullary main_c_9 (constantI S_ 32 0#32),
    TRef.nullary (TRef.of (T := ⟨S_, .i32⟩) main_call4_c) (constantI S_ 32 0#32),
    TRef.binary (TRef.of (T := ⟨S_, .i32⟩) main_c_9) (TRef.of (T := ⟨S_, .i32⟩) main_call4_c) (TRef.of (T := ⟨S_, .i1⟩) main_call4_v0) (cmpi .ne),
    TRef.ternary (TRef.of (T := ⟨S_, .i1⟩) main_call4_v0) (TRef.of (T := ⟨S4x1080x1920, .f32⟩) main_v19) (TRef.of (T := ⟨S4x1080x1920, .f32⟩) main_v29) (TRef.of (T := ⟨S4x1080x1920, .f32⟩) main_v30) (fun p a b => select (broadcastInDim S4x1080x1920 ![] bcast_S_S4x1080x1920 p) a b),
    binary main_v27 main_v30 main_v31 (mulf : (⟨S4x1080x1920, .f32⟩ : BufTy).Contents (Elt F) → (⟨S4x1080x1920, .f32⟩ : BufTy).Contents (Elt F) → (⟨S4x1080x1920, .f32⟩ : BufTy).Contents (Elt F)),
    nullary main_c_10 (constantI S_ 32 0#32),
    unary main_c_10 main_v32 (broadcastInDim S4x1080x1920 ![] bcast_S_S4x1080x1920 : (⟨S_, .i32⟩ : BufTy).Contents (Elt F) → (⟨S4x1080x1920, .i32⟩ : BufTy).Contents (Elt F)),
    binary main_v13 main_v32 main_v33 (addi : (⟨S4x1080x1920, .i32⟩ : BufTy).Contents (Elt F) → (⟨S4x1080x1920, .i32⟩ : BufTy).Contents (Elt F) → (⟨S4x1080x1920, .i32⟩ : BufTy).Contents (Elt F)),
    nullary main_c_11 (constantI S_ 32 0#32),
    unary main_c_11 main_v34 (broadcastInDim S4x1080x1920 ![] bcast_S_S4x1080x1920 : (⟨S_, .i32⟩ : BufTy).Contents (Elt F) → (⟨S4x1080x1920, .i32⟩ : BufTy).Contents (Elt F)),
    binary main_v11 main_v34 main_v35 (addi : (⟨S4x1080x1920, .i32⟩ : BufTy).Contents (Elt F) → (⟨S4x1080x1920, .i32⟩ : BufTy).Contents (Elt F) → (⟨S4x1080x1920, .i32⟩ : BufTy).Contents (Elt F)),
    nullary main_c_12 (constantI S_ 32 0#32),
    unary main_c_12 main_v36 (broadcastInDim S4x1080x1920 ![] bcast_S_S4x1080x1920 : (⟨S_, .i32⟩ : BufTy).Contents (Elt F) → (⟨S4x1080x1920, .i32⟩ : BufTy).Contents (Elt F)),
    binary main_v9 main_v36 main_v37 (addi : (⟨S4x1080x1920, .i32⟩ : BufTy).Contents (Elt F) → (⟨S4x1080x1920, .i32⟩ : BufTy).Contents (Elt F) → (⟨S4x1080x1920, .i32⟩ : BufTy).Contents (Elt F)),
    nullary main_c_13 (constantI S_ 32 0#32),
    unary main_c_13 main_v38 (broadcastInDim S4x1080x1920 ![] bcast_S_S4x1080x1920 : (⟨S_, .i32⟩ : BufTy).Contents (Elt F) → (⟨S4x1080x1920, .i32⟩ : BufTy).Contents (Elt F)),
    binary main_v33 main_v38 main_v39 (cmpi .slt : (⟨S4x1080x1920, .i32⟩ : BufTy).Contents (Elt F) → (⟨S4x1080x1920, .i32⟩ : BufTy).Contents (Elt F) → (⟨S4x1080x1920, .i1⟩ : BufTy).Contents (Elt F)),
    nullary main_c_14 (constantI S_ 32 33#32),
    unary main_c_14 main_v40 (broadcastInDim S4x1080x1920 ![] bcast_S_S4x1080x1920 : (⟨S_, .i32⟩ : BufTy).Contents (Elt F) → (⟨S4x1080x1920, .i32⟩ : BufTy).Contents (Elt F)),
    binary main_v33 main_v40 main_v41 (addi : (⟨S4x1080x1920, .i32⟩ : BufTy).Contents (Elt F) → (⟨S4x1080x1920, .i32⟩ : BufTy).Contents (Elt F) → (⟨S4x1080x1920, .i32⟩ : BufTy).Contents (Elt F)),
    ternary main_v39 main_v41 main_v33 main_v42 (select : (⟨S4x1080x1920, .i1⟩ : BufTy).Contents (Elt F) → (⟨S4x1080x1920, .i32⟩ : BufTy).Contents (Elt F) → (⟨S4x1080x1920, .i32⟩ : BufTy).Contents (Elt F) → (⟨S4x1080x1920, .i32⟩ : BufTy).Contents (Elt F)),
    nullary main_c_15 (constantI S_ 32 0#32),
    unary main_c_15 main_v43 (broadcastInDim S4x1080x1920 ![] bcast_S_S4x1080x1920 : (⟨S_, .i32⟩ : BufTy).Contents (Elt F) → (⟨S4x1080x1920, .i32⟩ : BufTy).Contents (Elt F)),
    binary main_v35 main_v43 main_v44 (cmpi .slt : (⟨S4x1080x1920, .i32⟩ : BufTy).Contents (Elt F) → (⟨S4x1080x1920, .i32⟩ : BufTy).Contents (Elt F) → (⟨S4x1080x1920, .i1⟩ : BufTy).Contents (Elt F)),
    nullary main_c_16 (constantI S_ 32 33#32),
    unary main_c_16 main_v45 (broadcastInDim S4x1080x1920 ![] bcast_S_S4x1080x1920 : (⟨S_, .i32⟩ : BufTy).Contents (Elt F) → (⟨S4x1080x1920, .i32⟩ : BufTy).Contents (Elt F)),
    binary main_v35 main_v45 main_v46 (addi : (⟨S4x1080x1920, .i32⟩ : BufTy).Contents (Elt F) → (⟨S4x1080x1920, .i32⟩ : BufTy).Contents (Elt F) → (⟨S4x1080x1920, .i32⟩ : BufTy).Contents (Elt F)),
    ternary main_v44 main_v46 main_v35 main_v47 (select : (⟨S4x1080x1920, .i1⟩ : BufTy).Contents (Elt F) → (⟨S4x1080x1920, .i32⟩ : BufTy).Contents (Elt F) → (⟨S4x1080x1920, .i32⟩ : BufTy).Contents (Elt F) → (⟨S4x1080x1920, .i32⟩ : BufTy).Contents (Elt F)),
    nullary main_c_17 (constantI S_ 32 0#32),
    unary main_c_17 main_v48 (broadcastInDim S4x1080x1920 ![] bcast_S_S4x1080x1920 : (⟨S_, .i32⟩ : BufTy).Contents (Elt F) → (⟨S4x1080x1920, .i32⟩ : BufTy).Contents (Elt F)),
    binary main_v37 main_v48 main_v49 (cmpi .slt : (⟨S4x1080x1920, .i32⟩ : BufTy).Contents (Elt F) → (⟨S4x1080x1920, .i32⟩ : BufTy).Contents (Elt F) → (⟨S4x1080x1920, .i1⟩ : BufTy).Contents (Elt F)),
    nullary main_c_18 (constantI S_ 32 33#32),
    unary main_c_18 main_v50 (broadcastInDim S4x1080x1920 ![] bcast_S_S4x1080x1920 : (⟨S_, .i32⟩ : BufTy).Contents (Elt F) → (⟨S4x1080x1920, .i32⟩ : BufTy).Contents (Elt F)),
    binary main_v37 main_v50 main_v51 (addi : (⟨S4x1080x1920, .i32⟩ : BufTy).Contents (Elt F) → (⟨S4x1080x1920, .i32⟩ : BufTy).Contents (Elt F) → (⟨S4x1080x1920, .i32⟩ : BufTy).Contents (Elt F)),
    ternary main_v49 main_v51 main_v37 main_v52 (select : (⟨S4x1080x1920, .i1⟩ : BufTy).Contents (Elt F) → (⟨S4x1080x1920, .i32⟩ : BufTy).Contents (Elt F) → (⟨S4x1080x1920, .i32⟩ : BufTy).Contents (Elt F) → (⟨S4x1080x1920, .i32⟩ : BufTy).Contents (Elt F)),
    unary main_v42 main_v53 (broadcastInDim S4x1080x1920x1 ![0, 1, 2] bcast_S4x1080x1920_S4x1080x1920x1_0_1_2 : (⟨S4x1080x1920, .i32⟩ : BufTy).Contents (Elt F) → (⟨S4x1080x1920x1, .i32⟩ : BufTy).Contents (Elt F)),
    unary main_v47 main_v54 (broadcastInDim S4x1080x1920x1 ![0, 1, 2] bcast_S4x1080x1920_S4x1080x1920x1_0_1_2 : (⟨S4x1080x1920, .i32⟩ : BufTy).Contents (Elt F) → (⟨S4x1080x1920x1, .i32⟩ : BufTy).Contents (Elt F)),
    unary main_v52 main_v55 (broadcastInDim S4x1080x1920x1 ![0, 1, 2] bcast_S4x1080x1920_S4x1080x1920x1_0_1_2 : (⟨S4x1080x1920, .i32⟩ : BufTy).Contents (Elt F) → (⟨S4x1080x1920x1, .i32⟩ : BufTy).Contents (Elt F)),
    nary ![main_v53, main_v54, main_v55] main_v56 (fun u => concatenate S4x1080x1920x3 3 [⟨S4x1080x1920x1, u 0⟩, ⟨S4x1080x1920x1, u 1⟩, ⟨S4x1080x1920x1, u 2⟩] concatenates_S4x1080x1920x1_S4x1080x1920x1_S4x1080x1920x1_S4x1080x1920x3_d3),
    binary main_arg1 main_v56 main_v57 ((fun x i => Host.gather gather_S3x33x33x33_S4x1080x1920x3_S3x4x1080x1920_0_123_n_n_123_3_3111 x i) : (⟨S3x33x33x33, .f32⟩ : BufTy).Contents (Elt F) → (⟨S4x1080x1920x3, .i32⟩ : BufTy).Contents (Elt F) → (⟨S3x4x1080x1920, .f32⟩ : BufTy).Contents (Elt F)),
    unary main_v31 main_v58 (broadcastInDim S4x1x1080x1920 ![0, 2, 3] bcast_S4x1080x1920_S4x1x1080x1920_0_2_3 : (⟨S4x1080x1920, .f32⟩ : BufTy).Contents (Elt F) → (⟨S4x1x1080x1920, .f32⟩ : BufTy).Contents (Elt F)),
    unary main_v57 main_v59 ((transpose S4x3x1080x1920 [1, 0, 2, 3] · transposes_S3x4x1080x1920_S4x3x1080x1920_1_0_2_3) : (⟨S3x4x1080x1920, .f32⟩ : BufTy).Contents (Elt F) → (⟨S4x3x1080x1920, .f32⟩ : BufTy).Contents (Elt F)),
    unary main_v58 main_v60 (broadcastInDim S4x3x1080x1920 ![0, 1, 2, 3] bcast_S4x1x1080x1920_S4x3x1080x1920_0_1_2_3 : (⟨S4x1x1080x1920, .f32⟩ : BufTy).Contents (Elt F) → (⟨S4x3x1080x1920, .f32⟩ : BufTy).Contents (Elt F)),
    binary main_v60 main_v59 main_v61 (mulf : (⟨S4x3x1080x1920, .f32⟩ : BufTy).Contents (Elt F) → (⟨S4x3x1080x1920, .f32⟩ : BufTy).Contents (Elt F) → (⟨S4x3x1080x1920, .f32⟩ : BufTy).Contents (Elt F)),
    binary main_v20 main_v61 main_v62 (addf : (⟨S4x3x1080x1920, .f32⟩ : BufTy).Contents (Elt F) → (⟨S4x3x1080x1920, .f32⟩ : BufTy).Contents (Elt F) → (⟨S4x3x1080x1920, .f32⟩ : BufTy).Contents (Elt F)) ]

set_option maxHeartbeats 4000000 in
/-- The running total after the corner. -/
theorem c1_out (W : Valuation τ sig (Elt Ideal)) :
    after (opsC1 (F := Ideal)) W (Proc.devRef .tc main_v62)
      = RefTerm.cornerStep 0#32 0#32 0#32 (W (Proc.devRef .tc main_v9)) (W (Proc.devRef .tc main_v11)) (W (Proc.devRef .tc main_v13))
          (W (Proc.devRef .tc main_v15)) (W (Proc.devRef .tc main_v17)) (W (Proc.devRef .tc main_v19)) (W (Proc.devRef .tc main_arg1)) (W (Proc.devRef .tc main_v20)) := by
  unfold opsC1
  after_results_simp3
  rfl

set_option maxHeartbeats 4000000 in
/-- The arrays the later corners and the result's frame read are not written. -/
theorem c1_keep (W : Valuation τ sig (Elt Ideal)) :
    after (opsC1 (F := Ideal)) W (Proc.devRef .tc main_v9) = W (Proc.devRef .tc main_v9)
    ∧ after (opsC1 (F := Ideal)) W (Proc.devRef .tc main_v11) = W (Proc.devRef .tc main_v11)
    ∧ after (opsC1 (F := Ideal)) W (Proc.devRef .tc main_v13) = W (Proc.devRef .tc main_v13)
    ∧ after (opsC1 (F := Ideal)) W (Proc.devRef .tc main_v15) = W (Proc.devRef .tc main_v15)
    ∧ after (opsC1 (F := Ideal)) W (Proc.devRef .tc main_v17) = W (Proc.devRef .tc main_v17)
    ∧ after (opsC1 (F := Ideal)) W (Proc.devRef .tc main_v19) = W (Proc.devRef .tc main_v19)
    ∧ after (opsC1 (F := Ideal)) W (Proc.devRef .tc main_arg0) = W (Proc.devRef .tc main_arg0)
    ∧ after (opsC1 (F := Ideal)) W (Proc.devRef .tc main_arg1) = W (Proc.devRef .tc main_arg1) := by
  unfold opsC1
  refine ⟨?_, ?_, ?_, ?_, ?_, ?_, ?_, ?_⟩ <;> after_results_simp3

end Cert.Lut3.RefOps

end
-- ==== Proof.RefC2.lean ====
/-
  Corner (dr, dg, db) = (0, 0, 1) of the eight-corner program: its operations in order, and what they compute from any
  contents W of the buffers.  The running total's buffer ends at `cornerStep 0 0 1` of the six per-channel arrays, the
  table and the previous total as W holds them; the per-channel arrays, the image and the table are not written.
-/
import proofs.«140490_j86122684220303_2_alg».proof.Proof.RefTerm
import proofs.«140490_j86122684220303_2_alg».proof.Proof.LibNary3

noncomputable section

namespace Cert.Lut3.RefOps

open Cert.ReferenceIdeal Idealize.ShloMosaic Idealize.ShloMosaic.TcCoe Idealize.SL.Sem Idealize.ShloMosaic.StableHlo
open Cert.ReferenceIdeal.Facts₀

variable {F : FTy → Type} [FloatOps F] [Cert.ReferenceIdeal.Facts]

/-- The corner's operations, in order. -/
def opsC2 : List (HloOp τ sig (Elt F)) :=
  [ nullary main_cst_19 (constant S_ .f32 0x3F800000#32),
    unary main_cst_19 main_v63 (broadcastInDim S4x1080x1920 ![] bcast_S_S4x1080x1920 : (⟨S_, .f32⟩ : BufTy).Contents (Elt F) → (⟨S4x1080x1920, .f32⟩ : BufTy).Contents (Elt F)),
    binary main_v63 main_v15 main_v64 (subf : (⟨S4x1080x1920, .f32⟩ : BufTy).Contents (Elt F) → (⟨S4x1080x1920, .f32⟩ : BufTy).Contents (Elt F) → (⟨S4x1080x1920, .f32⟩ : BufTy).Contents (Elt F)),
    nullary main_c_20 (constantI S_ 32 0#32),
    TRef.nullary (TRef.of (T := ⟨S_, .i32⟩) main_call5_c) (constantI S_ 32 0#32),
    TRef.binary (TRef.of (T := ⟨S_, .i32⟩) main_c_20) (TRef.of (T := ⟨S_, .i32⟩) main_call5_c) (TRef.of (T := ⟨S_, .i1⟩) main_call5_v0) (cmpi .ne),
    TRef.ternary (TRef.of (T := ⟨S_, .i1⟩) main_call5_v0) (TRef.of (T := ⟨S4x1080x1920, .f32⟩) main_v15) (TRef.of (T := ⟨S4x1080x1920, .f32⟩) main_v64) (TRef.of (T := ⟨S4x1080x1920, .f32⟩) main_v65) (fun p a b => select (broadcastInDim S4x1080x1920 ![] bcast_S_S4x1080x1920 p) a b),
    nullary main_cst_21 (constant S_ .f32 0x3F800000#32),
    unary main_cst_21 main_v66 (broadcastInDim S4x1080x1920 ![] bcast_S_S4x1080x1920 : (⟨S_, .f32⟩ : BufTy).Contents (Elt F) → (⟨S4x1080x1920, .f32⟩ : BufTy).Contents (Elt F)),
    binary main_v66 main_v17 main_v67 (subf : (⟨S4x1080x1920, .f32⟩ : BufTy).Contents (Elt F) → (⟨S4x1080x1920, .f32⟩ : BufTy).Contents (Elt F) → (⟨S4x1080x1920, .f32⟩ : BufTy).Contents (Elt F)),
    nullary main_c_22 (constantI S_ 32 0#32),
    TRef.nullary (TRef.of (T := ⟨S_, .i32⟩) main_call6_c) (constantI S_ 32 0#32),
    TRef.binary (TRef.of (T := ⟨S_, .i32⟩) main_c_22) (TRef.of (T := ⟨S_, .i32⟩) main_call6_c) (TRef.of (T := ⟨S_, .i1⟩) main_call6_v0) (cmpi .ne),
    TRef.ternary (TRef.of (T := ⟨S_, .i1⟩) main_call6_v0) (TRef.of (T := ⟨S4x1080x1920, .f32⟩) main_v17) (TRef.of (T := ⟨S4x1080x1920, .f32⟩) main_v67) (TRef.of (T := ⟨S4x1080x1920, .f32⟩) main_v68) (fun p a b => select (broadcastInDim S4x1080x1920 ![] bcast_S_S4x1080x1920 p) a b),
    binary main_v65 main_v68 main_v69 (mulf : (⟨S4x1080x1920, .f32⟩ : BufTy).Contents (Elt F) → (⟨S4x1080x1920, .f32⟩ : BufTy).Contents (Elt F) → (⟨S4x1080x1920, .f32⟩ : BufTy).Contents (Elt F)),
    nullary main_cst_23 (constant S_ .f32 0x3F800000#32),
    unary main_cst_23 main_v70 (broadcastInDim S4x1080x1920 ![] bcast_S_S4x1080x1920 : (⟨S_, .f32⟩ : BufTy).Contents (Elt F) → (⟨S4x1080x1920, .f32⟩ : BufTy).Contents (Elt F)),
    binary main_v70 main_v19 main_v71 (subf : (⟨S4x1080x1920, .f32⟩ : BufTy).Contents (Elt F) → (⟨S4x1080x1920, .f32⟩ : BufTy).Contents (Elt F) → (⟨S4x1080x1920, .f32⟩ : BufTy).Contents (Elt F)),
    nullary main_c_24 (constantI S_ 32 1#32),
    TRef.nullary (TRef.of (T := ⟨S_, .i32⟩) main_call7_c) (constantI S_ 32 0#32),
    TRef.binary (TRef.of (T := ⟨S_, .i32⟩) main_c_24) (TRef.of (T := ⟨S_, .i32⟩) main_call7_c) (TRef.of (T := ⟨S_, .i1⟩) main_call7_v0) (cmpi .ne),
    TRef.ternary (TRef.of (T := ⟨S_, .i1⟩) main_call7_v0) (TRef.of (T := ⟨S4x1080x1920, .f32⟩) main_v19) (TRef.of (T := ⟨S4x1080x1920, .f32⟩) main_v71) (TRef.of (T := ⟨S4x1080x1920, .f32⟩) main_v72) (fun p a b => select (broadcastInDim S4x1080x1920 ![] bcast_S_S4x1080x1920 p) a b),
    binary main_v69 main_v72 main_v73 (mulf : (⟨S4x1080x1920, .f32⟩ : BufTy).Contents (Elt F) → (⟨S4x1080x1920, .f32⟩ : BufTy).Contents (Elt F) → (⟨S4x1080x1920, .f32⟩ : BufTy).Contents (Elt F)),
    nullary main_c_25 (constantI S_ 32 1#32),
    unary main_c_25 main_v74 (broadcastInDim S4x1080x1920 ![] bcast_S_S4x1080x1920 : (⟨S_, .i32⟩ : BufTy).Contents (Elt F) → (⟨S4x1080x1920, .i32⟩ : BufTy).Contents (Elt F)),
    binary main_v13 main_v74 main_v75 (addi : (⟨S4x1080x1920, .i32⟩ : BufTy).Contents (Elt F) → (⟨S4x1080x1920, .i32⟩ : BufTy).Contents (Elt F) → (⟨S4x1080x1920, .i32⟩ : BufTy).Contents (Elt F)),
    nullary main_c_26 (constantI S_ 32 0#32),
    unary main_c_26 main_v76 (broadcastInDim S4x1080x1920 ![] bcast_S_S4x1080x1920 : (⟨S_, .i32⟩ : BufTy).Contents (Elt F) → (⟨S4x1080x1920, .i32⟩ : BufTy).Contents (Elt F)),
    binary main_v11 main_v76 main_v77 (addi : (⟨S4x1080x1920, .i32⟩ : BufTy).Contents (Elt F) → (⟨S4x1080x1920, .i32⟩ : BufTy).Contents (Elt F) → (⟨S4x1080x1920, .i32⟩ : BufTy).Contents (Elt F)),
    nullary main_c_27 (constantI S_ 32 0#32),
    unary main_c_27 main_v78 (broadcastInDim S4x1080x1920 ![] bcast_S_S4x1080x1920 : (⟨S_, .i32⟩ : BufTy).Contents (Elt F) → (⟨S4x1080x1920, .i32⟩ : BufTy).Contents (Elt F)),
    binary main_v9 main_v78 main_v79 (addi : (⟨S4x1080x1920, .i32⟩ : BufTy).Contents (Elt F) → (⟨S4x1080x1920, .i32⟩ : BufTy).Contents (Elt F) → (⟨S4x1080x1920, .i32⟩ : BufTy).Contents (Elt F)),
    nullary main_c_28 (constantI S_ 32 0#32),
    unary main_c_28 main_v80 (broadcastInDim S4x1080x1920 ![] bcast_S_S4x1080x1920 : (⟨S_, .i32⟩ : BufTy).Contents (Elt F) → (⟨S4x1080x1920, .i32⟩ : BufTy).Contents (Elt F)),
    binary main_v75 main_v80 main_v81 (cmpi .slt : (⟨S4x1080x1920, .i32⟩ : BufTy).Contents (Elt F) → (⟨S4x1080x1920, .i32⟩ : BufTy).Contents (Elt F) → (⟨S4x1080x1920, .i1⟩ : BufTy).Contents (Elt F)),
    nullary main_c_29 (constantI S_ 32 33#32),
    unary main_c_29 main_v82 (broadcastInDim S4x1080x1920 ![] bcast_S_S4x1080x1920 : (⟨S_, .i32⟩ : BufTy).Contents (Elt F) → (⟨S4x1080x1920, .i32⟩ : BufTy).Contents (Elt F)),
    binary main_v75 main_v82 main_v83 (addi : (⟨S4x1080x1920, .i32⟩ : BufTy).Contents (Elt F) → (⟨S4x1080x1920, .i32⟩ : BufTy).Contents (Elt F) → (⟨S4x1080x1920, .i32⟩ : BufTy).Contents (Elt F)),
    ternary main_v81 main_v83 main_v75 main_v84 (select : (⟨S4x1080x1920, .i1⟩ : BufTy).Contents (Elt F) → (⟨S4x1080x1920, .i32⟩ : BufTy).Contents (Elt F) → (⟨S4x1080x1920, .i32⟩ : BufTy).Contents (Elt F) → (⟨S4x1080x1920, .i32⟩ : BufTy).Contents (Elt F)),
    nullary main_c_30 (constantI S_ 32 0#32),
    unary main_c_30 main_v85 (broadcastInDim S4x1080x1920 ![] bcast_S_S4x1080x1920 : (⟨S_, .i32⟩ : BufTy).Contents (Elt F) → (⟨S4x1080x1920, .i32⟩ : BufTy).Contents (Elt F)),
    binary main_v77 main_v85 main_v86 (cmpi .slt : (⟨S4x1080x1920, .i32⟩ : BufTy).Contents (Elt F) → (⟨S4x1080x1920, .i32⟩ : BufTy).Contents (Elt F) → (⟨S4x1080x1920, .i1⟩ : BufTy).Contents (Elt F)),
    nullary main_c_31 (constantI S_ 32 33#32),
    unary main_c_31 main_v87 (broadcastInDim S4x1080x1920 ![] bcast_S_S4x1080x1920 : (⟨S_, .i32⟩ : BufTy).Contents (Elt F) → (⟨S4x1080x1920, .i32⟩ : BufTy).Contents (Elt F)),
    binary main_v77 main_v87 main_v88 (addi : (⟨S4x1080x1920, .i32⟩ : BufTy).Contents (Elt F) → (⟨S4x1080x1920, .i32⟩ : BufTy).Contents (Elt F) → (⟨S4x1080x1920, .i32⟩ : BufTy).Contents (Elt F)),
    ternary main_v86 main_v88 main_v77 main_v89 (select : (⟨S4x1080x1920, .i1⟩ : BufTy).Contents (Elt F) → (⟨S4x1080x1920, .i32⟩ : BufTy).Contents (Elt F) → (⟨S4x1080x1920, .i32⟩ : BufTy).Contents (Elt F) → (⟨S4x1080x1920, .i32⟩ : BufTy).Contents (Elt F)),
    nullary main_c_32 (constantI S_ 32 0#32),
    unary main_c_32 main_v90 (broadcastInDim S4x1080x1920 ![] bcast_S_S4x1080x1920 : (⟨S_, .i32⟩ : BufTy).Contents (Elt F) → (⟨S4x1080x1920, .i32⟩ : BufTy).Contents (Elt F)),
    binary main_v79 main_v90 main_v91 (cmpi .slt : (⟨S4x1080x1920, .i32⟩ : BufTy).Contents (Elt F) → (⟨S4x1080x1920, .i32⟩ : BufTy).Contents (Elt F) → (⟨S4x1080x1920, .i1⟩ : BufTy).Contents (Elt F)),
    nullary main_c_33 (constantI S_ 32 33#32),
    unary main_c_33 main_v92 (broadcastInDim S4x1080x1920 ![] bcast_S_S4x1080x1920 : (⟨S_, .i32⟩ : BufTy).Contents (Elt F) → (⟨S4x1080x1920, .i32⟩ : BufTy).Contents (Elt F)),
    binary main_v79 main_v92 main_v93 (addi : (⟨S4x1080x1920, .i32⟩ : BufTy).Contents (Elt F) → (⟨S4x1080x1920, .i32⟩ : BufTy).Contents (Elt F) → (⟨S4x1080x1920, .i32⟩ : BufTy).Contents (Elt F)),
    ternary main_v91 main_v93 main_v79 main_v94 (select : (⟨S4x1080x1920, .i1⟩ : BufTy).Contents (Elt F) → (⟨S4x1080x1920, .i32⟩ : BufTy).Contents (Elt F) → (⟨S4x1080x1920, .i32⟩ : BufTy).Contents (Elt F) → (⟨S4x1080x1920, .i32⟩ : BufTy).Contents (Elt F)),
    unary main_v84 main_v95 (broadcastInDim S4x1080x1920x1 ![0, 1, 2] bcast_S4x1080x1920_S4x1080x1920x1_0_1_2 : (⟨S4x1080x1920, .i32⟩ : BufTy).Contents (Elt F) → (⟨S4x1080x1920x1, .i32⟩ : BufTy).Contents (Elt F)),
    unary main_v89 main_v96 (broadcastInDim S4x1080x1920x1 ![0, 1, 2] bcast_S4x1080x1920_S4x1080x1920x1_0_1_2 : (⟨S4x1080x1920, .i32⟩ : BufTy).Contents (Elt F) → (⟨S4x1080x1920x1, .i32⟩ : BufTy).Contents (Elt F)),
    unary main_v94 main_v97 (broadcastInDim S4x1080x1920x1 ![0, 1, 2] bcast_S4x1080x1920_S4x1080x1920x1_0_1_2 : (⟨S4x1080x1920, .i32⟩ : BufTy).Contents (Elt F) → (⟨S4x1080x1920x1, .i32⟩ : BufTy).Contents (Elt F)),
    nary ![main_v95, main_v96, main_v97] main_v98 (fun u => concatenate S4x1080x1920x3 3 [⟨S4x1080x1920x1, u 0⟩, ⟨S4x1080x1920x1, u 1⟩, ⟨S4x1080x1920x1, u 2⟩] concatenates_S4x1080x1920x1_S4x1080x1920x1_S4x1080x1920x1_S4x1080x1920x3_d3),
    binary main_arg1 main_v98 main_v99 ((fun x i => Host.gather gather_S3x33x33x33_S4x1080x1920x3_S3x4x1080x1920_0_123_n_n_123_3_3111 x i) : (⟨S3x33x33x33, .f32⟩ : BufTy).Contents (Elt F) → (⟨S4x1080x1920x3, .i32⟩ : BufTy).Contents (Elt F) → (⟨S3x4x1080x1920, .f32⟩ : BufTy).Contents (Elt F)),
    unary main_v73 main_v100 (broadcastInDim S4x1x1080x1920 ![0, 2, 3] bcast_S4x1080x1920_S4x1x1080x1920_0_2_3 : (⟨S4x1080x1920, .f32⟩ : BufTy).Contents (Elt F) → (⟨S4x1x1080x1920, .f32⟩ : BufTy).Contents (Elt F)),
    unary main_v99 main_v101 ((transpose S4x3x1080x1920 [1, 0, 2, 3] · transposes_S3x4x1080x1920_S4x3x1080x1920_1_0_2_3) : (⟨S3x4x1080x1920, .f32⟩ : BufTy).Contents (Elt F) → (⟨S4x3x1080x1920, .f32⟩ : BufTy).Contents (Elt F)),
    unary main_v100 main_v102 (broadcastInDim S4x3x1080x1920 ![0, 1, 2, 3] bcast_S4x1x1080x1920_S4x3x1080x1920_0_1_2_3 : (⟨S4x1x1080x1920, .f32⟩ : BufTy).Contents (Elt F) → (⟨S4x3x1080x1920, .f32⟩ : BufTy).Contents (Elt F)),
    binary main_v102 main_v101 main_v103 (mulf : (⟨S4x3x1080x1920, .f32⟩ : BufTy).Contents (Elt F) → (⟨S4x3x1080x1920, .f32⟩ : BufTy).Contents (Elt F) → (⟨S4x3x1080x1920, .f32⟩ : BufTy).Contents (Elt F)),
    binary main_v62 main_v103 main_v104 (addf : (⟨S4x3x1080x1920, .f32⟩ : BufTy).Contents (Elt F) → (⟨S4x3x1080x1920, .f32⟩ : BufTy).Contents (Elt F) → (⟨S4x3x1080x1920, .f32⟩ : BufTy).Contents (Elt F)) ]

set_option maxHeartbeats 4000000 in
/-- The running total after the corner. -/
theorem c2_out (W : Valuation τ sig (Elt Ideal)) :
    after (opsC2 (F := Ideal)) W (Proc.devRef .tc main_v104)
      = RefTerm.cornerStep 0#32 0#32 1#32 (W (Proc.devRef .tc main_v9)) (W (Proc.devRef .tc main_v11)) (W (Proc.devRef .tc main_v13))
          (W (Proc.devRef .tc main_v15)) (W (Proc.devRef .tc main_v17)) (W (Proc.devRef .tc main_v19)) (W (Proc.devRef .tc main_arg1)) (W (Proc.devRef .tc main_v62)) := by
  unfold opsC2
  after_results_simp3
  rfl

set_option maxHeartbeats 4000000 in
/-- The arrays the later corners and the result's frame read are not written. -/
theorem c2_keep (W : Valuation τ sig (Elt Ideal)) :
    after (opsC2 (F := Ideal)) W (Proc.devRef .tc main_v9) = W (Proc.devRef .tc main_v9)
    ∧ after (opsC2 (F := Ideal)) W (Proc.devRef .tc main_v11) = W (Proc.devRef .tc main_v11)
    ∧ after (opsC2 (F := Ideal)) W (Proc.devRef .tc main_v13) = W (Proc.devRef .tc main_v13)
    ∧ after (opsC2 (F := Ideal)) W (Proc.devRef .tc main_v15) = W (Proc.devRef .tc main_v15)
    ∧ after (opsC2 (F := Ideal)) W (Proc.devRef .tc main_v17) = W (Proc.devRef .tc main_v17)
    ∧ after (opsC2 (F := Ideal)) W (Proc.devRef .tc main_v19) = W (Proc.devRef .tc main_v19)
    ∧ after (opsC2 (F := Ideal)) W (Proc.devRef .tc main_arg0) = W (Proc.devRef .tc main_arg0)
    ∧ after (opsC2 (F := Ideal)) W (Proc.devRef .tc main_arg1) = W (Proc.devRef .tc main_arg1) := by
  unfold opsC2
  refine ⟨?_, ?_, ?_, ?_, ?_, ?_, ?_, ?_⟩ <;> after_results_simp3

end Cert.Lut3.RefOps

end
-- ==== Proof.RefC3.lean ====
/-
  Corner (dr, dg, db) = (0, 1, 0) of the eight-corner program: its operations in order, and what they compute from any
  contents W of the buffers.  The running total's buffer ends at `cornerStep 0 1 0` of the six per-channel arrays, the
  table and the previous total as W holds them; the per-channel arrays, the image and the table are not written.
-/
import proofs.«140490_j86122684220303_2_alg».proof.Proof.RefTerm
import proofs.«140490_j86122684220303_2_alg».proof.Proof.LibNary3

noncomputable section

namespace Cert.Lut3.RefOps

open Cert.ReferenceIdeal Idealize.ShloMosaic Idealize.ShloMosaic.TcCoe Idealize.SL.Sem Idealize.ShloMosaic.StableHlo
open Cert.ReferenceIdeal.Facts₀

variable {F : FTy → Type} [FloatOps F] [Cert.ReferenceIdeal.Facts]

/-- The corner's operations, in order. -/
def opsC3 : List (HloOp τ sig (Elt F)) :=
  [ nullary main_cst_34 (constant S_ .f32 0x3F800000#32),
    unary main_cst_34 main_v105 (broadcastInDim S4x1080x1920 ![] bcast_S_S4x1080x1920 : (⟨S_, .f32⟩ : BufTy).Contents (Elt F) → (⟨S4x1080x1920, .f32⟩ : BufTy).Contents (Elt F)),
    binary main_v105 main_v15 main_v106 (subf : (⟨S4x1080x1920, .f32⟩ : BufTy).Contents (Elt F) → (⟨S4x1080x1920, .f32⟩ : BufTy).Contents (Elt F) → (⟨S4x1080x1920, .f32⟩ : BufTy).Contents (Elt F)),
    nullary main_c_35 (constantI S_ 32 0#32),
    TRef.nullary (TRef.of (T := ⟨S_, .i32⟩) main_call8_c) (constantI S_ 32 0#32),
    TRef.binary (TRef.of (T := ⟨S_, .i32⟩) main_c_35) (TRef.of (T := ⟨S_, .i32⟩) main_call8_c) (TRef.of (T := ⟨S_, .i1⟩) main_call8_v0) (cmpi .ne),
    TRef.ternary (TRef.of (T := ⟨S_, .i1⟩) main_call8_v0) (TRef.of (T := ⟨S4x1080x1920, .f32⟩) main_v15) (TRef.of (T := ⟨S4x1080x1920, .f32⟩) main_v106) (TRef.of (T := ⟨S4x1080x1920, .f32⟩) main_v107) (fun p a b => select (broadcastInDim S4x1080x1920 ![] bcast_S_S4x1080x1920 p) a b),
    nullary main_cst_36 (constant S_ .f32 0x3F800000#32),
    unary main_cst_36 main_v108 (broadcastInDim S4x1080x1920 ![] bcast_S_S4x1080x1920 : (⟨S_, .f32⟩ : BufTy).Contents (Elt F) → (⟨S4x1080x1920, .f32⟩ : BufTy).Contents (Elt F)),
    binary main_v108 main_v17 main_v109 (subf : (⟨S4x1080x1920, .f32⟩ : BufTy).Contents (Elt F) → (⟨S4x1080x1920, .f32⟩ : BufTy).Contents (Elt F) → (⟨S4x1080x1920, .f32⟩ : BufTy).Contents (Elt F)),
    nullary main_c_37 (constantI S_ 32 1#32),
    TRef.nullary (TRef.of (T := ⟨S_, .i32⟩) main_call9_c) (constantI S_ 32 0#32),
    TRef.binary (TRef.of (T := ⟨S_, .i32⟩) main_c_37) (TRef.of (T := ⟨S_, .i32⟩) main_call9_c) (TRef.of (T := ⟨S_, .i1⟩) main_call9_v0) (cmpi .ne),
    TRef.ternary (TRef.of (T := ⟨S_, .i1⟩) main_call9_v0) (TRef.of (T := ⟨S4x1080x1920, .f32⟩) main_v17) (TRef.of (T := ⟨S4x1080x1920, .f32⟩) main_v109) (TRef.of (T := ⟨S4x1080x1920, .f32⟩) main_v110) (fun p a b => select (broadcastInDim S4x1080x1920 ![] bcast_S_S4x1080x1920 p) a b),
    binary main_v107 main_v110 main_v111 (mulf : (⟨S4x1080x1920, .f32⟩ : BufTy).Contents (Elt F) → (⟨S4x1080x1920, .f32⟩ : BufTy).Contents (Elt F) → (⟨S4x1080x1920, .f32⟩ : BufTy).Contents (Elt F)),
    nullary main_cst_38 (constant S_ .f32 0x3F800000#32),
    unary main_cst_38 main_v112 (broadcastInDim S4x1080x1920 ![] bcast_S_S4x1080x1920 : (⟨S_, .f32⟩ : BufTy).Contents (Elt F) → (⟨S4x1080x1920, .f32⟩ : BufTy).Contents (Elt F)),
    binary main_v112 main_v19 main_v113 (subf : (⟨S4x1080x1920, .f32⟩ : BufTy).Contents (Elt F) → (⟨S4x1080x1920, .f32⟩ : BufTy).Contents (Elt F) → (⟨S4x1080x1920, .f32⟩ : BufTy).Contents (Elt F)),
    nullary main_c_39 (constantI S_ 32 0#32),
    TRef.nullary (TRef.of (T := ⟨S_, .i32⟩) main_call10_c) (constantI S_ 32 0#32),
    TRef.binary (TRef.of (T := ⟨S_, .i32⟩) main_c_39) (TRef.of (T := ⟨S_, .i32⟩) main_call10_c) (TRef.of (T := ⟨S_, .i1⟩) main_call10_v0) (cmpi .ne),
    TRef.ternary (TRef.of (T := ⟨S_, .i1⟩) main_call10_v0) (TRef.of (T := ⟨S4x1080x1920, .f32⟩) main_v19) (TRef.of (T := ⟨S4x1080x1920, .f32⟩) main_v113) (TRef.of (T := ⟨S4x1080x1920, .f32⟩) main_v114) (fun p a b => select (broadcastInDim S4x1080x1920 ![] bcast_S_S4x1080x1920 p) a b),
    binary main_v111 main_v114 main_v115 (mulf : (⟨S4x1080x1920, .f32⟩ : BufTy).Contents (Elt F) → (⟨S4x1080x1920, .f32⟩ : BufTy).Contents (Elt F) → (⟨S4x1080x1920, .f32⟩ : BufTy).Contents (Elt F)),
    nullary main_c_40 (constantI S_ 32 0#32),
    unary main_c_40 main_v116 (broadcastInDim S4x1080x1920 ![] bcast_S_S4x1080x1920 : (⟨S_, .i32⟩ : BufTy).Contents (Elt F) → (⟨S4x1080x1920, .i32⟩ : BufTy).Contents (Elt F)),
    binary main_v13 main_v116 main_v117 (addi : (⟨S4x1080x1920, .i32⟩ : BufTy).Contents (Elt F) → (⟨S4x1080x1920, .i32⟩ : BufTy).Contents (Elt F) → (⟨S4x1080x1920, .i32⟩ : BufTy).Contents (Elt F)),
    nullary main_c_41 (constantI S_ 32 1#32),
    unary main_c_41 main_v118 (broadcastInDim S4x1080x1920 ![] bcast_S_S4x1080x1920 : (⟨S_, .i32⟩ : BufTy).Contents (Elt F) → (⟨S4x1080x1920, .i32⟩ : BufTy).Contents (Elt F)),
    binary main_v11 main_v118 main_v119 (addi : (⟨S4x1080x1920, .i32⟩ : BufTy).Contents (Elt F) → (⟨S4x1080x1920, .i32⟩ : BufTy).Contents (Elt F) → (⟨S4x1080x1920, .i32⟩ : BufTy).Contents (Elt F)),
    nullary main_c_42 (constantI S_ 32 0#32),
    unary main_c_42 main_v120 (broadcastInDim S4x1080x1920 ![] bcast_S_S4x1080x1920 : (⟨S_, .i32⟩ : BufTy).Contents (Elt F) → (⟨S4x1080x1920, .i32⟩ : BufTy).Contents (Elt F)),
    binary main_v9 main_v120 main_v121 (addi : (⟨S4x1080x1920, .i32⟩ : BufTy).Contents (Elt F) → (⟨S4x1080x1920, .i32⟩ : BufTy).Contents (Elt F) → (⟨S4x1080x1920, .i32⟩ : BufTy).Contents (Elt F)),
    nullary main_c_43 (constantI S_ 32 0#32),
    unary main_c_43 main_v122 (broadcastInDim S4x1080x1920 ![] bcast_S_S4x1080x1920 : (⟨S_, .i32⟩ : BufTy).Contents (Elt F) → (⟨S4x1080x1920, .i32⟩ : BufTy).Contents (Elt F)),
    binary main_v117 main_v122 main_v123 (cmpi .slt : (⟨S4x1080x1920, .i32⟩ : BufTy).Contents (Elt F) → (⟨S4x1080x1920, .i32⟩ : BufTy).Contents (Elt F) → (⟨S4x1080x1920, .i1⟩ : BufTy).Contents (Elt F)),
    nullary main_c_44 (constantI S_ 32 33#32),
    unary main_c_44 main_v124 (broadcastInDim S4x1080x1920 ![] bcast_S_S4x1080x1920 : (⟨S_, .i32⟩ : BufTy).Contents (Elt F) → (⟨S4x1080x1920, .i32⟩ : BufTy).Contents (Elt F)),
    binary main_v117 main_v124 main_v125 (addi : (⟨S4x1080x1920, .i32⟩ : BufTy).Contents (Elt F) → (⟨S4x1080x1920, .i32⟩ : BufTy).Contents (Elt F) → (⟨S4x1080x1920, .i32⟩ : BufTy).Contents (Elt F)),
    ternary main_v123 main_v125 main_v117 main_v126 (select : (⟨S4x1080x1920, .i1⟩ : BufTy).Contents (Elt F) → (⟨S4x1080x1920, .i32⟩ : BufTy).Contents (Elt F) → (⟨S4x1080x1920, .i32⟩ : BufTy).Contents (Elt F) → (⟨S4x1080x1920, .i32⟩ : BufTy).Contents (Elt F)),
    nullary main_c_45 (constantI S_ 32 0#32),
    unary main_c_45 main_v127 (broadcastInDim S4x1080x1920 ![] bcast_S_S4x1080x1920 : (⟨S_, .i32⟩ : BufTy).Contents (Elt F) → (⟨S4x1080x1920, .i32⟩ : BufTy).Contents (Elt F)),
    binary main_v119 main_v127 main_v128 (cmpi .slt : (⟨S4x1080x1920, .i32⟩ : BufTy).Contents (Elt F) → (⟨S4x1080x1920, .i32⟩ : BufTy).Contents (Elt F) → (⟨S4x1080x1920, .i1⟩ : BufTy).Contents (Elt F)),
    nullary main_c_46 (constantI S_ 32 33#32),
    unary main_c_46 main_v129 (broadcastInDim S4x1080x1920 ![] bcast_S_S4x1080x1920 : (⟨S_, .i32⟩ : BufTy).Contents (Elt F) → (⟨S4x1080x1920, .i32⟩ : BufTy).Contents (Elt F)),
    binary main_v119 main_v129 main_v130 (addi : (⟨S4x1080x1920, .i32⟩ : BufTy).Contents (Elt F) → (⟨S4x1080x1920, .i32⟩ : BufTy).Contents (Elt F) → (⟨S4x1080x1920, .i32⟩ : BufTy).Contents (Elt F)),
    ternary main_v128 main_v130 main_v119 main_v131 (select : (⟨S4x1080x1920, .i1⟩ : BufTy).Contents (Elt F) → (⟨S4x1080x1920, .i32⟩ : BufTy).Contents (Elt F) → (⟨S4x1080x1920, .i32⟩ : BufTy).Contents (Elt F) → (⟨S4x1080x1920, .i32⟩ : BufTy).Contents (Elt F)),
    nullary main_c_47 (constantI S_ 32 0#32),
    unary main_c_47 main_v132 (broadcastInDim S4x1080x1920 ![] bcast_S_S4x1080x1920 : (⟨S_, .i32⟩ : BufTy).Contents (Elt F) → (⟨S4x1080x1920, .i32⟩ : BufTy).Contents (Elt F)),
    binary main_v121 main_v132 main_v133 (cmpi .slt : (⟨S4x1080x1920, .i32⟩ : BufTy).Contents (Elt F) → (⟨S4x1080x1920, .i32⟩ : BufTy).Contents (Elt F) → (⟨S4x1080x1920, .i1⟩ : BufTy).Contents (Elt F)),
    nullary main_c_48 (constantI S_ 32 33#32),
    unary main_c_48 main_v134 (broadcastInDim S4x1080x1920 ![] bcast_S_S4x1080x1920 : (⟨S_, .i32⟩ : BufTy).Contents (Elt F) → (⟨S4x1080x1920, .i32⟩ : BufTy).Contents (Elt F)),
    binary main_v121 main_v134 main_v135 (addi : (⟨S4x1080x1920, .i32⟩ : BufTy).Contents (Elt F) → (⟨S4x1080x1920, .i32⟩ : BufTy).Contents (Elt F) → (⟨S4x1080x1920, .i32⟩ : BufTy).Contents (Elt F)),
    ternary main_v133 main_v135 main_v121 main_v136 (select : (⟨S4x1080x1920, .i1⟩ : BufTy).Contents (Elt F) → (⟨S4x1080x1920, .i32⟩ : BufTy).Contents (Elt F) → (⟨S4x1080x1920, .i32⟩ : BufTy).Contents (Elt F) → (⟨S4x1080x1920, .i32⟩ : BufTy).Contents (Elt F)),
    unary main_v126 main_v137 (broadcastInDim S4x1080x1920x1 ![0, 1, 2] bcast_S4x1080x1920_S4x1080x1920x1_0_1_2 : (⟨S4x1080x1920, .i32⟩ : BufTy).Contents (Elt F) → (⟨S4x1080x1920x1, .i32⟩ : BufTy).Contents (Elt F)),
    unary main_v131 main_v138 (broadcastInDim S4x1080x1920x1 ![0, 1, 2] bcast_S4x1080x1920_S4x1080x1920x1_0_1_2 : (⟨S4x1080x1920, .i32⟩ : BufTy).Contents (Elt F) → (⟨S4x1080x1920x1, .i32⟩ : BufTy).Contents (Elt F)),
    unary main_v136 main_v139 (broadcastInDim S4x1080x1920x1 ![0, 1, 2] bcast_S4x1080x1920_S4x1080x1920x1_0_1_2 : (⟨S4x1080x1920, .i32⟩ : BufTy).Contents (Elt F) → (⟨S4x1080x1920x1, .i32⟩ : BufTy).Contents (Elt F)),
    nary ![main_v137, main_v138, main_v139] main_v140 (fun u => concatenate S4x1080x1920x3 3 [⟨S4x1080x1920x1, u 0⟩, ⟨S4x1080x1920x1, u 1⟩, ⟨S4x1080x1920x1, u 2⟩] concatenates_S4x1080x1920x1_S4x1080x1920x1_S4x1080x1920x1_S4x1080x1920x3_d3),
    binary main_arg1 main_v140 main_v141 ((fun x i => Host.gather gather_S3x33x33x33_S4x1080x1920x3_S3x4x1080x1920_0_123_n_n_123_3_3111 x i) : (⟨S3x33x33x33, .f32⟩ : BufTy).Contents (Elt F) → (⟨S4x1080x1920x3, .i32⟩ : BufTy).Contents (Elt F) → (⟨S3x4x1080x1920, .f32⟩ : BufTy).Contents (Elt F)),
    unary main_v115 main_v142 (broadcastInDim S4x1x1080x1920 ![0, 2, 3] bcast_S4x1080x1920_S4x1x1080x1920_0_2_3 : (⟨S4x1080x1920, .f32⟩ : BufTy).Contents (Elt F) → (⟨S4x1x1080x1920, .f32⟩ : BufTy).Contents (Elt F)),
    unary main_v141 main_v143 ((transpose S4x3x1080x1920 [1, 0, 2, 3] · transposes_S3x4x1080x1920_S4x3x1080x1920_1_0_2_3) : (⟨S3x4x1080x1920, .f32⟩ : BufTy).Contents (Elt F) → (⟨S4x3x1080x1920, .f32⟩ : BufTy).Contents (Elt F)),
    unary main_v142 main_v144 (broadcastInDim S4x3x1080x1920 ![0, 1, 2, 3] bcast_S4x1x1080x1920_S4x3x1080x1920_0_1_2_3 : (⟨S4x1x1080x1920, .f32⟩ : BufTy).Contents (Elt F) → (⟨S4x3x1080x1920, .f32⟩ : BufTy).Contents (Elt F)),
    binary main_v144 main_v143 main_v145 (mulf : (⟨S4x3x1080x1920, .f32⟩ : BufTy).Contents (Elt F) → (⟨S4x3x1080x1920, .f32⟩ : BufTy).Contents (Elt F) → (⟨S4x3x1080x1920, .f32⟩ : BufTy).Contents (Elt F)),
    binary main_v104 main_v145 main_v146 (addf : (⟨S4x3x1080x1920, .f32⟩ : BufTy).Contents (Elt F) → (⟨S4x3x1080x1920, .f32⟩ : BufTy).Contents (Elt F) → (⟨S4x3x1080x1920, .f32⟩ : BufTy).Contents (Elt F)) ]

set_option maxHeartbeats 4000000 in
/-- The running total after the corner. -/
theorem c3_out (W : Valuation τ sig (Elt Ideal)) :
    after (opsC3 (F := Ideal)) W (Proc.devRef .tc main_v146)
      = RefTerm.cornerStep 0#32 1#32 0#32 (W (Proc.devRef .tc main_v9)) (W (Proc.devRef .tc main_v11)) (W (Proc.devRef .tc main_v13))
          (W (Proc.devRef .tc main_v15)) (W (Proc.devRef .tc main_v17)) (W (Proc.devRef .tc main_v19)) (W (Proc.devRef .tc main_arg1)) (W (Proc.devRef .tc main_v104)) := by
  unfold opsC3
  after_results_simp3
  rfl

set_option maxHeartbeats 4000000 in
/-- The arrays the later corners and the result's frame read are not written. -/
theorem c3_keep (W : Valuation τ sig (Elt Ideal)) :
    after (opsC3 (F := Ideal)) W (Proc.devRef .tc main_v9) = W (Proc.devRef .tc main_v9)
    ∧ after (opsC3 (F := Ideal)) W (Proc.devRef .tc main_v11) = W (Proc.devRef .tc main_v11)
    ∧ after (opsC3 (F := Ideal)) W (Proc.devRef .tc main_v13) = W (Proc.devRef .tc main_v13)
    ∧ after (opsC3 (F := Ideal)) W (Proc.devRef .tc main_v15) = W (Proc.devRef .tc main_v15)
    ∧ after (opsC3 (F := Ideal)) W (Proc.devRef .tc main_v17) = W (Proc.devRef .tc main_v17)
    ∧ after (opsC3 (F := Ideal)) W (Proc.devRef .tc main_v19) = W (Proc.devRef .tc main_v19)
    ∧ after (opsC3 (F := Ideal)) W (Proc.devRef .tc main_arg0) = W (Proc.devRef .tc main_arg0)
    ∧ after (opsC3 (F := Ideal)) W (Proc.devRef .tc main_arg1) = W (Proc.devRef .tc main_arg1) := by
  unfold opsC3
  refine ⟨?_, ?_, ?_, ?_, ?_, ?_, ?_, ?_⟩ <;> after_results_simp3

end Cert.Lut3.RefOps

end
-- ==== Proof.RefC4.lean ====
/-
  Corner (dr, dg, db) = (0, 1, 1) of the eight-corner program: its operations in order, and what they compute from any
  contents W of the buffers.  The running total's buffer ends at `cornerStep 0 1 1` of the six per-channel arrays, the
  table and the previous total as W holds them; the per-channel arrays, the image and the table are not written.
-/
import proofs.«140490_j86122684220303_2_alg».proof.Proof.RefTerm
import proofs.«140490_j86122684220303_2_alg».proof.Proof.LibNary3

noncomputable section

namespace Cert.Lut3.RefOps

open Cert.ReferenceIdeal Idealize.ShloMosaic Idealize.ShloMosaic.TcCoe Idealize.SL.Sem Idealize.ShloMosaic.StableHlo
open Cert.ReferenceIdeal.Facts₀

variable {F : FTy → Type} [FloatOps F] [Cert.ReferenceIdeal.Facts]

/-- The corner's operations, in order. -/
def opsC4 : List (HloOp τ sig (Elt F)) :=
  [ nullary main_cst_49 (constant S_ .f32 0x3F800000#32),
    unary main_cst_49 main_v147 (broadcastInDim S4x1080x1920 ![] bcast_S_S4x1080x1920 : (⟨S_, .f32⟩ : BufTy).Contents (Elt F) → (⟨S4x1080x1920, .f32⟩ : BufTy).Contents (Elt F)),
    binary main_v147 main_v15 main_v148 (subf : (⟨S4x1080x1920, .f32⟩ : BufTy).Contents (Elt F) → (⟨S4x1080x1920, .f32⟩ : BufTy).Contents (Elt F) → (⟨S4x1080x1920, .f32⟩ : BufTy).Contents (Elt F)),
    nullary main_c_50 (constantI S_ 32 0#32),
    TRef.nullary (TRef.of (T := ⟨S_, .i32⟩) main_call11_c) (constantI S_ 32 0#32),
    TRef.binary (TRef.of (T := ⟨S_, .i32⟩) main_c_50) (TRef.of (T := ⟨S_, .i32⟩) main_call11_c) (TRef.of (T := ⟨S_, .i1⟩) main_call11_v0) (cmpi .ne),
    TRef.ternary (TRef.of (T := ⟨S_, .i1⟩) main_call11_v0) (TRef.of (T := ⟨S4x1080x1920, .f32⟩) main_v15) (TRef.of (T := ⟨S4x1080x1920, .f32⟩) main_v148) (TRef.of (T := ⟨S4x1080x1920, .f32⟩) main_v149) (fun p a b => select (broadcastInDim S4x1080x1920 ![] bcast_S_S4x1080x1920 p) a b),
    nullary main_cst_51 (constant S_ .f32 0x3F800000#32),
    unary main_cst_51 main_v150 (broadcastInDim S4x1080x1920 ![] bcast_S_S4x1080x1920 : (⟨S_, .f32⟩ : BufTy).Contents (Elt F) → (⟨S4x1080x1920, .f32⟩ : BufTy).Contents (Elt F)),
    binary main_v150 main_v17 main_v151 (subf : (⟨S4x1080x1920, .f32⟩ : BufTy).Contents (Elt F) → (⟨S4x1080x1920, .f32⟩ : BufTy).Contents (Elt F) → (⟨S4x1080x1920, .f32⟩ : BufTy).Contents (Elt F)),
    nullary main_c_52 (constantI S_ 32 1#32),
    TRef.nullary (TRef.of (T := ⟨S_, .i32⟩) main_call12_c) (constantI S_ 32 0#32),
    TRef.binary (TRef.of (T := ⟨S_, .i32⟩) main_c_52) (TRef.of (T := ⟨S_, .i32⟩) main_call12_c) (TRef.of (T := ⟨S_, .i1⟩) main_call12_v0) (cmpi .ne),
    TRef.ternary (TRef.of (T := ⟨S_, .i1⟩) main_call12_v0) (TRef.of (T := ⟨S4x1080x1920, .f32⟩) main_v17) (TRef.of (T := ⟨S4x1080x1920, .f32⟩) main_v151) (TRef.of (T := ⟨S4x1080x1920, .f32⟩) main_v152) (fun p a b => select (broadcastInDim S4x1080x1920 ![] bcast_S_S4x1080x1920 p) a b),
    binary main_v149 main_v152 main_v153 (mulf : (⟨S4x1080x1920, .f32⟩ : BufTy).Contents (Elt F) → (⟨S4x1080x1920, .f32⟩ : BufTy).Contents (Elt F) → (⟨S4x1080x1920, .f32⟩ : BufTy).Contents (Elt F)),
    nullary main_cst_53 (constant S_ .f32 0x3F800000#32),
    unary main_cst_53 main_v154 (broadcastInDim S4x1080x1920 ![] bcast_S_S4x1080x1920 : (⟨S_, .f32⟩ : BufTy).Contents (Elt F) → (⟨S4x1080x1920, .f32⟩ : BufTy).Contents (Elt F)),
    binary main_v154 main_v19 main_v155 (subf : (⟨S4x1080x1920, .f32⟩ : BufTy).Contents (Elt F) → (⟨S4x1080x1920, .f32⟩ : BufTy).Contents (Elt F) → (⟨S4x1080x1920, .f32⟩ : BufTy).Contents (Elt F)),
    nullary main_c_54 (constantI S_ 32 1#32),
    TRef.nullary (TRef.of (T := ⟨S_, .i32⟩) main_call13_c) (constantI S_ 32 0#32),
    TRef.binary (TRef.of (T := ⟨S_, .i32⟩) main_c_54) (TRef.of (T := ⟨S_, .i32⟩) main_call13_c) (TRef.of (T := ⟨S_, .i1⟩) main_call13_v0) (cmpi .ne),
    TRef.ternary (TRef.of (T := ⟨S_, .i1⟩) main_call13_v0) (TRef.of (T := ⟨S4x1080x1920, .f32⟩) main_v19) (TRef.of (T := ⟨S4x1080x1920, .f32⟩) main_v155) (TRef.of (T := ⟨S4x1080x1920, .f32⟩) main_v156) (fun p a b => select (broadcastInDim S4x1080x1920 ![] bcast_S_S4x1080x1920 p) a b),
    binary main_v153 main_v156 main_v157 (mulf : (⟨S4x1080x1920, .f32⟩ : BufTy).Contents (Elt F) → (⟨S4x1080x1920, .f32⟩ : BufTy).Contents (Elt F) → (⟨S4x1080x1920, .f32⟩ : BufTy).Contents (Elt F)),
    nullary main_c_55 (constantI S_ 32 1#32),
    unary main_c_55 main_v158 (broadcastInDim S4x1080x1920 ![] bcast_S_S4x1080x1920 : (⟨S_, .i32⟩ : BufTy).Contents (Elt F) → (⟨S4x1080x1920, .i32⟩ : BufTy).Contents (Elt F)),
    binary main_v13 main_v158 main_v159 (addi : (⟨S4x1080x1920, .i32⟩ : BufTy).Contents (Elt F) → (⟨S4x1080x1920, .i32⟩ : BufTy).Contents (Elt F) → (⟨S4x1080x1920, .i32⟩ : BufTy).Contents (Elt F)),
    nullary main_c_56 (constantI S_ 32 1#32),
    unary main_c_56 main_v160 (broadcastInDim S4x1080x1920 ![] bcast_S_S4x1080x1920 : (⟨S_, .i32⟩ : BufTy).Contents (Elt F) → (⟨S4x1080x1920, .i32⟩ : BufTy).Contents (Elt F)),
    binary main_v11 main_v160 main_v161 (addi : (⟨S4x1080x1920, .i32⟩ : BufTy).Contents (Elt F) → (⟨S4x1080x1920, .i32⟩ : BufTy).Contents (Elt F) → (⟨S4x1080x1920, .i32⟩ : BufTy).Contents (Elt F)),
    nullary main_c_57 (constantI S_ 32 0#32),
    unary main_c_57 main_v162 (broadcastInDim S4x1080x1920 ![] bcast_S_S4x1080x1920 : (⟨S_, .i32⟩ : BufTy).Contents (Elt F) → (⟨S4x1080x1920, .i32⟩ : BufTy).Contents (Elt F)),
    binary main_v9 main_v162 main_v163 (addi : (⟨S4x1080x1920, .i32⟩ : BufTy).Contents (Elt F) → (⟨S4x1080x1920, .i32⟩ : BufTy).Contents (Elt F) → (⟨S4x1080x1920, .i32⟩ : BufTy).Contents (Elt F)),
    nullary main_c_58 (constantI S_ 32 0#32),
    unary main_c_58 main_v164 (broadcastInDim S4x1080x1920 ![] bcast_S_S4x1080x1920 : (⟨S_, .i32⟩ : BufTy).Contents (Elt F) → (⟨S4x1080x1920, .i32⟩ : BufTy).Contents (Elt F)),
    binary main_v159 main_v164 main_v165 (cmpi .slt : (⟨S4x1080x1920, .i32⟩ : BufTy).Contents (Elt F) → (⟨S4x1080x1920, .i32⟩ : BufTy).Contents (Elt F) → (⟨S4x1080x1920, .i1⟩ : BufTy).Contents (Elt F)),
    nullary main_c_59 (constantI S_ 32 33#32),
    unary main_c_59 main_v166 (broadcastInDim S4x1080x1920 ![] bcast_S_S4x1080x1920 : (⟨S_, .i32⟩ : BufTy).Contents (Elt F) → (⟨S4x1080x1920, .i32⟩ : BufTy).Contents (Elt F)),
    binary main_v159 main_v166 main_v167 (addi : (⟨S4x1080x1920, .i32⟩ : BufTy).Contents (Elt F) → (⟨S4x1080x1920, .i32⟩ : BufTy).Contents (Elt F) → (⟨S4x1080x1920, .i32⟩ : BufTy).Contents (Elt F)),
    ternary main_v165 main_v167 main_v159 main_v168 (select : (⟨S4x1080x1920, .i1⟩ : BufTy).Contents (Elt F) → (⟨S4x1080x1920, .i32⟩ : BufTy).Contents (Elt F) → (⟨S4x1080x1920, .i32⟩ : BufTy).Contents (Elt F) → (⟨S4x1080x1920, .i32⟩ : BufTy).Contents (Elt F)),
    nullary main_c_60 (constantI S_ 32 0#32),
    unary main_c_60 main_v169 (broadcastInDim S4x1080x1920 ![] bcast_S_S4x1080x1920 : (⟨S_, .i32⟩ : BufTy).Contents (Elt F) → (⟨S4x1080x1920, .i32⟩ : BufTy).Contents (Elt F)),
    binary main_v161 main_v169 main_v170 (cmpi .slt : (⟨S4x1080x1920, .i32⟩ : BufTy).Contents (Elt F) → (⟨S4x1080x1920, .i32⟩ : BufTy).Contents (Elt F) → (⟨S4x1080x1920, .i1⟩ : BufTy).Contents (Elt F)),
    nullary main_c_61 (constantI S_ 32 33#32),
    unary main_c_61 main_v171 (broadcastInDim S4x1080x1920 ![] bcast_S_S4x1080x1920 : (⟨S_, .i32⟩ : BufTy).Contents (Elt F) → (⟨S4x1080x1920, .i32⟩ : BufTy).Contents (Elt F)),
    binary main_v161 main_v171 main_v172 (addi : (⟨S4x1080x1920, .i32⟩ : BufTy).Contents (Elt F) → (⟨S4x1080x1920, .i32⟩ : BufTy).Contents (Elt F) → (⟨S4x1080x1920, .i32⟩ : BufTy).Contents (Elt F)),
    ternary main_v170 main_v172 main_v161 main_v173 (select : (⟨S4x1080x1920, .i1⟩ : BufTy).Contents (Elt F) → (⟨S4x1080x1920, .i32⟩ : BufTy).Contents (Elt F) → (⟨S4x1080x1920, .i32⟩ : BufTy).Contents (Elt F) → (⟨S4x1080x1920, .i32⟩ : BufTy).Contents (Elt F)),
    nullary main_c_62 (constantI S_ 32 0#32),
    unary main_c_62 main_v174 (broadcastInDim S4x1080x1920 ![] bcast_S_S4x1080x1920 : (⟨S_, .i32⟩ : BufTy).Contents (Elt F) → (⟨S4x1080x1920, .i32⟩ : BufTy).Contents (Elt F)),
    binary main_v163 main_v174 main_v175 (cmpi .slt : (⟨S4x1080x1920, .i32⟩ : BufTy).Contents (Elt F) → (⟨S4x1080x1920, .i32⟩ : BufTy).Contents (Elt F) → (⟨S4x1080x1920, .i1⟩ : BufTy).Contents (Elt F)),
    nullary main_c_63 (constantI S_ 32 33#32),
    unary main_c_63 main_v176 (broadcastInDim S4x1080x1920 ![] bcast_S_S4x1080x1920 : (⟨S_, .i32⟩ : BufTy).Contents (Elt F) → (⟨S4x1080x1920, .i32⟩ : BufTy).Contents (Elt F)),
    binary main_v163 main_v176 main_v177 (addi : (⟨S4x1080x1920, .i32⟩ : BufTy).Contents (Elt F) → (⟨S4x1080x1920, .i32⟩ : BufTy).Contents (Elt F) → (⟨S4x1080x1920, .i32⟩ : BufTy).Contents (Elt F)),
    ternary main_v175 main_v177 main_v163 main_v178 (select : (⟨S4x1080x1920, .i1⟩ : BufTy).Contents (Elt F) → (⟨S4x1080x1920, .i32⟩ : BufTy).Contents (Elt F) → (⟨S4x1080x1920, .i32⟩ : BufTy).Contents (Elt F) → (⟨S4x1080x1920, .i32⟩ : BufTy).Contents (Elt F)),
    unary main_v168 main_v179 (broadcastInDim S4x1080x1920x1 ![0, 1, 2] bcast_S4x1080x1920_S4x1080x1920x1_0_1_2 : (⟨S4x1080x1920, .i32⟩ : BufTy).Contents (Elt F) → (⟨S4x1080x1920x1, .i32⟩ : BufTy).Contents (Elt F)),
    unary main_v173 main_v180 (broadcastInDim S4x1080x1920x1 ![0, 1, 2] bcast_S4x1080x1920_S4x1080x1920x1_0_1_2 : (⟨S4x1080x1920, .i32⟩ : BufTy).Contents (Elt F) → (⟨S4x1080x1920x1, .i32⟩ : BufTy).Contents (Elt F)),
    unary main_v178 main_v181 (broadcastInDim S4x1080x1920x1 ![0, 1, 2] bcast_S4x1080x1920_S4x1080x1920x1_0_1_2 : (⟨S4x1080x1920, .i32⟩ : BufTy).Contents (Elt F) → (⟨S4x1080x1920x1, .i32⟩ : BufTy).Contents (Elt F)),
    nary ![main_v179, main_v180, main_v181] main_v182 (fun u => concatenate S4x1080x1920x3 3 [⟨S4x1080x1920x1, u 0⟩, ⟨S4x1080x1920x1, u 1⟩, ⟨S4x1080x1920x1, u 2⟩] concatenates_S4x1080x1920x1_S4x1080x1920x1_S4x1080x1920x1_S4x1080x1920x3_d3),
    binary main_arg1 main_v182 main_v183 ((fun x i => Host.gather gather_S3x33x33x33_S4x1080x1920x3_S3x4x1080x1920_0_123_n_n_123_3_3111 x i) : (⟨S3x33x33x33, .f32⟩ : BufTy).Contents (Elt F) → (⟨S4x1080x1920x3, .i32⟩ : BufTy).Contents (Elt F) → (⟨S3x4x1080x1920, .f32⟩ : BufTy).Contents (Elt F)),
    unary main_v157 main_v184 (broadcastInDim S4x1x1080x1920 ![0, 2, 3] bcast_S4x1080x1920_S4x1x1080x1920_0_2_3 : (⟨S4x1080x1920, .f32⟩ : BufTy).Contents (Elt F) → (⟨S4x1x1080x1920, .f32⟩ : BufTy).Contents (Elt F)),
    unary main_v183 main_v185 ((transpose S4x3x1080x1920 [1, 0, 2, 3] · transposes_S3x4x1080x1920_S4x3x1080x1920_1_0_2_3) : (⟨S3x4x1080x1920, .f32⟩ : BufTy).Contents (Elt F) → (⟨S4x3x1080x1920, .f32⟩ : BufTy).Contents (Elt F)),
    unary main_v184 main_v186 (broadcastInDim S4x3x1080x1920 ![0, 1, 2, 3] bcast_S4x1x1080x1920_S4x3x1080x1920_0_1_2_3 : (⟨S4x1x1080x1920, .f32⟩ : BufTy).Contents (Elt F) → (⟨S4x3x1080x1920, .f32⟩ : BufTy).Contents (Elt F)),
    binary main_v186 main_v185 main_v187 (mulf : (⟨S4x3x1080x1920, .f32⟩ : BufTy).Contents (Elt F) → (⟨S4x3x1080x1920, .f32⟩ : BufTy).Contents (Elt F) → (⟨S4x3x1080x1920, .f32⟩ : BufTy).Contents (Elt F)),
    binary main_v146 main_v187 main_v188 (addf : (⟨S4x3x1080x1920, .f32⟩ : BufTy).Contents (Elt F) → (⟨S4x3x1080x1920, .f32⟩ : BufTy).Contents (Elt F) → (⟨S4x3x1080x1920, .f32⟩ : BufTy).Contents (Elt F)) ]

set_option maxHeartbeats 4000000 in
/-- The running total after the corner. -/
theorem c4_out (W : Valuation τ sig (Elt Ideal)) :
    after (opsC4 (F := Ideal)) W (Proc.devRef .tc main_v188)
      = RefTerm.cornerStep 0#32 1#32 1#32 (W (Proc.devRef .tc main_v9)) (W (Proc.devRef .tc main_v11)) (W (Proc.devRef .tc main_v13))
          (W (Proc.devRef .tc main_v15)) (W (Proc.devRef .tc main_v17)) (W (Proc.devRef .tc main_v19)) (W (Proc.devRef .tc main_arg1)) (W (Proc.devRef .tc main_v146)) := by
  unfold opsC4
  after_results_simp3
  rfl

set_option maxHeartbeats 4000000 in
/-- The arrays the later corners and the result's frame read are not written. -/
theorem c4_keep (W : Valuation τ sig (Elt Ideal)) :
    after (opsC4 (F := Ideal)) W (Proc.devRef .tc main_v9) = W (Proc.devRef .tc main_v9)
    ∧ after (opsC4 (F := Ideal)) W (Proc.devRef .tc main_v11) = W (Proc.devRef .tc main_v11)
    ∧ after (opsC4 (F := Ideal)) W (Proc.devRef .tc main_v13) = W (Proc.devRef .tc main_v13)
    ∧ after (opsC4 (F := Ideal)) W (Proc.devRef .tc main_v15) = W (Proc.devRef .tc main_v15)
    ∧ after (opsC4 (F := Ideal)) W (Proc.devRef .tc main_v17) = W (Proc.devRef .tc main_v17)
    ∧ after (opsC4 (F := Ideal)) W (Proc.devRef .tc main_v19) = W (Proc.devRef .tc main_v19)
    ∧ after (opsC4 (F := Ideal)) W (Proc.devRef .tc main_arg0) = W (Proc.devRef .tc main_arg0)
    ∧ after (opsC4 (F := Ideal)) W (Proc.devRef .tc main_arg1) = W (Proc.devRef .tc main_arg1) := by
  unfold opsC4
  refine ⟨?_, ?_, ?_, ?_, ?_, ?_, ?_, ?_⟩ <;> after_results_simp3

end Cert.Lut3.RefOps

end
-- ==== Proof.RefC5.lean ====
/-
  Corner (dr, dg, db) = (1, 0, 0) of the eight-corner program: its operations in order, and what they compute from any
  contents W of the buffers.  The running total's buffer ends at `cornerStep 1 0 0` of the six per-channel arrays, the
  table and the previous total as W holds them; the per-channel arrays, the image and the table are not written.
-/
import proofs.«140490_j86122684220303_2_alg».proof.Proof.RefTerm
import proofs.«140490_j86122684220303_2_alg».proof.Proof.LibNary3

noncomputable section

namespace Cert.Lut3.RefOps

open Cert.ReferenceIdeal Idealize.ShloMosaic Idealize.ShloMosaic.TcCoe Idealize.SL.Sem Idealize.ShloMosaic.StableHlo
open Cert.ReferenceIdeal.Facts₀

variable {F : FTy → Type} [FloatOps F] [Cert.ReferenceIdeal.Facts]

/-- The corner's operations, in order. -/
def opsC5 : List (HloOp τ sig (Elt F)) :=
  [ nullary main_cst_64 (constant S_ .f32 0x3F800000#32),
    unary main_cst_64 main_v189 (broadcastInDim S4x1080x1920 ![] bcast_S_S4x1080x1920 : (⟨S_, .f32⟩ : BufTy).Contents (Elt F) → (⟨S4x1080x1920, .f32⟩ : BufTy).Contents (Elt F)),
    binary main_v189 main_v15 main_v190 (subf : (⟨S4x1080x1920, .f32⟩ : BufTy).Contents (Elt F) → (⟨S4x1080x1920, .f32⟩ : BufTy).Contents (Elt F) → (⟨S4x1080x1920, .f32⟩ : BufTy).Contents (Elt F)),
    nullary main_c_65 (constantI S_ 32 1#32),
    TRef.nullary (TRef.of (T := ⟨S_, .i32⟩) main_call14_c) (constantI S_ 32 0#32),
    TRef.binary (TRef.of (T := ⟨S_, .i32⟩) main_c_65) (TRef.of (T := ⟨S_, .i32⟩) main_call14_c) (TRef.of (T := ⟨S_, .i1⟩) main_call14_v0) (cmpi .ne),
    TRef.ternary (TRef.of (T := ⟨S_, .i1⟩) main_call14_v0) (TRef.of (T := ⟨S4x1080x1920, .f32⟩) main_v15) (TRef.of (T := ⟨S4x1080x1920, .f32⟩) main_v190) (TRef.of (T := ⟨S4x1080x1920, .f32⟩) main_v191) (fun p a b => select (broadcastInDim S4x1080x1920 ![] bcast_S_S4x1080x1920 p) a b),
    nullary main_cst_66 (constant S_ .f32 0x3F800000#32),
    unary main_cst_66 main_v192 (broadcastInDim S4x1080x1920 ![] bcast_S_S4x1080x1920 : (⟨S_, .f32⟩ : BufTy).Contents (Elt F) → (⟨S4x1080x1920, .f32⟩ : BufTy).Contents (Elt F)),
    binary main_v192 main_v17 main_v193 (subf : (⟨S4x1080x1920, .f32⟩ : BufTy).Contents (Elt F) → (⟨S4x1080x1920, .f32⟩ : BufTy).Contents (Elt F) → (⟨S4x1080x1920, .f32⟩ : BufTy).Contents (Elt F)),
    nullary main_c_67 (constantI S_ 32 0#32),
    TRef.nullary (TRef.of (T := ⟨S_, .i32⟩) main_call15_c) (constantI S_ 32 0#32),
    TRef.binary (TRef.of (T := ⟨S_, .i32⟩) main_c_67) (TRef.of (T := ⟨S_, .i32⟩) main_call15_c) (TRef.of (T := ⟨S_, .i1⟩) main_call15_v0) (cmpi .ne),
    TRef.ternary (TRef.of (T := ⟨S_, .i1⟩) main_call15_v0) (TRef.of (T := ⟨S4x1080x1920, .f32⟩) main_v17) (TRef.of (T := ⟨S4x1080x1920, .f32⟩) main_v193) (TRef.of (T := ⟨S4x1080x1920, .f32⟩) main_v194) (fun p a b => select (broadcastInDim S4x1080x1920 ![] bcast_S_S4x1080x1920 p) a b),
    binary main_v191 main_v194 main_v195 (mulf : (⟨S4x1080x1920, .f32⟩ : BufTy).Contents (Elt F) → (⟨S4x1080x1920, .f32⟩ : BufTy).Contents (Elt F) → (⟨S4x1080x1920, .f32⟩ : BufTy).Contents (Elt F)),
    nullary main_cst_68 (constant S_ .f32 0x3F800000#32),
    unary main_cst_68 main_v196 (broadcastInDim S4x1080x1920 ![] bcast_S_S4x1080x1920 : (⟨S_, .f32⟩ : BufTy).Contents (Elt F) → (⟨S4x1080x1920, .f32⟩ : BufTy).Contents (Elt F)),
    binary main_v196 main_v19 main_v197 (subf : (⟨S4x1080x1920, .f32⟩ : BufTy).Contents (Elt F) → (⟨S4x1080x1920, .f32⟩ : BufTy).Contents (Elt F) → (⟨S4x1080x1920, .f32⟩ : BufTy).Contents (Elt F)),
    nullary main_c_69 (constantI S_ 32 0#32),
    TRef.nullary (TRef.of (T := ⟨S_, .i32⟩) main_call16_c) (constantI S_ 32 0#32),
    TRef.binary (TRef.of (T := ⟨S_, .i32⟩) main_c_69) (TRef.of (T := ⟨S_, .i32⟩) main_call16_c) (TRef.of (T := ⟨S_, .i1⟩) main_call16_v0) (cmpi .ne),
    TRef.ternary (TRef.of (T := ⟨S_, .i1⟩) main_call16_v0) (TRef.of (T := ⟨S4x1080x1920, .f32⟩) main_v19) (TRef.of (T := ⟨S4x1080x1920, .f32⟩) main_v197) (TRef.of (T := ⟨S4x1080x1920, .f32⟩) main_v198) (fun p a b => select (broadcastInDim S4x1080x1920 ![] bcast_S_S4x1080x1920 p) a b),
    binary main_v195 main_v198 main_v199 (mulf : (⟨S4x1080x1920, .f32⟩ : BufTy).Contents (Elt F) → (⟨S4x1080x1920, .f32⟩ : BufTy).Contents (Elt F) → (⟨S4x1080x1920, .f32⟩ : BufTy).Contents (Elt F)),
    nullary main_c_70 (constantI S_ 32 0#32),
    unary main_c_70 main_v200 (broadcastInDim S4x1080x1920 ![] bcast_S_S4x1080x1920 : (⟨S_, .i32⟩ : BufTy).Contents (Elt F) → (⟨S4x1080x1920, .i32⟩ : BufTy).Contents (Elt F)),
    binary main_v13 main_v200 main_v201 (addi : (⟨S4x1080x1920, .i32⟩ : BufTy).Contents (Elt F) → (⟨S4x1080x1920, .i32⟩ : BufTy).Contents (Elt F) → (⟨S4x1080x1920, .i32⟩ : BufTy).Contents (Elt F)),
    nullary main_c_71 (constantI S_ 32 0#32),
    unary main_c_71 main_v202 (broadcastInDim S4x1080x1920 ![] bcast_S_S4x1080x1920 : (⟨S_, .i32⟩ : BufTy).Contents (Elt F) → (⟨S4x1080x1920, .i32⟩ : BufTy).Contents (Elt F)),
    binary main_v11 main_v202 main_v203 (addi : (⟨S4x1080x1920, .i32⟩ : BufTy).Contents (Elt F) → (⟨S4x1080x1920, .i32⟩ : BufTy).Contents (Elt F) → (⟨S4x1080x1920, .i32⟩ : BufTy).Contents (Elt F)),
    nullary main_c_72 (constantI S_ 32 1#32),
    unary main_c_72 main_v204 (broadcastInDim S4x1080x1920 ![] bcast_S_S4x1080x1920 : (⟨S_, .i32⟩ : BufTy).Contents (Elt F) → (⟨S4x1080x1920, .i32⟩ : BufTy).Contents (Elt F)),
    binary main_v9 main_v204 main_v205 (addi : (⟨S4x1080x1920, .i32⟩ : BufTy).Contents (Elt F) → (⟨S4x1080x1920, .i32⟩ : BufTy).Contents (Elt F) → (⟨S4x1080x1920, .i32⟩ : BufTy).Contents (Elt F)),
    nullary main_c_73 (constantI S_ 32 0#32),
    unary main_c_73 main_v206 (broadcastInDim S4x1080x1920 ![] bcast_S_S4x1080x1920 : (⟨S_, .i32⟩ : BufTy).Contents (Elt F) → (⟨S4x1080x1920, .i32⟩ : BufTy).Contents (Elt F)),
    binary main_v201 main_v206 main_v207 (cmpi .slt : (⟨S4x1080x1920, .i32⟩ : BufTy).Contents (Elt F) → (⟨S4x1080x1920, .i32⟩ : BufTy).Contents (Elt F) → (⟨S4x1080x1920, .i1⟩ : BufTy).Contents (Elt F)),
    nullary main_c_74 (constantI S_ 32 33#32),
    unary main_c_74 main_v208 (broadcastInDim S4x1080x1920 ![] bcast_S_S4x1080x1920 : (⟨S_, .i32⟩ : BufTy).Contents (Elt F) → (⟨S4x1080x1920, .i32⟩ : BufTy).Contents (Elt F)),
    binary main_v201 main_v208 main_v209 (addi : (⟨S4x1080x1920, .i32⟩ : BufTy).Contents (Elt F) → (⟨S4x1080x1920, .i32⟩ : BufTy).Contents (Elt F) → (⟨S4x1080x1920, .i32⟩ : BufTy).Contents (Elt F)),
    ternary main_v207 main_v209 main_v201 main_v210 (select : (⟨S4x1080x1920, .i1⟩ : BufTy).Contents (Elt F) → (⟨S4x1080x1920, .i32⟩ : BufTy).Contents (Elt F) → (⟨S4x1080x1920, .i32⟩ : BufTy).Contents (Elt F) → (⟨S4x1080x1920, .i32⟩ : BufTy).Contents (Elt F)),
    nullary main_c_75 (constantI S_ 32 0#32),
    unary main_c_75 main_v211 (broadcastInDim S4x1080x1920 ![] bcast_S_S4x1080x1920 : (⟨S_, .i32⟩ : BufTy).Contents (Elt F) → (⟨S4x1080x1920, .i32⟩ : BufTy).Contents (Elt F)),
    binary main_v203 main_v211 main_v212 (cmpi .slt : (⟨S4x1080x1920, .i32⟩ : BufTy).Contents (Elt F) → (⟨S4x1080x1920, .i32⟩ : BufTy).Contents (Elt F) → (⟨S4x1080x1920, .i1⟩ : BufTy).Contents (Elt F)),
    nullary main_c_76 (constantI S_ 32 33#32),
    unary main_c_76 main_v213 (broadcastInDim S4x1080x1920 ![] bcast_S_S4x1080x1920 : (⟨S_, .i32⟩ : BufTy).Contents (Elt F) → (⟨S4x1080x1920, .i32⟩ : BufTy).Contents (Elt F)),
    binary main_v203 main_v213 main_v214 (addi : (⟨S4x1080x1920, .i32⟩ : BufTy).Contents (Elt F) → (⟨S4x1080x1920, .i32⟩ : BufTy).Contents (Elt F) → (⟨S4x1080x1920, .i32⟩ : BufTy).Contents (Elt F)),
    ternary main_v212 main_v214 main_v203 main_v215 (select : (⟨S4x1080x1920, .i1⟩ : BufTy).Contents (Elt F) → (⟨S4x1080x1920, .i32⟩ : BufTy).Contents (Elt F) → (⟨S4x1080x1920, .i32⟩ : BufTy).Contents (Elt F) → (⟨S4x1080x1920, .i32⟩ : BufTy).Contents (Elt F)),
    nullary main_c_77 (constantI S_ 32 0#32),
    unary main_c_77 main_v216 (broadcastInDim S4x1080x1920 ![] bcast_S_S4x1080x1920 : (⟨S_, .i32⟩ : BufTy).Contents (Elt F) → (⟨S4x1080x1920, .i32⟩ : BufTy).Contents (Elt F)),
    binary main_v205 main_v216 main_v217 (cmpi .slt : (⟨S4x1080x1920, .i32⟩ : BufTy).Contents (Elt F) → (⟨S4x1080x1920, .i32⟩ : BufTy).Contents (Elt F) → (⟨S4x1080x1920, .i1⟩ : BufTy).Contents (Elt F)),
    nullary main_c_78 (constantI S_ 32 33#32),
    unary main_c_78 main_v218 (broadcastInDim S4x1080x1920 ![] bcast_S_S4x1080x1920 : (⟨S_, .i32⟩ : BufTy).Contents (Elt F) → (⟨S4x1080x1920, .i32⟩ : BufTy).Contents (Elt F)),
    binary main_v205 main_v218 main_v219 (addi : (⟨S4x1080x1920, .i32⟩ : BufTy).Contents (Elt F) → (⟨S4x1080x1920, .i32⟩ : BufTy).Contents (Elt F) → (⟨S4x1080x1920, .i32⟩ : BufTy).Contents (Elt F)),
    ternary main_v217 main_v219 main_v205 main_v220 (select : (⟨S4x1080x1920, .i1⟩ : BufTy).Contents (Elt F) → (⟨S4x1080x1920, .i32⟩ : BufTy).Contents (Elt F) → (⟨S4x1080x1920, .i32⟩ : BufTy).Contents (Elt F) → (⟨S4x1080x1920, .i32⟩ : BufTy).Contents (Elt F)),
    unary main_v210 main_v221 (broadcastInDim S4x1080x1920x1 ![0, 1, 2] bcast_S4x1080x1920_S4x1080x1920x1_0_1_2 : (⟨S4x1080x1920, .i32⟩ : BufTy).Contents (Elt F) → (⟨S4x1080x1920x1, .i32⟩ : BufTy).Contents (Elt F)),
    unary main_v215 main_v222 (broadcastInDim S4x1080x1920x1 ![0, 1, 2] bcast_S4x1080x1920_S4x1080x1920x1_0_1_2 : (⟨S4x1080x1920, .i32⟩ : BufTy).Contents (Elt F) → (⟨S4x1080x1920x1, .i32⟩ : BufTy).Contents (Elt F)),
    unary main_v220 main_v223 (broadcastInDim S4x1080x1920x1 ![0, 1, 2] bcast_S4x1080x1920_S4x1080x1920x1_0_1_2 : (⟨S4x1080x1920, .i32⟩ : BufTy).Contents (Elt F) → (⟨S4x1080x1920x1, .i32⟩ : BufTy).Contents (Elt F)),
    nary ![main_v221, main_v222, main_v223] main_v224 (fun u => concatenate S4x1080x1920x3 3 [⟨S4x1080x1920x1, u 0⟩, ⟨S4x1080x1920x1, u 1⟩, ⟨S4x1080x1920x1, u 2⟩] concatenates_S4x1080x1920x1_S4x1080x1920x1_S4x1080x1920x1_S4x1080x1920x3_d3),
    binary main_arg1 main_v224 main_v225 ((fun x i => Host.gather gather_S3x33x33x33_S4x1080x1920x3_S3x4x1080x1920_0_123_n_n_123_3_3111 x i) : (⟨S3x33x33x33, .f32⟩ : BufTy).Contents (Elt F) → (⟨S4x1080x1920x3, .i32⟩ : BufTy).Contents (Elt F) → (⟨S3x4x1080x1920, .f32⟩ : BufTy).Contents (Elt F)),
    unary main_v199 main_v226 (broadcastInDim S4x1x1080x1920 ![0, 2, 3] bcast_S4x1080x1920_S4x1x1080x1920_0_2_3 : (⟨S4x1080x1920, .f32⟩ : BufTy).Contents (Elt F) → (⟨S4x1x1080x1920, .f32⟩ : BufTy).Contents (Elt F)),
    unary main_v225 main_v227 ((transpose S4x3x1080x1920 [1, 0, 2, 3] · transposes_S3x4x1080x1920_S4x3x1080x1920_1_0_2_3) : (⟨S3x4x1080x1920, .f32⟩ : BufTy).Contents (Elt F) → (⟨S4x3x1080x1920, .f32⟩ : BufTy).Contents (Elt F)),
    unary main_v226 main_v228 (broadcastInDim S4x3x1080x1920 ![0, 1, 2, 3] bcast_S4x1x1080x1920_S4x3x1080x1920_0_1_2_3 : (⟨S4x1x1080x1920, .f32⟩ : BufTy).Contents (Elt F) → (⟨S4x3x1080x1920, .f32⟩ : BufTy).Contents (Elt F)),
    binary main_v228 main_v227 main_v229 (mulf : (⟨S4x3x1080x1920, .f32⟩ : BufTy).Contents (Elt F) → (⟨S4x3x1080x1920, .f32⟩ : BufTy).Contents (Elt F) → (⟨S4x3x1080x1920, .f32⟩ : BufTy).Contents (Elt F)),
    binary main_v188 main_v229 main_v230 (addf : (⟨S4x3x1080x1920, .f32⟩ : BufTy).Contents (Elt F) → (⟨S4x3x1080x1920, .f32⟩ : BufTy).Contents (Elt F) → (⟨S4x3x1080x1920, .f32⟩ : BufTy).Contents (Elt F)) ]

set_option maxHeartbeats 4000000 in
/-- The running total after the corner. -/
theorem c5_out (W : Valuation τ sig (Elt Ideal)) :
    after (opsC5 (F := Ideal)) W (Proc.devRef .tc main_v230)
      = RefTerm.cornerStep 1#32 0#32 0#32 (W (Proc.devRef .tc main_v9)) (W (Proc.devRef .tc main_v11)) (W (Proc.devRef .tc main_v13))
          (W (Proc.devRef .tc main_v15)) (W (Proc.devRef .tc main_v17)) (W (Proc.devRef .tc main_v19)) (W (Proc.devRef .tc main_arg1)) (W (Proc.devRef .tc main_v188)) := by
  unfold opsC5
  after_results_simp3
  rfl

set_option maxHeartbeats 4000000 in
/-- The arrays the later corners and the result's frame read are not written. -/
theorem c5_keep (W : Valuation τ sig (Elt Ideal)) :
    after (opsC5 (F := Ideal)) W (Proc.devRef .tc main_v9) = W (Proc.devRef .tc main_v9)
    ∧ after (opsC5 (F := Ideal)) W (Proc.devRef .tc main_v11) = W (Proc.devRef .tc main_v11)
    ∧ after (opsC5 (F := Ideal)) W (Proc.devRef .tc main_v13) = W (Proc.devRef .tc main_v13)
    ∧ after (opsC5 (F := Ideal)) W (Proc.devRef .tc main_v15) = W (Proc.devRef .tc main_v15)
    ∧ after (opsC5 (F := Ideal)) W (Proc.devRef .tc main_v17) = W (Proc.devRef .tc main_v17)
    ∧ after (opsC5 (F := Ideal)) W (Proc.devRef .tc main_v19) = W (Proc.devRef .tc main_v19)
    ∧ after (opsC5 (F := Ideal)) W (Proc.devRef .tc main_arg0) = W (Proc.devRef .tc main_arg0)
    ∧ after (opsC5 (F := Ideal)) W (Proc.devRef .tc main_arg1) = W (Proc.devRef .tc main_arg1) := by
  unfold opsC5
  refine ⟨?_, ?_, ?_, ?_, ?_, ?_, ?_, ?_⟩ <;> after_results_simp3

end Cert.Lut3.RefOps

end
-- ==== Proof.RefC6.lean ====
/-
  Corner (dr, dg, db) = (1, 0, 1) of the eight-corner program: its operations in order, and what they compute from any
  contents W of the buffers.  The running total's buffer ends at `cornerStep 1 0 1` of the six per-channel arrays, the
  table and the previous total as W holds them; the per-channel arrays, the image and the table are not written.
-/
import proofs.«140490_j86122684220303_2_alg».proof.Proof.RefTerm
import proofs.«140490_j86122684220303_2_alg».proof.Proof.LibNary3

noncomputable section

namespace Cert.Lut3.RefOps

open Cert.ReferenceIdeal Idealize.ShloMosaic Idealize.ShloMosaic.TcCoe Idealize.SL.Sem Idealize.ShloMosaic.StableHlo
open Cert.ReferenceIdeal.Facts₀

variable {F : FTy → Type} [FloatOps F] [Cert.ReferenceIdeal.Facts]

/-- The corner's operations, in order. -/
def opsC6 : List (HloOp τ sig (Elt F)) :=
  [ nullary main_cst_79 (constant S_ .f32 0x3F800000#32),
    unary main_cst_79 main_v231 (broadcastInDim S4x1080x1920 ![] bcast_S_S4x1080x1920 : (⟨S_, .f32⟩ : BufTy).Contents (Elt F) → (⟨S4x1080x1920, .f32⟩ : BufTy).Contents (Elt F)),
    binary main_v231 main_v15 main_v232 (subf : (⟨S4x1080x1920, .f32⟩ : BufTy).Contents (Elt F) → (⟨S4x1080x1920, .f32⟩ : BufTy).Contents (Elt F) → (⟨S4x1080x1920, .f32⟩ : BufTy).Contents (Elt F)),
    nullary main_c_80 (constantI S_ 32 1#32),
    TRef.nullary (TRef.of (T := ⟨S_, .i32⟩) main_call17_c) (constantI S_ 32 0#32),
    TRef.binary (TRef.of (T := ⟨S_, .i32⟩) main_c_80) (TRef.of (T := ⟨S_, .i32⟩) main_call17_c) (TRef.of (T := ⟨S_, .i1⟩) main_call17_v0) (cmpi .ne),
    TRef.ternary (TRef.of (T := ⟨S_, .i1⟩) main_call17_v0) (TRef.of (T := ⟨S4x1080x1920, .f32⟩) main_v15) (TRef.of (T := ⟨S4x1080x1920, .f32⟩) main_v232) (TRef.of (T := ⟨S4x1080x1920, .f32⟩) main_v233) (fun p a b => select (broadcastInDim S4x1080x1920 ![] bcast_S_S4x1080x1920 p) a b),
    nullary main_cst_81 (constant S_ .f32 0x3F800000#32),
    unary main_cst_81 main_v234 (broadcastInDim S4x1080x1920 ![] bcast_S_S4x1080x1920 : (⟨S_, .f32⟩ : BufTy).Contents (Elt F) → (⟨S4x1080x1920, .f32⟩ : BufTy).Contents (Elt F)),
    binary main_v234 main_v17 main_v235 (subf : (⟨S4x1080x1920, .f32⟩ : BufTy).Contents (Elt F) → (⟨S4x1080x1920, .f32⟩ : BufTy).Contents (Elt F) → (⟨S4x1080x1920, .f32⟩ : BufTy).Contents (Elt F)),
    nullary main_c_82 (constantI S_ 32 0#32),
    TRef.nullary (TRef.of (T := ⟨S_, .i32⟩) main_call18_c) (constantI S_ 32 0#32),
    TRef.binary (TRef.of (T := ⟨S_, .i32⟩) main_c_82) (TRef.of (T := ⟨S_, .i32⟩) main_call18_c) (TRef.of (T := ⟨S_, .i1⟩) main_call18_v0) (cmpi .ne),
    TRef.ternary (TRef.of (T := ⟨S_, .i1⟩) main_call18_v0) (TRef.of (T := ⟨S4x1080x1920, .f32⟩) main_v17) (TRef.of (T := ⟨S4x1080x1920, .f32⟩) main_v235) (TRef.of (T := ⟨S4x1080x1920, .f32⟩) main_v236) (fun p a b => select (broadcastInDim S4x1080x1920 ![] bcast_S_S4x1080x1920 p) a b),
    binary main_v233 main_v236 main_v237 (mulf : (⟨S4x1080x1920, .f32⟩ : BufTy).Contents (Elt F) → (⟨S4x1080x1920, .f32⟩ : BufTy).Contents (Elt F) → (⟨S4x1080x1920, .f32⟩ : BufTy).Contents (Elt F)),
    nullary main_cst_83 (constant S_ .f32 0x3F800000#32),
    unary main_cst_83 main_v238 (broadcastInDim S4x1080x1920 ![] bcast_S_S4x1080x1920 : (⟨S_, .f32⟩ : BufTy).Contents (Elt F) → (⟨S4x1080x1920, .f32⟩ : BufTy).Contents (Elt F)),
    binary main_v238 main_v19 main_v239 (subf : (⟨S4x1080x1920, .f32⟩ : BufTy).Contents (Elt F) → (⟨S4x1080x1920, .f32⟩ : BufTy).Contents (Elt F) → (⟨S4x1080x1920, .f32⟩ : BufTy).Contents (Elt F)),
    nullary main_c_84 (constantI S_ 32 1#32),
    TRef.nullary (TRef.of (T := ⟨S_, .i32⟩) main_call19_c) (constantI S_ 32 0#32),
    TRef.binary (TRef.of (T := ⟨S_, .i32⟩) main_c_84) (TRef.of (T := ⟨S_, .i32⟩) main_call19_c) (TRef.of (T := ⟨S_, .i1⟩) main_call19_v0) (cmpi .ne),
    TRef.ternary (TRef.of (T := ⟨S_, .i1⟩) main_call19_v0) (TRef.of (T := ⟨S4x1080x1920, .f32⟩) main_v19) (TRef.of (T := ⟨S4x1080x1920, .f32⟩) main_v239) (TRef.of (T := ⟨S4x1080x1920, .f32⟩) main_v240) (fun p a b => select (broadcastInDim S4x1080x1920 ![] bcast_S_S4x1080x1920 p) a b),
    binary main_v237 main_v240 main_v241 (mulf : (⟨S4x1080x1920, .f32⟩ : BufTy).Contents (Elt F) → (⟨S4x1080x1920, .f32⟩ : BufTy).Contents (Elt F) → (⟨S4x1080x1920, .f32⟩ : BufTy).Contents (Elt F)),
    nullary main_c_85 (constantI S_ 32 1#32),
    unary main_c_85 main_v242 (broadcastInDim S4x1080x1920 ![] bcast_S_S4x1080x1920 : (⟨S_, .i32⟩ : BufTy).Contents (Elt F) → (⟨S4x1080x1920, .i32⟩ : BufTy).Contents (Elt F)),
    binary main_v13 main_v242 main_v243 (addi : (⟨S4x1080x1920, .i32⟩ : BufTy).Contents (Elt F) → (⟨S4x1080x1920, .i32⟩ : BufTy).Contents (Elt F) → (⟨S4x1080x1920, .i32⟩ : BufTy).Contents (Elt F)),
    nullary main_c_86 (constantI S_ 32 0#32),
    unary main_c_86 main_v244 (broadcastInDim S4x1080x1920 ![] bcast_S_S4x1080x1920 : (⟨S_, .i32⟩ : BufTy).Contents (Elt F) → (⟨S4x1080x1920, .i32⟩ : BufTy).Contents (Elt F)),
    binary main_v11 main_v244 main_v245 (addi : (⟨S4x1080x1920, .i32⟩ : BufTy).Contents (Elt F) → (⟨S4x1080x1920, .i32⟩ : BufTy).Contents (Elt F) → (⟨S4x1080x1920, .i32⟩ : BufTy).Contents (Elt F)),
    nullary main_c_87 (constantI S_ 32 1#32),
    unary main_c_87 main_v246 (broadcastInDim S4x1080x1920 ![] bcast_S_S4x1080x1920 : (⟨S_, .i32⟩ : BufTy).Contents (Elt F) → (⟨S4x1080x1920, .i32⟩ : BufTy).Contents (Elt F)),
    binary main_v9 main_v246 main_v247 (addi : (⟨S4x1080x1920, .i32⟩ : BufTy).Contents (Elt F) → (⟨S4x1080x1920, .i32⟩ : BufTy).Contents (Elt F) → (⟨S4x1080x1920, .i32⟩ : BufTy).Contents (Elt F)),
    nullary main_c_88 (constantI S_ 32 0#32),
    unary main_c_88 main_v248 (broadcastInDim S4x1080x1920 ![] bcast_S_S4x1080x1920 : (⟨S_, .i32⟩ : BufTy).Contents (Elt F) → (⟨S4x1080x1920, .i32⟩ : BufTy).Contents (Elt F)),
    binary main_v243 main_v248 main_v249 (cmpi .slt : (⟨S4x1080x1920, .i32⟩ : BufTy).Contents (Elt F) → (⟨S4x1080x1920, .i32⟩ : BufTy).Contents (Elt F) → (⟨S4x1080x1920, .i1⟩ : BufTy).Contents (Elt F)),
    nullary main_c_89 (constantI S_ 32 33#32),
    unary main_c_89 main_v250 (broadcastInDim S4x1080x1920 ![] bcast_S_S4x1080x1920 : (⟨S_, .i32⟩ : BufTy).Contents (Elt F) → (⟨S4x1080x1920, .i32⟩ : BufTy).Contents (Elt F)),
    binary main_v243 main_v250 main_v251 (addi : (⟨S4x1080x1920, .i32⟩ : BufTy).Contents (Elt F) → (⟨S4x1080x1920, .i32⟩ : BufTy).Contents (Elt F) → (⟨S4x1080x1920, .i32⟩ : BufTy).Contents (Elt F)),
    ternary main_v249 main_v251 main_v243 main_v252 (select : (⟨S4x1080x1920, .i1⟩ : BufTy).Contents (Elt F) → (⟨S4x1080x1920, .i32⟩ : BufTy).Contents (Elt F) → (⟨S4x1080x1920, .i32⟩ : BufTy).Contents (Elt F) → (⟨S4x1080x1920, .i32⟩ : BufTy).Contents (Elt F)),
    nullary main_c_90 (constantI S_ 32 0#32),
    unary main_c_90 main_v253 (broadcastInDim S4x1080x1920 ![] bcast_S_S4x1080x1920 : (⟨S_, .i32⟩ : BufTy).Contents (Elt F) → (⟨S4x1080x1920, .i32⟩ : BufTy).Contents (Elt F)),
    binary main_v245 main_v253 main_v254 (cmpi .slt : (⟨S4x1080x1920, .i32⟩ : BufTy).Contents (Elt F) → (⟨S4x1080x1920, .i32⟩ : BufTy).Contents (Elt F) → (⟨S4x1080x1920, .i1⟩ : BufTy).Contents (Elt F)),
    nullary main_c_91 (constantI S_ 32 33#32),
    unary main_c_91 main_v255 (broadcastInDim S4x1080x1920 ![] bcast_S_S4x1080x1920 : (⟨S_, .i32⟩ : BufTy).Contents (Elt F) → (⟨S4x1080x1920, .i32⟩ : BufTy).Contents (Elt F)),
    binary main_v245 main_v255 main_v256 (addi : (⟨S4x1080x1920, .i32⟩ : BufTy).Contents (Elt F) → (⟨S4x1080x1920, .i32⟩ : BufTy).Contents (Elt F) → (⟨S4x1080x1920, .i32⟩ : BufTy).Contents (Elt F)),
    ternary main_v254 main_v256 main_v245 main_v257 (select : (⟨S4x1080x1920, .i1⟩ : BufTy).Contents (Elt F) → (⟨S4x1080x1920, .i32⟩ : BufTy).Contents (Elt F) → (⟨S4x1080x1920, .i32⟩ : BufTy).Contents (Elt F) → (⟨S4x1080x1920, .i32⟩ : BufTy).Contents (Elt F)),
    nullary main_c_92 (constantI S_ 32 0#32),
    unary main_c_92 main_v258 (broadcastInDim S4x1080x1920 ![] bcast_S_S4x1080x1920 : (⟨S_, .i32⟩ : BufTy).Contents (Elt F) → (⟨S4x1080x1920, .i32⟩ : BufTy).Contents (Elt F)),
    binary main_v247 main_v258 main_v259 (cmpi .slt : (⟨S4x1080x1920, .i32⟩ : BufTy).Contents (Elt F) → (⟨S4x1080x1920, .i32⟩ : BufTy).Contents (Elt F) → (⟨S4x1080x1920, .i1⟩ : BufTy).Contents (Elt F)),
    nullary main_c_93 (constantI S_ 32 33#32),
    unary main_c_93 main_v260 (broadcastInDim S4x1080x1920 ![] bcast_S_S4x1080x1920 : (⟨S_, .i32⟩ : BufTy).Contents (Elt F) → (⟨S4x1080x1920, .i32⟩ : BufTy).Contents (Elt F)),
    binary main_v247 main_v260 main_v261 (addi : (⟨S4x1080x1920, .i32⟩ : BufTy).Contents (Elt F) → (⟨S4x1080x1920, .i32⟩ : BufTy).Contents (Elt F) → (⟨S4x1080x1920, .i32⟩ : BufTy).Contents (Elt F)),
    ternary main_v259 main_v261 main_v247 main_v262 (select : (⟨S4x1080x1920, .i1⟩ : BufTy).Contents (Elt F) → (⟨S4x1080x1920, .i32⟩ : BufTy).Contents (Elt F) → (⟨S4x1080x1920, .i32⟩ : BufTy).Contents (Elt F) → (⟨S4x1080x1920, .i32⟩ : BufTy).Contents (Elt F)),
    unary main_v252 main_v263 (broadcastInDim S4x1080x1920x1 ![0, 1, 2] bcast_S4x1080x1920_S4x1080x1920x1_0_1_2 : (⟨S4x1080x1920, .i32⟩ : BufTy).Contents (Elt F) → (⟨S4x1080x1920x1, .i32⟩ : BufTy).Contents (Elt F)),
    unary main_v257 main_v264 (broadcastInDim S4x1080x1920x1 ![0, 1, 2] bcast_S4x1080x1920_S4x1080x1920x1_0_1_2 : (⟨S4x1080x1920, .i32⟩ : BufTy).Contents (Elt F) → (⟨S4x1080x1920x1, .i32⟩ : BufTy).Contents (Elt F)),
    unary main_v262 main_v265 (broadcastInDim S4x1080x1920x1 ![0, 1, 2] bcast_S4x1080x1920_S4x1080x1920x1_0_1_2 : (⟨S4x1080x1920, .i32⟩ : BufTy).Contents (Elt F) → (⟨S4x1080x1920x1, .i32⟩ : BufTy).Contents (Elt F)),
    nary ![main_v263, main_v264, main_v265] main_v266 (fun u => concatenate S4x1080x1920x3 3 [⟨S4x1080x1920x1, u 0⟩, ⟨S4x1080x1920x1, u 1⟩, ⟨S4x1080x1920x1, u 2⟩] concatenates_S4x1080x1920x1_S4x1080x1920x1_S4x1080x1920x1_S4x1080x1920x3_d3),
    binary main_arg1 main_v266 main_v267 ((fun x i => Host.gather gather_S3x33x33x33_S4x1080x1920x3_S3x4x1080x1920_0_123_n_n_123_3_3111 x i) : (⟨S3x33x33x33, .f32⟩ : BufTy).Contents (Elt F) → (⟨S4x1080x1920x3, .i32⟩ : BufTy).Contents (Elt F) → (⟨S3x4x1080x1920, .f32⟩ : BufTy).Contents (Elt F)),
    unary main_v241 main_v268 (broadcastInDim S4x1x1080x1920 ![0, 2, 3] bcast_S4x1080x1920_S4x1x1080x1920_0_2_3 : (⟨S4x1080x1920, .f32⟩ : BufTy).Contents (Elt F) → (⟨S4x1x1080x1920, .f32⟩ : BufTy).Contents (Elt F)),
    unary main_v267 main_v269 ((transpose S4x3x1080x1920 [1, 0, 2, 3] · transposes_S3x4x1080x1920_S4x3x1080x1920_1_0_2_3) : (⟨S3x4x1080x1920, .f32⟩ : BufTy).Contents (Elt F) → (⟨S4x3x1080x1920, .f32⟩ : BufTy).Contents (Elt F)),
    unary main_v268 main_v270 (broadcastInDim S4x3x1080x1920 ![0, 1, 2, 3] bcast_S4x1x1080x1920_S4x3x1080x1920_0_1_2_3 : (⟨S4x1x1080x1920, .f32⟩ : BufTy).Contents (Elt F) → (⟨S4x3x1080x1920, .f32⟩ : BufTy).Contents (Elt F)),
    binary main_v270 main_v269 main_v271 (mulf : (⟨S4x3x1080x1920, .f32⟩ : BufTy).Contents (Elt F) → (⟨S4x3x1080x1920, .f32⟩ : BufTy).Contents (Elt F) → (⟨S4x3x1080x1920, .f32⟩ : BufTy).Contents (Elt F)),
    binary main_v230 main_v271 main_v272 (addf : (⟨S4x3x1080x1920, .f32⟩ : BufTy).Contents (Elt F) → (⟨S4x3x1080x1920, .f32⟩ : BufTy).Contents (Elt F) → (⟨S4x3x1080x1920, .f32⟩ : BufTy).Contents (Elt F)) ]

set_option maxHeartbeats 4000000 in
/-- The running total after the corner. -/
theorem c6_out (W : Valuation τ sig (Elt Ideal)) :
    after (opsC6 (F := Ideal)) W (Proc.devRef .tc main_v272)
      = RefTerm.cornerStep 1#32 0#32 1#32 (W (Proc.devRef .tc main_v9)) (W (Proc.devRef .tc main_v11)) (W (Proc.devRef .tc main_v13))
          (W (Proc.devRef .tc main_v15)) (W (Proc.devRef .tc main_v17)) (W (Proc.devRef .tc main_v19)) (W (Proc.devRef .tc main_arg1)) (W (Proc.devRef .tc main_v230)) := by
  unfold opsC6
  after_results_simp3
  rfl

set_option maxHeartbeats 4000000 in
/-- The arrays the later corners and the result's frame read are not written. -/
theorem c6_keep (W : Valuation τ sig (Elt Ideal)) :
    after (opsC6 (F := Ideal)) W (Proc.devRef .tc main_v9) = W (Proc.devRef .tc main_v9)
    ∧ after (opsC6 (F := Ideal)) W (Proc.devRef .tc main_v11) = W (Proc.devRef .tc main_v11)
    ∧ after (opsC6 (F := Ideal)) W (Proc.devRef .tc main_v13) = W (Proc.devRef .tc main_v13)
    ∧ after (opsC6 (F := Ideal)) W (Proc.devRef .tc main_v15) = W (Proc.devRef .tc main_v15)
    ∧ after (opsC6 (F := Ideal)) W (Proc.devRef .tc main_v17) = W (Proc.devRef .tc main_v17)
    ∧ after (opsC6 (F := Ideal)) W (Proc.devRef .tc main_v19) = W (Proc.devRef .tc main_v19)
    ∧ after (opsC6 (F := Ideal)) W (Proc.devRef .tc main_arg0) = W (Proc.devRef .tc main_arg0)
    ∧ after (opsC6 (F := Ideal)) W (Proc.devRef .tc main_arg1) = W (Proc.devRef .tc main_arg1) := by
  unfold opsC6
  refine ⟨?_, ?_, ?_, ?_, ?_, ?_, ?_, ?_⟩ <;> after_results_simp3

end Cert.Lut3.RefOps

end
-- ==== Proof.RefC7.lean ====
/-
  Corner (dr, dg, db) = (1, 1, 0) of the eight-corner program: its operations in order, and what they compute from any
  contents W of the buffers.  The running total's buffer ends at `cornerStep 1 1 0` of the six per-channel arrays, the
  table and the previous total as W holds them; the per-channel arrays, the image and the table are not written.
-/
import proofs.«140490_j86122684220303_2_alg».proof.Proof.RefTerm
import proofs.«140490_j86122684220303_2_alg».proof.Proof.LibNary3

noncomputable section

namespace Cert.Lut3.RefOps

open Cert.ReferenceIdeal Idealize.ShloMosaic Idealize.ShloMosaic.TcCoe Idealize.SL.Sem Idealize.ShloMosaic.StableHlo
open Cert.ReferenceIdeal.Facts₀

variable {F : FTy → Type} [FloatOps F] [Cert.ReferenceIdeal.Facts]

/-- The corner's operations, in order. -/
def opsC7 : List (HloOp τ sig (Elt F)) :=
  [ nullary main_cst_94 (constant S_ .f32 0x3F800000#32),
    unary main_cst_94 main_v273 (broadcastInDim S4x1080x1920 ![] bcast_S_S4x1080x1920 : (⟨S_, .f32⟩ : BufTy).Contents (Elt F) → (⟨S4x1080x1920, .f32⟩ : BufTy).Contents (Elt F)),
    binary main_v273 main_v15 main_v274 (subf : (⟨S4x1080x1920, .f32⟩ : BufTy).Contents (Elt F) → (⟨S4x1080x1920, .f32⟩ : BufTy).Contents (Elt F) → (⟨S4x1080x1920, .f32⟩ : BufTy).Contents (Elt F)),
    nullary main_c_95 (constantI S_ 32 1#32),
    TRef.nullary (TRef.of (T := ⟨S_, .i32⟩) main_call20_c) (constantI S_ 32 0#32),
    TRef.binary (TRef.of (T := ⟨S_, .i32⟩) main_c_95) (TRef.of (T := ⟨S_, .i32⟩) main_call20_c) (TRef.of (T := ⟨S_, .i1⟩) main_call20_v0) (cmpi .ne),
    TRef.ternary (TRef.of (T := ⟨S_, .i1⟩) main_call20_v0) (TRef.of (T := ⟨S4x1080x1920, .f32⟩) main_v15) (TRef.of (T := ⟨S4x1080x1920, .f32⟩) main_v274) (TRef.of (T := ⟨S4x1080x1920, .f32⟩) main_v275) (fun p a b => select (broadcastInDim S4x1080x1920 ![] bcast_S_S4x1080x1920 p) a b),
    nullary main_cst_96 (constant S_ .f32 0x3F800000#32),
    unary main_cst_96 main_v276 (broadcastInDim S4x1080x1920 ![] bcast_S_S4x1080x1920 : (⟨S_, .f32⟩ : BufTy).Contents (Elt F) → (⟨S4x1080x1920, .f32⟩ : BufTy).Contents (Elt F)),
    binary main_v276 main_v17 main_v277 (subf : (⟨S4x1080x1920, .f32⟩ : BufTy).Contents (Elt F) → (⟨S4x1080x1920, .f32⟩ : BufTy).Contents (Elt F) → (⟨S4x1080x1920, .f32⟩ : BufTy).Contents (Elt F)),
    nullary main_c_97 (constantI S_ 32 1#32),
    TRef.nullary (TRef.of (T := ⟨S_, .i32⟩) main_call21_c) (constantI S_ 32 0#32),
    TRef.binary (TRef.of (T := ⟨S_, .i32⟩) main_c_97) (TRef.of (T := ⟨S_, .i32⟩) main_call21_c) (TRef.of (T := ⟨S_, .i1⟩) main_call21_v0) (cmpi .ne),
    TRef.ternary (TRef.of (T := ⟨S_, .i1⟩) main_call21_v0) (TRef.of (T := ⟨S4x1080x1920, .f32⟩) main_v17) (TRef.of (T := ⟨S4x1080x1920, .f32⟩) main_v277) (TRef.of (T := ⟨S4x1080x1920, .f32⟩) main_v278) (fun p a b => select (broadcastInDim S4x1080x1920 ![] bcast_S_S4x1080x1920 p) a b),
    binary main_v275 main_v278 main_v279 (mulf : (⟨S4x1080x1920, .f32⟩ : BufTy).Contents (Elt F) → (⟨S4x1080x1920, .f32⟩ : BufTy).Contents (Elt F) → (⟨S4x1080x1920, .f32⟩ : BufTy).Contents (Elt F)),
    nullary main_cst_98 (constant S_ .f32 0x3F800000#32),
    unary main_cst_98 main_v280 (broadcastInDim S4x1080x1920 ![] bcast_S_S4x1080x1920 : (⟨S_, .f32⟩ : BufTy).Contents (Elt F) → (⟨S4x1080x1920, .f32⟩ : BufTy).Contents (Elt F)),
    binary main_v280 main_v19 main_v281 (subf : (⟨S4x1080x1920, .f32⟩ : BufTy).Contents (Elt F) → (⟨S4x1080x1920, .f32⟩ : BufTy).Contents (Elt F) → (⟨S4x1080x1920, .f32⟩ : BufTy).Contents (Elt F)),
    nullary main_c_99 (constantI S_ 32 0#32),
    TRef.nullary (TRef.of (T := ⟨S_, .i32⟩) main_call22_c) (constantI S_ 32 0#32),
    TRef.binary (TRef.of (T := ⟨S_, .i32⟩) main_c_99) (TRef.of (T := ⟨S_, .i32⟩) main_call22_c) (TRef.of (T := ⟨S_, .i1⟩) main_call22_v0) (cmpi .ne),
    TRef.ternary (TRef.of (T := ⟨S_, .i1⟩) main_call22_v0) (TRef.of (T := ⟨S4x1080x1920, .f32⟩) main_v19) (TRef.of (T := ⟨S4x1080x1920, .f32⟩) main_v281) (TRef.of (T := ⟨S4x1080x1920, .f32⟩) main_v282) (fun p a b => select (broadcastInDim S4x1080x1920 ![] bcast_S_S4x1080x1920 p) a b),
    binary main_v279 main_v282 main_v283 (mulf : (⟨S4x1080x1920, .f32⟩ : BufTy).Contents (Elt F) → (⟨S4x1080x1920, .f32⟩ : BufTy).Contents (Elt F) → (⟨S4x1080x1920, .f32⟩ : BufTy).Contents (Elt F)),
    nullary main_c_100 (constantI S_ 32 0#32),
    unary main_c_100 main_v284 (broadcastInDim S4x1080x1920 ![] bcast_S_S4x1080x1920 : (⟨S_, .i32⟩ : BufTy).Contents (Elt F) → (⟨S4x1080x1920, .i32⟩ : BufTy).Contents (Elt F)),
    binary main_v13 main_v284 main_v285 (addi : (⟨S4x1080x1920, .i32⟩ : BufTy).Contents (Elt F) → (⟨S4x1080x1920, .i32⟩ : BufTy).Contents (Elt F) → (⟨S4x1080x1920, .i32⟩ : BufTy).Contents (Elt F)),
    nullary main_c_101 (constantI S_ 32 1#32),
    unary main_c_101 main_v286 (broadcastInDim S4x1080x1920 ![] bcast_S_S4x1080x1920 : (⟨S_, .i32⟩ : BufTy).Contents (Elt F) → (⟨S4x1080x1920, .i32⟩ : BufTy).Contents (Elt F)),
    binary main_v11 main_v286 main_v287 (addi : (⟨S4x1080x1920, .i32⟩ : BufTy).Contents (Elt F) → (⟨S4x1080x1920, .i32⟩ : BufTy).Contents (Elt F) → (⟨S4x1080x1920, .i32⟩ : BufTy).Contents (Elt F)),
    nullary main_c_102 (constantI S_ 32 1#32),
    unary main_c_102 main_v288 (broadcastInDim S4x1080x1920 ![] bcast_S_S4x1080x1920 : (⟨S_, .i32⟩ : BufTy).Contents (Elt F) → (⟨S4x1080x1920, .i32⟩ : BufTy).Contents (Elt F)),
    binary main_v9 main_v288 main_v289 (addi : (⟨S4x1080x1920, .i32⟩ : BufTy).Contents (Elt F) → (⟨S4x1080x1920, .i32⟩ : BufTy).Contents (Elt F) → (⟨S4x1080x1920, .i32⟩ : BufTy).Contents (Elt F)),
    nullary main_c_103 (constantI S_ 32 0#32),
    unary main_c_103 main_v290 (broadcastInDim S4x1080x1920 ![] bcast_S_S4x1080x1920 : (⟨S_, .i32⟩ : BufTy).Contents (Elt F) → (⟨S4x1080x1920, .i32⟩ : BufTy).Contents (Elt F)),
    binary main_v285 main_v290 main_v291 (cmpi .slt : (⟨S4x1080x1920, .i32⟩ : BufTy).Contents (Elt F) → (⟨S4x1080x1920, .i32⟩ : BufTy).Contents (Elt F) → (⟨S4x1080x1920, .i1⟩ : BufTy).Contents (Elt F)),
    nullary main_c_104 (constantI S_ 32 33#32),
    unary main_c_104 main_v292 (broadcastInDim S4x1080x1920 ![] bcast_S_S4x1080x1920 : (⟨S_, .i32⟩ : BufTy).Contents (Elt F) → (⟨S4x1080x1920, .i32⟩ : BufTy).Contents (Elt F)),
    binary main_v285 main_v292 main_v293 (addi : (⟨S4x1080x1920, .i32⟩ : BufTy).Contents (Elt F) → (⟨S4x1080x1920, .i32⟩ : BufTy).Contents (Elt F) → (⟨S4x1080x1920, .i32⟩ : BufTy).Contents (Elt F)),
    ternary main_v291 main_v293 main_v285 main_v294 (select : (⟨S4x1080x1920, .i1⟩ : BufTy).Contents (Elt F) → (⟨S4x1080x1920, .i32⟩ : BufTy).Contents (Elt F) → (⟨S4x1080x1920, .i32⟩ : BufTy).Contents (Elt F) → (⟨S4x1080x1920, .i32⟩ : BufTy).Contents (Elt F)),
    nullary main_c_105 (constantI S_ 32 0#32),
    unary main_c_105 main_v295 (broadcastInDim S4x1080x1920 ![] bcast_S_S4x1080x1920 : (⟨S_, .i32⟩ : BufTy).Contents (Elt F) → (⟨S4x1080x1920, .i32⟩ : BufTy).Contents (Elt F)),
    binary main_v287 main_v295 main_v296 (cmpi .slt : (⟨S4x1080x1920, .i32⟩ : BufTy).Contents (Elt F) → (⟨S4x1080x1920, .i32⟩ : BufTy).Contents (Elt F) → (⟨S4x1080x1920, .i1⟩ : BufTy).Contents (Elt F)),
    nullary main_c_106 (constantI S_ 32 33#32),
    unary main_c_106 main_v297 (broadcastInDim S4x1080x1920 ![] bcast_S_S4x1080x1920 : (⟨S_, .i32⟩ : BufTy).Contents (Elt F) → (⟨S4x1080x1920, .i32⟩ : BufTy).Contents (Elt F)),
    binary main_v287 main_v297 main_v298 (addi : (⟨S4x1080x1920, .i32⟩ : BufTy).Contents (Elt F) → (⟨S4x1080x1920, .i32⟩ : BufTy).Contents (Elt F) → (⟨S4x1080x1920, .i32⟩ : BufTy).Contents (Elt F)),
    ternary main_v296 main_v298 main_v287 main_v299 (select : (⟨S4x1080x1920, .i1⟩ : BufTy).Contents (Elt F) → (⟨S4x1080x1920, .i32⟩ : BufTy).Contents (Elt F) → (⟨S4x1080x1920, .i32⟩ : BufTy).Contents (Elt F) → (⟨S4x1080x1920, .i32⟩ : BufTy).Contents (Elt F)),
    nullary main_c_107 (constantI S_ 32 0#32),
    unary main_c_107 main_v300 (broadcastInDim S4x1080x1920 ![] bcast_S_S4x1080x1920 : (⟨S_, .i32⟩ : BufTy).Contents (Elt F) → (⟨S4x1080x1920, .i32⟩ : BufTy).Contents (Elt F)),
    binary main_v289 main_v300 main_v301 (cmpi .slt : (⟨S4x1080x1920, .i32⟩ : BufTy).Contents (Elt F) → (⟨S4x1080x1920, .i32⟩ : BufTy).Contents (Elt F) → (⟨S4x1080x1920, .i1⟩ : BufTy).Contents (Elt F)),
    nullary main_c_108 (constantI S_ 32 33#32),
    unary main_c_108 main_v302 (broadcastInDim S4x1080x1920 ![] bcast_S_S4x1080x1920 : (⟨S_, .i32⟩ : BufTy).Contents (Elt F) → (⟨S4x1080x1920, .i32⟩ : BufTy).Contents (Elt F)),
    binary main_v289 main_v302 main_v303 (addi : (⟨S4x1080x1920, .i32⟩ : BufTy).Contents (Elt F) → (⟨S4x1080x1920, .i32⟩ : BufTy).Contents (Elt F) → (⟨S4x1080x1920, .i32⟩ : BufTy).Contents (Elt F)),
    ternary main_v301 main_v303 main_v289 main_v304 (select : (⟨S4x1080x1920, .i1⟩ : BufTy).Contents (Elt F) → (⟨S4x1080x1920, .i32⟩ : BufTy).Contents (Elt F) → (⟨S4x1080x1920, .i32⟩ : BufTy).Contents (Elt F) → (⟨S4x1080x1920, .i32⟩ : BufTy).Contents (Elt F)),
    unary main_v294 main_v305 (broadcastInDim S4x1080x1920x1 ![0, 1, 2] bcast_S4x1080x1920_S4x1080x1920x1_0_1_2 : (⟨S4x1080x1920, .i32⟩ : BufTy).Contents (Elt F) → (⟨S4x1080x1920x1, .i32⟩ : BufTy).Contents (Elt F)),
    unary main_v299 main_v306 (broadcastInDim S4x1080x1920x1 ![0, 1, 2] bcast_S4x1080x1920_S4x1080x1920x1_0_1_2 : (⟨S4x1080x1920, .i32⟩ : BufTy).Contents (Elt F) → (⟨S4x1080x1920x1, .i32⟩ : BufTy).Contents (Elt F)),
    unary main_v304 main_v307 (broadcastInDim S4x1080x1920x1 ![0, 1, 2] bcast_S4x1080x1920_S4x1080x1920x1_0_1_2 : (⟨S4x1080x1920, .i32⟩ : BufTy).Contents (Elt F) → (⟨S4x1080x1920x1, .i32⟩ : BufTy).Contents (Elt F)),
    nary ![main_v305, main_v306, main_v307] main_v308 (fun u => concatenate S4x1080x1920x3 3 [⟨S4x1080x1920x1, u 0⟩, ⟨S4x1080x1920x1, u 1⟩, ⟨S4x1080x1920x1, u 2⟩] concatenates_S4x1080x1920x1_S4x1080x1920x1_S4x1080x1920x1_S4x1080x1920x3_d3),
    binary main_arg1 main_v308 main_v309 ((fun x i => Host.gather gather_S3x33x33x33_S4x1080x1920x3_S3x4x1080x1920_0_123_n_n_123_3_3111 x i) : (⟨S3x33x33x33, .f32⟩ : BufTy).Contents (Elt F) → (⟨S4x1080x1920x3, .i32⟩ : BufTy).Contents (Elt F) → (⟨S3x4x1080x1920, .f32⟩ : BufTy).Contents (Elt F)),
    unary main_v283 main_v310 (broadcastInDim S4x1x1080x1920 ![0, 2, 3] bcast_S4x1080x1920_S4x1x1080x1920_0_2_3 : (⟨S4x1080x1920, .f32⟩ : BufTy).Contents (Elt F) → (⟨S4x1x1080x1920, .f32⟩ : BufTy).Contents (Elt F)),
    unary main_v309 main_v311 ((transpose S4x3x1080x1920 [1, 0, 2, 3] · transposes_S3x4x1080x1920_S4x3x1080x1920_1_0_2_3) : (⟨S3x4x1080x1920, .f32⟩ : BufTy).Contents (Elt F) → (⟨S4x3x1080x1920, .f32⟩ : BufTy).Contents (Elt F)),
    unary main_v310 main_v312 (broadcastInDim S4x3x1080x1920 ![0, 1, 2, 3] bcast_S4x1x1080x1920_S4x3x1080x1920_0_1_2_3 : (⟨S4x1x1080x1920, .f32⟩ : BufTy).Contents (Elt F) → (⟨S4x3x1080x1920, .f32⟩ : BufTy).Contents (Elt F)),
    binary main_v312 main_v311 main_v313 (mulf : (⟨S4x3x1080x1920, .f32⟩ : BufTy).Contents (Elt F) → (⟨S4x3x1080x1920, .f32⟩ : BufTy).Contents (Elt F) → (⟨S4x3x1080x1920, .f32⟩ : BufTy).Contents (Elt F)),
    binary main_v272 main_v313 main_v314 (addf : (⟨S4x3x1080x1920, .f32⟩ : BufTy).Contents (Elt F) → (⟨S4x3x1080x1920, .f32⟩ : BufTy).Contents (Elt F) → (⟨S4x3x1080x1920, .f32⟩ : BufTy).Contents (Elt F)) ]

set_option maxHeartbeats 4000000 in
/-- The running total after the corner. -/
theorem c7_out (W : Valuation τ sig (Elt Ideal)) :
    after (opsC7 (F := Ideal)) W (Proc.devRef .tc main_v314)
      = RefTerm.cornerStep 1#32 1#32 0#32 (W (Proc.devRef .tc main_v9)) (W (Proc.devRef .tc main_v11)) (W (Proc.devRef .tc main_v13))
          (W (Proc.devRef .tc main_v15)) (W (Proc.devRef .tc main_v17)) (W (Proc.devRef .tc main_v19)) (W (Proc.devRef .tc main_arg1)) (W (Proc.devRef .tc main_v272)) := by
  unfold opsC7
  after_results_simp3
  rfl

set_option maxHeartbeats 4000000 in
/-- The arrays the later corners and the result's frame read are not written. -/
theorem c7_keep (W : Valuation τ sig (Elt Ideal)) :
    after (opsC7 (F := Ideal)) W (Proc.devRef .tc main_v9) = W (Proc.devRef .tc main_v9)
    ∧ after (opsC7 (F := Ideal)) W (Proc.devRef .tc main_v11) = W (Proc.devRef .tc main_v11)
    ∧ after (opsC7 (F := Ideal)) W (Proc.devRef .tc main_v13) = W (Proc.devRef .tc main_v13)
    ∧ after (opsC7 (F := Ideal)) W (Proc.devRef .tc main_v15) = W (Proc.devRef .tc main_v15)
    ∧ after (opsC7 (F := Ideal)) W (Proc.devRef .tc main_v17) = W (Proc.devRef .tc main_v17)
    ∧ after (opsC7 (F := Ideal)) W (Proc.devRef .tc main_v19) = W (Proc.devRef .tc main_v19)
    ∧ after (opsC7 (F := Ideal)) W (Proc.devRef .tc main_arg0) = W (Proc.devRef .tc main_arg0)
    ∧ after (opsC7 (F := Ideal)) W (Proc.devRef .tc main_arg1) = W (Proc.devRef .tc main_arg1) := by
  unfold opsC7
  refine ⟨?_, ?_, ?_, ?_, ?_, ?_, ?_, ?_⟩ <;> after_results_simp3

end Cert.Lut3.RefOps

end
-- ==== Proof.RefC8.lean ====
/-
  Corner (dr, dg, db) = (1, 1, 1) of the eight-corner program: its operations in order, and what they compute from any
  contents W of the buffers.  The running total's buffer ends at `cornerStep 1 1 1` of the six per-channel arrays, the
  table and the previous total as W holds them; the per-channel arrays, the image and the table are not written.
-/
import proofs.«140490_j86122684220303_2_alg».proof.Proof.RefTerm
import proofs.«140490_j86122684220303_2_alg».proof.Proof.LibNary3

noncomputable section

namespace Cert.Lut3.RefOps

open Cert.ReferenceIdeal Idealize.ShloMosaic Idealize.ShloMosaic.TcCoe Idealize.SL.Sem Idealize.ShloMosaic.StableHlo
open Cert.ReferenceIdeal.Facts₀

variable {F : FTy → Type} [FloatOps F] [Cert.ReferenceIdeal.Facts]

/-- The corner's operations, in order. -/
def opsC8 : List (HloOp τ sig (Elt F)) :=
  [ nullary main_cst_109 (constant S_ .f32 0x3F800000#32),
    unary main_cst_109 main_v315 (broadcastInDim S4x1080x1920 ![] bcast_S_S4x1080x1920 : (⟨S_, .f32⟩ : BufTy).Contents (Elt F) → (⟨S4x1080x1920, .f32⟩ : BufTy).Contents (Elt F)),
    binary main_v315 main_v15 main_v316 (subf : (⟨S4x1080x1920, .f32⟩ : BufTy).Contents (Elt F) → (⟨S4x1080x1920, .f32⟩ : BufTy).Contents (Elt F) → (⟨S4x1080x1920, .f32⟩ : BufTy).Contents (Elt F)),
    nullary main_c_110 (constantI S_ 32 1#32),
    TRef.nullary (TRef.of (T := ⟨S_, .i32⟩) main_call23_c) (constantI S_ 32 0#32),
    TRef.binary (TRef.of (T := ⟨S_, .i32⟩) main_c_110) (TRef.of (T := ⟨S_, .i32⟩) main_call23_c) (TRef.of (T := ⟨S_, .i1⟩) main_call23_v0) (cmpi .ne),
    TRef.ternary (TRef.of (T := ⟨S_, .i1⟩) main_call23_v0) (TRef.of (T := ⟨S4x1080x1920, .f32⟩) main_v15) (TRef.of (T := ⟨S4x1080x1920, .f32⟩) main_v316) (TRef.of (T := ⟨S4x1080x1920, .f32⟩) main_v317) (fun p a b => select (broadcastInDim S4x1080x1920 ![] bcast_S_S4x1080x1920 p) a b),
    nullary main_cst_111 (constant S_ .f32 0x3F800000#32),
    unary main_cst_111 main_v318 (broadcastInDim S4x1080x1920 ![] bcast_S_S4x1080x1920 : (⟨S_, .f32⟩ : BufTy).Contents (Elt F) → (⟨S4x1080x1920, .f32⟩ : BufTy).Contents (Elt F)),
    binary main_v318 main_v17 main_v319 (subf : (⟨S4x1080x1920, .f32⟩ : BufTy).Contents (Elt F) → (⟨S4x1080x1920, .f32⟩ : BufTy).Contents (Elt F) → (⟨S4x1080x1920, .f32⟩ : BufTy).Contents (Elt F)),
    nullary main_c_112 (constantI S_ 32 1#32),
    TRef.nullary (TRef.of (T := ⟨S_, .i32⟩) main_call24_c) (constantI S_ 32 0#32),
    TRef.binary (TRef.of (T := ⟨S_, .i32⟩) main_c_112) (TRef.of (T := ⟨S_, .i32⟩) main_call24_c) (TRef.of (T := ⟨S_, .i1⟩) main_call24_v0) (cmpi .ne),
    TRef.ternary (TRef.of (T := ⟨S_, .i1⟩) main_call24_v0) (TRef.of (T := ⟨S4x1080x1920, .f32⟩) main_v17) (TRef.of (T := ⟨S4x1080x1920, .f32⟩) main_v319) (TRef.of (T := ⟨S4x1080x1920, .f32⟩) main_v320) (fun p a b => select (broadcastInDim S4x1080x1920 ![] bcast_S_S4x1080x1920 p) a b),
    binary main_v317 main_v320 main_v321 (mulf : (⟨S4x1080x1920, .f32⟩ : BufTy).Contents (Elt F) → (⟨S4x1080x1920, .f32⟩ : BufTy).Contents (Elt F) → (⟨S4x1080x1920, .f32⟩ : BufTy).Contents (Elt F)),
    nullary main_cst_113 (constant S_ .f32 0x3F800000#32),
    unary main_cst_113 main_v322 (broadcastInDim S4x1080x1920 ![] bcast_S_S4x1080x1920 : (⟨S_, .f32⟩ : BufTy).Contents (Elt F) → (⟨S4x1080x1920, .f32⟩ : BufTy).Contents (Elt F)),
    binary main_v322 main_v19 main_v323 (subf : (⟨S4x1080x1920, .f32⟩ : BufTy).Contents (Elt F) → (⟨S4x1080x1920, .f32⟩ : BufTy).Contents (Elt F) → (⟨S4x1080x1920, .f32⟩ : BufTy).Contents (Elt F)),
    nullary main_c_114 (constantI S_ 32 1#32),
    TRef.nullary (TRef.of (T := ⟨S_, .i32⟩) main_call25_c) (constantI S_ 32 0#32),
    TRef.binary (TRef.of (T := ⟨S_, .i32⟩) main_c_114) (TRef.of (T := ⟨S_, .i32⟩) main_call25_c) (TRef.of (T := ⟨S_, .i1⟩) main_call25_v0) (cmpi .ne),
    TRef.ternary (TRef.of (T := ⟨S_, .i1⟩) main_call25_v0) (TRef.of (T := ⟨S4x1080x1920, .f32⟩) main_v19) (TRef.of (T := ⟨S4x1080x1920, .f32⟩) main_v323) (TRef.of (T := ⟨S4x1080x1920, .f32⟩) main_v324) (fun p a b => select (broadcastInDim S4x1080x1920 ![] bcast_S_S4x1080x1920 p) a b),
    binary main_v321 main_v324 main_v325 (mulf : (⟨S4x1080x1920, .f32⟩ : BufTy).Contents (Elt F) → (⟨S4x1080x1920, .f32⟩ : BufTy).Contents (Elt F) → (⟨S4x1080x1920, .f32⟩ : BufTy).Contents (Elt F)),
    nullary main_c_115 (constantI S_ 32 1#32),
    unary main_c_115 main_v326 (broadcastInDim S4x1080x1920 ![] bcast_S_S4x1080x1920 : (⟨S_, .i32⟩ : BufTy).Contents (Elt F) → (⟨S4x1080x1920, .i32⟩ : BufTy).Contents (Elt F)),
    binary main_v13 main_v326 main_v327 (addi : (⟨S4x1080x1920, .i32⟩ : BufTy).Contents (Elt F) → (⟨S4x1080x1920, .i32⟩ : BufTy).Contents (Elt F) → (⟨S4x1080x1920, .i32⟩ : BufTy).Contents (Elt F)),
    nullary main_c_116 (constantI S_ 32 1#32),
    unary main_c_116 main_v328 (broadcastInDim S4x1080x1920 ![] bcast_S_S4x1080x1920 : (⟨S_, .i32⟩ : BufTy).Contents (Elt F) → (⟨S4x1080x1920, .i32⟩ : BufTy).Contents (Elt F)),
    binary main_v11 main_v328 main_v329 (addi : (⟨S4x1080x1920, .i32⟩ : BufTy).Contents (Elt F) → (⟨S4x1080x1920, .i32⟩ : BufTy).Contents (Elt F) → (⟨S4x1080x1920, .i32⟩ : BufTy).Contents (Elt F)),
    nullary main_c_117 (constantI S_ 32 1#32),
    unary main_c_117 main_v330 (broadcastInDim S4x1080x1920 ![] bcast_S_S4x1080x1920 : (⟨S_, .i32⟩ : BufTy).Contents (Elt F) → (⟨S4x1080x1920, .i32⟩ : BufTy).Contents (Elt F)),
    binary main_v9 main_v330 main_v331 (addi : (⟨S4x1080x1920, .i32⟩ : BufTy).Contents (Elt F) → (⟨S4x1080x1920, .i32⟩ : BufTy).Contents (Elt F) → (⟨S4x1080x1920, .i32⟩ : BufTy).Contents (Elt F)),
    nullary main_c_118 (constantI S_ 32 0#32),
    unary main_c_118 main_v332 (broadcastInDim S4x1080x1920 ![] bcast_S_S4x1080x1920 : (⟨S_, .i32⟩ : BufTy).Contents (Elt F) → (⟨S4x1080x1920, .i32⟩ : BufTy).Contents (Elt F)),
    binary main_v327 main_v332 main_v333 (cmpi .slt : (⟨S4x1080x1920, .i32⟩ : BufTy).Contents (Elt F) → (⟨S4x1080x1920, .i32⟩ : BufTy).Contents (Elt F) → (⟨S4x1080x1920, .i1⟩ : BufTy).Contents (Elt F)),
    nullary main_c_119 (constantI S_ 32 33#32),
    unary main_c_119 main_v334 (broadcastInDim S4x1080x1920 ![] bcast_S_S4x1080x1920 : (⟨S_, .i32⟩ : BufTy).Contents (Elt F) → (⟨S4x1080x1920, .i32⟩ : BufTy).Contents (Elt F)),
    binary main_v327 main_v334 main_v335 (addi : (⟨S4x1080x1920, .i32⟩ : BufTy).Contents (Elt F) → (⟨S4x1080x1920, .i32⟩ : BufTy).Contents (Elt F) → (⟨S4x1080x1920, .i32⟩ : BufTy).Contents (Elt F)),
    ternary main_v333 main_v335 main_v327 main_v336 (select : (⟨S4x1080x1920, .i1⟩ : BufTy).Contents (Elt F) → (⟨S4x1080x1920, .i32⟩ : BufTy).Contents (Elt F) → (⟨S4x1080x1920, .i32⟩ : BufTy).Contents (Elt F) → (⟨S4x1080x1920, .i32⟩ : BufTy).Contents (Elt F)),
    nullary main_c_120 (constantI S_ 32 0#32),
    unary main_c_120 main_v337 (broadcastInDim S4x1080x1920 ![] bcast_S_S4x1080x1920 : (⟨S_, .i32⟩ : BufTy).Contents (Elt F) → (⟨S4x1080x1920, .i32⟩ : BufTy).Contents (Elt F)),
    binary main_v329 main_v337 main_v338 (cmpi .slt : (⟨S4x1080x1920, .i32⟩ : BufTy).Contents (Elt F) → (⟨S4x1080x1920, .i32⟩ : BufTy).Contents (Elt F) → (⟨S4x1080x1920, .i1⟩ : BufTy).Contents (Elt F)),
    nullary main_c_121 (constantI S_ 32 33#32),
    unary main_c_121 main_v339 (broadcastInDim S4x1080x1920 ![] bcast_S_S4x1080x1920 : (⟨S_, .i32⟩ : BufTy).Contents (Elt F) → (⟨S4x1080x1920, .i32⟩ : BufTy).Contents (Elt F)),
    binary main_v329 main_v339 main_v340 (addi : (⟨S4x1080x1920, .i32⟩ : BufTy).Contents (Elt F) → (⟨S4x1080x1920, .i32⟩ : BufTy).Contents (Elt F) → (⟨S4x1080x1920, .i32⟩ : BufTy).Contents (Elt F)),
    ternary main_v338 main_v340 main_v329 main_v341 (select : (⟨S4x1080x1920, .i1⟩ : BufTy).Contents (Elt F) → (⟨S4x1080x1920, .i32⟩ : BufTy).Contents (Elt F) → (⟨S4x1080x1920, .i32⟩ : BufTy).Contents (Elt F) → (⟨S4x1080x1920, .i32⟩ : BufTy).Contents (Elt F)),
    nullary main_c_122 (constantI S_ 32 0#32),
    unary main_c_122 main_v342 (broadcastInDim S4x1080x1920 ![] bcast_S_S4x1080x1920 : (⟨S_, .i32⟩ : BufTy).Contents (Elt F) → (⟨S4x1080x1920, .i32⟩ : BufTy).Contents (Elt F)),
    binary main_v331 main_v342 main_v343 (cmpi .slt : (⟨S4x1080x1920, .i32⟩ : BufTy).Contents (Elt F) → (⟨S4x1080x1920, .i32⟩ : BufTy).Contents (Elt F) → (⟨S4x1080x1920, .i1⟩ : BufTy).Contents (Elt F)),
    nullary main_c_123 (constantI S_ 32 33#32),
    unary main_c_123 main_v344 (broadcastInDim S4x1080x1920 ![] bcast_S_S4x1080x1920 : (⟨S_, .i32⟩ : BufTy).Contents (Elt F) → (⟨S4x1080x1920, .i32⟩ : BufTy).Contents (Elt F)),
    binary main_v331 main_v344 main_v345 (addi : (⟨S4x1080x1920, .i32⟩ : BufTy).Contents (Elt F) → (⟨S4x1080x1920, .i32⟩ : BufTy).Contents (Elt F) → (⟨S4x1080x1920, .i32⟩ : BufTy).Contents (Elt F)),
    ternary main_v343 main_v345 main_v331 main_v346 (select : (⟨S4x1080x1920, .i1⟩ : BufTy).Contents (Elt F) → (⟨S4x1080x1920, .i32⟩ : BufTy).Contents (Elt F) → (⟨S4x1080x1920, .i32⟩ : BufTy).Contents (Elt F) → (⟨S4x1080x1920, .i32⟩ : BufTy).Contents (Elt F)),
    unary main_v336 main_v347 (broadcastInDim S4x1080x1920x1 ![0, 1, 2] bcast_S4x1080x1920_S4x1080x1920x1_0_1_2 : (⟨S4x1080x1920, .i32⟩ : BufTy).Contents (Elt F) → (⟨S4x1080x1920x1, .i32⟩ : BufTy).Contents (Elt F)),
    unary main_v341 main_v348 (broadcastInDim S4x1080x1920x1 ![0, 1, 2] bcast_S4x1080x1920_S4x1080x1920x1_0_1_2 : (⟨S4x1080x1920, .i32⟩ : BufTy).Contents (Elt F) → (⟨S4x1080x1920x1, .i32⟩ : BufTy).Contents (Elt F)),
    unary main_v346 main_v349 (broadcastInDim S4x1080x1920x1 ![0, 1, 2] bcast_S4x1080x1920_S4x1080x1920x1_0_1_2 : (⟨S4x1080x1920, .i32⟩ : BufTy).Contents (Elt F) → (⟨S4x1080x1920x1, .i32⟩ : BufTy).Contents (Elt F)),
    nary ![main_v347, main_v348, main_v349] main_v350 (fun u => concatenate S4x1080x1920x3 3 [⟨S4x1080x1920x1, u 0⟩, ⟨S4x1080x1920x1, u 1⟩, ⟨S4x1080x1920x1, u 2⟩] concatenates_S4x1080x1920x1_S4x1080x1920x1_S4x1080x1920x1_S4x1080x1920x3_d3),
    binary main_arg1 main_v350 main_v351 ((fun x i => Host.gather gather_S3x33x33x33_S4x1080x1920x3_S3x4x1080x1920_0_123_n_n_123_3_3111 x i) : (⟨S3x33x33x33, .f32⟩ : BufTy).Contents (Elt F) → (⟨S4x1080x1920x3, .i32⟩ : BufTy).Contents (Elt F) → (⟨S3x4x1080x1920, .f32⟩ : BufTy).Contents (Elt F)),
    unary main_v325 main_v352 (broadcastInDim S4x1x1080x1920 ![0, 2, 3] bcast_S4x1080x1920_S4x1x1080x1920_0_2_3 : (⟨S4x1080x1920, .f32⟩ : BufTy).Contents (Elt F) → (⟨S4x1x1080x1920, .f32⟩ : BufTy).Contents (Elt F)),
    unary main_v351 main_v353 ((transpose S4x3x1080x1920 [1, 0, 2, 3] · transposes_S3x4x1080x1920_S4x3x1080x1920_1_0_2_3) : (⟨S3x4x1080x1920, .f32⟩ : BufTy).Contents (Elt F) → (⟨S4x3x1080x1920, .f32⟩ : BufTy).Contents (Elt F)),
    unary main_v352 main_v354 (broadcastInDim S4x3x1080x1920 ![0, 1, 2, 3] bcast_S4x1x1080x1920_S4x3x1080x1920_0_1_2_3 : (⟨S4x1x1080x1920, .f32⟩ : BufTy).Contents (Elt F) → (⟨S4x3x1080x1920, .f32⟩ : BufTy).Contents (Elt F)),
    binary main_v354 main_v353 main_v355 (mulf : (⟨S4x3x1080x1920, .f32⟩ : BufTy).Contents (Elt F) → (⟨S4x3x1080x1920, .f32⟩ : BufTy).Contents (Elt F) → (⟨S4x3x1080x1920, .f32⟩ : BufTy).Contents (Elt F)),
    binary main_v314 main_v355 main_v356 (addf : (⟨S4x3x1080x1920, .f32⟩ : BufTy).Contents (Elt F) → (⟨S4x3x1080x1920, .f32⟩ : BufTy).Contents (Elt F) → (⟨S4x3x1080x1920, .f32⟩ : BufTy).Contents (Elt F)) ]

set_option maxHeartbeats 4000000 in
/-- The running total after the corner. -/
theorem c8_out (W : Valuation τ sig (Elt Ideal)) :
    after (opsC8 (F := Ideal)) W (Proc.devRef .tc main_v356)
      = RefTerm.cornerStep 1#32 1#32 1#32 (W (Proc.devRef .tc main_v9)) (W (Proc.devRef .tc main_v11)) (W (Proc.devRef .tc main_v13))
          (W (Proc.devRef .tc main_v15)) (W (Proc.devRef .tc main_v17)) (W (Proc.devRef .tc main_v19)) (W (Proc.devRef .tc main_arg1)) (W (Proc.devRef .tc main_v314)) := by
  unfold opsC8
  after_results_simp3
  rfl

set_option maxHeartbeats 4000000 in
/-- The arrays the later corners and the result's frame read are not written. -/
theorem c8_keep (W : Valuation τ sig (Elt Ideal)) :
    after (opsC8 (F := Ideal)) W (Proc.devRef .tc main_v9) = W (Proc.devRef .tc main_v9)
    ∧ after (opsC8 (F := Ideal)) W (Proc.devRef .tc main_v11) = W (Proc.devRef .tc main_v11)
    ∧ after (opsC8 (F := Ideal)) W (Proc.devRef .tc main_v13) = W (Proc.devRef .tc main_v13)
    ∧ after (opsC8 (F := Ideal)) W (Proc.devRef .tc main_v15) = W (Proc.devRef .tc main_v15)
    ∧ after (opsC8 (F := Ideal)) W (Proc.devRef .tc main_v17) = W (Proc.devRef .tc main_v17)
    ∧ after (opsC8 (F := Ideal)) W (Proc.devRef .tc main_v19) = W (Proc.devRef .tc main_v19)
    ∧ after (opsC8 (F := Ideal)) W (Proc.devRef .tc main_arg0) = W (Proc.devRef .tc main_arg0)
    ∧ after (opsC8 (F := Ideal)) W (Proc.devRef .tc main_arg1) = W (Proc.devRef .tc main_arg1) := by
  unfold opsC8
  refine ⟨?_, ?_, ?_, ?_, ?_, ?_, ?_, ?_⟩ <;> after_results_simp3

end Cert.Lut3.RefOps

end
-- ==== Proof.RefRun.lean ====
/-
  The eight-corner program's run: from any memory with zero counters every weakly fair execution terminates with the
  result buffer at `refTerm` of the image and the table as the launch holds them, and the image and the table unchanged.

  The program's operations are the base list and the eight corners' lists in order (`ops_eq`).  `Reads x lut V` says the
  contents V hold, in the six per-channel buffers, channel k's cells and fractions of the image x, and hold x and the
  table lut in the two argument buffers.  The base list establishes it from the launch contents and leaves the zero array
  in the total's first buffer; each corner keeps it and turns the previous total a into `stepAt x lut dr dg db a`.
-/
import proofs.«140490_j86122684220303_2_alg».proof.Proof.RefOps
import proofs.«140490_j86122684220303_2_alg».proof.Proof.RefScoped
import proofs.«140490_j86122684220303_2_alg».proof.Proof.RefBase
import proofs.«140490_j86122684220303_2_alg».proof.Proof.RefC1
import proofs.«140490_j86122684220303_2_alg».proof.Proof.RefC2
import proofs.«140490_j86122684220303_2_alg».proof.Proof.RefC3
import proofs.«140490_j86122684220303_2_alg».proof.Proof.RefC4
import proofs.«140490_j86122684220303_2_alg».proof.Proof.RefC5
import proofs.«140490_j86122684220303_2_alg».proof.Proof.RefC6
import proofs.«140490_j86122684220303_2_alg».proof.Proof.RefC7
import proofs.«140490_j86122684220303_2_alg».proof.Proof.RefC8

noncomputable section

namespace Cert.Lut3.RefRun

open Cert.ReferenceIdeal Idealize.ShloMosaic Idealize.ShloMosaic.TcCoe Idealize.SL.Sem Idealize.ShloMosaic.StableHlo
open Cert.Lut3.RefOps

variable [Cert.ReferenceIdeal.Facts]

/-- The contents after two lists run in order: after the second, from what the first leaves. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

/-- The windows' operations are the base list's and the eight corners', in order. -/
theorem ops_eq : (ops (F := Ideal)) = opsBase ++ (opsC1 ++ (opsC2 ++ (opsC3 ++ (opsC4 ++ (opsC5 ++ (opsC6 ++ (opsC7 ++ (opsC8)))))))) := rfl

/-- What every corner reads, as the contents V hold it. -/
def Reads (x : FVec Ideal S4x3x1080x1920 .f32) (lut : FVec Ideal S3x33x33x33 .f32) (V : Valuation τ sig (Elt Ideal)) : Prop :=
  V (Proc.devRef .tc main_v9) = RefTerm.chanI 0 x ∧ V (Proc.devRef .tc main_v11) = RefTerm.chanI 1 x ∧ V (Proc.devRef .tc main_v13) = RefTerm.chanI 2 x
    ∧ V (Proc.devRef .tc main_v15) = RefTerm.chanF 0 x ∧ V (Proc.devRef .tc main_v17) = RefTerm.chanF 1 x ∧ V (Proc.devRef .tc main_v19) = RefTerm.chanF 2 x
    ∧ V (Proc.devRef .tc main_arg0) = x ∧ V (Proc.devRef .tc main_arg1) = lut

/-- Corner (0, 0, 0): the arrays the corners read stay, and the total gains the corner's term. -/
theorem step1 {x : FVec Ideal S4x3x1080x1920 .f32} {lut : FVec Ideal S3x33x33x33 .f32} {V : Valuation τ sig (Elt Ideal)}
    {a : FVec Ideal S4x3x1080x1920 .f32} (hV : Reads x lut V) (ha : V (Proc.devRef .tc main_v20) = a) :
    Reads x lut (after (opsC1 (F := Ideal)) V)
      ∧ after (opsC1 (F := Ideal)) V (Proc.devRef .tc main_v62) = RefTerm.stepAt x lut 0#32 0#32 0#32 a := by
  obtain ⟨h9, h11, h13, h15, h17, h19, h0, h1⟩ := hV
  obtain ⟨k9, k11, k13, k15, k17, k19, k0, k1⟩ := c1_keep V
  refine ⟨⟨k9.trans h9, k11.trans h11, k13.trans h13, k15.trans h15, k17.trans h17, k19.trans h19, k0.trans h0, k1.trans h1⟩, ?_⟩
  rw [c1_out V, h9, h11, h13, h15, h17, h19, h1, ha]
  rfl

/-- Corner (0, 0, 1): the arrays the corners read stay, and the total gains the corner's term. -/
theorem step2 {x : FVec Ideal S4x3x1080x1920 .f32} {lut : FVec Ideal S3x33x33x33 .f32} {V : Valuation τ sig (Elt Ideal)}
    {a : FVec Ideal S4x3x1080x1920 .f32} (hV : Reads x lut V) (ha : V (Proc.devRef .tc main_v62) = a) :
    Reads x lut (after (opsC2 (F := Ideal)) V)
      ∧ after (opsC2 (F := Ideal)) V (Proc.devRef .tc main_v104) = RefTerm.stepAt x lut 0#32 0#32 1#32 a := by
  obtain ⟨h9, h11, h13, h15, h17, h19, h0, h1⟩ := hV
  obtain ⟨k9, k11, k13, k15, k17, k19, k0, k1⟩ := c2_keep V
  refine ⟨⟨k9.trans h9, k11.trans h11, k13.trans h13, k15.trans h15, k17.trans h17, k19.trans h19, k0.trans h0, k1.trans h1⟩, ?_⟩
  rw [c2_out V, h9, h11, h13, h15, h17, h19, h1, ha]
  rfl

/-- Corner (0, 1, 0): the arrays the corners read stay, and the total gains the corner's term. -/
theorem step3 {x : FVec Ideal S4x3x1080x1920 .f32} {lut : FVec Ideal S3x33x33x33 .f32} {V : Valuation τ sig (Elt Ideal)}
    {a : FVec Ideal S4x3x1080x1920 .f32} (hV : Reads x lut V) (ha : V (Proc.devRef .tc main_v104) = a) :
    Reads x lut (after (opsC3 (F := Ideal)) V)
      ∧ after (opsC3 (F := Ideal)) V (Proc.devRef .tc main_v146) = RefTerm.stepAt x lut 0#32 1#32 0#32 a := by
  obtain ⟨h9, h11, h13, h15, h17, h19, h0, h1⟩ := hV
  obtain ⟨k9, k11, k13, k15, k17, k19, k0, k1⟩ := c3_keep V
  refine ⟨⟨k9.trans h9, k11.trans h11, k13.trans h13, k15.trans h15, k17.trans h17, k19.trans h19, k0.trans h0, k1.trans h1⟩, ?_⟩
  rw [c3_out V, h9, h11, h13, h15, h17, h19, h1, ha]
  rfl

/-- Corner (0, 1, 1): the arrays the corners read stay, and the total gains the corner's term. -/
theorem step4 {x : FVec Ideal S4x3x1080x1920 .f32} {lut : FVec Ideal S3x33x33x33 .f32} {V : Valuation τ sig (Elt Ideal)}
    {a : FVec Ideal S4x3x1080x1920 .f32} (hV : Reads x lut V) (ha : V (Proc.devRef .tc main_v146) = a) :
    Reads x lut (after (opsC4 (F := Ideal)) V)
      ∧ after (opsC4 (F := Ideal)) V (Proc.devRef .tc main_v188) = RefTerm.stepAt x lut 0#32 1#32 1#32 a := by
  obtain ⟨h9, h11, h13, h15, h17, h19, h0, h1⟩ := hV
  obtain ⟨k9, k11, k13, k15, k17, k19, k0, k1⟩ := c4_keep V
  refine ⟨⟨k9.trans h9, k11.trans h11, k13.trans h13, k15.trans h15, k17.trans h17, k19.trans h19, k0.trans h0, k1.trans h1⟩, ?_⟩
  rw [c4_out V, h9, h11, h13, h15, h17, h19, h1, ha]
  rfl

/-- Corner (1, 0, 0): the arrays the corners read stay, and the total gains the corner's term. -/
theorem step5 {x : FVec Ideal S4x3x1080x1920 .f32} {lut : FVec Ideal S3x33x33x33 .f32} {V : Valuation τ sig (Elt Ideal)}
    {a : FVec Ideal S4x3x1080x1920 .f32} (hV : Reads x lut V) (ha : V (Proc.devRef .tc main_v188) = a) :
    Reads x lut (after (opsC5 (F := Ideal)) V)
      ∧ after (opsC5 (F := Ideal)) V (Proc.devRef .tc main_v230) = RefTerm.stepAt x lut 1#32 0#32 0#32 a := by
  obtain ⟨h9, h11, h13, h15, h17, h19, h0, h1⟩ := hV
  obtain ⟨k9, k11, k13, k15, k17, k19, k0, k1⟩ := c5_keep V
  refine ⟨⟨k9.trans h9, k11.trans h11, k13.trans h13, k15.trans h15, k17.trans h17, k19.trans h19, k0.trans h0, k1.trans h1⟩, ?_⟩
  rw [c5_out V, h9, h11, h13, h15, h17, h19, h1, ha]
  rfl

/-- Corner (1, 0, 1): the arrays the corners read stay, and the total gains the corner's term. -/
theorem step6 {x : FVec Ideal S4x3x1080x1920 .f32} {lut : FVec Ideal S3x33x33x33 .f32} {V : Valuation τ sig (Elt Ideal)}
    {a : FVec Ideal S4x3x1080x1920 .f32} (hV : Reads x lut V) (ha : V (Proc.devRef .tc main_v230) = a) :
    Reads x lut (after (opsC6 (F := Ideal)) V)
      ∧ after (opsC6 (F := Ideal)) V (Proc.devRef .tc main_v272) = RefTerm.stepAt x lut 1#32 0#32 1#32 a := by
  obtain ⟨h9, h11, h13, h15, h17, h19, h0, h1⟩ := hV
  obtain ⟨k9, k11, k13, k15, k17, k19, k0, k1⟩ := c6_keep V
  refine ⟨⟨k9.trans h9, k11.trans h11, k13.trans h13, k15.trans h15, k17.trans h17, k19.trans h19, k0.trans h0, k1.trans h1⟩, ?_⟩
  rw [c6_out V, h9, h11, h13, h15, h17, h19, h1, ha]
  rfl

/-- Corner (1, 1, 0): the arrays the corners read stay, and the total gains the corner's term. -/
theorem step7 {x : FVec Ideal S4x3x1080x1920 .f32} {lut : FVec Ideal S3x33x33x33 .f32} {V : Valuation τ sig (Elt Ideal)}
    {a : FVec Ideal S4x3x1080x1920 .f32} (hV : Reads x lut V) (ha : V (Proc.devRef .tc main_v272) = a) :
    Reads x lut (after (opsC7 (F := Ideal)) V)
      ∧ after (opsC7 (F := Ideal)) V (Proc.devRef .tc main_v314) = RefTerm.stepAt x lut 1#32 1#32 0#32 a := by
  obtain ⟨h9, h11, h13, h15, h17, h19, h0, h1⟩ := hV
  obtain ⟨k9, k11, k13, k15, k17, k19, k0, k1⟩ := c7_keep V
  refine ⟨⟨k9.trans h9, k11.trans h11, k13.trans h13, k15.trans h15, k17.trans h17, k19.trans h19, k0.trans h0, k1.trans h1⟩, ?_⟩
  rw [c7_out V, h9, h11, h13, h15, h17, h19, h1, ha]
  rfl

/-- Corner (1, 1, 1): the arrays the corners read stay, and the total gains the corner's term. -/
theorem step8 {x : FVec Ideal S4x3x1080x1920 .f32} {lut : FVec Ideal S3x33x33x33 .f32} {V : Valuation τ sig (Elt Ideal)}
    {a : FVec Ideal S4x3x1080x1920 .f32} (hV : Reads x lut V) (ha : V (Proc.devRef .tc main_v314) = a) :
    Reads x lut (after (opsC8 (F := Ideal)) V)
      ∧ after (opsC8 (F := Ideal)) V (Proc.devRef .tc main_v356) = RefTerm.stepAt x lut 1#32 1#32 1#32 a := by
  obtain ⟨h9, h11, h13, h15, h17, h19, h0, h1⟩ := hV
  obtain ⟨k9, k11, k13, k15, k17, k19, k0, k1⟩ := c8_keep V
  refine ⟨⟨k9.trans h9, k11.trans h11, k13.trans h13, k15.trans h15, k17.trans h17, k19.trans h19, k0.trans h0, k1.trans h1⟩, ?_⟩
  rw [c8_out V, h9, h11, h13, h15, h17, h19, h1, ha]
  rfl

/-- The result buffer after all the operations, from any contents V; the arguments unchanged. -/
theorem after_ops (V : Valuation τ sig (Elt Ideal)) :
    after (ops (F := Ideal)) V (Proc.devRef .tc main_v356) = RefTerm.refTerm (V (Proc.devRef .tc main_arg0)) (V (Proc.devRef .tc main_arg1))
      ∧ after (ops (F := Ideal)) V (Proc.devRef .tc main_arg0) = V (Proc.devRef .tc main_arg0)
      ∧ after (ops (F := Ideal)) V (Proc.devRef .tc main_arg1) = V (Proc.devRef .tc main_arg1) := by
  rw [ops_eq]
  simp only [after_append]
  obtain ⟨b9, b11, b13, b15, b17, b19, b20, b0, b1⟩ := base_out V
  have r0 : Reads (V (Proc.devRef .tc main_arg0)) (V (Proc.devRef .tc main_arg1)) (after (opsBase (F := Ideal)) V) :=
    ⟨b9, b11, b13, b15, b17, b19, b0, b1⟩
  obtain ⟨r1, a1⟩ := step1 r0 b20
  obtain ⟨r2, a2⟩ := step2 r1 a1
  obtain ⟨r3, a3⟩ := step3 r2 a2
  obtain ⟨r4, a4⟩ := step4 r3 a3
  obtain ⟨r5, a5⟩ := step5 r4 a4
  obtain ⟨r6, a6⟩ := step6 r5 a5
  obtain ⟨r7, a7⟩ := step7 r6 a6
  obtain ⟨r8, a8⟩ := step8 r7 a7
  obtain ⟨-, -, -, -, -, -, k0, k1⟩ := r8
  exact ⟨a8, k0, k1⟩

/-- On every device, from any memory with zero counters: every weakly fair execution of the program terminates with the
    result buffer at `refTerm` of the arguments' launch contents, and the arguments unchanged. -/
theorem run_term (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v356)
          = Cert.Lut3.RefTerm.refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := Ideal)) _ _).mono (fun _ h c =>
      ⟨(h c main_v356).trans (after_ops (launchContents m c)).1,
       (h c main_arg0).trans (after_ops (launchContents m c)).2.1,
       (h c main_arg1).trans (after_ops (launchContents m c)).2.2⟩)
    (run_seq RefScoped.scopedRefs_eq RefScoped.scopedSems_eq (defs (F := Ideal)) (main (F := Ideal)) (fun _ => ops)
      main_eq (fun _ => ops_sub) m ρ (fun _ => ops_fresh))

end Cert.Lut3.RefRun

end
-- ==== Proof.LibGatherLayout.lean ====
/-
  Layout operations of a gather-based table lookup, each read at an index written by its coordinates.

  A rank-4 table [C, B, G, R] is read at start indices stored as an array [N, H, W, 3]: result entry (c, n, h, w) is
  the table's entry (c, b, g, r) whose three grid coordinates are the start indices at (n, h, w, 0 .. 2), each read as
  a signed integer and clamped into its axis (`gather_table3_apply`).  The start-index array is three arrays
  [N, H, W, 1] laid side by side along the last axis (`concat3_lastUnit_apply₀` … `₂`), each an array [N, H, W] given a
  trailing unit axis (`bcast_addLastUnit_apply`).  Beside these: a channel cut out of [A, K, C, D] and its unit axis
  dropped (`slice_second_apply`, `cast_dropSecond_apply`, `sliceCast_second_apply`), an array [A, C, D] given a unit
  second axis and then repeated along it (`bcast_addSecondUnit_apply`, `bcast_second_apply`), a scalar repeated over
  any shape (`bcast_scalar_apply`), and the exchange of the two leading axes (`transpose_swap01_apply`).

  Every statement is over arbitrary extents and an arbitrary element type; the shape relations an operation carries
  are taken as hypotheses, so a lemma applies to whatever proof of them a program supplies.
-/
import Idealize.ShloMosaic.Lib.Pipeline.Value
import Idealize.ShloMosaic.Lib.ValueIdx

namespace Cert.Lut3.Layout

open Idealize.ShloMosaic Idealize.ShloMosaic.ValueIdx

variable {α : Type}

/-! ## Broadcasts -/

/-- A scalar repeated over any shape reads the scalar everywhere. -/
theorem bcast_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-- [A, B, C] given a trailing unit axis: entry (n, p, q, 0) is entry (n, p, q). -/
theorem bcast_addLastUnit_apply {A B C : Nat}
    (h : (⟨3, ![A, B, C]⟩ : Shape).BroadcastsInDim ⟨4, ![A, B, C, 1]⟩ ![0, 1, 2])
    (x : (⟨3, ![A, B, C]⟩ : Shape).Idx → α) (n : Fin A) (p : Fin B) (q : Fin C) (u : Fin 1) :
    broadcastInDim ⟨4, ![A, B, C, 1]⟩ ![0, 1, 2] h x (ix4 n p q u) = x (ix3 n p q) :=
  broadcastInDim_apply _ h x _ (ix3 n p q) (fun a => match a with
    | ⟨0, _⟩ => by show n.val = if A = 1 then 0 else n.val; have := n.isLt; split <;> omega
    | ⟨1, _⟩ => by show p.val = if B = 1 then 0 else p.val; have := p.isLt; split <;> omega
    | ⟨2, _⟩ => by show q.val = if C = 1 then 0 else q.val; have := q.isLt; split <;> omega)

/-- [A, C, D] given a unit second axis: entry (n, 0, p, q) is entry (n, p, q). -/
theorem bcast_addSecondUnit_apply {A C D : Nat}
    (h : (⟨3, ![A, C, D]⟩ : Shape).BroadcastsInDim ⟨4, ![A, 1, C, D]⟩ ![0, 2, 3])
    (x : (⟨3, ![A, C, D]⟩ : Shape).Idx → α) (n : Fin A) (u : Fin 1) (p : Fin C) (q : Fin D) :
    broadcastInDim ⟨4, ![A, 1, C, D]⟩ ![0, 2, 3] h x (ix4 n u p q) = x (ix3 n p q) :=
  broadcastInDim_apply _ h x _ (ix3 n p q) (fun a => match a with
    | ⟨0, _⟩ => by show n.val = if A = 1 then 0 else n.val; have := n.isLt; split <;> omega
    | ⟨1, _⟩ => by show p.val = if C = 1 then 0 else p.val; have := p.isLt; split <;> omega
    | ⟨2, _⟩ => by show q.val = if D = 1 then 0 else q.val; have := q.isLt; split <;> omega)

/-- [A, 1, C, D] repeated along its unit axis to [A, K, C, D]: entry (n, k, p, q) is entry (n, 0, p, q). -/
theorem bcast_second_apply {A K C D : Nat}
    (h : (⟨4, ![A, 1, C, D]⟩ : Shape).BroadcastsInDim ⟨4, ![A, K, C, D]⟩ ![0, 1, 2, 3])
    (x : (⟨4, ![A, 1, C, D]⟩ : Shape).Idx → α) (n : Fin A) (k : Fin K) (p : Fin C) (q : Fin D) :
    broadcastInDim ⟨4, ![A, K, C, D]⟩ ![0, 1, 2, 3] h x (ix4 n k p q) = x (ix4 n 0 p q) :=
  broadcastInDim_apply _ h x _ (ix4 n 0 p q) (fun a => match a with
    | ⟨0, _⟩ => by show n.val = if A = 1 then 0 else n.val; have := n.isLt; split <;> omega
    | ⟨1, _⟩ => by show 0 = if (1 : Nat) = 1 then 0 else k.val; rw [if_pos rfl]
    | ⟨2, _⟩ => by show p.val = if C = 1 then 0 else p.val; have := p.isLt; split <;> omega
    | ⟨3, _⟩ => by show q.val = if D = 1 then 0 else q.val; have := q.isLt; split <;> omega)

/-! ## One channel cut out of [A, K, C, D] -/

/-- The unit-thick slab at position `k` of the second axis: entry (n, 0, p, q) of the slab is entry (n, k, p, q). -/
theorem slice_second_apply {A K C D : Nat} (k : Fin K)
    (h : (⟨4, ![A, K, C, D]⟩ : Shape).Slices ![0, k.val, 0, 0] ⟨4, ![A, 1, C, D]⟩)
    (x : (⟨4, ![A, K, C, D]⟩ : Shape).Idx → α) (n : Fin A) (u : Fin 1) (p : Fin C) (q : Fin D) :
    extractStridedSlice ⟨4, ![A, 1, C, D]⟩ ![0, k.val, 0, 0] x h (ix4 n u p q) = x (ix4 n k p q) :=
  extractStridedSlice_apply _ x h _ (ix4 n k p q) (fun a => match a with
    | ⟨0, _⟩ => by show n.val = 0 + n.val; omega
    | ⟨1, _⟩ => by show k.val = k.val + u.val; have := u.isLt; omega
    | ⟨2, _⟩ => by show p.val = 0 + p.val; omega
    | ⟨3, _⟩ => by show q.val = 0 + q.val; omega)

/-- [A, 1, C, D] with its unit axis dropped: entry (n, p, q) is entry (n, 0, p, q). -/
theorem cast_dropSecond_apply {A C D : Nat} (h : (⟨4, ![A, 1, C, D]⟩ : Shape).ShapeCasts ⟨3, ![A, C, D]⟩)
    (x : (⟨4, ![A, 1, C, D]⟩ : Shape).Idx → α) (n : Fin A) (p : Fin C) (q : Fin D) :
    shapeCast ⟨3, ![A, C, D]⟩ x h (ix3 n p q) = x (ix4 n 0 p q) :=
  shapeCast_apply x h _ (ix4 n 0 p q) (by
    rw [Shape.rowMajor_val_four, Shape.rowMajor_val_three]
    show ((n.val * 1 + 0) * C + p.val) * D + q.val = (n.val * C + p.val) * D + q.val
    rw [Nat.mul_one, Nat.add_zero])

/-- The two together: channel `k` of [A, K, C, D] as an array [A, C, D] reads entry (n, k, p, q) at (n, p, q). -/
theorem sliceCast_second_apply {A K C D : Nat} (k : Fin K)
    (hs : (⟨4, ![A, K, C, D]⟩ : Shape).Slices ![0, k.val, 0, 0] ⟨4, ![A, 1, C, D]⟩)
    (hc : (⟨4, ![A, 1, C, D]⟩ : Shape).ShapeCasts ⟨3, ![A, C, D]⟩)
    (x : (⟨4, ![A, K, C, D]⟩ : Shape).Idx → α) (n : Fin A) (p : Fin C) (q : Fin D) :
    shapeCast ⟨3, ![A, C, D]⟩ (extractStridedSlice ⟨4, ![A, 1, C, D]⟩ ![0, k.val, 0, 0] x hs) hc (ix3 n p q)
      = x (ix4 n k p q) :=
  (cast_dropSecond_apply hc _ n p q).trans (slice_second_apply k hs x n 0 p q)

/-! ## The two leading axes exchanged -/

/-- [K, A, C, D] transposed by [1, 0, 2, 3] to [A, K, C, D]: entry (n, k, p, q) is entry (k, n, p, q). -/
theorem transpose_swap01_apply {A K C D : Nat}
    (h : (⟨4, ![K, A, C, D]⟩ : Shape).Transposes [1, 0, 2, 3] ⟨4, ![A, K, C, D]⟩)
    (x : (⟨4, ![K, A, C, D]⟩ : Shape).Idx → α) (n : Fin A) (k : Fin K) (p : Fin C) (q : Fin D) :
    transpose ⟨4, ![A, K, C, D]⟩ [1, 0, 2, 3] x h (ix4 n k p q) = x (ix4 k n p q) :=
  transpose_apply [1, 0, 2, 3] x h _ (ix4 k n p q) (fun b => match b with
    | ⟨0, _⟩ => rfl
    | ⟨1, _⟩ => rfl
    | ⟨2, _⟩ => rfl
    | ⟨3, _⟩ => rfl)

/-! ## Three unit-thick pieces side by side along the last axis -/

/-- Three arrays [N, H, W, 1] laid side by side along the last axis: position 0 of that axis reads the first array. -/
theorem concat3_lastUnit_apply₀ {N H W : Nat} (x0 x1 x2 : (⟨4, ![N, H, W, 1]⟩ : Shape).Idx → α)
    (hc : Shape.Concatenates [(⟨4, ![N, H, W, 1]⟩ : Shape), ⟨4, ![N, H, W, 1]⟩, ⟨4, ![N, H, W, 1]⟩] ⟨4, ![N, H, W, 3]⟩ 3)
    (n : Fin N) (h : Fin H) (v : Fin W) :
    concatenate ⟨4, ![N, H, W, 3]⟩ 3 [⟨⟨4, ![N, H, W, 1]⟩, x0⟩, ⟨⟨4, ![N, H, W, 1]⟩, x1⟩, ⟨⟨4, ![N, H, W, 1]⟩, x2⟩] hc
        (ix4 n h v 0) = x0 (ix4 n h v 0) :=
  concatenate_apply_piece (t := ⟨4, ![N, H, W, 3]⟩) 3
    [⟨⟨4, ![N, H, W, 1]⟩, x0⟩, ⟨⟨4, ![N, H, W, 1]⟩, x1⟩, ⟨⟨4, ![N, H, W, 1]⟩, x2⟩] hc (ix4 n h v 0)
    0 (by simp) ⟨4, ![N, H, W, 1]⟩ x0 rfl rfl 0 rfl (ix4 n h v 0)
    (fun b => match b with
      | ⟨0, _⟩ => fun _ => rfl
      | ⟨1, _⟩ => fun _ => rfl
      | ⟨2, _⟩ => fun _ => rfl
      | ⟨3, _⟩ => fun hb => absurd rfl hb)
    rfl

/-- Three arrays [N, H, W, 1] laid side by side along the last axis: position 1 of that axis reads the second array. -/
theorem concat3_lastUnit_apply₁ {N H W : Nat} (x0 x1 x2 : (⟨4, ![N, H, W, 1]⟩ : Shape).Idx → α)
    (hc : Shape.Concatenates [(⟨4, ![N, H, W, 1]⟩ : Shape), ⟨4, ![N, H, W, 1]⟩, ⟨4, ![N, H, W, 1]⟩] ⟨4, ![N, H, W, 3]⟩ 3)
    (n : Fin N) (h : Fin H) (v : Fin W) :
    concatenate ⟨4, ![N, H, W, 3]⟩ 3 [⟨⟨4, ![N, H, W, 1]⟩, x0⟩, ⟨⟨4, ![N, H, W, 1]⟩, x1⟩, ⟨⟨4, ![N, H, W, 1]⟩, x2⟩] hc
        (ix4 n h v 1) = x1 (ix4 n h v 0) :=
  concatenate_apply_piece (t := ⟨4, ![N, H, W, 3]⟩) 3
    [⟨⟨4, ![N, H, W, 1]⟩, x0⟩, ⟨⟨4, ![N, H, W, 1]⟩, x1⟩, ⟨⟨4, ![N, H, W, 1]⟩, x2⟩] hc (ix4 n h v 1)
    1 (by simp) ⟨4, ![N, H, W, 1]⟩ x1 rfl rfl 1 rfl (ix4 n h v 0)
    (fun b => match b with
      | ⟨0, _⟩ => fun _ => rfl
      | ⟨1, _⟩ => fun _ => rfl
      | ⟨2, _⟩ => fun _ => rfl
      | ⟨3, _⟩ => fun hb => absurd rfl hb)
    rfl

/-- Three arrays [N, H, W, 1] laid side by side along the last axis: position 2 of that axis reads the third array. -/
theorem concat3_lastUnit_apply₂ {N H W : Nat} (x0 x1 x2 : (⟨4, ![N, H, W, 1]⟩ : Shape).Idx → α)
    (hc : Shape.Concatenates [(⟨4, ![N, H, W, 1]⟩ : Shape), ⟨4, ![N, H, W, 1]⟩, ⟨4, ![N, H, W, 1]⟩] ⟨4, ![N, H, W, 3]⟩ 3)
    (n : Fin N) (h : Fin H) (v : Fin W) :
    concatenate ⟨4, ![N, H, W, 3]⟩ 3 [⟨⟨4, ![N, H, W, 1]⟩, x0⟩, ⟨⟨4, ![N, H, W, 1]⟩, x1⟩, ⟨⟨4, ![N, H, W, 1]⟩, x2⟩] hc
        (ix4 n h v 2) = x2 (ix4 n h v 0) :=
  concatenate_apply_piece (t := ⟨4, ![N, H, W, 3]⟩) 3
    [⟨⟨4, ![N, H, W, 1]⟩, x0⟩, ⟨⟨4, ![N, H, W, 1]⟩, x1⟩, ⟨⟨4, ![N, H, W, 1]⟩, x2⟩] hc (ix4 n h v 2)
    2 (by simp) ⟨4, ![N, H, W, 1]⟩ x2 rfl rfl 2 rfl (ix4 n h v 0)
    (fun b => match b with
      | ⟨0, _⟩ => fun _ => rfl
      | ⟨1, _⟩ => fun _ => rfl
      | ⟨2, _⟩ => fun _ => rfl
      | ⟨3, _⟩ => fun hb => absurd rfl hb)
    rfl

/-! ## The table lookup -/

/-- A table [C, B, G, R] gathered at start indices [N, H, W, 3] into [C, N, H, W] — the result's first axis the table's
    whole first axis, the table's other three axes collapsed and addressed by the three start indices, the index vector on
    the start indices' last axis: entry (c, n, h, w) is the table's entry (c, b, g, r) with b, g, r the start indices at
    (n, h, w, 0), (n, h, w, 1), (n, h, w, 2), each read as a signed integer, negative to 0, and clamped to the axis's last
    position.  The dimension numbers are any record whose fields are these lists. -/
theorem gather_table3_apply {C B G R N H W w : Nat} (hB : 0 < B) (hG : 0 < G) (hR : 0 < R)
    (d : GatherDims ⟨4, ![C, B, G, R]⟩ ⟨4, ![N, H, W, 3]⟩ ⟨4, ![C, N, H, W]⟩)
    (hod : d.offsetDims = [0]) (hcd : d.collapsedSliceDims = [1, 2, 3]) (hob : d.operandBatchingDims = [])
    (hsm : d.startIndexMap = [1, 2, 3]) (hiv : d.indexVectorDim = 3) (hss : d.sliceSizes = ![C, 1, 1, 1])
    (x : (⟨4, ![C, B, G, R]⟩ : Shape).Idx → α) (idx : IVec ⟨4, ![N, H, W, 3]⟩ w)
    (c : Fin C) (n : Fin N) (h : Fin H) (v : Fin W) :
    Host.gather d x idx (ix4 c n h v)
      = x (ix4 c ⟨min (idx (ix4 n h v 0)).toInt.toNat (B - 1), by omega⟩
                 ⟨min (idx (ix4 n h v 1)).toInt.toNat (G - 1), by omega⟩
                 ⟨min (idx (ix4 n h v 2)).toInt.toNat (R - 1), by omega⟩) := by
  obtain ⟨od, cd, ob, sb, sm, iv, ss, wf⟩ := d
  dsimp only at hod hcd hob hsm hiv hss
  subst hod hcd hob hsm hiv hss
  unfold Host.gather
  refine congrArg x (funext fun a => Fin.ext ?_)
  have hcases : ∀ a : Fin 4, a = 0 ∨ a = 1 ∨ a = 2 ∨ a = 3 := by decide
  have m0 : (0 : Fin 4) ∉ ([1, 2, 3] : List (Fin 4)) := by decide
  have m1 : (1 : Fin 4) ∈ ([1, 2, 3] : List (Fin 4)) := by decide
  have m2 : (2 : Fin 4) ∈ ([1, 2, 3] : List (Fin 4)) := by decide
  have m3 : (3 : Fin 4) ∈ ([1, 2, 3] : List (Fin 4)) := by decide
  rcases hcases a with rfl | rfl | rfl | rfl
  · show GatherDims.start _ _ idx _ + GatherDims.batchCoord _ _ _ + GatherDims.offCoord _ _ _ = c.val
    rw [GatherDims.batchCoord_eq_zero _ _ _ List.not_mem_nil]
    unfold GatherDims.start GatherDims.offCoord
    rw [dif_neg m0, dif_pos ((GatherDims.mem_sKept _ _).mpr ⟨m0, List.not_mem_nil⟩)]
    simp only [Nat.zero_add]
    rfl
  · show GatherDims.start _ _ idx _ + GatherDims.batchCoord _ _ _ + GatherDims.offCoord _ _ _ = min (idx (ix4 n h v 0)).toInt.toNat (B - 1)
    rw [GatherDims.batchCoord_eq_zero _ _ _ List.not_mem_nil,
      GatherDims.offCoord_eq_zero _ _ _ (fun hm => ((GatherDims.mem_sKept _ _).mp hm).1 m1)]
    simp only [Nat.add_zero]
    unfold GatherDims.start
    rw [dif_pos m1]
    show min (idx (GatherDims.siIdx _ _ _)).toInt.toNat (B - 1) = _
    refine congrArg (fun k => min (idx k).toInt.toNat (B - 1)) ?_
    funext b
    refine Fin.ext ?_
    match b with
    | ⟨0, _⟩ => rfl
    | ⟨1, _⟩ => rfl
    | ⟨2, _⟩ => rfl
    | ⟨3, _⟩ => rfl
  · show GatherDims.start _ _ idx _ + GatherDims.batchCoord _ _ _ + GatherDims.offCoord _ _ _ = min (idx (ix4 n h v 1)).toInt.toNat (G - 1)
    rw [GatherDims.batchCoord_eq_zero _ _ _ List.not_mem_nil,
      GatherDims.offCoord_eq_zero _ _ _ (fun hm => ((GatherDims.mem_sKept _ _).mp hm).1 m2)]
    simp only [Nat.add_zero]
    unfold GatherDims.start
    rw [dif_pos m2]
    show min (idx (GatherDims.siIdx _ _ _)).toInt.toNat (G - 1) = _
    refine congrArg (fun k => min (idx k).toInt.toNat (G - 1)) ?_
    funext b
    refine Fin.ext ?_
    match b with
    | ⟨0, _⟩ => rfl
    | ⟨1, _⟩ => rfl
    | ⟨2, _⟩ => rfl
    | ⟨3, _⟩ => rfl
  · show GatherDims.start _ _ idx _ + GatherDims.batchCoord _ _ _ + GatherDims.offCoord _ _ _ = min (idx (ix4 n h v 2)).toInt.toNat (R - 1)
    rw [GatherDims.batchCoord_eq_zero _ _ _ List.not_mem_nil,
      GatherDims.offCoord_eq_zero _ _ _ (fun hm => ((GatherDims.mem_sKept _ _).mp hm).1 m3)]
    simp only [Nat.add_zero]
    unfold GatherDims.start
    rw [dif_pos m3]
    show min (idx (GatherDims.siIdx _ _ _)).toInt.toNat (R - 1) = _
    refine congrArg (fun k => min (idx k).toInt.toNat (R - 1)) ?_
    funext b
    refine Fin.ext ?_
    match b with
    | ⟨0, _⟩ => rfl
    | ⟨1, _⟩ => rfl
    | ⟨2, _⟩ => rfl
    | ⟨3, _⟩ => rfl

end Cert.Lut3.Layout
-- ==== Proof.RefRead.lean ====
/-
  The eight-corner term read at one entry.

  At entry (n, c, h, w) every array of the term is a function of the pixel's three channel values x_r, x_g, x_b (the
  image at (n, 0 .. 2, h, w)) and of channel c's table: the scaled value, the cell and the fraction are the
  specification's `scaled`, `cell`, `frac` of the channel value; a corner's weight is the product of the three
  axes' weights `wt`; its start indices, wrapped when negative and clamped by the gather, are `fetchIdx` of cell plus
  offset; so one corner adds the specification's `corner` and the eight of them, onto zero, give `viaCorners`.
-/
import proofs.«140490_j86122684220303_2_alg».proof.Proof.RefTerm
import proofs.«140490_j86122684220303_2_alg».proof.Proof.LibGatherLayout
import proofs.«140490_j86122684220303_2_alg».proof.Proof.Spec

noncomputable section

namespace Cert.Lut3.RefRead

open Cert.ReferenceIdeal Idealize.ShloMosaic Idealize.ShloMosaic.ValueIdx
open Cert.ReferenceIdeal.Facts₀
open Cert.Lut3 Cert.Lut3.RefTerm Cert.Lut3.Layout

variable [Cert.ReferenceIdeal.Facts]

/-! ## The per-entry chain: scaled value, cell, fraction -/

/-- The scaled array at an entry is `scaled` of the image there. -/
theorem sc_at (x : FVec Ideal S4x3x1080x1920 .f32) (i : S4x3x1080x1920.Idx) : sc x i = scaled (x i) := by
  show min (Ideal.ofBits .f32 0x3F800000#32) (max (Ideal.ofBits .f32 0x00000000#32) (x i)) * Ideal.ofBits .f32 0x42000000#32 = _
  rw [Ideal.ofBits_zero_f32]
  rfl

/-- The cell array at an entry is `cell` of the image there. -/
theorem cellv_at (x : FVec Ideal S4x3x1080x1920 .f32) (i : S4x3x1080x1920.Idx) : cellv x i = cell (x i) := by
  show IntOp.minsi 31#32 (IntOp.maxsi 0#32 (Ideal.fptosi 32 (Ideal.liftRound Int.floor (sc x i)))) = _
  rw [sc_at]
  rfl

/-- The fraction array at an entry is `frac` of the image there. -/
theorem fracv_at (x : FVec Ideal S4x3x1080x1920 .f32) (i : S4x3x1080x1920.Idx) : fracv x i = frac (x i) := by
  show sc x i - (((cellv x i).toInt : ℝ) : EReal) = _
  rw [sc_at, cellv_at]
  rfl

/-- Channel k of an array [4, 3, 1080, 1920] at (n, h, w) is the array at (n, k, h, w). -/
theorem chan_at {α : Type} (k : Fin 3) (v : S4x3x1080x1920.Idx → α) (n : Fin 4) (h : Fin 1080) (w : Fin 1920) :
    chan k v (ix3 n h w) = v (ix4 n k h w) := by
  match k with
  | 0 => exact sliceCast_second_apply (0 : Fin 3) slices_S4x3x1080x1920_S4x1x1080x1920_0_0_0_0 shapeCasts_S4x1x1080x1920_S4x1080x1920 v n h w
  | 1 => exact sliceCast_second_apply (1 : Fin 3) slices_S4x3x1080x1920_S4x1x1080x1920_0_1_0_0 shapeCasts_S4x1x1080x1920_S4x1080x1920 v n h w
  | 2 => exact sliceCast_second_apply (2 : Fin 3) slices_S4x3x1080x1920_S4x1x1080x1920_0_2_0_0 shapeCasts_S4x1x1080x1920_S4x1080x1920 v n h w

/-- Channel k's cell at (n, h, w). -/
theorem chanI_at (k : Fin 3) (x : FVec Ideal S4x3x1080x1920 .f32) (n : Fin 4) (h : Fin 1080) (w : Fin 1920) :
    chanI k x (ix3 n h w) = cell (x (ix4 n k h w)) := by
  unfold chanI
  rw [chan_at, cellv_at]

/-- Channel k's fraction at (n, h, w). -/
theorem chanF_at (k : Fin 3) (x : FVec Ideal S4x3x1080x1920 .f32) (n : Fin 4) (h : Fin 1080) (w : Fin 1920) :
    chanF k x (ix3 n h w) = frac (x (ix4 n k h w)) := by
  unfold chanF
  rw [chan_at, fracv_at]

/-! ## One corner's weight -/

/-- One axis's weight at an entry: the fraction on the upper line, one minus it on the lower. -/
theorem whereW_at (d : Bool) (f : FVec Ideal S4x1080x1920 .f32) (j : S4x1080x1920.Idx) :
    whereW (bit d) f j = if d then f j else one - f j := by
  cases d
  · show Scalar.select (IntOp.cmpi .ne 0#32 0#32) (f j) (Ideal.ofBits .f32 0x3F800000#32 - f j) = _
    rw [show IntOp.cmpi .ne 0#32 0#32 = 0#1 from by decide, select_zero]
    rfl
  · show Scalar.select (IntOp.cmpi .ne 1#32 0#32) (f j) (Ideal.ofBits .f32 0x3F800000#32 - f j) = _
    rw [show IntOp.cmpi .ne 1#32 0#32 = 1#1 from by decide, select_one]
    rfl

/-- The corner's weight at an entry: the three axes' weights multiplied, r and g first. -/
theorem weightV_at (dr dg db : Bool) (f15 f17 f19 : FVec Ideal S4x1080x1920 .f32) (j : S4x1080x1920.Idx) :
    weightV (bit dr) (bit dg) (bit db) f15 f17 f19 j
      = ((if dr then f15 j else one - f15 j) * (if dg then f17 j else one - f17 j)) * (if db then f19 j else one - f19 j) := by
  show (whereW (bit dr) f15 j * whereW (bit dg) f17 j) * whereW (bit db) f19 j = _
  rw [whereW_at, whereW_at, whereW_at]

/-! ## One corner's start indices -/

/-- A select on "v is negative" is the `if` on the signed comparison. -/
theorem select_slt {α : Type} (v : BitVec 32) (a b : α) :
    Scalar.select (IntOp.cmpi .slt v 0#32) a b = if v.slt 0#32 then a else b := by
  unfold Scalar.select IntOp.cmpi
  cases v.slt 0#32 <;> simp

/-- One axis's start index at an entry: cell plus offset, plus 33 when that is negative. -/
theorem startI_at (d : BitVec 32) (i : IVec S4x1080x1920 32) (j : S4x1080x1920.Idx) :
    startI d i j = if (i j + d).slt 0#32 then i j + d + 33#32 else i j + d :=
  select_slt (i j + d) (i j + d + 33#32) (i j + d)

/-- The stacked start indices at (n, h, w, 0 .. 2) are the three arrays at (n, h, w). -/
theorem stackI_at0 (j0 j1 j2 : IVec S4x1080x1920 32) (n : Fin 4) (h : Fin 1080) (w : Fin 1920) :
    stackI j0 j1 j2 (ix4 n h w (0 : Fin 3)) = j0 (ix3 n h w) :=
  (concat3_lastUnit_apply₀ _ _ _ concatenates_S4x1080x1920x1_S4x1080x1920x1_S4x1080x1920x1_S4x1080x1920x3_d3 n h w).trans
    (bcast_addLastUnit_apply bcast_S4x1080x1920_S4x1080x1920x1_0_1_2 j0 n h w 0)
theorem stackI_at1 (j0 j1 j2 : IVec S4x1080x1920 32) (n : Fin 4) (h : Fin 1080) (w : Fin 1920) :
    stackI j0 j1 j2 (ix4 n h w (1 : Fin 3)) = j1 (ix3 n h w) :=
  (concat3_lastUnit_apply₁ _ _ _ concatenates_S4x1080x1920x1_S4x1080x1920x1_S4x1080x1920x1_S4x1080x1920x3_d3 n h w).trans
    (bcast_addLastUnit_apply bcast_S4x1080x1920_S4x1080x1920x1_0_1_2 j1 n h w 0)
theorem stackI_at2 (j0 j1 j2 : IVec S4x1080x1920 32) (n : Fin 4) (h : Fin 1080) (w : Fin 1920) :
    stackI j0 j1 j2 (ix4 n h w (2 : Fin 3)) = j2 (ix3 n h w) :=
  (concat3_lastUnit_apply₂ _ _ _ concatenates_S4x1080x1920x1_S4x1080x1920x1_S4x1080x1920x1_S4x1080x1920x3_d3 n h w).trans
    (bcast_addLastUnit_apply bcast_S4x1080x1920_S4x1080x1920x1_0_1_2 j2 n h w 0)

/-! ## One corner's table entry -/

/-- The table's entries at the corner, at (n, c, h, w): channel c's table at the three start indices, each wrapped when
    negative and clamped into 0 .. 32 — the specification's `fetchIdx` of cell plus offset. -/
theorem fetchV_at (dr dg db : BitVec 32) (i9 i11 i13 : IVec S4x1080x1920 32) (lut : FVec Ideal S3x33x33x33 .f32)
    (n : Fin 4) (c : Fin 3) (h : Fin 1080) (w : Fin 1920) :
    fetchV dr dg db i9 i11 i13 lut (ix4 n c h w)
      = lut (ix4 c (fetchIdx (i13 (ix3 n h w) + db)) (fetchIdx (i11 (ix3 n h w) + dg)) (fetchIdx (i9 (ix3 n h w) + dr))) := by
  have key : ∀ a b r a' b' r' : Fin 33, a = a' → b = b' → r = r' → lut (ix4 c a b r) = lut (ix4 c a' b' r') := by
    intro a b r a' b' r' ha hb hr; rw [ha, hb, hr]
  unfold fetchV
  refine (transpose_swap01_apply transposes_S3x4x1080x1920_S4x3x1080x1920_1_0_2_3 _ n c h w).trans ?_
  refine (gather_table3_apply (by decide) (by decide) (by decide)
    gather_S3x33x33x33_S4x1080x1920x3_S3x4x1080x1920_0_123_n_n_123_3_3111 rfl rfl rfl rfl rfl rfl lut _ c n h w).trans ?_
  refine key _ _ _ _ _ _ (Fin.ext ?_) (Fin.ext ?_) (Fin.ext ?_)
  · show min (stackI (startI db i13) (startI dg i11) (startI dr i9) (ix4 n h w (0 : Fin 3))).toInt.toNat 32
      = min (if (i13 (ix3 n h w) + db).slt 0#32 then i13 (ix3 n h w) + db + 33#32 else i13 (ix3 n h w) + db).toInt.toNat 32
    rw [stackI_at0, startI_at]
  · show min (stackI (startI db i13) (startI dg i11) (startI dr i9) (ix4 n h w (1 : Fin 3))).toInt.toNat 32
      = min (if (i11 (ix3 n h w) + dg).slt 0#32 then i11 (ix3 n h w) + dg + 33#32 else i11 (ix3 n h w) + dg).toInt.toNat 32
    rw [stackI_at1, startI_at]
  · show min (stackI (startI db i13) (startI dg i11) (startI dr i9) (ix4 n h w (2 : Fin 3))).toInt.toNat 32
      = min (if (i9 (ix3 n h w) + dr).slt 0#32 then i9 (ix3 n h w) + dr + 33#32 else i9 (ix3 n h w) + dr).toInt.toNat 32
    rw [stackI_at2, startI_at]

/-! ## One corner, and the eight of them -/

/-- One corner added onto a running total, at (n, c, h, w): the total there plus the specification's `corner` of the pixel's
    three channel values and channel c's table. -/
theorem stepAt_at (x : FVec Ideal S4x3x1080x1920 .f32) (lut : FVec Ideal S3x33x33x33 .f32) (dr dg db : Bool)
    (acc : FVec Ideal S4x3x1080x1920 .f32) (n : Fin 4) (c : Fin 3) (h : Fin 1080) (w : Fin 1920) :
    stepAt x lut (bit dr) (bit dg) (bit db) acc (ix4 n c h w)
      = acc (ix4 n c h w)
        + corner (x (ix4 n (0 : Fin 3) h w)) (x (ix4 n (1 : Fin 3) h w)) (x (ix4 n (2 : Fin 3) h w))
            (fun b g r => lut (ix4 c b g r)) dr dg db := by
  unfold stepAt cornerStep
  show acc (ix4 n c h w)
      + broadcastInDim S4x3x1080x1920 ![0, 1, 2, 3] bcast_S4x1x1080x1920_S4x3x1080x1920_0_1_2_3
          (broadcastInDim S4x1x1080x1920 ![0, 2, 3] bcast_S4x1080x1920_S4x1x1080x1920_0_2_3
            (weightV (bit dr) (bit dg) (bit db) (chanF 0 x) (chanF 1 x) (chanF 2 x))) (ix4 n c h w)
        * fetchV (bit dr) (bit dg) (bit db) (chanI 0 x) (chanI 1 x) (chanI 2 x) lut (ix4 n c h w) = _
  rw [bcast_second_apply, bcast_addSecondUnit_apply, weightV_at, fetchV_at,
    chanF_at, chanF_at, chanF_at, chanI_at, chanI_at, chanI_at]
  rfl

theorem refTerm_at (x : FVec Ideal S4x3x1080x1920 .f32) (lut : FVec Ideal S3x33x33x33 .f32)
    (n : Fin 4) (c : Fin 3) (h : Fin 1080) (w : Fin 1920) :
    Cert.Lut3.RefTerm.refTerm x lut (ix4 n c h w)
      = Cert.Lut3.viaCorners (x (ix4 n (0 : Fin 3) h w)) (x (ix4 n (1 : Fin 3) h w)) (x (ix4 n (2 : Fin 3) h w))
          (fun b g r => lut (ix4 c b g r)) := by
  have z : zeroV (ix4 n c h w) = (0 : EReal) := Ideal.ofBits_zero_f32
  unfold refTerm viaCorners
  rw [show (1#32 : BitVec 32) = bit true from rfl, show (0#32 : BitVec 32) = bit false from rfl,
    stepAt_at, stepAt_at, stepAt_at, stepAt_at, stepAt_at, stepAt_at, stepAt_at, stepAt_at, z]

end Cert.Lut3.RefRead

end
-- ==== Proof.lean ====
/-
  The claim: the Pallas kernel (a 3D lookup table sampled by trilinear interpolation, written as three one-hot weight
  vectors, an outer product over the (g, r) pair, one matrix product against the table flattened to [99, 1089], and a
  weighted sum over b) against the jnp reference (the eight corners of the grid cell, each fetched by a gather and
  weighted by the product of the three axes' corner weights), equal as extended reals on finite inputs.

  Both programs compute, for pixel (n, h, w) and output channel c, from the pixel's three channel values the same
  scaled coordinates, grid cells and positions inside the cell (Proof/Spec.lean: `scaled`, `cell`, `frac`).  The
  kernel's result array is `resultOf viaOneHot` of the two argument arrays (the body read at an index, Proof/KBody.lean;
  the blocks assembled into the array through the transposes and reshapes around the call, Proof/KArray.lean); the
  reference's is `refTerm` (its run, Proof/RefRun.lean), which read at an index is `viaCorners` (Proof/RefRead.lean).
  The two agree wherever the table's entries are real numbers (Proof/Algebra.lean over Proof/TriSum.lean: a sum against
  an axis's weights keeps the two lines bounding the cell), and the precondition says they are (Proof/Finite.lean).
  The image's entries need no finiteness: the clamp to [0, 1] makes every scaled coordinate real.
  The kernel's idealization rewrote nothing, so `preserves` is trivially true.
-/
import proofs.«140490_j86122684220303_2_alg».proof.Defs
import proofs.«140490_j86122684220303_2_alg».proof.Proof.Gen.Kernel
import proofs.«140490_j86122684220303_2_alg».proof.Proof.Gen.Kernel.Skeleton
import proofs.«140490_j86122684220303_2_alg».proof.Proof.Gen.Kernel.Launch
import proofs.«140490_j86122684220303_2_alg».proof.Proof.Gen.Kernel.Points
import proofs.«140490_j86122684220303_2_alg».proof.Proof.Gen.Kernel.Frame
import proofs.«140490_j86122684220303_2_alg».proof.Proof.Gen.KernelIdeal
import proofs.«140490_j86122684220303_2_alg».proof.Proof.Gen.KernelIdeal.Skeleton
import proofs.«140490_j86122684220303_2_alg».proof.Proof.Gen.KernelIdeal.Launch
import proofs.«140490_j86122684220303_2_alg».proof.Proof.Gen.KernelIdeal.Points
import proofs.«140490_j86122684220303_2_alg».proof.Proof.Gen.KernelIdeal.Frame
import proofs.«140490_j86122684220303_2_alg».proof.Proof.Gen.ReferenceIdeal
import proofs.«140490_j86122684220303_2_alg».proof.Proof.Gen.Pre_finite_inputs
import proofs.«140490_j86122684220303_2_alg».proof.Proof.Spec
import proofs.«140490_j86122684220303_2_alg».proof.Proof.Algebra
import proofs.«140490_j86122684220303_2_alg».proof.Proof.Finite
import proofs.«140490_j86122684220303_2_alg».proof.Proof.KBody
import proofs.«140490_j86122684220303_2_alg».proof.Proof.KArray
import proofs.«140490_j86122684220303_2_alg».proof.Proof.RefRun
import proofs.«140490_j86122684220303_2_alg».proof.Proof.RefRead
import Idealize.ShloMosaic.Adequacy
import Idealize.ShloMosaic.Init

noncomputable section

open Idealize.ShloMosaic Idealize.SL.Sem Idealize.ShloMosaic.ValueIdx

namespace Cert.Proof.Claims

open Cert.Lut3

/-- The three frames: the two kernels' are generated whole; the reference's is its run with the result dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.Lut3.RefRun.run_term m ρ)

/-- The idealization rewrote no operation. -/
theorem preserves : Cert.preserves_Kernel_KernelIdeal := trivial

/-- Both runs end with the result array `resultOf viaOneHot` of the arguments: the kernel's by its value, the
    reference's because at every index its eight-corner sum is the full weighted sum, the table being real. -/
theorem algebraic : Cert.algebraic_KernelIdeal_ReferenceIdeal := by
  intro m ρ m' ρ' hpre hagree
  refine ⟨fun c => resultOf viaOneHot (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Lut3.KArray.run_value (fun x0 x1 c p => Cert.Lut3.KBody.out_at x0 x1 c p) m ρ, ?_⟩
  refine (θ_run Cert.ReferenceIdeal.defs _ _).mono (fun _ h c => ⟨(h c).1.trans ?_, (h c).2⟩) (Cert.Lut3.RefRun.run_term m' ρ')
  rw [(hagree c).1, (hagree c).2]
  funext i
  obtain ⟨n, k, y, w, rfl⟩ : ∃ (n : Fin 4) (k : Fin 3) (y : Fin 1080) (w : Fin 1920), i = ix4 n k y w :=
    ⟨i 0, i 1, i 2, i 3, eq_ix4 i⟩
  rw [Cert.Lut3.RefRead.refTerm_at]
  refine ((viaOneHot_eq_viaCorners _ _ _ _ (fun b g r => table_real _ _ (hpre c) _)).symm.trans ?_)
  exact (resultOf_ix4 _ _ _ n k y w).symm

end Cert.Proof.Claims

namespace Cert.Proof

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
